-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192x8192 : Shape := ⟨2, ![8192, 8192]⟩
abbrev S256x256 : Shape := ⟨2, ![256, 256]⟩
abbrev S_ : Shape := ⟨0, ![]⟩
abbrev S8192 : Shape := ⟨1, ![8192]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S256x256 : S_.BroadcastsInDim S256x256 (![] : Fin 0 → Fin S256x256.rank)
  reducesTo_S256x256_S_d0_1 : S256x256.ReducesTo [0, 1] S_
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_

variable [Facts]

def fn_part1 {F : FTy → Type} [FloatOps F] (main_arg1 : FVec F S8192x8192 .f32) (main_v13 : IVec S_ 1) (main_v14 : IVec S8192x8192 32) (main_v15 : IVec S8192x8192 32) (main_v16 : IVec S8192x8192 32) : IVec S_ 1 :=
  let main_v17 : IVec S8192x8192 32 := addi main_v14 main_v16
  let main_v18 : IVec S8192x8192 1 := cmpi .eq main_v17 main_v15
  let main_v19 : FVec F S8192x8192 .f32 := uitofp .f32 main_v18
  let main_v20 : FVec F S8192x8192 .f32 := addf main_arg1 main_v19
  let main_cst_5 : FVec F S_ .f32 := constant S_ .f32 0x00000000#32
  let main_v21 : FVec F S8192 .f32 := (fun x v => Host.reduceAdd x v reducesTo_S8192x8192_S8192_d1 h_S_) main_v20 main_cst_5
  let main_cst_6 : FVec F S_ .f32 := constant S_ .f32 0x00000000#32
  let main_v22 : FVec F S8192 .f32 := broadcastInDim S8192 ![] bcast_S_S8192 main_cst_6
  let main_v23 : IVec S8192 1 := cmpf .ogt main_v21 main_v22
  let main_c_7 : IVec S_ 1 := constantI S_ 1 1#1
  let main_v24 : IVec S_ 1 := (fun x v => Host.reduce IntOp.andi x v reducesTo_S8192_S_d0 h_S_) main_v23 main_c_7
  let main_v25 : IVec S_ 1 := andi main_v13 main_v24
  main_v25

def fn {F : FTy → Type} [FloatOps F] (main_arg0 : FVec F S8192x256 .f32) (main_arg1 : FVec F S8192x8192 .f32) (main_arg2 : FVec F S256x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : IVec S8192x8192 32 := iotaInDim S8192x8192 32 0
  let main_v15 : IVec S8192x8192 32 := iotaInDim S8192x8192 32 1
  let main_c_4 : IVec S_ 32 := constantI S_ 32 0#32
  let main_v16 : IVec S8192x8192 32 := broadcastInDim S8192x8192 ![] bcast_S_S8192x8192 main_c_4
  fn_part1 (F := F) main_arg1 main_v13 main_v14 main_v15 main_v16
-- ==== Kernel.lean ====
abbrev S8192x256 : Shape := ⟨2, ![8192, 256]⟩
abbrev S8192x8192 : Shape := ⟨2, ![8192, 8192]⟩
abbrev S256x256 : Shape := ⟨2, ![256, 256]⟩
abbrev S8192x1 : Shape := ⟨2, ![8192, 1]⟩
abbrev S1024x2048 : Shape := ⟨2, ![1024, 2048]⟩
abbrev S1024x1 : Shape := ⟨2, ![1024, 1]⟩
abbrev S1024 : Shape := ⟨1, ![1024]⟩
abbrev S1024x1024 : Shape := ⟨2, ![1024, 1024]⟩
abbrev S1024x256 : Shape := ⟨2, ![1024, 256]⟩

abbrev nBuf : Space → Nat
  | .hbm => 5
  | .vmem => 16
  | .smem => 0
  | _ => 0

abbrev bufTy : (tb : Table) → Fin (tcTables nBuf tb) → BufTy
  | .hbm, ⟨0, _⟩ => ⟨S8192x256, .f32⟩
  | .hbm, ⟨1, _⟩ => ⟨S8192x8192, .f32⟩
  | .hbm, ⟨2, _⟩ => ⟨S256x256, .f32⟩
  | .hbm, ⟨3, _⟩ => ⟨S8192x1, .f32⟩
  | .hbm, ⟨4, _⟩ => ⟨S8192x256, .f32⟩
  | .local _ .vmem, ⟨0, _⟩ => ⟨S1024x2048, .f32⟩
  | .local _ .vmem, ⟨1, _⟩ => ⟨S1024x2048, .f32⟩
  | .local _ .vmem, ⟨2, _⟩ => ⟨S1024x1, .f32⟩
  | .local _ .vmem, ⟨3, _⟩ => ⟨S1024x1, .f32⟩
  | .local _ .vmem, ⟨4, _⟩ => ⟨S1024x1, .f32⟩
  | .local _ .vmem, ⟨5, _⟩ => ⟨S1024x1024, .f32⟩
  | .local _ .vmem, ⟨6, _⟩ => ⟨S1024x1024, .f32⟩
  | .local _ .vmem, ⟨7, _⟩ => ⟨S8192x256, .f32⟩
  | .local _ .vmem, ⟨8, _⟩ => ⟨S256x256, .f32⟩
  | .local _ .vmem, ⟨9, _⟩ => ⟨S1024x1, .f32⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | .local _ .vmem, ⟨13, _⟩ => ⟨S1024x256, .f32⟩
  | .local _ .vmem, ⟨14, _⟩ => ⟨S1024x256, .f32⟩
  | .local _ .vmem, ⟨15, _⟩ => ⟨S1024x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg4_1 : Ref sig .tc := ⟨.vmem, 12, rfl⟩
abbrev cc1_stg5_0 : Ref sig .tc := ⟨.vmem, 13, rfl⟩
abbrev cc1_stg5_1 : Ref sig .tc := ⟨.vmem, 14, rfl⟩
abbrev cc1_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem3_1 : DmaSem sig := 9
abbrev cc1_sem4_0 : DmaSem sig := 10
abbrev cc1_sem4_1 : DmaSem sig := 11
abbrev cc1_sem5_0 : DmaSem sig := 12
abbrev cc1_sem5_1 : DmaSem sig := 13

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![8, 8], ![false, false]⟩

def k1_mult1 (i : grid1.Coords) : BitVec 32 :=
  let arg1 : BitVec 32 := BitVec.ofNat 32 (i 1).val
  let c1024_i32 : BitVec 32 := 1024#32
  let v5 : BitVec 32 := Scalar.muli arg1 c1024_i32
  v5
def k1_off1 (i : grid1.Coords) : Fin 2 → Nat :=
  let arg1 : BitVec 32 := BitVec.ofNat 32 (i 1).val
  let c1024_i32 : BitVec 32 := 1024#32
  let v5 : BitVec 32 := Scalar.muli arg1 c1024_i32
  let v6 : BitVec 32 := v5
  let v7 : Index := Scalar.indexCast v6
  let c0_2 : Index := 0#32
  ![v7.toNat, 0]
def k1_cond3 (i : grid1.Coords) : BitVec 1 :=
  let arg1 : BitVec 32 := BitVec.ofNat 32 (i 1).val
  let c7_i32 : BitVec 32 := 7#32
  let v23 : BitVec 1 := Scalar.cmpi .eq arg1 c7_i32
  let v24 : BitVec 32 := Scalar.extui v23
  let c0_i32_10 : BitVec 32 := 0#32
  let v25 : BitVec 1 := Scalar.cmpi .ne v24 c0_i32_10
  v25

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S8192x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1024x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1024x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S1024x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x2048_S1024x2048_0_0 : ∀ a, (![0, 0] : Fin 2 → Nat) a + S1024x2048.size a ≤ S1024x2048.size a
  h_S1024x2048 : 0 < S1024x2048.numel
  reduces_S1024x2048_S1024 : S1024x2048.Reduces [1] S1024
  shapeCasts_S1024_S1024x1 : S1024.ShapeCasts S1024x1
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  broadcasts_S1024x1_S1024x256 : S1024x1.Broadcasts S1024x256
  inb_S256x256_S256x256_0_0 : ∀ a, (![0, 0] : Fin 2 → Nat) a + S256x256.size a ≤ S256x256.size a
  h_S256x256 : 0 < S256x256.numel
  dot_S1024x1024_S1024x256_S1024x256_1_0_0_1_n_n_wf : DotDims.WF S1024x1024 S1024x256 S1024x256 [1] [0] [0] [1] [] []
  dot_S1024x256_S256x256_S1024x256_1_0_0_1_n_n_wf : DotDims.WF S1024x256 S256x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x8192.size a
  hwx0_0 : ∀ i : grid0.Coords, EltTy.bits .f32 = 32 ∨ (Rect.block (s := S8192x8192) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S8192x1.size a
  hwx0_1 : ∀ i : grid0.Coords, EltTy.bits .f32 = 32 ∨ (Rect.block (s := S8192x1) S1024x1.size (cc0_transform_1 i) (hinb0_1 i)).WholeWords (EltTy.packing .f32)
  hrank1 : 0 < grid1.rank
  k1_mult1_dvd : ∀ i : grid1.Coords, 1024 ∣ (k1_mult1 i).toNat
  k1_off1_inb : ∀ i : grid1.Coords, ∀ a, (k1_off1 i) a + S1024x256.size a ≤ S8192x256.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x8192.size a
  hwx1_0 : ∀ i : grid1.Coords, EltTy.bits .f32 = 32 ∨ (Rect.block (s := S8192x8192) S1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x256.size a ≤ S8192x256.size a
  hwx1_1 : ∀ i : grid1.Coords, EltTy.bits .f32 = 32 ∨ (Rect.block (s := S8192x256) S8192x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1.size a ≤ S8192x1.size a
  hwx1_3 : ∀ i : grid1.Coords, EltTy.bits .f32 = 32 ∨ (Rect.block (s := S8192x1) S1024x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x1.size a ≤ S8192x1.size a
  hwx1_4 : ∀ i : grid1.Coords, EltTy.bits .f32 = 32 ∨ (Rect.block (s := S8192x1) S1024x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x256.size a ≤ S8192x256.size a
  hwx1_5 : ∀ i : grid1.Coords, EltTy.bits .f32 = 32 ∨ (Rect.block (s := S8192x256) S1024x256.size (cc1_transform_5 i) (hinb1_5 i)).WholeWords (EltTy.packing .f32)

variable [Facts₀]

def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf

abbrev win0_0 : Pipeline.Window sig grid0 :=
  Pipeline.Window.ofSpec (Memref.whole main_arg1) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_arg1) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S8192x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v0) S1024x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v0) S1024x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v1) S1024x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond3 i == 1#1) | ⟨_ + 6, h⟩ => absurd h (Nat.not_lt.2 (Nat.le_add_left _ _))

class Facts : Prop extends Facts₀ where

variable [Facts]
-- ==== ReferenceIdeal.lean ====
abbrev S8192x256 : Shape := ⟨2, ![8192, 256]⟩
abbrev S8192x8192 : Shape := ⟨2, ![8192, 8192]⟩
abbrev S256x256 : Shape := ⟨2, ![256, 256]⟩
abbrev S_ : Shape := ⟨0, ![]⟩
abbrev S8192 : Shape := ⟨1, ![8192]⟩
abbrev S8192x1 : Shape := ⟨2, ![8192, 1]⟩
abbrev S1x8192 : Shape := ⟨2, ![1, 8192]⟩

abbrev nBuf : Space → Nat
  | .hbm => 37
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x8192, .f32⟩
  | .hbm, ⟨2, _⟩ => ⟨S256x256, .f32⟩
  | .hbm, ⟨3, _⟩ => ⟨S8192x8192, .i32⟩
  | .hbm, ⟨4, _⟩ => ⟨S8192x8192, .i32⟩
  | .hbm, ⟨5, _⟩ => ⟨S_, .i32⟩
  | .hbm, ⟨6, _⟩ => ⟨S8192x8192, .i32⟩
  | .hbm, ⟨7, _⟩ => ⟨S8192x8192, .i32⟩
  | .hbm, ⟨8, _⟩ => ⟨S8192x8192, .i1⟩
  | .hbm, ⟨9, _⟩ => ⟨S8192x8192, .f32⟩
  | .hbm, ⟨10, _⟩ => ⟨S8192x8192, .f32⟩
  | .hbm, ⟨11, _⟩ => ⟨S_, .f32⟩
  | .hbm, ⟨12, _⟩ => ⟨S8192, .f32⟩
  | .hbm, ⟨13, _⟩ => ⟨S8192, .f32⟩
  | .hbm, ⟨14, _⟩ => ⟨S8192x1, .f32⟩
  | .hbm, ⟨15, _⟩ => ⟨S8192x8192, .f32⟩
  | .hbm, ⟨16, _⟩ => ⟨S8192x8192, .f32⟩
  | .hbm, ⟨17, _⟩ => ⟨S1x8192, .f32⟩
  | .hbm, ⟨18, _⟩ => ⟨S8192x8192, .f32⟩
  | .hbm, ⟨19, _⟩ => ⟨S8192x8192, .f32⟩
  | .hbm, ⟨20, _⟩ => ⟨S8192x256, .f32⟩
  | .hbm, ⟨21, _⟩ => ⟨S8192x256, .f32⟩
  | .hbm, ⟨22, _⟩ => ⟨S_, .f32⟩
  | .hbm, ⟨23, _⟩ => ⟨S8192x256, .f32⟩
  | .hbm, ⟨24, _⟩ => ⟨S8192x256, .i1⟩
  | .hbm, ⟨25, _⟩ => ⟨S_, .f32⟩
  | .hbm, ⟨26, _⟩ => ⟨S8192x256, .f32⟩
  | .hbm, ⟨27, _⟩ => ⟨S8192x256, .i1⟩
  | .hbm, ⟨28, _⟩ => ⟨S_, .f32⟩
  | .hbm, ⟨29, _⟩ => ⟨S_, .f32⟩
  | .hbm, ⟨30, _⟩ => ⟨S8192x256, .f32⟩
  | .hbm, ⟨31, _⟩ => ⟨S8192x256, .f32⟩
  | .hbm, ⟨32, _⟩ => ⟨S8192x256, .f32⟩
  | .hbm, ⟨33, _⟩ => ⟨S_, .f32⟩
  | .hbm, ⟨34, _⟩ => ⟨S8192x256, .f32⟩
  | .hbm, ⟨35, _⟩ => ⟨S8192x256, .f32⟩
  | .hbm, ⟨36, _⟩ => ⟨S8192x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_call0_cst : Ref sig .tc := ⟨.hbm, 22, rfl⟩
abbrev main_call0_v0 : Ref sig .tc := ⟨.hbm, 23, rfl⟩
abbrev main_call0_v1 : Ref sig .tc := ⟨.hbm, 24, rfl⟩
abbrev main_call0_cst_0 : Ref sig .tc := ⟨.hbm, 25, rfl⟩
abbrev main_call0_v2 : Ref sig .tc := ⟨.hbm, 26, rfl⟩
abbrev main_call0_v3 : Ref sig .tc := ⟨.hbm, 27, rfl⟩
abbrev main_call0_cst_1 : Ref sig .tc := ⟨.hbm, 28, rfl⟩
abbrev main_call0_call0_v0 : Ref sig .tc := ⟨.hbm, 29, rfl⟩
abbrev main_call0_call0_v1 : Ref sig .tc := ⟨.hbm, 30, rfl⟩
abbrev main_call0_v4 : Ref sig .tc := ⟨.hbm, 31, rfl⟩
abbrev main_call0_v5 : Ref sig .tc := ⟨.hbm, 32, rfl⟩
abbrev main_call0_cst_2 : Ref sig .tc := ⟨.hbm, 33, rfl⟩
abbrev main_call0_v6 : Ref sig .tc := ⟨.hbm, 34, rfl⟩
abbrev main_call0_v7 : Ref sig .tc := ⟨.hbm, 35, rfl⟩
abbrev main_v17 : Ref sig .tc := ⟨.hbm, 36, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S_S8192x256 : S_.BroadcastsInDim S8192x256 (![] : Fin 0 → Fin S8192x256.rank)
  dot_S8192x8192_S8192x256_S8192x256_1_0_0_1_n_n_wf : DotDims.WF S8192x8192 S8192x256 S8192x256 [1] [0] [0] [1] [] []
  dot_S8192x256_S256x256_S8192x256_1_0_0_1_n_n_wf : DotDims.WF S8192x256 S256x256 S8192x256 [1] [0] [0] [1] [] []

variable [Facts₀]

def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf

class Facts : Prop extends Facts₀ where

variable [Facts]
-- ==== Proof.WDegRuns.lean ====
/-
  The degree kernel's region: what its three control cases share.

  The kernel walks a grid of 8 row blocks by 4 column blocks, 32 points in row-major order, so point t has
  row block t / 4 and column block k = t % 4.  It keeps a column of 1024 running sums (the accumulator).
  At a point with k = 0 the accumulator is first cleared; at every point the row sums of the current
  1024 by 2048 block of the matrix are added to it; at a point with k = 3 the inverse square root of
  (accumulator + 1) is stored into the output block, which is written back to the output array there and
  nowhere else.  So a point is in one of three cases: clear-and-add (k = 0), add (k = 1, 2), add-and-emit
  (k = 3).

  Here: the two conditions in closed form over the grid, where the output window is idle, the memrefs the
  body is called with, the region invariant with the accumulator split off the other scoped buffers, the
  matrix block a point works on, and the fact that the input's staging buffer holds that block at every point.
  Everything is stated at any float instance.
-/
import proofs.«146386_j59150289601064_2_alg».proof.Proof.Gen.Kernel.Launch
import proofs.«146386_j59150289601064_2_alg».proof.Proof.Gen.Kernel.Skeleton
import proofs.«146386_j59150289601064_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Deg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The contents of every TensorCore buffer when the region is entered, per core.
variable (V : (c : Dev nD) → (b : Ref sig .tc) → Buf (Elt F) ((c : Thread nD τ).loc b))

/-! ## The blocks -/

/-- The block of window w at point t, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The matrix window is fetched at every point, is never cut and never idle: whatever proof data has the
    entry contents as its arrays and leaves the block in the input's staging buffer finds the block there. -/
theorem found_block {c : Dev nD} (dat : Dat τ (Elt F) Unit ℕ (UR sig nD τ) ℕ cfg0 c) (hA : dat.A 0 = V c (Pipeline.arrRef spec0 0))
    (hafter : ∀ t, dat.after 0 t = blockAt V c 0 t) (t : Fin cfg0.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-! ## The two conditions -/

/-- The accumulator is cleared: the column coordinate is 0 (the body's first conditional, its scalar chain written out). -/
abbrev clears (i : grid0.Coords) : Prop := (Scalar.cmpi .ne (Scalar.extui (Scalar.cmpi .eq (BitVec.ofNat 32 (i 1).val) 0#32)) 0#32) = 1#1
theorem clears_iff : ∀ t : Fin cfg0.N, clears (grid0.coords t) ↔ t.val % 4 = 0 :=
  (by decide +kernel : ∀ t : Fin grid0.N, clears (grid0.coords t) ↔ t.val % 4 = 0)

/-- The output is stored: the column coordinate is 3 (the body's second conditional). -/
abbrev emits (i : grid0.Coords) : Prop := k0_cond2 i = 1#1
theorem emits_iff : ∀ t : Fin cfg0.N, emits (grid0.coords t) ↔ t.val % 4 = 3 :=
  (by decide +kernel : ∀ t : Fin grid0.N, emits (grid0.coords t) ↔ t.val % 4 = 3)

/-! ## Where the windows are idle -/

/-- The matrix window is never idle. -/
theorem matrix_live : ∀ t : Fin cfg0.N, cfg0.idle 0 (grid0.coords t) = false := by decide +kernel
/-- Where nothing is emitted the output window is idle and its block is not written back. -/
theorem out_idle : ∀ t : Fin cfg0.N, ¬emits (grid0.coords t) → cfg0.idle 1 (grid0.coords t) = true := by decide +kernel
theorem out_kept : ∀ t : Fin cfg0.N, ¬emits (grid0.coords t) → (cfg0.win 1).flush t = false := by decide +kernel
/-- Where the output is emitted the window is live. -/
theorem out_live : ∀ t : Fin cfg0.N, emits (grid0.coords t) → cfg0.idle 1 (grid0.coords t) = false := by decide +kernel

/-! ## The memrefs the body is called with -/

/-- The matrix window's current staging memref at point t, as the pipeline passes it, and its wholeness. -/
abbrev matM (t : Fin cfg0.N) : Memref sig .tc .vmem S1024x2048 .f32 := win0_0.stage (cfg0.slots t 0)
abbrev matM_whole (t : Fin cfg0.N) : (matM t).IsWhole := hstage0_0 ((cfg0.slots t 0).cast nbuf0_0)
/-- The output window's. -/
abbrev outM (t : Fin cfg0.N) : Memref sig .tc .vmem S1024x1 .f32 := win0_1.stage (cfg0.slots t 1)
abbrev outM_whole (t : Fin cfg0.N) : (outM t).IsWhole := hstage0_1 ((cfg0.slots t 1).cast nbuf0_1)
/-- The accumulator: a whole scoped buffer of the kernel's own. -/
abbrev accM : Memref sig .tc .vmem S1024x1 .f32 := Memref.whole cc0_scratch0
/-- The views through which the accumulator's and the output block's contents are stated. -/
abbrev accV : View sig .tc .vmem S1024x1 .f32 := accM.view
abbrev outV : View sig .tc .vmem S1024x1 .f32 := (Memref.whole cc0_stg1_0 : Memref sig .tc .vmem S1024x1 .f32).view

/-! ## The region invariant -/

/-- The eleven scoped buffers of the core that this region never touches (the other region's staging buffers
    and accumulator), each whole at some contents. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f))

/-- What the launch hands the region: the accumulator at some contents, the other scoped buffers, and the
    generator register at some state. -/
theorem entry_eq (c : Dev nD) :
    (Pipeline.ΦA spec0 c : sProp 𝕄)
      = iprop(iprop((∃ d, owns (c : Thread nD τ) accM fullShare d) ∗ others (F := F) c) ∗ (∃ r, prngReg c r)) := by
  unfold Pipeline.ΦA others; rw [scopedRest0_eq]; simp only [accM, owns_whole]; try rfl

end Cert.Kernel.Deg

end
-- ==== Proof.WDegRunA.lean ====
/-
  The degree kernel's body where the column coordinate is 0 (the accumulator is cleared, then the block's row
  sums are added; nothing is emitted).

  The body is run once, symbolically, on any whole memrefs: the matrix block's buffer at contents x, the output
  block's buffer at contents y that are handed back untouched, the accumulator at anything.  It ends with the
  accumulator overwritten by a list of covering stores (the zero column, then zero column + row sums of x): that
  list is not written down here, it is what the symbolic run finds, and the statement is the pair of the list
  and the run's correctness for it.
-/
import proofs.«146386_j59150289601064_2_alg».proof.Proof.WDegRuns

set_option maxRecDepth 16384

noncomputable section

namespace Cert.Kernel.Deg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores the body leaves in the accumulator when it clears it first (last store first), with the proof that
    from the three buffers the body runs to any continuation that accepts the matrix block and the output block as
    they were and the accumulator with those stores written over what it held. -/
noncomputable def runClear (c : Dev nD) (i : grid0.Coords) (a2 : Memref sig .tc .vmem S1024x2048 .f32) (h2 : a2.IsWhole) (a3 : Memref sig .tc .vmem S1024x1 .f32) (h3 : a3.IsWhole) (a4 : Memref sig .tc .vmem S1024x1 .f32) (h4 : a4.IsWhole) (hc : clears i) (he : ¬emits i)
    (x : Vec F S1024x2048 .f32) :
    { LA : List (View.Piece (Elt F) S1024x1 .f32) //
      ∀ (y : Vec F S1024x1 .f32) (E : Set ℕ) (K : PUnit → sProp 𝕄),
        iprop(owns (c : Thread nD τ) a2 fullShare x ∗ owns (c : Thread nD τ) a3 fullShare y ∗ (∃ d, owns (c : Thread nD τ) a4 fullShare d)
            ∗ (iprop(owns (c : Thread nD τ) a2 fullShare x ∗ owns (c : Thread nD τ) a3 fullShare y ∗ (∃ f, a4.view.loc (c : Thread nD τ) ↦[a4.view.set]{fullShare} a4.view.writes (Elt F) f LA)) -∗ K ⟨⟩))
          ⊢ wp frame (wpE (defs₀ (F := F)) Variants.none c none) E (cc0__deg_kernel i a2 h2 a3 h3 a4 h4) K } := by
  refine ⟨?_, fun y E K => ?run⟩
  case run =>
    simp only [cc0__deg_kernel_eq_skeleton]; unfold cc0__deg_kernel_skel
    unfold owns
    iintro ⟨⟨%f2, %hf2, H2⟩, ⟨%f3, %hf3, H3⟩, ⟨%d4, %f4, -, H4⟩, Hk⟩
    obtain rfl := h2.eq_unread hf2; obtain rfl := h3.eq_unread hf3
    sl_exec (disch := first | exact hc | exact he)
    sl_step
    iapply Hk
    isplitl [H2]
    · iexists _; isplitr; · ipureintro; exact h2.read_unread _
      iexact H2
    isplitl [H3]
    · iexists _; isplitr; · ipureintro; exact h3.read_unread _
      iexact H3
    iexists _; iexact H4

end Cert.Kernel.Deg

end
-- ==== Proof.WDegRunB.lean ====
/-
  The degree kernel's body where the column coordinate is 1 or 2 (the block's row sums are added to the
  accumulator; nothing is cleared, nothing emitted).

  As in the clearing case the body is run once on any whole memrefs, but now the accumulator is handed in at
  known contents s (what the point before left), and it ends overwritten by one covering store, s + row sums of x,
  found by the run.
-/
import proofs.«146386_j59150289601064_2_alg».proof.Proof.WDegRunA

set_option maxRecDepth 16384

noncomputable section

namespace Cert.Kernel.Deg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores the body leaves in the accumulator when it only adds, with the proof that from the three buffers
    the body runs to any continuation that accepts the matrix block and the output block as they were and the
    accumulator with those stores written. -/
noncomputable def runAdd (c : Dev nD) (i : grid0.Coords) (a2 : Memref sig .tc .vmem S1024x2048 .f32) (h2 : a2.IsWhole) (a3 : Memref sig .tc .vmem S1024x1 .f32) (h3 : a3.IsWhole) (a4 : Memref sig .tc .vmem S1024x1 .f32) (h4 : a4.IsWhole) (hc : ¬clears i) (he : ¬emits i)
    (x : Vec F S1024x2048 .f32) (s : Vec F S1024x1 .f32) :
    { LA : List (View.Piece (Elt F) S1024x1 .f32) //
      ∀ (y : Vec F S1024x1 .f32) (E : Set ℕ) (K : PUnit → sProp 𝕄),
        iprop(owns (c : Thread nD τ) a2 fullShare x ∗ owns (c : Thread nD τ) a3 fullShare y ∗ owns (c : Thread nD τ) a4 fullShare s
            ∗ (iprop(owns (c : Thread nD τ) a2 fullShare x ∗ owns (c : Thread nD τ) a3 fullShare y ∗ (∃ f, a4.view.loc (c : Thread nD τ) ↦[a4.view.set]{fullShare} a4.view.writes (Elt F) f LA)) -∗ K ⟨⟩))
          ⊢ wp frame (wpE (defs₀ (F := F)) Variants.none c none) E (cc0__deg_kernel i a2 h2 a3 h3 a4 h4) K } := by
  refine ⟨?_, fun y E K => ?run⟩
  case run =>
    simp only [cc0__deg_kernel_eq_skeleton]; unfold cc0__deg_kernel_skel
    unfold owns
    iintro ⟨⟨%f2, %hf2, H2⟩, ⟨%f3, %hf3, H3⟩, ⟨%f4, %hf4, H4⟩, Hk⟩
    obtain rfl := h2.eq_unread hf2; obtain rfl := h3.eq_unread hf3; obtain rfl := h4.eq_unread hf4
    sl_exec (disch := first | exact hc | exact he)
    sl_step
    iapply Hk
    isplitl [H2]
    · iexists _; isplitr; · ipureintro; exact h2.read_unread _
      iexact H2
    isplitl [H3]
    · iexists _; isplitr; · ipureintro; exact h3.read_unread _
      iexact H3
    iexists _; iexact H4

end Cert.Kernel.Deg

end
-- ==== Proof.WDegRunC.lean ====
/-
  The degree kernel's body where the column coordinate is 3 (the block's row sums are added to the accumulator,
  then the inverse square root of accumulator + 1 is stored into the output block).

  The accumulator is handed in at known contents s, the output block's buffer at anything; the body ends with the
  accumulator overwritten by one covering store (s + row sums of x) and the output block by one covering store
  (the inverse square root of that + 1), both found by the run.
-/
import proofs.«146386_j59150289601064_2_alg».proof.Proof.WDegRunB

set_option maxRecDepth 16384

noncomputable section

namespace Cert.Kernel.Deg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores the body leaves in the output block and in the accumulator when it emits, with the proof that from
    the three buffers the body runs to any continuation that accepts the matrix block as it was and the other two
    with those stores written. -/
noncomputable def runEmit (c : Dev nD) (i : grid0.Coords) (a2 : Memref sig .tc .vmem S1024x2048 .f32) (h2 : a2.IsWhole) (a3 : Memref sig .tc .vmem S1024x1 .f32) (h3 : a3.IsWhole) (a4 : Memref sig .tc .vmem S1024x1 .f32) (h4 : a4.IsWhole) (hc : ¬clears i) (he : emits i)
    (x : Vec F S1024x2048 .f32) (s : Vec F S1024x1 .f32) :
    Σ' (LO : List (View.Piece (Elt F) S1024x1 .f32)), { LA : List (View.Piece (Elt F) S1024x1 .f32) //
      ∀ (E : Set ℕ) (K : PUnit → sProp 𝕄),
        iprop(owns (c : Thread nD τ) a2 fullShare x ∗ (∃ d, owns (c : Thread nD τ) a3 fullShare d) ∗ owns (c : Thread nD τ) a4 fullShare s
            ∗ (iprop(owns (c : Thread nD τ) a2 fullShare x ∗ (∃ f, a3.view.loc (c : Thread nD τ) ↦[a3.view.set]{fullShare} a3.view.writes (Elt F) f LO) ∗ (∃ f, a4.view.loc (c : Thread nD τ) ↦[a4.view.set]{fullShare} a4.view.writes (Elt F) f LA)) -∗ K ⟨⟩))
          ⊢ wp frame (wpE (defs₀ (F := F)) Variants.none c none) E (cc0__deg_kernel i a2 h2 a3 h3 a4 h4) K } := by
  refine ⟨?_, ?_, fun E K => ?run⟩
  case run =>
    simp only [cc0__deg_kernel_eq_skeleton]; unfold cc0__deg_kernel_skel
    unfold owns
    iintro ⟨⟨%f2, %hf2, H2⟩, ⟨%d3, %f3, -, H3⟩, ⟨%f4, %hf4, H4⟩, Hk⟩
    obtain rfl := h2.eq_unread hf2; obtain rfl := h4.eq_unread hf4
    sl_exec (disch := first | exact hc | exact he)
    sl_step
    iapply Hk
    isplitl [H2]
    · iexists _; isplitr; · ipureintro; exact h2.read_unread _
      iexact H2
    isplitl [H3]; · iexists _; iexact H3
    iexists _; iexact H4

end Cert.Kernel.Deg

end
-- ==== Proof.WDegFrame.lean ====
/-
  The degree kernel's region: what the accumulator and the output block hold after every grid point, the
  proof data built from that, and the region's obligations.

  Each of the three cases leaves the accumulator covered by the stores its symbolic run found (and, when the
  column coordinate is 3, the output block too), so what a buffer holds afterwards is those stores read back,
  whatever it held before.  The state after point n is defined by recursion on n: at a point with column
  coordinate 0 the accumulator restarts from the clearing case; elsewhere it is the adding or the emitting case
  applied to what point n - 1 left.  The region invariant before point 0 is what the launch provides (every
  scoped buffer at some contents); before any later point it names the accumulator's contents.  The output
  window is idle, and its block is not written back, wherever nothing is emitted: there the body hands the
  buffer back as it found it.
-/
import proofs.«146386_j59150289601064_2_alg».proof.Proof.WDegRunC

set_option maxRecDepth 16384

noncomputable section

namespace Cert.Kernel.Deg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The contents of every TensorCore buffer when the region is entered, per core.
variable (V : (c : Dev nD) → (b : Ref sig .tc) → Buf (Elt F) ((c : Thread nD τ).loc b))

/-! ## The conditions from the point's position -/

theorem clears_of (t : Fin cfg0.N) (h : t.val % 4 = 0) : clears (grid0.coords t) := (clears_iff t).mpr h
theorem not_clears_of (t : Fin cfg0.N) (h : ¬t.val % 4 = 0) : ¬clears (grid0.coords t) := fun hc => h ((clears_iff t).mp hc)
theorem emits_of (t : Fin cfg0.N) (h : t.val % 4 = 3) : emits (grid0.coords t) := (emits_iff t).mpr h
theorem not_emits_of (t : Fin cfg0.N) (h : ¬t.val % 4 = 3) : ¬emits (grid0.coords t) := fun he => h ((emits_iff t).mp he)
theorem not_emits_of_first (t : Fin cfg0.N) (h : t.val % 4 = 0) : ¬emits (grid0.coords t) :=
  not_emits_of t (by omega)

/-! ## What each case leaves -/

/-- The clearing case's stores cover the accumulator. -/
theorem clear_covers (c : Dev nD) (i : grid0.Coords) (a2 : Memref sig .tc .vmem S1024x2048 .f32) (h2 : a2.IsWhole) (a3 : Memref sig .tc .vmem S1024x1 .f32) (h3 : a3.IsWhole) (a4 : Memref sig .tc .vmem S1024x1 .f32) (h4 : a4.IsWhole) (hc : clears i) (he : ¬emits i)
    (x : Vec F S1024x2048 .f32) (y : S1024x1.Idx) : ∃ pc ∈ (runClear c i a2 h2 a3 h3 a4 h4 hc he x).1, y ∈ pc.1.set :=
  View.cover_of_tiledL (runClear c i a2 h2 a3 h3 a4 h4 hc he x).1 S1024x1.size (by sl_kernel_rfl) y

/-- What the clearing case leaves in the accumulator: its stores read back. -/
def accClear (c : Dev nD) (i : grid0.Coords) (a2 : Memref sig .tc .vmem S1024x2048 .f32) (h2 : a2.IsWhole) (a3 : Memref sig .tc .vmem S1024x1 .f32) (h3 : a3.IsWhole) (a4 : Memref sig .tc .vmem S1024x1 .f32) (h4 : a4.IsWhole) (hc : clears i) (he : ¬emits i)
    (x : Vec F S1024x2048 .f32) : Vec F S1024x1 .f32 :=
  accV.read (Elt F) (accV.writes (Elt F) accV.junk (runClear c i a2 h2 a3 h3 a4 h4 hc he x).1)

/-- The adding case's stores cover the accumulator. -/
theorem add_covers (c : Dev nD) (i : grid0.Coords) (a2 : Memref sig .tc .vmem S1024x2048 .f32) (h2 : a2.IsWhole) (a3 : Memref sig .tc .vmem S1024x1 .f32) (h3 : a3.IsWhole) (a4 : Memref sig .tc .vmem S1024x1 .f32) (h4 : a4.IsWhole) (hc : ¬clears i) (he : ¬emits i)
    (x : Vec F S1024x2048 .f32) (s : Vec F S1024x1 .f32) (y : S1024x1.Idx) : ∃ pc ∈ (runAdd c i a2 h2 a3 h3 a4 h4 hc he x s).1, y ∈ pc.1.set :=
  View.cover_of_tiledL (runAdd c i a2 h2 a3 h3 a4 h4 hc he x s).1 S1024x1.size (by sl_kernel_rfl) y

/-- What the adding case leaves in the accumulator. -/
def accAdd (c : Dev nD) (i : grid0.Coords) (a2 : Memref sig .tc .vmem S1024x2048 .f32) (h2 : a2.IsWhole) (a3 : Memref sig .tc .vmem S1024x1 .f32) (h3 : a3.IsWhole) (a4 : Memref sig .tc .vmem S1024x1 .f32) (h4 : a4.IsWhole) (hc : ¬clears i) (he : ¬emits i)
    (x : Vec F S1024x2048 .f32) (s : Vec F S1024x1 .f32) : Vec F S1024x1 .f32 :=
  accV.read (Elt F) (accV.writes (Elt F) accV.junk (runAdd c i a2 h2 a3 h3 a4 h4 hc he x s).1)

/-- The emitting case's stores cover the output block, -/
theorem emit_covers_out (c : Dev nD) (i : grid0.Coords) (a2 : Memref sig .tc .vmem S1024x2048 .f32) (h2 : a2.IsWhole) (a3 : Memref sig .tc .vmem S1024x1 .f32) (h3 : a3.IsWhole) (a4 : Memref sig .tc .vmem S1024x1 .f32) (h4 : a4.IsWhole) (hc : ¬clears i) (he : emits i)
    (x : Vec F S1024x2048 .f32) (s : Vec F S1024x1 .f32) (y : S1024x1.Idx) : ∃ pc ∈ (runEmit c i a2 h2 a3 h3 a4 h4 hc he x s).1, y ∈ pc.1.set :=
  View.cover_of_tiledL (runEmit c i a2 h2 a3 h3 a4 h4 hc he x s).1 S1024x1.size (by sl_kernel_rfl) y

/-- and the accumulator. -/
theorem emit_covers_acc (c : Dev nD) (i : grid0.Coords) (a2 : Memref sig .tc .vmem S1024x2048 .f32) (h2 : a2.IsWhole) (a3 : Memref sig .tc .vmem S1024x1 .f32) (h3 : a3.IsWhole) (a4 : Memref sig .tc .vmem S1024x1 .f32) (h4 : a4.IsWhole) (hc : ¬clears i) (he : emits i)
    (x : Vec F S1024x2048 .f32) (s : Vec F S1024x1 .f32) (y : S1024x1.Idx) : ∃ pc ∈ (runEmit c i a2 h2 a3 h3 a4 h4 hc he x s).2.1, y ∈ pc.1.set :=
  View.cover_of_tiledL (runEmit c i a2 h2 a3 h3 a4 h4 hc he x s).2.1 S1024x1.size (by sl_kernel_rfl) y

/-- What the emitting case leaves in the output block, -/
def outEmit (c : Dev nD) (i : grid0.Coords) (a2 : Memref sig .tc .vmem S1024x2048 .f32) (h2 : a2.IsWhole) (a3 : Memref sig .tc .vmem S1024x1 .f32) (h3 : a3.IsWhole) (a4 : Memref sig .tc .vmem S1024x1 .f32) (h4 : a4.IsWhole) (hc : ¬clears i) (he : emits i)
    (x : Vec F S1024x2048 .f32) (s : Vec F S1024x1 .f32) : Vec F S1024x1 .f32 :=
  outV.read (Elt F) (outV.writes (Elt F) outV.junk (runEmit c i a2 h2 a3 h3 a4 h4 hc he x s).1)

/-- and in the accumulator. -/
def accEmit (c : Dev nD) (i : grid0.Coords) (a2 : Memref sig .tc .vmem S1024x2048 .f32) (h2 : a2.IsWhole) (a3 : Memref sig .tc .vmem S1024x1 .f32) (h3 : a3.IsWhole) (a4 : Memref sig .tc .vmem S1024x1 .f32) (h4 : a4.IsWhole) (hc : ¬clears i) (he : emits i)
    (x : Vec F S1024x2048 .f32) (s : Vec F S1024x1 .f32) : Vec F S1024x1 .f32 :=
  accV.read (Elt F) (accV.writes (Elt F) accV.junk (runEmit c i a2 h2 a3 h3 a4 h4 hc he x s).2.1)

/-- The output block's nominal contents after a point that stores nothing into it: nothing reads them (the block is
    neither written back there nor relied on later). -/
def unset : Vec F S1024x1 .f32 := outV.read (Elt F) outV.junk

/-! ## The three cases at a grid point -/

/-- The accumulator after a point with column coordinate 0, on the memrefs and the matrix block of that point. -/
def accClearAt (c : Dev nD) (t : Fin cfg0.N) (h : t.val % 4 = 0) : Vec F S1024x1 .f32 :=
  accClear c (grid0.coords t) (matM t) (matM_whole t) (outM t) (outM_whole t) accM (Memref.isWhole_whole _) (clears_of t h) (not_emits_of_first t h) (blockAt V c 0 t)

/-- The accumulator after a point with column coordinate 1 or 2, from what the point before left (s). -/
def accAddAt (c : Dev nD) (t : Fin cfg0.N) (h0 : ¬t.val % 4 = 0) (h3 : ¬t.val % 4 = 3) (s : Vec F S1024x1 .f32) : Vec F S1024x1 .f32 :=
  accAdd c (grid0.coords t) (matM t) (matM_whole t) (outM t) (outM_whole t) accM (Memref.isWhole_whole _) (not_clears_of t h0) (not_emits_of t h3) (blockAt V c 0 t) s

/-- The output block and the accumulator after a point with column coordinate 3, from what the point before left. -/
def outEmitAt (c : Dev nD) (t : Fin cfg0.N) (h0 : ¬t.val % 4 = 0) (h3 : t.val % 4 = 3) (s : Vec F S1024x1 .f32) : Vec F S1024x1 .f32 :=
  outEmit c (grid0.coords t) (matM t) (matM_whole t) (outM t) (outM_whole t) accM (Memref.isWhole_whole _) (not_clears_of t h0) (emits_of t h3) (blockAt V c 0 t) s
def accEmitAt (c : Dev nD) (t : Fin cfg0.N) (h0 : ¬t.val % 4 = 0) (h3 : t.val % 4 = 3) (s : Vec F S1024x1 .f32) : Vec F S1024x1 .f32 :=
  accEmit c (grid0.coords t) (matM t) (matM_whole t) (outM t) (outM_whole t) accM (Memref.isWhole_whole _) (not_clears_of t h0) (emits_of t h3) (blockAt V c 0 t) s

/-! ## The state after each point -/

/-- The output block's staging buffer and the accumulator after the body at position n: the case the position is
    in, applied to what position n - 1 left in the accumulator. -/
def stateAt (c : Dev nD) : (n : ℕ) → n < cfg0.N → Vec F S1024x1 .f32 × Vec F S1024x1 .f32
  | 0, hn => (unset, accClearAt V c ⟨0, hn⟩ (Nat.zero_mod 4))
  | n + 1, hn =>
    if h0 : (n + 1) % 4 = 0 then (unset, accClearAt V c ⟨n + 1, hn⟩ h0)
    else if h3 : (n + 1) % 4 = 3 then
      (outEmitAt V c ⟨n + 1, hn⟩ h0 h3 (stateAt c n (Nat.lt_of_succ_lt hn)).2, accEmitAt V c ⟨n + 1, hn⟩ h0 h3 (stateAt c n (Nat.lt_of_succ_lt hn)).2)
    else (unset, accAddAt V c ⟨n + 1, hn⟩ h0 h3 (stateAt c n (Nat.lt_of_succ_lt hn)).2)

/-- The position before point t (for a point that is not the first). -/
theorem pred_lt (t : Fin cfg0.N) : t.val - 1 < cfg0.N := Nat.lt_of_le_of_lt (Nat.sub_le _ _) t.isLt

theorem stateAt_clear (c : Dev nD) (t : Fin cfg0.N) (h0 : t.val % 4 = 0) :
    stateAt V c t.val t.isLt = (unset, accClearAt V c t h0) := by
  obtain ⟨n, hn⟩ := t
  cases n with
  | zero => exact rfl
  | succ n => exact (dif_pos h0).trans rfl

theorem stateAt_add (c : Dev nD) (t : Fin cfg0.N) (h0 : ¬t.val % 4 = 0) (h3 : ¬t.val % 4 = 3) :
    stateAt V c t.val t.isLt = (unset, accAddAt V c t h0 h3 (stateAt V c (t.val - 1) (pred_lt t)).2) := by
  obtain ⟨n, hn⟩ := t
  cases n with
  | zero => exact absurd (Nat.zero_mod 4) h0
  | succ n => exact (dif_neg h0).trans ((dif_neg h3).trans rfl)

theorem stateAt_emit (c : Dev nD) (t : Fin cfg0.N) (h0 : ¬t.val % 4 = 0) (h3 : t.val % 4 = 3) :
    stateAt V c t.val t.isLt = (outEmitAt V c t h0 h3 (stateAt V c (t.val - 1) (pred_lt t)).2, accEmitAt V c t h0 h3 (stateAt V c (t.val - 1) (pred_lt t)).2) := by
  obtain ⟨n, hn⟩ := t
  cases n with
  | zero => exact absurd (Nat.zero_mod 4) h0
  | succ n => exact (dif_neg h0).trans ((dif_pos h3).trans rfl)

/-! ## The region invariant -/

/-- Before position 0: what the launch provides.  Before position n + 1: the accumulator at what position n left,
    the other scoped buffers at some contents, the generator register at some state. -/
def invAt (c : Dev nD) : (n : ℕ) → n ≤ cfg0.N → sProp 𝕄
  | 0, _ => Pipeline.ΦA spec0 c
  | n + 1, hn => iprop(iprop(owns (c : Thread nD τ) accM fullShare ((stateAt V c n hn).2) ∗ others (F := F) c) ∗ (∃ r, prngReg c r))

theorem invAt_first (c : Dev nD) (n : ℕ) (h : n ≤ cfg0.N) (hz : n = 0) : invAt V c n h = Pipeline.ΦA spec0 c := by
  subst hz; rfl

theorem invAt_next (c : Dev nD) (n : ℕ) (hn : n < cfg0.N) :
    invAt V c (n + 1) hn = iprop(iprop(owns (c : Thread nD τ) accM fullShare ((stateAt V c n hn).2) ∗ others (F := F) c) ∗ (∃ r, prngReg c r)) := rfl

theorem invAt_later (c : Dev nD) (n : ℕ) (h : n ≤ cfg0.N) (hz : n ≠ 0) :
    invAt V c n h = iprop(iprop(owns (c : Thread nD τ) accM fullShare ((stateAt V c (n - 1) (by omega)).2) ∗ others (F := F) c) ∗ (∃ r, prngReg c r)) := by
  cases n with
  | zero => exact absurd rfl hz
  | succ n => rfl

/-! ## The proof data -/

/-- The region's proof data on core c: the arrays as the region finds them; after the body at point t the matrix
    window's buffer at its block and the output window's at the state's first component; the invariant above;
    full shares; nothing owed. -/
def dat0 (c : Dev nD) : Dat τ (Elt F) Unit ℕ (UR sig nD τ) ℕ cfg0 c where
  A w := V c (Pipeline.arrRef spec0 w)
  after w t := match w with
    | ⟨0, _⟩ => blockAt V c 0 t
    | ⟨1, _⟩ => (stateAt V c t.val t.isLt).1
  Φ t := invAt V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem inv_castSucc (c : Dev nD) (t : Fin cfg0.N) :
    (dat0 V c).Φ t.castSucc = invAt V c t.val (Nat.le_of_lt t.isLt) := by
  dsimp only [dat0]; simp only [Fin.coe_castSucc]

theorem after_matrix (c : Dev nD) (t : Fin cfg0.N) : (dat0 V c).after 0 t = blockAt V c 0 t := by dsimp only [dat0]
theorem after_out (c : Dev nD) (t : Fin cfg0.N) : (dat0 V c).after 1 t = (stateAt V c t.val t.isLt).1 := by dsimp only [dat0]

/-- The matrix window's staging buffer holds its block when the body runs. -/
theorem before_matrix (c : Dev nD) (t : Fin cfg0.N) (d) : (dat0 V c).before 0 t d = blockAt V c 0 t :=
  found_block V (dat0 V c) (A_eq0 V c 0) (after_matrix V c) t d

/-! ## The body obligation -/

/-- What the body is called with at point t, -/
def bodyPre (c : Dev nD) (t : Fin cfg0.N) : sProp 𝕄 :=
  iprop((dat0 V c).Φ t.castSucc ∗ (dat0 V c).owesAt () t.castSucc
    ∗ (∃ d, owns (c : Thread nD τ) (matM t) fullShare ((dat0 V c).before 0 t d))
    ∗ (∃ d, owns (c : Thread nD τ) (outM t) fullShare ((dat0 V c).before 1 t d)))

/-- and what it returns. -/
def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point.  The matrix window's buffer holds its block; the position says which case the point is
    in, and that case's run applies: the invariant hands it the accumulator (at anything before the first point, at
    what the point before left afterwards) and takes it back at this point's contents, which the case's stores
    cover; where nothing is emitted the output block's buffer goes back as it came. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_matrix]
  rw [show (dat0 V c).owesAt () t.succ = (dat0 V c).owesAt () t.castSucc from rfl]
  rw [show (dat0 V c).Φ t.succ = invAt V c (t.val + 1) t.isLt from rfl, invAt_next]
  have hN : t.val < 32 := lt_of_lt_of_eq t.isLt (show cfg0.N = 32 from N_0)
  rw [show (dat0 V c).leavesExact 0 t = owns (c : Thread nD τ) (matM t) fullShare ((dat0 V c).after 0 t) from by
    unfold Dat.leavesExact; rw [matrix_live t], after_matrix]
  by_cases h0 : t.val % 4 = 0
  · have h3 : ¬t.val % 4 = 3 := by omega
    rw [Dat.leavesExact_idle (dat0 V c) 1 t (out_idle t (not_emits_of t h3)) (out_kept t (not_emits_of t h3))]
    rw [stateAt_clear V c t h0]
    unfold accClearAt accClear; (try dsimp only)
    by_cases hz : t.val = 0
    · rw [inv_castSucc V c t, invAt_first V c _ _ hz, entry_eq]
      iintro ⟨⟨⟨HA, HR⟩, Hg⟩, Ho, ⟨%d0, H0⟩, ⟨%d1, H1⟩⟩
      iapply ((runClear c (grid0.coords t) _ _ _ _ _ _ (clears_of t h0) (not_emits_of_first t h0) (blockAt V c 0 t)).2 _ Set.univ _)
      isplitl [H0]; · iexact H0
      isplitl [H1]; · iexact H1
      isplitl [HA]; · iexact HA
      iintro ⟨H0, H1, ⟨%ea, HA⟩⟩
      isplitl [HA HR Hg]
      · isplitl [HA HR]
        · isplitl [HA]
          · unfold owns; iexists _; isplitr
            swap; · iexact HA
            ipureintro; exact View.read_writes_of_cover _ _ _ _ _ (clear_covers c _ _ _ _ _ _ _ _ _ _)
          iexact HR
        iexact Hg
      isplitl [Ho]; · iexact Ho
      isplitl [H0]; · iexact H0
      iexists _; iexact H1
    · rw [inv_castSucc V c t, invAt_later V c _ _ hz]
      iintro ⟨⟨⟨HA, HR⟩, Hg⟩, Ho, ⟨%d0, H0⟩, ⟨%d1, H1⟩⟩
      iapply ((runClear c (grid0.coords t) _ _ _ _ _ _ (clears_of t h0) (not_emits_of_first t h0) (blockAt V c 0 t)).2 _ Set.univ _)
      isplitl [H0]; · iexact H0
      isplitl [H1]; · iexact H1
      isplitl [HA]; · iexists _; iexact HA
      iintro ⟨H0, H1, ⟨%ea, HA⟩⟩
      isplitl [HA HR Hg]
      · isplitl [HA HR]
        · isplitl [HA]
          · unfold owns; iexists _; isplitr
            swap; · iexact HA
            ipureintro; exact View.read_writes_of_cover _ _ _ _ _ (clear_covers c _ _ _ _ _ _ _ _ _ _)
          iexact HR
        iexact Hg
      isplitl [Ho]; · iexact Ho
      isplitl [H0]; · iexact H0
      iexists _; iexact H1
  · have hz : t.val ≠ 0 := fun h => h0 (by rw [h])
    by_cases h3 : t.val % 4 = 3
    · rw [show (dat0 V c).leavesExact 1 t = owns (c : Thread nD τ) (outM t) fullShare ((dat0 V c).after 1 t) from by
        unfold Dat.leavesExact; rw [out_live t (emits_of t h3)], after_out]
      rw [stateAt_emit V c t h0 h3]
      unfold outEmitAt accEmitAt outEmit accEmit; (try dsimp only)
      rw [inv_castSucc V c t, invAt_later V c _ _ hz]
      iintro ⟨⟨⟨HA, HR⟩, Hg⟩, Ho, ⟨%d0, H0⟩, ⟨%d1, H1⟩⟩
      iapply ((runEmit c (grid0.coords t) _ _ _ _ _ _ (not_clears_of t h0) (emits_of t h3) (blockAt V c 0 t) _).2.2 Set.univ _)
      isplitl [H0]; · iexact H0
      isplitl [H1]; · iexists _; iexact H1
      isplitl [HA]; · iexact HA
      iintro ⟨H0, ⟨%eo, H1⟩, ⟨%ea, HA⟩⟩
      isplitl [HA HR Hg]
      · isplitl [HA HR]
        · isplitl [HA]
          · unfold owns; iexists _; isplitr
            swap; · iexact HA
            ipureintro; exact View.read_writes_of_cover _ _ _ _ _ (emit_covers_acc c _ _ _ _ _ _ _ _ _ _ _)
          iexact HR
        iexact Hg
      isplitl [Ho]; · iexact Ho
      isplitl [H0]; · iexact H0
      unfold owns; iexists _; isplitr
      swap; · iexact H1
      ipureintro; exact View.read_writes_of_cover _ _ _ _ _ (emit_covers_out c _ _ _ _ _ _ _ _ _ _ _)
    · rw [Dat.leavesExact_idle (dat0 V c) 1 t (out_idle t (not_emits_of t h3)) (out_kept t (not_emits_of t h3))]
      rw [stateAt_add V c t h0 h3]
      unfold accAddAt accAdd; (try dsimp only)
      rw [inv_castSucc V c t, invAt_later V c _ _ hz]
      iintro ⟨⟨⟨HA, HR⟩, Hg⟩, Ho, ⟨%d0, H0⟩, ⟨%d1, H1⟩⟩
      iapply ((runAdd c (grid0.coords t) _ _ _ _ _ _ (not_clears_of t h0) (not_emits_of t h3) (blockAt V c 0 t) _).2 _ Set.univ _)
      isplitl [H0]; · iexact H0
      isplitl [H1]; · iexact H1
      isplitl [HA]; · iexact HA
      iintro ⟨H0, H1, ⟨%ea, HA⟩⟩
      isplitl [HA HR Hg]
      · isplitl [HA HR]
        · isplitl [HA]
          · unfold owns; iexists _; isplitr
            swap; · iexact HA
            ipureintro; exact View.read_writes_of_cover _ _ _ _ _ (add_covers c _ _ _ _ _ _ _ _ _ _ _)
          iexact HR
        iexact Hg
      isplitl [Ho]; · iexact Ho
      isplitl [H0]; · iexact H0
      iexists _; iexact H1

/-- The library's body obligation, at every point. -/
theorem body_obligation0 (c : Dev nD) : BodyObligation (dat0 (F := F) V c) (defs₀ (F := F)) Variants.none () Set.univ := fun t => by
  rw [bigSep_W0, bigSep_W0]
  exact sound_body V c t

/-- What the launch hands the region is the invariant before the first point. -/
theorem hin0 (c : Dev nD) : Pipeline.ΦA spec0 c ⊢ (dat0 V c).Φ 0 := by
  rw [show (dat0 V c).Φ 0 = invAt V c 0 (Nat.zero_le _) from rfl, invAt_first V c 0 _ rfl]
  try exact Idealize.SL.BI.Entails.refl _

/-- After any point the invariant gives back what the launch provided: the accumulator's contents are forgotten. -/
theorem inv_forget (c : Dev nD) (t : Fin (cfg0.N + 1)) (ht : t.val ≠ 0) : (dat0 V c).Φ t ⊢ Pipeline.ΦA spec0 c := by
  rw [show (dat0 V c).Φ t = invAt V c t.val (Nat.le_of_lt_succ t.isLt) from rfl, invAt_later V c _ _ ht, entry_eq]
  iintro ⟨⟨HA, HR⟩, Hg⟩
  isplitl [HA HR]
  · isplitl [HA]
    · iexists _; iexact HA
    iexact HR
  iexact Hg

/-- In particular after the last point. -/
theorem hout0 (c : Dev nD) : (dat0 V c).Φ (Fin.last cfg0.N) ⊢ Pipeline.ΦA spec0 c :=
  inv_forget V c _ (by rw [Fin.val_last]; have : cfg0.N = 32 := N_0; omega)

end Cert.Kernel.Deg

end
-- ==== Proof.WGcnRuns.lean ====
/-
  Region 1 (the aggregation kernel) on the grid of 8 by 8 tiles: what its body's branches test, where its
  output tile is written, and the memory the body is handed at a point.

  At the point (i, k) the body clears the accumulator when k = 0, adds the product of the (i, k) tile of the
  adjacency matrix with the k-th band of the scaled features, adds that band itself when i = k (the self
  loop), and when k = 7 scales the accumulator by the row factors, multiplies by the weights and stores the
  activated result into the output tile of row band i.
-/
import proofs.«146386_j59150289601064_2_alg».proof.Proof.Gen.Kernel.Launch
import proofs.«146386_j59150289601064_2_alg».proof.Proof.Gen.Kernel.Skeleton
import proofs.«146386_j59150289601064_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Gcn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three tests of the body, from the grid coordinates -/

/-- The reduction coordinate is the first one: the accumulator is cleared. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- The tile lies on the diagonal: the self loop's term is added. -/
abbrev cond1_1 (i : grid1.Coords) : Prop := (Scalar.cmpi .ne (Scalar.extui (Scalar.cmpi .eq (BitVec.ofNat 32 (i 0).val) (BitVec.ofNat 32 (i 1).val))) 0#32) = 1#1
theorem hcond1_1 : ∀ t : Fin cfg1.N, cond1_1 (grid1.coords t) ↔ t.val / 8 = t.val % 8 :=
  (by decide +kernel : ∀ t : Fin grid1.N, cond1_1 (grid1.coords t) ↔ t.val / 8 = t.val % 8)

/-- The reduction coordinate is the last one: the output tile is computed and stored. -/
abbrev cond1_2 (i : grid1.Coords) : Prop := k1_cond3 i = 1#1
theorem hcond1_2 : ∀ t : Fin cfg1.N, cond1_2 (grid1.coords t) ↔ t.val % 8 = 7 :=
  (by decide +kernel : ∀ t : Fin grid1.N, cond1_2 (grid1.coords t) ↔ t.val % 8 = 7)

/-! ## Where the windows are live -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Away from the last reduction step nothing is stored into the output tile and it is not written back. -/
theorem idleAt1_5 : ∀ t : Fin cfg1.N, ¬cond1_2 (grid1.coords t) → cfg1.idle 5 (grid1.coords t) = true := by decide +kernel
theorem noFlush1_5 : ∀ t : Fin cfg1.N, ¬cond1_2 (grid1.coords t) → (cfg1.win 5).flush t = false := by decide +kernel
theorem liveAt1_5 : ∀ t : Fin cfg1.N, cond1_2 (grid1.coords t) → cfg1.idle 5 (grid1.coords t) = false := by decide +kernel

/-! ## The memory the body is handed at a point -/

abbrev VO1_5 : View sig .tc .vmem S1024x256 .f32 := (Memref.whole cc1_stg5_0 : Memref sig .tc .vmem S1024x256 .f32).view
abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x256 .f32 := win1_5.stage (cfg1.slots t 5)
abbrev hs1_5 (t : Fin cfg1.N) : (ms1_5 t).IsWhole := hstage1_5 ((cfg1.slots t 5).cast nbuf1_5)
/-- The accumulator: a whole scoped buffer of the kernel's own, carried from point to point. -/
abbrev scM1_0 : Memref sig .tc .vmem S1024x256 .f32 := Memref.whole cc1_scratch0
abbrev VS1_0 : View sig .tc .vmem S1024x256 .f32 := scM1_0.view

/-- The scoped buffers that are no staging buffer of this region, the accumulator last: what the region's
    invariant starts from, each at some contents, beside the generator register. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_scratch0), ((c : Thread nD τ).loc cc0_scratch0) ↦{fullShare} f) ∗ (∃ d, owns (c : Thread nD τ) scM1_0 fullShare d)) ∗ (∃ r, prngReg c r)) := by
  unfold Pipeline.ΦA; rw [scopedRest1_eq]; simp only [scM1_0, owns_whole]; try rfl

end Cert.Kernel.Gcn

end
-- ==== Proof.WGcnRunA.lean ====
/-
  The aggregation kernel's body run once, in the case of a first reduction step on the diagonal: the accumulator is cleared, the product and the self loop's band are added.
  The run is symbolic: the branches are decided by the case's hypotheses, and what the stores leave in the
  accumulator (and in the output tile, when it is stored) is found by the run as a list of written pieces.
-/
import proofs.«146386_j59150289601064_2_alg».proof.Proof.WGcnRuns

set_option maxRecDepth 16384

noncomputable section

namespace Cert.Kernel.Gcn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole staging buffers holding the five input tiles, the output tile's buffer handed back untouched,
    the accumulator at anything: it runs to the end, the inputs as they were, the accumulator with its pieces written. -/
noncomputable def runA (c : Dev nD) (i : grid1.Coords) (arg2 : Memref sig .tc .vmem S1024x1024 .f32) (harg2 : arg2.IsWhole) (arg3 : Memref sig .tc .vmem S8192x256 .f32) (harg3 : arg3.IsWhole) (arg4 : Memref sig .tc .vmem S256x256 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x256 .f32) (harg7 : arg7.IsWhole) (arg8 : Memref sig .tc .vmem S1024x256 .f32) (harg8 : arg8.IsWhole) (hc0 : cond1_0 i) (hc1 : cond1_1 i) (hc2 : ¬cond1_2 i)
    (x0 : Vec F S1024x1024 .f32) (x1 : Vec F S8192x256 .f32) (x2 : Vec F S256x256 .f32) (x3 : Vec F S1024x1 .f32) (x4 : Vec F S1024x1 .f32) :
    Σ' (L5 : List (View.Piece (Elt F) S1024x256 .f32)), { LS0 : List (View.Piece (Elt F) S1024x256 .f32) //
      ∀ (xi5 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1__gcn_kernel i arg2 harg2 arg3 harg3 arg4 harg4 arg5 harg5 arg6 harg6 arg7 harg7 arg8 harg8) K } := by
  refine ⟨[], ?_, fun xi5 E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.Kernel.Gcn

end
-- ==== Proof.WGcnRunB.lean ====
/-
  The aggregation kernel's body run once, in the case of a first reduction step off the diagonal: the accumulator is cleared and the product added.
  The run is symbolic: the branches are decided by the case's hypotheses, and what the stores leave in the
  accumulator (and in the output tile, when it is stored) is found by the run as a list of written pieces.
-/
import proofs.«146386_j59150289601064_2_alg».proof.Proof.WGcnRunA

set_option maxRecDepth 16384

noncomputable section

namespace Cert.Kernel.Gcn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole staging buffers holding the five input tiles, the output tile's buffer handed back untouched,
    the accumulator at anything: it runs to the end, the inputs as they were, the accumulator with its pieces written. -/
noncomputable def runB (c : Dev nD) (i : grid1.Coords) (arg2 : Memref sig .tc .vmem S1024x1024 .f32) (harg2 : arg2.IsWhole) (arg3 : Memref sig .tc .vmem S8192x256 .f32) (harg3 : arg3.IsWhole) (arg4 : Memref sig .tc .vmem S256x256 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x256 .f32) (harg7 : arg7.IsWhole) (arg8 : Memref sig .tc .vmem S1024x256 .f32) (harg8 : arg8.IsWhole) (hc0 : cond1_0 i) (hc1 : ¬cond1_1 i) (hc2 : ¬cond1_2 i)
    (x0 : Vec F S1024x1024 .f32) (x1 : Vec F S8192x256 .f32) (x2 : Vec F S256x256 .f32) (x3 : Vec F S1024x1 .f32) (x4 : Vec F S1024x1 .f32) :
    Σ' (L5 : List (View.Piece (Elt F) S1024x256 .f32)), { LS0 : List (View.Piece (Elt F) S1024x256 .f32) //
      ∀ (xi5 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1__gcn_kernel i arg2 harg2 arg3 harg3 arg4 harg4 arg5 harg5 arg6 harg6 arg7 harg7 arg8 harg8) K } := by
  refine ⟨[], ?_, fun xi5 E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.Kernel.Gcn

end
-- ==== Proof.WGcnRunC.lean ====
/-
  The aggregation kernel's body run once, in the case of a a middle reduction step on the diagonal: the product and the self loop's band are added.
  The run is symbolic: the branches are decided by the case's hypotheses, and what the stores leave in the
  accumulator (and in the output tile, when it is stored) is found by the run as a list of written pieces.
-/
import proofs.«146386_j59150289601064_2_alg».proof.Proof.WGcnRunB

set_option maxRecDepth 16384

noncomputable section

namespace Cert.Kernel.Gcn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole staging buffers holding the five input tiles, the output tile's buffer handed back untouched,
    the accumulator at what the point before left: it runs to the end, the inputs as they were, the accumulator with its pieces written. -/
noncomputable def runC (c : Dev nD) (i : grid1.Coords) (arg2 : Memref sig .tc .vmem S1024x1024 .f32) (harg2 : arg2.IsWhole) (arg3 : Memref sig .tc .vmem S8192x256 .f32) (harg3 : arg3.IsWhole) (arg4 : Memref sig .tc .vmem S256x256 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x256 .f32) (harg7 : arg7.IsWhole) (arg8 : Memref sig .tc .vmem S1024x256 .f32) (harg8 : arg8.IsWhole) (hc0 : ¬cond1_0 i) (hc1 : cond1_1 i) (hc2 : ¬cond1_2 i)
    (x0 : Vec F S1024x1024 .f32) (x1 : Vec F S8192x256 .f32) (x2 : Vec F S256x256 .f32) (x3 : Vec F S1024x1 .f32) (x4 : Vec F S1024x1 .f32) (xs0 : Vec F S1024x256 .f32) :
    Σ' (L5 : List (View.Piece (Elt F) S1024x256 .f32)), { LS0 : List (View.Piece (Elt F) S1024x256 .f32) //
      ∀ (xi5 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1__gcn_kernel i arg2 harg2 arg3 harg3 arg4 harg4 arg5 harg5 arg6 harg6 arg7 harg7 arg8 harg8) K } := by
  refine ⟨[], ?_, fun xi5 E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.Kernel.Gcn

end
-- ==== Proof.WGcnRunD.lean ====
/-
  The aggregation kernel's body run once, in the case of a a middle reduction step off the diagonal: the product is added.
  The run is symbolic: the branches are decided by the case's hypotheses, and what the stores leave in the
  accumulator (and in the output tile, when it is stored) is found by the run as a list of written pieces.
-/
import proofs.«146386_j59150289601064_2_alg».proof.Proof.WGcnRunC

set_option maxRecDepth 16384

noncomputable section

namespace Cert.Kernel.Gcn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole staging buffers holding the five input tiles, the output tile's buffer handed back untouched,
    the accumulator at what the point before left: it runs to the end, the inputs as they were, the accumulator with its pieces written. -/
noncomputable def runD (c : Dev nD) (i : grid1.Coords) (arg2 : Memref sig .tc .vmem S1024x1024 .f32) (harg2 : arg2.IsWhole) (arg3 : Memref sig .tc .vmem S8192x256 .f32) (harg3 : arg3.IsWhole) (arg4 : Memref sig .tc .vmem S256x256 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x256 .f32) (harg7 : arg7.IsWhole) (arg8 : Memref sig .tc .vmem S1024x256 .f32) (harg8 : arg8.IsWhole) (hc0 : ¬cond1_0 i) (hc1 : ¬cond1_1 i) (hc2 : ¬cond1_2 i)
    (x0 : Vec F S1024x1024 .f32) (x1 : Vec F S8192x256 .f32) (x2 : Vec F S256x256 .f32) (x3 : Vec F S1024x1 .f32) (x4 : Vec F S1024x1 .f32) (xs0 : Vec F S1024x256 .f32) :
    Σ' (L5 : List (View.Piece (Elt F) S1024x256 .f32)), { LS0 : List (View.Piece (Elt F) S1024x256 .f32) //
      ∀ (xi5 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1__gcn_kernel i arg2 harg2 arg3 harg3 arg4 harg4 arg5 harg5 arg6 harg6 arg7 harg7 arg8 harg8) K } := by
  refine ⟨[], ?_, fun xi5 E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.Kernel.Gcn

end
-- ==== Proof.WGcnRunE.lean ====
/-
  The aggregation kernel's body run once, in the case of a last reduction step on the diagonal: product and band added, then the output tile computed and stored.
  The run is symbolic: the branches are decided by the case's hypotheses, and what the stores leave in the
  accumulator (and in the output tile, when it is stored) is found by the run as a list of written pieces.
-/
import proofs.«146386_j59150289601064_2_alg».proof.Proof.WGcnRunD

set_option maxRecDepth 16384

noncomputable section

namespace Cert.Kernel.Gcn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole staging buffers holding the five input tiles, the output tile's buffer at anything,
    the accumulator at what the point before left: it runs to the end, the inputs as they were, the accumulator with its pieces written, the output tile with its pieces written. -/
noncomputable def runE (c : Dev nD) (i : grid1.Coords) (arg2 : Memref sig .tc .vmem S1024x1024 .f32) (harg2 : arg2.IsWhole) (arg3 : Memref sig .tc .vmem S8192x256 .f32) (harg3 : arg3.IsWhole) (arg4 : Memref sig .tc .vmem S256x256 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x256 .f32) (harg7 : arg7.IsWhole) (arg8 : Memref sig .tc .vmem S1024x256 .f32) (harg8 : arg8.IsWhole) (hc0 : ¬cond1_0 i) (hc1 : cond1_1 i) (hc2 : cond1_2 i)
    (x0 : Vec F S1024x1024 .f32) (x1 : Vec F S8192x256 .f32) (x2 : Vec F S256x256 .f32) (x3 : Vec F S1024x1 .f32) (x4 : Vec F S1024x1 .f32) (xs0 : Vec F S1024x256 .f32) :
    Σ' (L5 : List (View.Piece (Elt F) S1024x256 .f32)), { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc1__gcn_kernel i arg2 harg2 arg3 harg3 arg4 harg4 arg5 harg5 arg6 harg6 arg7 harg7 arg8 harg8) K } := by
  refine ⟨?_, ?_, fun E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.Kernel.Gcn

end
-- ==== Proof.WGcnRunF.lean ====
/-
  The aggregation kernel's body run once, in the case of a last reduction step off the diagonal: product added, then the output tile computed and stored.
  The run is symbolic: the branches are decided by the case's hypotheses, and what the stores leave in the
  accumulator (and in the output tile, when it is stored) is found by the run as a list of written pieces.
-/
import proofs.«146386_j59150289601064_2_alg».proof.Proof.WGcnRunE

set_option maxRecDepth 16384

noncomputable section

namespace Cert.Kernel.Gcn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole staging buffers holding the five input tiles, the output tile's buffer at anything,
    the accumulator at what the point before left: it runs to the end, the inputs as they were, the accumulator with its pieces written, the output tile with its pieces written. -/
noncomputable def runF (c : Dev nD) (i : grid1.Coords) (arg2 : Memref sig .tc .vmem S1024x1024 .f32) (harg2 : arg2.IsWhole) (arg3 : Memref sig .tc .vmem S8192x256 .f32) (harg3 : arg3.IsWhole) (arg4 : Memref sig .tc .vmem S256x256 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x256 .f32) (harg7 : arg7.IsWhole) (arg8 : Memref sig .tc .vmem S1024x256 .f32) (harg8 : arg8.IsWhole) (hc0 : ¬cond1_0 i) (hc1 : ¬cond1_1 i) (hc2 : cond1_2 i)
    (x0 : Vec F S1024x1024 .f32) (x1 : Vec F S8192x256 .f32) (x2 : Vec F S256x256 .f32) (x3 : Vec F S1024x1 .f32) (x4 : Vec F S1024x1 .f32) (xs0 : Vec F S1024x256 .f32) :
    Σ' (L5 : List (View.Piece (Elt F) S1024x256 .f32)), { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc1__gcn_kernel i arg2 harg2 arg3 harg3 arg4 harg4 arg5 harg5 arg6 harg6 arg7 harg7 arg8 harg8) K } := by
  refine ⟨?_, ?_, fun E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.Kernel.Gcn

end
-- ==== Proof.WGcnData.lean ====
/-
  Region 1, point by point: what the accumulator and the output tile hold after the body at each point of the
  grid, and the region's invariant — the accumulator at those contents between points.
-/
import proofs.«146386_j59150289601064_2_alg».proof.Proof.WGcnRunF

set_option maxRecDepth 16384

noncomputable section

namespace Cert.Kernel.Gcn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The pieces the run of case A leaves in the accumulator tile it: they cover it. -/
theorem scoverA (c : Dev nD) (i : grid1.Coords) (arg2 : Memref sig .tc .vmem S1024x1024 .f32) (harg2 : arg2.IsWhole) (arg3 : Memref sig .tc .vmem S8192x256 .f32) (harg3 : arg3.IsWhole) (arg4 : Memref sig .tc .vmem S256x256 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x256 .f32) (harg7 : arg7.IsWhole) (arg8 : Memref sig .tc .vmem S1024x256 .f32) (harg8 : arg8.IsWhole) (hc0 : cond1_0 i) (hc1 : cond1_1 i) (hc2 : ¬cond1_2 i)
    (x0 : Vec F S1024x1024 .f32) (x1 : Vec F S8192x256 .f32) (x2 : Vec F S256x256 .f32) (x3 : Vec F S1024x1 .f32) (x4 : Vec F S1024x1 .f32) (y : S1024x256.Idx) :
    ∃ pc ∈ (runA c i arg2 harg2 arg3 harg3 arg4 harg4 arg5 harg5 arg6 harg6 arg7 harg7 arg8 harg8 hc0 hc1 hc2 x0 x1 x2 x3 x4).2.1, y ∈ pc.1.set :=
  View.cover_of_tiledL (runA c i arg2 harg2 arg3 harg3 arg4 harg4 arg5 harg5 arg6 harg6 arg7 harg7 arg8 harg8 hc0 hc1 hc2 x0 x1 x2 x3 x4).2.1 S1024x256.size (by sl_kernel_rfl) y

/-- What case A leaves in the accumulator: its pieces read back. -/
def soutA (c : Dev nD) (i : grid1.Coords) (arg2 : Memref sig .tc .vmem S1024x1024 .f32) (harg2 : arg2.IsWhole) (arg3 : Memref sig .tc .vmem S8192x256 .f32) (harg3 : arg3.IsWhole) (arg4 : Memref sig .tc .vmem S256x256 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x256 .f32) (harg7 : arg7.IsWhole) (arg8 : Memref sig .tc .vmem S1024x256 .f32) (harg8 : arg8.IsWhole) (hc0 : cond1_0 i) (hc1 : cond1_1 i) (hc2 : ¬cond1_2 i)
    (x0 : Vec F S1024x1024 .f32) (x1 : Vec F S8192x256 .f32) (x2 : Vec F S256x256 .f32) (x3 : Vec F S1024x1 .f32) (x4 : Vec F S1024x1 .f32) : Vec F S1024x256 .f32 :=
  VS1_0.read (Elt F) (VS1_0.writes (Elt F) VS1_0.junk (runA c i arg2 harg2 arg3 harg3 arg4 harg4 arg5 harg5 arg6 harg6 arg7 harg7 arg8 harg8 hc0 hc1 hc2 x0 x1 x2 x3 x4).2.1)

/-- The pieces the run of case B leaves in the accumulator tile it: they cover it. -/
theorem scoverB (c : Dev nD) (i : grid1.Coords) (arg2 : Memref sig .tc .vmem S1024x1024 .f32) (harg2 : arg2.IsWhole) (arg3 : Memref sig .tc .vmem S8192x256 .f32) (harg3 : arg3.IsWhole) (arg4 : Memref sig .tc .vmem S256x256 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x256 .f32) (harg7 : arg7.IsWhole) (arg8 : Memref sig .tc .vmem S1024x256 .f32) (harg8 : arg8.IsWhole) (hc0 : cond1_0 i) (hc1 : ¬cond1_1 i) (hc2 : ¬cond1_2 i)
    (x0 : Vec F S1024x1024 .f32) (x1 : Vec F S8192x256 .f32) (x2 : Vec F S256x256 .f32) (x3 : Vec F S1024x1 .f32) (x4 : Vec F S1024x1 .f32) (y : S1024x256.Idx) :
    ∃ pc ∈ (runB c i arg2 harg2 arg3 harg3 arg4 harg4 arg5 harg5 arg6 harg6 arg7 harg7 arg8 harg8 hc0 hc1 hc2 x0 x1 x2 x3 x4).2.1, y ∈ pc.1.set :=
  View.cover_of_tiledL (runB c i arg2 harg2 arg3 harg3 arg4 harg4 arg5 harg5 arg6 harg6 arg7 harg7 arg8 harg8 hc0 hc1 hc2 x0 x1 x2 x3 x4).2.1 S1024x256.size (by sl_kernel_rfl) y

/-- What case B leaves in the accumulator: its pieces read back. -/
def soutB (c : Dev nD) (i : grid1.Coords) (arg2 : Memref sig .tc .vmem S1024x1024 .f32) (harg2 : arg2.IsWhole) (arg3 : Memref sig .tc .vmem S8192x256 .f32) (harg3 : arg3.IsWhole) (arg4 : Memref sig .tc .vmem S256x256 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x256 .f32) (harg7 : arg7.IsWhole) (arg8 : Memref sig .tc .vmem S1024x256 .f32) (harg8 : arg8.IsWhole) (hc0 : cond1_0 i) (hc1 : ¬cond1_1 i) (hc2 : ¬cond1_2 i)
    (x0 : Vec F S1024x1024 .f32) (x1 : Vec F S8192x256 .f32) (x2 : Vec F S256x256 .f32) (x3 : Vec F S1024x1 .f32) (x4 : Vec F S1024x1 .f32) : Vec F S1024x256 .f32 :=
  VS1_0.read (Elt F) (VS1_0.writes (Elt F) VS1_0.junk (runB c i arg2 harg2 arg3 harg3 arg4 harg4 arg5 harg5 arg6 harg6 arg7 harg7 arg8 harg8 hc0 hc1 hc2 x0 x1 x2 x3 x4).2.1)

/-- The pieces the run of case C leaves in the accumulator tile it: they cover it. -/
theorem scoverC (c : Dev nD) (i : grid1.Coords) (arg2 : Memref sig .tc .vmem S1024x1024 .f32) (harg2 : arg2.IsWhole) (arg3 : Memref sig .tc .vmem S8192x256 .f32) (harg3 : arg3.IsWhole) (arg4 : Memref sig .tc .vmem S256x256 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x256 .f32) (harg7 : arg7.IsWhole) (arg8 : Memref sig .tc .vmem S1024x256 .f32) (harg8 : arg8.IsWhole) (hc0 : ¬cond1_0 i) (hc1 : cond1_1 i) (hc2 : ¬cond1_2 i)
    (x0 : Vec F S1024x1024 .f32) (x1 : Vec F S8192x256 .f32) (x2 : Vec F S256x256 .f32) (x3 : Vec F S1024x1 .f32) (x4 : Vec F S1024x1 .f32) (xs0 : Vec F S1024x256 .f32) (y : S1024x256.Idx) :
    ∃ pc ∈ (runC c i arg2 harg2 arg3 harg3 arg4 harg4 arg5 harg5 arg6 harg6 arg7 harg7 arg8 harg8 hc0 hc1 hc2 x0 x1 x2 x3 x4 xs0).2.1, y ∈ pc.1.set :=
  View.cover_of_tiledL (runC c i arg2 harg2 arg3 harg3 arg4 harg4 arg5 harg5 arg6 harg6 arg7 harg7 arg8 harg8 hc0 hc1 hc2 x0 x1 x2 x3 x4 xs0).2.1 S1024x256.size (by sl_kernel_rfl) y

/-- What case C leaves in the accumulator: its pieces read back. -/
def soutC (c : Dev nD) (i : grid1.Coords) (arg2 : Memref sig .tc .vmem S1024x1024 .f32) (harg2 : arg2.IsWhole) (arg3 : Memref sig .tc .vmem S8192x256 .f32) (harg3 : arg3.IsWhole) (arg4 : Memref sig .tc .vmem S256x256 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x256 .f32) (harg7 : arg7.IsWhole) (arg8 : Memref sig .tc .vmem S1024x256 .f32) (harg8 : arg8.IsWhole) (hc0 : ¬cond1_0 i) (hc1 : cond1_1 i) (hc2 : ¬cond1_2 i)
    (x0 : Vec F S1024x1024 .f32) (x1 : Vec F S8192x256 .f32) (x2 : Vec F S256x256 .f32) (x3 : Vec F S1024x1 .f32) (x4 : Vec F S1024x1 .f32) (xs0 : Vec F S1024x256 .f32) : Vec F S1024x256 .f32 :=
  VS1_0.read (Elt F) (VS1_0.writes (Elt F) VS1_0.junk (runC c i arg2 harg2 arg3 harg3 arg4 harg4 arg5 harg5 arg6 harg6 arg7 harg7 arg8 harg8 hc0 hc1 hc2 x0 x1 x2 x3 x4 xs0).2.1)

/-- The pieces the run of case D leaves in the accumulator tile it: they cover it. -/
theorem scoverD (c : Dev nD) (i : grid1.Coords) (arg2 : Memref sig .tc .vmem S1024x1024 .f32) (harg2 : arg2.IsWhole) (arg3 : Memref sig .tc .vmem S8192x256 .f32) (harg3 : arg3.IsWhole) (arg4 : Memref sig .tc .vmem S256x256 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x256 .f32) (harg7 : arg7.IsWhole) (arg8 : Memref sig .tc .vmem S1024x256 .f32) (harg8 : arg8.IsWhole) (hc0 : ¬cond1_0 i) (hc1 : ¬cond1_1 i) (hc2 : ¬cond1_2 i)
    (x0 : Vec F S1024x1024 .f32) (x1 : Vec F S8192x256 .f32) (x2 : Vec F S256x256 .f32) (x3 : Vec F S1024x1 .f32) (x4 : Vec F S1024x1 .f32) (xs0 : Vec F S1024x256 .f32) (y : S1024x256.Idx) :
    ∃ pc ∈ (runD c i arg2 harg2 arg3 harg3 arg4 harg4 arg5 harg5 arg6 harg6 arg7 harg7 arg8 harg8 hc0 hc1 hc2 x0 x1 x2 x3 x4 xs0).2.1, y ∈ pc.1.set :=
  View.cover_of_tiledL (runD c i arg2 harg2 arg3 harg3 arg4 harg4 arg5 harg5 arg6 harg6 arg7 harg7 arg8 harg8 hc0 hc1 hc2 x0 x1 x2 x3 x4 xs0).2.1 S1024x256.size (by sl_kernel_rfl) y

/-- What case D leaves in the accumulator: its pieces read back. -/
def soutD (c : Dev nD) (i : grid1.Coords) (arg2 : Memref sig .tc .vmem S1024x1024 .f32) (harg2 : arg2.IsWhole) (arg3 : Memref sig .tc .vmem S8192x256 .f32) (harg3 : arg3.IsWhole) (arg4 : Memref sig .tc .vmem S256x256 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x256 .f32) (harg7 : arg7.IsWhole) (arg8 : Memref sig .tc .vmem S1024x256 .f32) (harg8 : arg8.IsWhole) (hc0 : ¬cond1_0 i) (hc1 : ¬cond1_1 i) (hc2 : ¬cond1_2 i)
    (x0 : Vec F S1024x1024 .f32) (x1 : Vec F S8192x256 .f32) (x2 : Vec F S256x256 .f32) (x3 : Vec F S1024x1 .f32) (x4 : Vec F S1024x1 .f32) (xs0 : Vec F S1024x256 .f32) : Vec F S1024x256 .f32 :=
  VS1_0.read (Elt F) (VS1_0.writes (Elt F) VS1_0.junk (runD c i arg2 harg2 arg3 harg3 arg4 harg4 arg5 harg5 arg6 harg6 arg7 harg7 arg8 harg8 hc0 hc1 hc2 x0 x1 x2 x3 x4 xs0).2.1)

/-- The pieces the run of case E leaves in the accumulator tile it: they cover it. -/
theorem scoverE (c : Dev nD) (i : grid1.Coords) (arg2 : Memref sig .tc .vmem S1024x1024 .f32) (harg2 : arg2.IsWhole) (arg3 : Memref sig .tc .vmem S8192x256 .f32) (harg3 : arg3.IsWhole) (arg4 : Memref sig .tc .vmem S256x256 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x256 .f32) (harg7 : arg7.IsWhole) (arg8 : Memref sig .tc .vmem S1024x256 .f32) (harg8 : arg8.IsWhole) (hc0 : ¬cond1_0 i) (hc1 : cond1_1 i) (hc2 : cond1_2 i)
    (x0 : Vec F S1024x1024 .f32) (x1 : Vec F S8192x256 .f32) (x2 : Vec F S256x256 .f32) (x3 : Vec F S1024x1 .f32) (x4 : Vec F S1024x1 .f32) (xs0 : Vec F S1024x256 .f32) (y : S1024x256.Idx) :
    ∃ pc ∈ (runE c i arg2 harg2 arg3 harg3 arg4 harg4 arg5 harg5 arg6 harg6 arg7 harg7 arg8 harg8 hc0 hc1 hc2 x0 x1 x2 x3 x4 xs0).2.1, y ∈ pc.1.set :=
  View.cover_of_tiledL (runE c i arg2 harg2 arg3 harg3 arg4 harg4 arg5 harg5 arg6 harg6 arg7 harg7 arg8 harg8 hc0 hc1 hc2 x0 x1 x2 x3 x4 xs0).2.1 S1024x256.size (by sl_kernel_rfl) y

/-- What case E leaves in the accumulator: its pieces read back. -/
def soutE (c : Dev nD) (i : grid1.Coords) (arg2 : Memref sig .tc .vmem S1024x1024 .f32) (harg2 : arg2.IsWhole) (arg3 : Memref sig .tc .vmem S8192x256 .f32) (harg3 : arg3.IsWhole) (arg4 : Memref sig .tc .vmem S256x256 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x256 .f32) (harg7 : arg7.IsWhole) (arg8 : Memref sig .tc .vmem S1024x256 .f32) (harg8 : arg8.IsWhole) (hc0 : ¬cond1_0 i) (hc1 : cond1_1 i) (hc2 : cond1_2 i)
    (x0 : Vec F S1024x1024 .f32) (x1 : Vec F S8192x256 .f32) (x2 : Vec F S256x256 .f32) (x3 : Vec F S1024x1 .f32) (x4 : Vec F S1024x1 .f32) (xs0 : Vec F S1024x256 .f32) : Vec F S1024x256 .f32 :=
  VS1_0.read (Elt F) (VS1_0.writes (Elt F) VS1_0.junk (runE c i arg2 harg2 arg3 harg3 arg4 harg4 arg5 harg5 arg6 harg6 arg7 harg7 arg8 harg8 hc0 hc1 hc2 x0 x1 x2 x3 x4 xs0).2.1)

/-- The pieces the run of case E leaves in the output tile cover it. -/
theorem coverE (c : Dev nD) (i : grid1.Coords) (arg2 : Memref sig .tc .vmem S1024x1024 .f32) (harg2 : arg2.IsWhole) (arg3 : Memref sig .tc .vmem S8192x256 .f32) (harg3 : arg3.IsWhole) (arg4 : Memref sig .tc .vmem S256x256 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x256 .f32) (harg7 : arg7.IsWhole) (arg8 : Memref sig .tc .vmem S1024x256 .f32) (harg8 : arg8.IsWhole) (hc0 : ¬cond1_0 i) (hc1 : cond1_1 i) (hc2 : cond1_2 i)
    (x0 : Vec F S1024x1024 .f32) (x1 : Vec F S8192x256 .f32) (x2 : Vec F S256x256 .f32) (x3 : Vec F S1024x1 .f32) (x4 : Vec F S1024x1 .f32) (xs0 : Vec F S1024x256 .f32) (y : S1024x256.Idx) :
    ∃ pc ∈ (runE c i arg2 harg2 arg3 harg3 arg4 harg4 arg5 harg5 arg6 harg6 arg7 harg7 arg8 harg8 hc0 hc1 hc2 x0 x1 x2 x3 x4 xs0).1, y ∈ pc.1.set :=
  View.cover_of_tiledL (runE c i arg2 harg2 arg3 harg3 arg4 harg4 arg5 harg5 arg6 harg6 arg7 harg7 arg8 harg8 hc0 hc1 hc2 x0 x1 x2 x3 x4 xs0).1 S1024x256.size (by sl_kernel_rfl) y

/-- What case E leaves in the output tile: its pieces read back. -/
def outE (c : Dev nD) (i : grid1.Coords) (arg2 : Memref sig .tc .vmem S1024x1024 .f32) (harg2 : arg2.IsWhole) (arg3 : Memref sig .tc .vmem S8192x256 .f32) (harg3 : arg3.IsWhole) (arg4 : Memref sig .tc .vmem S256x256 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x256 .f32) (harg7 : arg7.IsWhole) (arg8 : Memref sig .tc .vmem S1024x256 .f32) (harg8 : arg8.IsWhole) (hc0 : ¬cond1_0 i) (hc1 : cond1_1 i) (hc2 : cond1_2 i)
    (x0 : Vec F S1024x1024 .f32) (x1 : Vec F S8192x256 .f32) (x2 : Vec F S256x256 .f32) (x3 : Vec F S1024x1 .f32) (x4 : Vec F S1024x1 .f32) (xs0 : Vec F S1024x256 .f32) : Vec F S1024x256 .f32 :=
  VO1_5.read (Elt F) (VO1_5.writes (Elt F) VO1_5.junk (runE c i arg2 harg2 arg3 harg3 arg4 harg4 arg5 harg5 arg6 harg6 arg7 harg7 arg8 harg8 hc0 hc1 hc2 x0 x1 x2 x3 x4 xs0).1)

/-- The pieces the run of case F leaves in the accumulator tile it: they cover it. -/
theorem scoverF (c : Dev nD) (i : grid1.Coords) (arg2 : Memref sig .tc .vmem S1024x1024 .f32) (harg2 : arg2.IsWhole) (arg3 : Memref sig .tc .vmem S8192x256 .f32) (harg3 : arg3.IsWhole) (arg4 : Memref sig .tc .vmem S256x256 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x256 .f32) (harg7 : arg7.IsWhole) (arg8 : Memref sig .tc .vmem S1024x256 .f32) (harg8 : arg8.IsWhole) (hc0 : ¬cond1_0 i) (hc1 : ¬cond1_1 i) (hc2 : cond1_2 i)
    (x0 : Vec F S1024x1024 .f32) (x1 : Vec F S8192x256 .f32) (x2 : Vec F S256x256 .f32) (x3 : Vec F S1024x1 .f32) (x4 : Vec F S1024x1 .f32) (xs0 : Vec F S1024x256 .f32) (y : S1024x256.Idx) :
    ∃ pc ∈ (runF c i arg2 harg2 arg3 harg3 arg4 harg4 arg5 harg5 arg6 harg6 arg7 harg7 arg8 harg8 hc0 hc1 hc2 x0 x1 x2 x3 x4 xs0).2.1, y ∈ pc.1.set :=
  View.cover_of_tiledL (runF c i arg2 harg2 arg3 harg3 arg4 harg4 arg5 harg5 arg6 harg6 arg7 harg7 arg8 harg8 hc0 hc1 hc2 x0 x1 x2 x3 x4 xs0).2.1 S1024x256.size (by sl_kernel_rfl) y

/-- What case F leaves in the accumulator: its pieces read back. -/
def soutF (c : Dev nD) (i : grid1.Coords) (arg2 : Memref sig .tc .vmem S1024x1024 .f32) (harg2 : arg2.IsWhole) (arg3 : Memref sig .tc .vmem S8192x256 .f32) (harg3 : arg3.IsWhole) (arg4 : Memref sig .tc .vmem S256x256 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x256 .f32) (harg7 : arg7.IsWhole) (arg8 : Memref sig .tc .vmem S1024x256 .f32) (harg8 : arg8.IsWhole) (hc0 : ¬cond1_0 i) (hc1 : ¬cond1_1 i) (hc2 : cond1_2 i)
    (x0 : Vec F S1024x1024 .f32) (x1 : Vec F S8192x256 .f32) (x2 : Vec F S256x256 .f32) (x3 : Vec F S1024x1 .f32) (x4 : Vec F S1024x1 .f32) (xs0 : Vec F S1024x256 .f32) : Vec F S1024x256 .f32 :=
  VS1_0.read (Elt F) (VS1_0.writes (Elt F) VS1_0.junk (runF c i arg2 harg2 arg3 harg3 arg4 harg4 arg5 harg5 arg6 harg6 arg7 harg7 arg8 harg8 hc0 hc1 hc2 x0 x1 x2 x3 x4 xs0).2.1)

/-- The pieces the run of case F leaves in the output tile cover it. -/
theorem coverF (c : Dev nD) (i : grid1.Coords) (arg2 : Memref sig .tc .vmem S1024x1024 .f32) (harg2 : arg2.IsWhole) (arg3 : Memref sig .tc .vmem S8192x256 .f32) (harg3 : arg3.IsWhole) (arg4 : Memref sig .tc .vmem S256x256 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x256 .f32) (harg7 : arg7.IsWhole) (arg8 : Memref sig .tc .vmem S1024x256 .f32) (harg8 : arg8.IsWhole) (hc0 : ¬cond1_0 i) (hc1 : ¬cond1_1 i) (hc2 : cond1_2 i)
    (x0 : Vec F S1024x1024 .f32) (x1 : Vec F S8192x256 .f32) (x2 : Vec F S256x256 .f32) (x3 : Vec F S1024x1 .f32) (x4 : Vec F S1024x1 .f32) (xs0 : Vec F S1024x256 .f32) (y : S1024x256.Idx) :
    ∃ pc ∈ (runF c i arg2 harg2 arg3 harg3 arg4 harg4 arg5 harg5 arg6 harg6 arg7 harg7 arg8 harg8 hc0 hc1 hc2 x0 x1 x2 x3 x4 xs0).1, y ∈ pc.1.set :=
  View.cover_of_tiledL (runF c i arg2 harg2 arg3 harg3 arg4 harg4 arg5 harg5 arg6 harg6 arg7 harg7 arg8 harg8 hc0 hc1 hc2 x0 x1 x2 x3 x4 xs0).1 S1024x256.size (by sl_kernel_rfl) y

/-- What case F leaves in the output tile: its pieces read back. -/
def outF (c : Dev nD) (i : grid1.Coords) (arg2 : Memref sig .tc .vmem S1024x1024 .f32) (harg2 : arg2.IsWhole) (arg3 : Memref sig .tc .vmem S8192x256 .f32) (harg3 : arg3.IsWhole) (arg4 : Memref sig .tc .vmem S256x256 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x256 .f32) (harg7 : arg7.IsWhole) (arg8 : Memref sig .tc .vmem S1024x256 .f32) (harg8 : arg8.IsWhole) (hc0 : ¬cond1_0 i) (hc1 : ¬cond1_1 i) (hc2 : cond1_2 i)
    (x0 : Vec F S1024x1024 .f32) (x1 : Vec F S8192x256 .f32) (x2 : Vec F S256x256 .f32) (x3 : Vec F S1024x1 .f32) (x4 : Vec F S1024x1 .f32) (xs0 : Vec F S1024x256 .f32) : Vec F S1024x256 .f32 :=
  VO1_5.read (Elt F) (VO1_5.writes (Elt F) VO1_5.junk (runF c i arg2 harg2 arg3 harg3 arg4 harg4 arg5 harg5 arg6 harg6 arg7 harg7 arg8 harg8 hc0 hc1 hc2 x0 x1 x2 x3 x4 xs0).1)

/-! ## The input tiles at a point -/

-- the region-entry contents of the buffers (what the region's windows read)
variable (V : (c : Dev nD) → (b : Ref sig .tc) → Buf (Elt F) ((c : Thread nD τ).loc b))

/-- Window `w`'s tile at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The contents of the output tile's buffer at a point that stores nothing into it: never read. -/
def outIdle : Vec F S1024x256 .f32 := VO1_5.read (Elt F) VO1_5.junk

/-- Case A's accumulator contents at point `t`, on the point's buffers and input tiles. -/
abbrev soutAtA (c : Dev nD) (t : Fin cfg1.N) (hc0 : cond1_0 (grid1.coords t)) (hc1 : cond1_1 (grid1.coords t)) (hc2 : ¬cond1_2 (grid1.coords t)) : Vec F S1024x256 .f32 :=
  soutA c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) hc0 hc1 hc2 (iblk1 V c 0 t) (iblk1 V c 1 t) (iblk1 V c 2 t) (iblk1 V c 3 t) (iblk1 V c 4 t)

/-- Case B's accumulator contents at point `t`, on the point's buffers and input tiles. -/
abbrev soutAtB (c : Dev nD) (t : Fin cfg1.N) (hc0 : cond1_0 (grid1.coords t)) (hc1 : ¬cond1_1 (grid1.coords t)) (hc2 : ¬cond1_2 (grid1.coords t)) : Vec F S1024x256 .f32 :=
  soutB c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) hc0 hc1 hc2 (iblk1 V c 0 t) (iblk1 V c 1 t) (iblk1 V c 2 t) (iblk1 V c 3 t) (iblk1 V c 4 t)

/-- Case C's accumulator contents at point `t`, on the point's buffers and input tiles. -/
abbrev soutAtC (c : Dev nD) (t : Fin cfg1.N) (hc0 : ¬cond1_0 (grid1.coords t)) (hc1 : cond1_1 (grid1.coords t)) (hc2 : ¬cond1_2 (grid1.coords t)) (xs0 : Vec F S1024x256 .f32) : Vec F S1024x256 .f32 :=
  soutC c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) hc0 hc1 hc2 (iblk1 V c 0 t) (iblk1 V c 1 t) (iblk1 V c 2 t) (iblk1 V c 3 t) (iblk1 V c 4 t) xs0

/-- Case D's accumulator contents at point `t`, on the point's buffers and input tiles. -/
abbrev soutAtD (c : Dev nD) (t : Fin cfg1.N) (hc0 : ¬cond1_0 (grid1.coords t)) (hc1 : ¬cond1_1 (grid1.coords t)) (hc2 : ¬cond1_2 (grid1.coords t)) (xs0 : Vec F S1024x256 .f32) : Vec F S1024x256 .f32 :=
  soutD c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) hc0 hc1 hc2 (iblk1 V c 0 t) (iblk1 V c 1 t) (iblk1 V c 2 t) (iblk1 V c 3 t) (iblk1 V c 4 t) xs0

/-- Case E's accumulator contents at point `t`, on the point's buffers and input tiles. -/
abbrev soutAtE (c : Dev nD) (t : Fin cfg1.N) (hc0 : ¬cond1_0 (grid1.coords t)) (hc1 : cond1_1 (grid1.coords t)) (hc2 : cond1_2 (grid1.coords t)) (xs0 : Vec F S1024x256 .f32) : Vec F S1024x256 .f32 :=
  soutE c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) hc0 hc1 hc2 (iblk1 V c 0 t) (iblk1 V c 1 t) (iblk1 V c 2 t) (iblk1 V c 3 t) (iblk1 V c 4 t) xs0
/-- Case E's output tile at point `t`. -/
abbrev outAtE (c : Dev nD) (t : Fin cfg1.N) (hc0 : ¬cond1_0 (grid1.coords t)) (hc1 : cond1_1 (grid1.coords t)) (hc2 : cond1_2 (grid1.coords t)) (xs0 : Vec F S1024x256 .f32) : Vec F S1024x256 .f32 :=
  outE c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) hc0 hc1 hc2 (iblk1 V c 0 t) (iblk1 V c 1 t) (iblk1 V c 2 t) (iblk1 V c 3 t) (iblk1 V c 4 t) xs0

/-- Case F's accumulator contents at point `t`, on the point's buffers and input tiles. -/
abbrev soutAtF (c : Dev nD) (t : Fin cfg1.N) (hc0 : ¬cond1_0 (grid1.coords t)) (hc1 : ¬cond1_1 (grid1.coords t)) (hc2 : cond1_2 (grid1.coords t)) (xs0 : Vec F S1024x256 .f32) : Vec F S1024x256 .f32 :=
  soutF c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) hc0 hc1 hc2 (iblk1 V c 0 t) (iblk1 V c 1 t) (iblk1 V c 2 t) (iblk1 V c 3 t) (iblk1 V c 4 t) xs0
/-- Case F's output tile at point `t`. -/
abbrev outAtF (c : Dev nD) (t : Fin cfg1.N) (hc0 : ¬cond1_0 (grid1.coords t)) (hc1 : ¬cond1_1 (grid1.coords t)) (hc2 : cond1_2 (grid1.coords t)) (xs0 : Vec F S1024x256 .f32) : Vec F S1024x256 .f32 :=
  outF c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) hc0 hc1 hc2 (iblk1 V c 0 t) (iblk1 V c 1 t) (iblk1 V c 2 t) (iblk1 V c 3 t) (iblk1 V c 4 t) xs0

/-! ## What the accumulator and the output tile hold after each point -/

/-- After the body at position `n`: (the output tile's buffer, the accumulator). The case is decided by the
    position: the reduction coordinate is `n % 8`, the row band `n / 8`; an accumulator that is not cleared
    takes what the position before left. -/
def outsAt1 (c : Dev nD) : (n : ℕ) → n < cfg1.N → Vec F S1024x256 .f32 × Vec F S1024x256 .f32
  | 0, hn => (outIdle, soutAtA V c ⟨0, hn⟩ ((hcond1_0 ⟨0, hn⟩).mpr (Nat.zero_mod _)) ((hcond1_1 ⟨0, hn⟩).mpr (by simp)) (fun h => (fun h => by (try dsimp only at h); omega) ((hcond1_2 ⟨0, hn⟩).mp h)))
  | n + 1, hn =>
    if h0 : (n + 1) % 8 = 0 then
      (outIdle, soutAtB V c ⟨n + 1, hn⟩ ((hcond1_0 ⟨n + 1, hn⟩).mpr h0) (fun h => (fun h => by (try dsimp only at h); omega) ((hcond1_1 ⟨n + 1, hn⟩).mp h)) (fun h => (fun h => by (try dsimp only at h); omega) ((hcond1_2 ⟨n + 1, hn⟩).mp h)))
    else if h2 : (n + 1) % 8 = 7 then
      if h1 : (n + 1) / 8 = (n + 1) % 8 then
        (outAtE V c ⟨n + 1, hn⟩ (fun h => h0 ((hcond1_0 ⟨n + 1, hn⟩).mp h)) ((hcond1_1 ⟨n + 1, hn⟩).mpr h1) ((hcond1_2 ⟨n + 1, hn⟩).mpr h2) (outsAt1 c n (Nat.lt_of_succ_lt hn)).2,
         soutAtE V c ⟨n + 1, hn⟩ (fun h => h0 ((hcond1_0 ⟨n + 1, hn⟩).mp h)) ((hcond1_1 ⟨n + 1, hn⟩).mpr h1) ((hcond1_2 ⟨n + 1, hn⟩).mpr h2) (outsAt1 c n (Nat.lt_of_succ_lt hn)).2)
      else
        (outAtF V c ⟨n + 1, hn⟩ (fun h => h0 ((hcond1_0 ⟨n + 1, hn⟩).mp h)) (fun h => h1 ((hcond1_1 ⟨n + 1, hn⟩).mp h)) ((hcond1_2 ⟨n + 1, hn⟩).mpr h2) (outsAt1 c n (Nat.lt_of_succ_lt hn)).2,
         soutAtF V c ⟨n + 1, hn⟩ (fun h => h0 ((hcond1_0 ⟨n + 1, hn⟩).mp h)) (fun h => h1 ((hcond1_1 ⟨n + 1, hn⟩).mp h)) ((hcond1_2 ⟨n + 1, hn⟩).mpr h2) (outsAt1 c n (Nat.lt_of_succ_lt hn)).2)
    else
      if h1 : (n + 1) / 8 = (n + 1) % 8 then
        (outIdle, soutAtC V c ⟨n + 1, hn⟩ (fun h => h0 ((hcond1_0 ⟨n + 1, hn⟩).mp h)) ((hcond1_1 ⟨n + 1, hn⟩).mpr h1) (fun h => h2 ((hcond1_2 ⟨n + 1, hn⟩).mp h)) (outsAt1 c n (Nat.lt_of_succ_lt hn)).2)
      else
        (outIdle, soutAtD V c ⟨n + 1, hn⟩ (fun h => h0 ((hcond1_0 ⟨n + 1, hn⟩).mp h)) (fun h => h1 ((hcond1_1 ⟨n + 1, hn⟩).mp h)) (fun h => h2 ((hcond1_2 ⟨n + 1, hn⟩).mp h)) (outsAt1 c n (Nat.lt_of_succ_lt hn)).2)

/-- The accumulator the position before `t` left. -/
abbrev prevAcc (c : Dev nD) (t : Fin cfg1.N) : Vec F S1024x256 .f32 :=
  (outsAt1 V c (t.val - 1) (Nat.lt_of_le_of_lt (Nat.sub_le _ _) t.isLt)).2

theorem outsAt1_A (c : Dev nD) (t : Fin cfg1.N) (h0 : t.val % 8 = 0) (h1 : t.val / 8 = t.val % 8) (h2 : ¬t.val % 8 = 7) :
    outsAt1 V c t.val t.isLt = (outIdle, soutAtA V c t ((hcond1_0 t).mpr h0) ((hcond1_1 t).mpr h1) (fun h => h2 ((hcond1_2 t).mp h))) := by
  obtain ⟨n, hn⟩ := t
  cases n with
  | zero => exact rfl
  | succ n => exfalso; (try dsimp only at h0 h1); have hN : n + 1 < 64 := lt_of_lt_of_eq hn N_1; omega

theorem outsAt1_B (c : Dev nD) (t : Fin cfg1.N) (h0 : t.val % 8 = 0) (h1 : ¬t.val / 8 = t.val % 8) (h2 : ¬t.val % 8 = 7) :
    outsAt1 V c t.val t.isLt = (outIdle, soutAtB V c t ((hcond1_0 t).mpr h0) (fun h => h1 ((hcond1_1 t).mp h)) (fun h => h2 ((hcond1_2 t).mp h))) := by
  obtain ⟨n, hn⟩ := t
  cases n with
  | zero => exfalso; exact h1 (by simp)
  | succ n => exact (dif_pos h0).trans rfl

theorem outsAt1_C (c : Dev nD) (t : Fin cfg1.N) (h0 : ¬t.val % 8 = 0) (h1 : t.val / 8 = t.val % 8) (h2 : ¬t.val % 8 = 7) :
    outsAt1 V c t.val t.isLt = (outIdle, soutAtC V c t (fun h => h0 ((hcond1_0 t).mp h)) ((hcond1_1 t).mpr h1) (fun h => h2 ((hcond1_2 t).mp h)) (prevAcc V c t)) := by
  obtain ⟨n, hn⟩ := t
  cases n with
  | zero => exact absurd (Nat.zero_mod _) h0
  | succ n => exact (dif_neg h0).trans ((dif_neg h2).trans ((dif_pos h1).trans rfl))

theorem outsAt1_D (c : Dev nD) (t : Fin cfg1.N) (h0 : ¬t.val % 8 = 0) (h1 : ¬t.val / 8 = t.val % 8) (h2 : ¬t.val % 8 = 7) :
    outsAt1 V c t.val t.isLt = (outIdle, soutAtD V c t (fun h => h0 ((hcond1_0 t).mp h)) (fun h => h1 ((hcond1_1 t).mp h)) (fun h => h2 ((hcond1_2 t).mp h)) (prevAcc V c t)) := by
  obtain ⟨n, hn⟩ := t
  cases n with
  | zero => exact absurd (Nat.zero_mod _) h0
  | succ n => exact (dif_neg h0).trans ((dif_neg h2).trans ((dif_neg h1).trans rfl))

theorem outsAt1_E (c : Dev nD) (t : Fin cfg1.N) (h0 : ¬t.val % 8 = 0) (h1 : t.val / 8 = t.val % 8) (h2 : t.val % 8 = 7) :
    outsAt1 V c t.val t.isLt = (outAtE V c t (fun h => h0 ((hcond1_0 t).mp h)) ((hcond1_1 t).mpr h1) ((hcond1_2 t).mpr h2) (prevAcc V c t),
      soutAtE V c t (fun h => h0 ((hcond1_0 t).mp h)) ((hcond1_1 t).mpr h1) ((hcond1_2 t).mpr h2) (prevAcc V c t)) := by
  obtain ⟨n, hn⟩ := t
  cases n with
  | zero => exact absurd (Nat.zero_mod _) h0
  | succ n => exact (dif_neg h0).trans ((dif_pos h2).trans ((dif_pos h1).trans rfl))

theorem outsAt1_F (c : Dev nD) (t : Fin cfg1.N) (h0 : ¬t.val % 8 = 0) (h1 : ¬t.val / 8 = t.val % 8) (h2 : t.val % 8 = 7) :
    outsAt1 V c t.val t.isLt = (outAtF V c t (fun h => h0 ((hcond1_0 t).mp h)) (fun h => h1 ((hcond1_1 t).mp h)) ((hcond1_2 t).mpr h2) (prevAcc V c t),
      soutAtF V c t (fun h => h0 ((hcond1_0 t).mp h)) (fun h => h1 ((hcond1_1 t).mp h)) ((hcond1_2 t).mpr h2) (prevAcc V c t)) := by
  obtain ⟨n, hn⟩ := t
  cases n with
  | zero => exact absurd (Nat.zero_mod _) h0
  | succ n => exact (dif_neg h0).trans ((dif_pos h2).trans ((dif_neg h1).trans rfl))

/-! ## The region's invariant -/

/-- The scoped buffers that are no staging buffer of this region, the accumulator among them in the state `S`,
    beside the generator register at some state. -/
def Rest (c : Dev nD) (S : sProp 𝕄) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_scratch0), ((c : Thread nD τ).loc cc0_scratch0) ↦{fullShare} f) ∗ S) ∗ (∃ r, prngReg c r))

theorem PhiA1_rest (c : Dev nD) : (Pipeline.ΦA spec1 c : sProp 𝕄) = Rest c (iprop(∃ d, owns (c : Thread nD τ) scM1_0 fullShare d)) := by
  rw [PhiA1_eq]; rfl

/-- Before position `n`: at the start every scoped buffer at anything; afterwards the accumulator at what the
    position before left. -/
def PhiS (c : Dev nD) : (n : ℕ) → n ≤ cfg1.N → sProp 𝕄
  | 0, _ => Pipeline.ΦA spec1 c
  | n + 1, hn => Rest c (owns (c : Thread nD τ) scM1_0 fullShare ((outsAt1 V c n hn).2))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = Rest c (owns (c : Thread nD τ) scM1_0 fullShare ((outsAt1 V c n hn).2)) := rfl

theorem PhiS_pos (c : Dev nD) (n : ℕ) (h : n ≤ cfg1.N) (hz : n ≠ 0) :
    PhiS V c n h = Rest c (owns (c : Thread nD τ) scM1_0 fullShare ((outsAt1 V c (n - 1) (by omega)).2)) := by
  cases n with
  | zero => exact absurd rfl hz
  | succ n => rfl

/-! ## The proof data -/

/-- The arrays as the region finds them; after the body each input's buffer at its tile, the output's at
    `outsAt1`; the invariant `PhiS`; nothing owed. The degree column is read through two windows (the row
    factors and the column factors): each holds one half of it. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS V c t.val (Nat.le_of_lt_succ t.isLt)
  q w := match w with
    | ⟨0, _⟩ => fullShare
    | ⟨1, _⟩ => fullShare
    | ⟨2, _⟩ => fullShare
    | ⟨3, _⟩ => fullShare.left
    | ⟨4, _⟩ => fullShare.right
    | ⟨5, _⟩ => fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

theorem before1_0 (c : Dev nD) (t : Fin cfg1.N) (d) : (dat1 V c).before 0 t d = iblk1 V c 0 t := before1_0_of V (dat1 V c) (A_eq1 V c 0) (after1_0 V c) t d
theorem before1_1 (c : Dev nD) (t : Fin cfg1.N) (d) : (dat1 V c).before 1 t d = iblk1 V c 1 t := before1_1_of V (dat1 V c) (A_eq1 V c 1) (after1_1 V c) t d
theorem before1_2 (c : Dev nD) (t : Fin cfg1.N) (d) : (dat1 V c).before 2 t d = iblk1 V c 2 t := before1_2_of V (dat1 V c) (A_eq1 V c 2) (after1_2 V c) t d
theorem before1_3 (c : Dev nD) (t : Fin cfg1.N) (d) : (dat1 V c).before 3 t d = iblk1 V c 3 t := before1_3_of V (dat1 V c) (A_eq1 V c 3) (after1_3 V c) t d
theorem before1_4 (c : Dev nD) (t : Fin cfg1.N) (d) : (dat1 V c).before 4 t d = iblk1 V c 4 t := before1_4_of V (dat1 V c) (A_eq1 V c 4) (after1_4 V c) t d

end Cert.Kernel.Gcn

end
-- ==== Proof.WGcnBody.lean ====
/-
  Region 1: the body obligation. At every point the body, handed the five input tiles, the output tile's
  buffer and the region's invariant, leaves the accumulator and the output tile at the contents the proof
  data names. The point's position decides which of the six control cases runs.
-/
import proofs.«146386_j59150289601064_2_alg».proof.Proof.WGcnData

set_option maxRecDepth 16384

noncomputable section

namespace Cert.Kernel.Gcn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, -/
def bodyPre (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 8000000 in
/-- The body at any point: by cases on the position. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1, before1_2, before1_3, before1_4]
  rw [show (dat1 V c).owesAt () t.succ = (dat1 V c).owesAt () t.castSucc from rfl]
  rw [show (dat1 V c).Φ t.succ = PhiS V c (t.val + 1) t.isLt from rfl, PhiS_succ]
  by_cases h0 : t.val % 8 = 0
  · have h2 : ¬t.val % 8 = 7 := by omega
    by_cases h1 : t.val / 8 = t.val % 8
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5 t (fun h => h2 ((hcond1_2 t).mp h))) (noFlush1_5 t (fun h => h2 ((hcond1_2 t).mp h)))]
      rw [outsAt1_A V c t h0 h1 h2]
      unfold soutAtA soutA; (try dsimp only)
      have hz : t.val = 0 := by have hN : t.val < 64 := lt_of_lt_of_eq t.isLt N_1; omega
      rw [PhiS_castSucc V c t, PhiS_zero V c _ _ hz, PhiA1_rest]
      unfold Rest
      iintro ⟨⟨⟨Hb1, Hb2, Hb3, Hb4, Hb5, HS0⟩, Hg⟩, Ho, ⟨%d0, H0⟩, ⟨%d1, H1⟩, ⟨%d2, H2⟩, ⟨%d3, H3⟩, ⟨%d4, H4⟩, ⟨%d5, H5⟩⟩
      iapply ((runA c (grid1.coords t) _ _ _ _ _ _ _ _ _ _ _ _ _ _ ((hcond1_0 t).mpr h0) ((hcond1_1 t).mpr h1) (fun h => h2 ((hcond1_2 t).mp h)) (iblk1 V c 0 t) (iblk1 V c 1 t) (iblk1 V c 2 t) (iblk1 V c 3 t) (iblk1 V c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [Hb1 Hb2 Hb3 Hb4 Hb5 HS0 Hg]
      · isplitl [Hb1 Hb2 Hb3 Hb4 Hb5 HS0]
        · isplitl [Hb1]; · iexact Hb1
          isplitl [Hb2]; · iexact Hb2
          isplitl [Hb3]; · iexact Hb3
          isplitl [Hb4]; · iexact Hb4
          isplitl [Hb5]; · iexact Hb5
          unfold owns; iexists _; isplitr
          swap; · iexact HS0
          ipureintro; exact View.read_writes_of_cover _ _ _ _ _ (scoverA c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5 t (fun h => h2 ((hcond1_2 t).mp h))) (noFlush1_5 t (fun h => h2 ((hcond1_2 t).mp h)))]
      rw [outsAt1_B V c t h0 h1 h2]
      unfold soutAtB soutB; (try dsimp only)
      have hz : t.val ≠ 0 := fun hz => h1 (by rw [hz])
      rw [PhiS_castSucc V c t, PhiS_pos V c _ _ hz]
      unfold Rest
      iintro ⟨⟨⟨Hb1, Hb2, Hb3, Hb4, Hb5, HS0⟩, Hg⟩, Ho, ⟨%d0, H0⟩, ⟨%d1, H1⟩, ⟨%d2, H2⟩, ⟨%d3, H3⟩, ⟨%d4, H4⟩, ⟨%d5, H5⟩⟩
      iapply ((runB c (grid1.coords t) _ _ _ _ _ _ _ _ _ _ _ _ _ _ ((hcond1_0 t).mpr h0) (fun h => h1 ((hcond1_1 t).mp h)) (fun h => h2 ((hcond1_2 t).mp h)) (iblk1 V c 0 t) (iblk1 V c 1 t) (iblk1 V c 2 t) (iblk1 V c 3 t) (iblk1 V c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      iintro ⟨H0, H1, H2, H3, H4, H5, ⟨%es0, HS0⟩⟩
      isplitl [Hb1 Hb2 Hb3 Hb4 Hb5 HS0 Hg]
      · isplitl [Hb1 Hb2 Hb3 Hb4 Hb5 HS0]
        · isplitl [Hb1]; · iexact Hb1
          isplitl [Hb2]; · iexact Hb2
          isplitl [Hb3]; · iexact Hb3
          isplitl [Hb4]; · iexact Hb4
          isplitl [Hb5]; · iexact Hb5
          unfold owns; iexists _; isplitr
          swap; · iexact HS0
          ipureintro; exact View.read_writes_of_cover _ _ _ _ _ (scoverB c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · by_cases h2 : t.val % 8 = 7
    · by_cases h1 : t.val / 8 = t.val % 8
      ·
        rw [show (dat1 V c).leavesExact 0 t = owns (c : Thread nD τ) (ms1_0 t) fullShare ((dat1 V c).after 0 t) from by
          unfold Dat.leavesExact; rw [liveAt1_0 t], after1_0]
        rw [show (dat1 V c).leavesExact 1 t = owns (c : Thread nD τ) (ms1_1 t) fullShare ((dat1 V c).after 1 t) from by
          unfold Dat.leavesExact; rw [liveAt1_1 t], after1_1]
        rw [show (dat1 V c).leavesExact 2 t = owns (c : Thread nD τ) (ms1_2 t) fullShare ((dat1 V c).after 2 t) from by
          unfold Dat.leavesExact; rw [liveAt1_2 t], after1_2]
        rw [show (dat1 V c).leavesExact 3 t = owns (c : Thread nD τ) (ms1_3 t) fullShare ((dat1 V c).after 3 t) from by
          unfold Dat.leavesExact; rw [liveAt1_3 t], after1_3]
        rw [show (dat1 V c).leavesExact 4 t = owns (c : Thread nD τ) (ms1_4 t) fullShare ((dat1 V c).after 4 t) from by
          unfold Dat.leavesExact; rw [liveAt1_4 t], after1_4]
        rw [show (dat1 V c).leavesExact 5 t = owns (c : Thread nD τ) (ms1_5 t) fullShare ((dat1 V c).after 5 t) from by
          unfold Dat.leavesExact; rw [liveAt1_5 t ((hcond1_2 t).mpr h2)], after1_5]
        rw [outsAt1_E V c t h0 h1 h2]
        unfold outAtE soutAtE outE soutE; (try dsimp only)
        have hz : t.val ≠ 0 := fun hz => h0 (by rw [hz])
        rw [PhiS_castSucc V c t, PhiS_pos V c _ _ hz]
        unfold Rest
        iintro ⟨⟨⟨Hb1, Hb2, Hb3, Hb4, Hb5, HS0⟩, Hg⟩, Ho, ⟨%d0, H0⟩, ⟨%d1, H1⟩, ⟨%d2, H2⟩, ⟨%d3, H3⟩, ⟨%d4, H4⟩, ⟨%d5, H5⟩⟩
        iapply ((runE c (grid1.coords t) _ _ _ _ _ _ _ _ _ _ _ _ _ _ (fun h => h0 ((hcond1_0 t).mp h)) ((hcond1_1 t).mpr h1) ((hcond1_2 t).mpr h2) (iblk1 V c 0 t) (iblk1 V c 1 t) (iblk1 V c 2 t) (iblk1 V c 3 t) (iblk1 V c 4 t) _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, ⟨%e5, H5⟩, ⟨%es0, HS0⟩⟩
        isplitl [Hb1 Hb2 Hb3 Hb4 Hb5 HS0 Hg]
        · isplitl [Hb1 Hb2 Hb3 Hb4 Hb5 HS0]
          · isplitl [Hb1]; · iexact Hb1
            isplitl [Hb2]; · iexact Hb2
            isplitl [Hb3]; · iexact Hb3
            isplitl [Hb4]; · iexact Hb4
            isplitl [Hb5]; · iexact Hb5
            unfold owns; iexists _; isplitr
            swap; · iexact HS0
            ipureintro; exact View.read_writes_of_cover _ _ _ _ _ (scoverE c _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (coverE c _ _ _ _ _ _ _ _ _ _ _ _ _ _ _ _ _ _ _ _ _ _ _ _)
      ·
        rw [show (dat1 V c).leavesExact 0 t = owns (c : Thread nD τ) (ms1_0 t) fullShare ((dat1 V c).after 0 t) from by
          unfold Dat.leavesExact; rw [liveAt1_0 t], after1_0]
        rw [show (dat1 V c).leavesExact 1 t = owns (c : Thread nD τ) (ms1_1 t) fullShare ((dat1 V c).after 1 t) from by
          unfold Dat.leavesExact; rw [liveAt1_1 t], after1_1]
        rw [show (dat1 V c).leavesExact 2 t = owns (c : Thread nD τ) (ms1_2 t) fullShare ((dat1 V c).after 2 t) from by
          unfold Dat.leavesExact; rw [liveAt1_2 t], after1_2]
        rw [show (dat1 V c).leavesExact 3 t = owns (c : Thread nD τ) (ms1_3 t) fullShare ((dat1 V c).after 3 t) from by
          unfold Dat.leavesExact; rw [liveAt1_3 t], after1_3]
        rw [show (dat1 V c).leavesExact 4 t = owns (c : Thread nD τ) (ms1_4 t) fullShare ((dat1 V c).after 4 t) from by
          unfold Dat.leavesExact; rw [liveAt1_4 t], after1_4]
        rw [show (dat1 V c).leavesExact 5 t = owns (c : Thread nD τ) (ms1_5 t) fullShare ((dat1 V c).after 5 t) from by
          unfold Dat.leavesExact; rw [liveAt1_5 t ((hcond1_2 t).mpr h2)], after1_5]
        rw [outsAt1_F V c t h0 h1 h2]
        unfold outAtF soutAtF outF soutF; (try dsimp only)
        have hz : t.val ≠ 0 := fun hz => h0 (by rw [hz])
        rw [PhiS_castSucc V c t, PhiS_pos V c _ _ hz]
        unfold Rest
        iintro ⟨⟨⟨Hb1, Hb2, Hb3, Hb4, Hb5, HS0⟩, Hg⟩, Ho, ⟨%d0, H0⟩, ⟨%d1, H1⟩, ⟨%d2, H2⟩, ⟨%d3, H3⟩, ⟨%d4, H4⟩, ⟨%d5, H5⟩⟩
        iapply ((runF c (grid1.coords t) _ _ _ _ _ _ _ _ _ _ _ _ _ _ (fun h => h0 ((hcond1_0 t).mp h)) (fun h => h1 ((hcond1_1 t).mp h)) ((hcond1_2 t).mpr h2) (iblk1 V c 0 t) (iblk1 V c 1 t) (iblk1 V c 2 t) (iblk1 V c 3 t) (iblk1 V c 4 t) _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, ⟨%e5, H5⟩, ⟨%es0, HS0⟩⟩
        isplitl [Hb1 Hb2 Hb3 Hb4 Hb5 HS0 Hg]
        · isplitl [Hb1 Hb2 Hb3 Hb4 Hb5 HS0]
          · isplitl [Hb1]; · iexact Hb1
            isplitl [Hb2]; · iexact Hb2
            isplitl [Hb3]; · iexact Hb3
            isplitl [Hb4]; · iexact Hb4
            isplitl [Hb5]; · iexact Hb5
            unfold owns; iexists _; isplitr
            swap; · iexact HS0
            ipureintro; exact View.read_writes_of_cover _ _ _ _ _ (scoverF c _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (coverF c _ _ _ _ _ _ _ _ _ _ _ _ _ _ _ _ _ _ _ _ _ _ _ _)
    · by_cases h1 : t.val / 8 = t.val % 8
      ·
        rw [show (dat1 V c).leavesExact 0 t = owns (c : Thread nD τ) (ms1_0 t) fullShare ((dat1 V c).after 0 t) from by
          unfold Dat.leavesExact; rw [liveAt1_0 t], after1_0]
        rw [show (dat1 V c).leavesExact 1 t = owns (c : Thread nD τ) (ms1_1 t) fullShare ((dat1 V c).after 1 t) from by
          unfold Dat.leavesExact; rw [liveAt1_1 t], after1_1]
        rw [show (dat1 V c).leavesExact 2 t = owns (c : Thread nD τ) (ms1_2 t) fullShare ((dat1 V c).after 2 t) from by
          unfold Dat.leavesExact; rw [liveAt1_2 t], after1_2]
        rw [show (dat1 V c).leavesExact 3 t = owns (c : Thread nD τ) (ms1_3 t) fullShare ((dat1 V c).after 3 t) from by
          unfold Dat.leavesExact; rw [liveAt1_3 t], after1_3]
        rw [show (dat1 V c).leavesExact 4 t = owns (c : Thread nD τ) (ms1_4 t) fullShare ((dat1 V c).after 4 t) from by
          unfold Dat.leavesExact; rw [liveAt1_4 t], after1_4]
        rw [Dat.leavesExact_idle (dat1 V c) 5 t (idleAt1_5 t (fun h => h2 ((hcond1_2 t).mp h))) (noFlush1_5 t (fun h => h2 ((hcond1_2 t).mp h)))]
        rw [outsAt1_C V c t h0 h1 h2]
        unfold soutAtC soutC; (try dsimp only)
        have hz : t.val ≠ 0 := fun hz => h0 (by rw [hz])
        rw [PhiS_castSucc V c t, PhiS_pos V c _ _ hz]
        unfold Rest
        iintro ⟨⟨⟨Hb1, Hb2, Hb3, Hb4, Hb5, HS0⟩, Hg⟩, Ho, ⟨%d0, H0⟩, ⟨%d1, H1⟩, ⟨%d2, H2⟩, ⟨%d3, H3⟩, ⟨%d4, H4⟩, ⟨%d5, H5⟩⟩
        iapply ((runC c (grid1.coords t) _ _ _ _ _ _ _ _ _ _ _ _ _ _ (fun h => h0 ((hcond1_0 t).mp h)) ((hcond1_1 t).mpr h1) (fun h => h2 ((hcond1_2 t).mp h)) (iblk1 V c 0 t) (iblk1 V c 1 t) (iblk1 V c 2 t) (iblk1 V c 3 t) (iblk1 V c 4 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [Hb1 Hb2 Hb3 Hb4 Hb5 HS0 Hg]
        · isplitl [Hb1 Hb2 Hb3 Hb4 Hb5 HS0]
          · isplitl [Hb1]; · iexact Hb1
            isplitl [Hb2]; · iexact Hb2
            isplitl [Hb3]; · iexact Hb3
            isplitl [Hb4]; · iexact Hb4
            isplitl [Hb5]; · iexact Hb5
            unfold owns; iexists _; isplitr
            swap; · iexact HS0
            ipureintro; exact View.read_writes_of_cover _ _ _ _ _ (scoverC c _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      ·
        rw [show (dat1 V c).leavesExact 0 t = owns (c : Thread nD τ) (ms1_0 t) fullShare ((dat1 V c).after 0 t) from by
          unfold Dat.leavesExact; rw [liveAt1_0 t], after1_0]
        rw [show (dat1 V c).leavesExact 1 t = owns (c : Thread nD τ) (ms1_1 t) fullShare ((dat1 V c).after 1 t) from by
          unfold Dat.leavesExact; rw [liveAt1_1 t], after1_1]
        rw [show (dat1 V c).leavesExact 2 t = owns (c : Thread nD τ) (ms1_2 t) fullShare ((dat1 V c).after 2 t) from by
          unfold Dat.leavesExact; rw [liveAt1_2 t], after1_2]
        rw [show (dat1 V c).leavesExact 3 t = owns (c : Thread nD τ) (ms1_3 t) fullShare ((dat1 V c).after 3 t) from by
          unfold Dat.leavesExact; rw [liveAt1_3 t], after1_3]
        rw [show (dat1 V c).leavesExact 4 t = owns (c : Thread nD τ) (ms1_4 t) fullShare ((dat1 V c).after 4 t) from by
          unfold Dat.leavesExact; rw [liveAt1_4 t], after1_4]
        rw [Dat.leavesExact_idle (dat1 V c) 5 t (idleAt1_5 t (fun h => h2 ((hcond1_2 t).mp h))) (noFlush1_5 t (fun h => h2 ((hcond1_2 t).mp h)))]
        rw [outsAt1_D V c t h0 h1 h2]
        unfold soutAtD soutD; (try dsimp only)
        have hz : t.val ≠ 0 := fun hz => h0 (by rw [hz])
        rw [PhiS_castSucc V c t, PhiS_pos V c _ _ hz]
        unfold Rest
        iintro ⟨⟨⟨Hb1, Hb2, Hb3, Hb4, Hb5, HS0⟩, Hg⟩, Ho, ⟨%d0, H0⟩, ⟨%d1, H1⟩, ⟨%d2, H2⟩, ⟨%d3, H3⟩, ⟨%d4, H4⟩, ⟨%d5, H5⟩⟩
        iapply ((runD c (grid1.coords t) _ _ _ _ _ _ _ _ _ _ _ _ _ _ (fun h => h0 ((hcond1_0 t).mp h)) (fun h => h1 ((hcond1_1 t).mp h)) (fun h => h2 ((hcond1_2 t).mp h)) (iblk1 V c 0 t) (iblk1 V c 1 t) (iblk1 V c 2 t) (iblk1 V c 3 t) (iblk1 V c 4 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [Hb1 Hb2 Hb3 Hb4 Hb5 HS0 Hg]
        · isplitl [Hb1 Hb2 Hb3 Hb4 Hb5 HS0]
          · isplitl [Hb1]; · iexact Hb1
            isplitl [Hb2]; · iexact Hb2
            isplitl [Hb3]; · iexact Hb3
            isplitl [Hb4]; · iexact Hb4
            isplitl [Hb5]; · iexact Hb5
            unfold owns; iexists _; isplitr
            swap; · iexact HS0
            ipureintro; exact View.read_writes_of_cover _ _ _ _ _ (scoverD c _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the scoped buffers back, the accumulator's contents forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 64 := N_1; omega), PhiA1_rest]
  unfold Rest
  iintro ⟨⟨Hb1, Hb2, Hb3, Hb4, Hb5, HS0⟩, Hg⟩
  isplitl [Hb1 Hb2 Hb3 Hb4 Hb5 HS0]
  · isplitl [Hb1]; · iexact Hb1
    isplitl [Hb2]; · iexact Hb2
    isplitl [Hb3]; · iexact Hb3
    isplitl [Hb4]; · iexact Hb4
    isplitl [Hb5]; · iexact Hb5
    iexists _; iexact HS0
  iexact Hg

end Cert.Kernel.Gcn

end
-- ==== Proof.WKernelRun.lean ====
/-
  The whole program run: the degree kernel, then the aggregation kernel, from the launch to the return.

  Each kernel region is entered from the core's unscoped buffers at known contents and left with its output array
  replaced by what its write-backs compose, every other buffer as found. The aggregation kernel reads the degree
  column through two windows (row factors and column factors), so on entry that array's ownership is split into
  two halves, one per window, and on exit the halves are joined again. At the end every unscoped buffer is read
  off the last valuation: the arguments are as launched and the result array is the aggregation kernel's output.
-/
import proofs.«146386_j59150289601064_2_alg».proof.Proof.WDegFrame
import proofs.«146386_j59150289601064_2_alg».proof.Proof.WGcnBody
import Idealize.ShloMosaic.Lib.Pipeline.Frame
import Idealize.ShloMosaic.Lib.Pipeline.FrameSuffix
import Idealize.ShloMosaic.Lib.Pipeline.Regions
import Idealize.ShloMosaic.Lib.Pipeline.RegionsLoop

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg RegionSeg)

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- After the degree kernel: its arrays at what the pipeline leaves, every other buffer as launched. -/
def W1 (c : Dev nD) : Valuation τ sig (Elt F) :=
  Pipeline.withArrays spec0 c (W0 m ρ c) fun w => (Deg.dat0 (V0 m ρ) c).arrAt w cfg0.N
theorem W1_arr (c : Dev nD) (w : Fin cfg0.W) :
    W1 m ρ c (Proc.devRef .tc (Pipeline.arrRef spec0 w)) = (Deg.dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (Deg.dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the aggregation kernel: the result array at what its write-backs compose, every other buffer as before. -/
def W2 (c : Dev nD) : Valuation τ sig (Elt F) :=
  Function.update (W1 m ρ c) (Proc.devRef .tc main_v1) ((Gcn.dat1 (V1 m ρ) c).arrAt 5 cfg1.N)
abbrev V2 : (c : Dev nD) → (b : Ref sig .tc) → Buf (Elt F) ((c : Thread nD τ).loc b) := fun c b => W2 m ρ c b
theorem W2_out (c : Dev nD) : W2 m ρ c (Proc.devRef .tc main_v1) = (Gcn.dat1 (V1 m ρ) c).arrAt 5 cfg1.N := by
  unfold W2; exact Function.update_self _ _ _
theorem W2_of_ne (c : Dev nD) (b : Ref sig .tc) (hb : b ≠ main_v1) :
    W2 m ρ c (Proc.devRef .tc b) = W1 m ρ c (Proc.devRef .tc b) := by
  unfold W2; exact Function.update_of_ne (StableHlo.devRef_ne_of_ne hb) _ _

theorem W2_main_arg0 (c : Dev nD) : W2 m ρ c (Proc.devRef .tc main_arg0) = m ((c : Thread nD τ).loc main_arg0) :=
  (W2_of_ne m ρ c main_arg0 (by decide)).trans ((W1_of_ne m ρ c main_arg0 (by decide)).trans rfl)
theorem W2_main_arg2 (c : Dev nD) : W2 m ρ c (Proc.devRef .tc main_arg2) = m ((c : Thread nD τ).loc main_arg2) :=
  (W2_of_ne m ρ c main_arg2 (by decide)).trans ((W1_of_ne m ρ c main_arg2 (by decide)).trans rfl)
theorem W1_main_arg1 (c : Dev nD) : W1 m ρ c (Proc.devRef .tc main_arg1) = m ((c : Thread nD τ).loc main_arg1) :=
  (W1_arr m ρ c 0).trans (((Deg.dat0 (V0 m ρ) c).arrAt_in 0 rfl _).trans ((Deg.A_eq0 (V0 m ρ) c 0).trans rfl))
theorem W2_main_arg1 (c : Dev nD) : W2 m ρ c (Proc.devRef .tc main_arg1) = m ((c : Thread nD τ).loc main_arg1) :=
  (W2_of_ne m ρ c main_arg1 (by decide)).trans (W1_main_arg1 m ρ c)

/-! ## The proof data family and what rides along -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => Deg.dat0 (V0 m ρ) c
  | ⟨1, _⟩ => fun c => Gcn.dat1 (V1 m ρ) c
abbrev 𝒱₀ : Variants := Variants.none
abbrev L : GSem nD τ sig → Finset Unit := fun _ => ∅
abbrev lv : GSem nD τ sig → Unit → ℕ := fun _ _ => 0
/-- Beside the buffers: the generator register at some state and the core owing nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m ρ c) ∗ ∃ r, prngReg c r)

/-! ## The aggregation kernel's arrays and the core's unscoped buffers -/

/-- The core's unscoped buffers, one by one. -/
theorem unscoped_list (c : Dev nD) (V : (b : Ref sig .tc) → Buf (Elt F) ((c : Thread nD τ).loc b)) :
    (unscopedBufs c V : sProp 𝕄)
      = iprop((((c : Thread nD τ).loc main_arg0) ↦{fullShare} V main_arg0) ∗ (((c : Thread nD τ).loc main_arg1) ↦{fullShare} V main_arg1) ∗ (((c : Thread nD τ).loc main_arg2) ↦{fullShare} V main_arg2) ∗ (((c : Thread nD τ).loc main_v0) ↦{fullShare} V main_v0) ∗ (((c : Thread nD τ).loc main_v1) ↦{fullShare} V main_v1)) := by
  unfold unscopedBufs
  exact bigSep_eq_bigSepL_of_eq [main_arg0, main_arg1, main_arg2, main_v0, main_v1] (by decide) (by decide) _

/-- The aggregation kernel's six windowed arrays, one by one, each at the share its window holds. -/
theorem arrays_list (c : Dev nD) (V : (c : Dev nD) → (b : Ref sig .tc) → Buf (Elt F) ((c : Thread nD τ).loc b))
    (Fn : (w : Fin cfg1.W) → Buf (Elt F) ((cfg1.win w).arr.view.loc (c : Thread nD τ))) :
    ((Gcn.dat1 V c).arrays Fn : sProp 𝕄)
      = iprop((((c : Thread nD τ).loc main_arg1) ↦{fullShare} Fn 0) ∗ (((c : Thread nD τ).loc main_arg0) ↦{fullShare} Fn 1) ∗ (((c : Thread nD τ).loc main_arg2) ↦{fullShare} Fn 2) ∗ (((c : Thread nD τ).loc main_v0) ↦{fullShare.left} Fn 3) ∗ (((c : Thread nD τ).loc main_v0) ↦{fullShare.right} Fn 4) ∗ (((c : Thread nD τ).loc main_v1) ↦{fullShare} Fn 5)) := by
  unfold Dat.arrays
  rw [bigSep_W1, (arr_whole1 0).set_eq_univ, (arr_whole1 1).set_eq_univ, (arr_whole1 2).set_eq_univ, (arr_whole1 3).set_eq_univ, (arr_whole1 5).set_eq_univ]
  rfl

/-- On entry: the core's unscoped buffers at `V` are the aggregation kernel's arrays at `V` — the degree column in two halves. -/
theorem arrays_in (c : Dev nD) (V : (c : Dev nD) → (b : Ref sig .tc) → Buf (Elt F) ((c : Thread nD τ).loc b)) :
    (unscopedBufs c (V c) : sProp 𝕄) ⊢ (Gcn.dat1 V c).arrays (Gcn.dat1 V c).A := by
  rw [unscoped_list, arrays_list]
  have hs : ((((c : Thread nD τ).loc main_v0) ↦{fullShare} V c main_v0) : sProp 𝕄)
      ⊢ iprop((((c : Thread nD τ).loc main_v0) ↦{fullShare.left} V c main_v0) ∗ (((c : Thread nD τ).loc main_v0) ↦{fullShare.right} V c main_v0)) :=
    (pointsTo_share (PosShare.mem_left_op_right fullShare)).1
  iintro ⟨Ha0, Ha1, Ha2, Hv0, Hv1⟩
  ihave Hh := hs $$ Hv0
  icases Hh with ⟨HvL, HvR⟩
  isplitl [Ha1]; · iexact Ha1
  isplitl [Ha0]; · iexact Ha0
  isplitl [Ha2]; · iexact Ha2
  isplitl [HvL]; · iexact HvL
  isplitl [HvR]; · iexact HvR
  iexact Hv1

/-- On exit: the arrays at their final contents are the core's unscoped buffers at any valuation that has the result
    array at its final contents and agrees with the entry contents elsewhere. -/
theorem arrays_out (c : Dev nD) (V : (c : Dev nD) → (b : Ref sig .tc) → Buf (Elt F) ((c : Thread nD τ).loc b))
    (V' : (b : Ref sig .tc) → Buf (Elt F) ((c : Thread nD τ).loc b))
    (h0 : V' main_arg0 = V c main_arg0) (h1 : V' main_arg1 = V c main_arg1) (h2 : V' main_arg2 = V c main_arg2) (h3 : V' main_v0 = V c main_v0)
    (h5 : V' main_v1 = (Gcn.dat1 V c).arrAt 5 cfg1.N) :
    ((Gcn.dat1 V c).arrays ((Gcn.dat1 V c).arrAt · cfg1.N) : sProp 𝕄) ⊢ unscopedBufs c V' := by
  rw [unscoped_list, arrays_list, (Gcn.dat1 V c).arrAt_in 0 rfl _, (Gcn.dat1 V c).arrAt_in 1 rfl _, (Gcn.dat1 V c).arrAt_in 2 rfl _,
    (Gcn.dat1 V c).arrAt_in 3 rfl _, (Gcn.dat1 V c).arrAt_in 4 rfl _, h0, h1, h2, h3, h5]
  have hj : iprop((((c : Thread nD τ).loc main_v0) ↦{fullShare.left} V c main_v0) ∗ (((c : Thread nD τ).loc main_v0) ↦{fullShare.right} V c main_v0))
      ⊢ ((((c : Thread nD τ).loc main_v0) ↦{fullShare} V c main_v0) : sProp 𝕄) :=
    (pointsTo_share (PosShare.mem_left_op_right fullShare)).2
  iintro ⟨Ha1, Ha0, Ha2, HvL, HvR, Hv1⟩
  ihave Hv0 := hj $$ [HvL HvR]
  · isplitl [HvL]; · iexact HvL
    iexact HvR
  isplitl [Ha0]; · iexact Ha0
  isplitl [Ha1]; · iexact Ha1
  isplitl [Ha2]; · iexact Ha2
  isplitl [Hv0]; · iexact Hv0
  iexact Hv1

/-! ## The regions as segments -/

set_option backward.isDefEq.respectTransparency.types false in
/-- The degree kernel over the thread state: entered from every unscoped buffer at `W0`, left at `W1`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Deg.body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Deg.hin0 (V0 m ρ) c)
    unfold Pipeline.ΦA
    iintro ⟨Hp, -, Hr⟩
    isplitl [Hr]; · iexact Hr
    iexact Hp
  hout c := by
    rw [Pipeline.ownSems0_none]
    refine (Deg.hout0 (V0 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The aggregation kernel over the thread state: entered from every unscoped buffer at `W1`, left at `W2`. Every
    unscoped buffer is one of its arrays; the degree column enters in two halves and leaves joined. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (Gcn.body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := iprop(emp)
  hentry c := by
    rw [Pipeline.ownSems0_none]
    have hsplit := arrays_in c (V1 m ρ)
    rw [Pipeline.unscopedBufs_held] at hsplit
    iintro ⟨⟨Hub, Hp, HO⟩, -, -⟩
    ihave Ha := hsplit $$ Hub
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iempintro
  hin c := by
    refine BIBase.Entails.trans ?_ (Gcn.hin1 (V1 m ρ) c)
    unfold Pipeline.ΦA
    iintro ⟨Hp, -, Hr⟩
    isplitl [Hr]; · iexact Hr
    iexact Hp
  hout c := by
    rw [Pipeline.ownSems0_none]
    refine (Gcn.hout1 (V1 m ρ) c).trans ?_
    unfold Pipeline.ΦA
    iintro ⟨Hr, Hp⟩
    isplitl [Hp]; · iexact Hp
    isplitr; · iempintro
    iexact Hr
  hexit c := by
    have hjoin := arrays_out c (V1 m ρ) (V2 m ρ c)
      (W2_of_ne m ρ c main_arg0 (by decide)) (W2_of_ne m ρ c main_arg1 (by decide)) (W2_of_ne m ρ c main_arg2 (by decide))
      (W2_of_ne m ρ c main_v0 (by decide)) (W2_out m ρ c)
    rw [Pipeline.unscopedBufs_held] at hjoin
    iintro ⟨Ha, HO, HY, -⟩
    imodintro
    isplitl [Ha HY]
    · isplitl [Ha]
      · iapply hjoin; iexact Ha
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .region (reg1 m ρ) ]
theorem main_run (c : Dev nD) : main (F := F) c = Pipeline.Seg.run (segs m ρ) := (main_chain c).trans (by chain_rfl)

set_option backward.isDefEq.respectTransparency.types false in
/-- From any memory with zero counters every weakly fair execution of @main terminates, nothing faulting; the result
    array ends at what the aggregation kernel's write-backs compose (from the degree kernel's column), and the three
    argument arrays end as launched. -/
theorem run_main : θ_run defs (onTc (τ := τ) (main (F := F))) ⟨m, fun _ => 0, ρ⟩ (fun r => ∀ c : Dev nD,
      r.2.mem ((c.tc : Thread nD τ).loc main_v1) = (Gcn.dat1 (V1 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      have h1 : (ownU (initOf (Pipeline.cells cfgs cellOf_inj) (Pipeline.launchToks cfgs cellOf_inj)) : sProp 𝕄)
          ⊢ BI.own (emb₁ (initOf (Pipeline.cells (Pipeline.pin (pcfgs (F := F)) adm) cellOf_inj) (Pipeline.launchToks (Pipeline.pin (pcfgs (F := F)) adm) cellOf_inj))) := .rfl
      iintro Hu
      ihave Hu' := h1 $$ Hu
      imodintro
      isplitl [Hu']; · iexact Hu'
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨(h c _ (mem_uc main_v1 (by decide))).trans (W2_out m ρ c),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c)⟩)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_main m ρ)

end Cert.Kernel.Run

end
-- ==== Proof.DegRuns.lean ====
/-
  The degree kernel's region: what its three control cases share.

  The kernel walks a grid of 8 row blocks by 4 column blocks, 32 points in row-major order, so point t has
  row block t / 4 and column block k = t % 4.  It keeps a column of 1024 running sums (the accumulator).
  At a point with k = 0 the accumulator is first cleared; at every point the row sums of the current
  1024 by 2048 block of the matrix are added to it; at a point with k = 3 the inverse square root of
  (accumulator + 1) is stored into the output block, which is written back to the output array there and
  nowhere else.  So a point is in one of three cases: clear-and-add (k = 0), add (k = 1, 2), add-and-emit
  (k = 3).

  Here: the two conditions in closed form over the grid, where the output window is idle, the memrefs the
  body is called with, the region invariant with the accumulator split off the other scoped buffers, the
  matrix block a point works on, and the fact that the input's staging buffer holds that block at every point.
  Everything is stated at any float instance.
-/
import proofs.«146386_j59150289601064_2_alg».proof.Proof.Gen.KernelIdeal.Launch
import proofs.«146386_j59150289601064_2_alg».proof.Proof.Gen.KernelIdeal.Skeleton
import proofs.«146386_j59150289601064_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Deg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The contents of every TensorCore buffer when the region is entered, per core.
variable (V : (c : Dev nD) → (b : Ref sig .tc) → Buf (Elt F) ((c : Thread nD τ).loc b))

/-! ## The blocks -/

/-- The block of window w at point t, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The matrix window is fetched at every point, is never cut and never idle: whatever proof data has the
    entry contents as its arrays and leaves the block in the input's staging buffer finds the block there. -/
theorem found_block {c : Dev nD} (dat : Dat τ (Elt F) Unit ℕ (UR sig nD τ) ℕ cfg0 c) (hA : dat.A 0 = V c (Pipeline.arrRef spec0 0))
    (hafter : ∀ t, dat.after 0 t = blockAt V c 0 t) (t : Fin cfg0.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-! ## The two conditions -/

/-- The accumulator is cleared: the column coordinate is 0 (the body's first conditional, its scalar chain written out). -/
abbrev clears (i : grid0.Coords) : Prop := (Scalar.cmpi .ne (Scalar.extui (Scalar.cmpi .eq (BitVec.ofNat 32 (i 1).val) 0#32)) 0#32) = 1#1
theorem clears_iff : ∀ t : Fin cfg0.N, clears (grid0.coords t) ↔ t.val % 4 = 0 :=
  (by decide +kernel : ∀ t : Fin grid0.N, clears (grid0.coords t) ↔ t.val % 4 = 0)

/-- The output is stored: the column coordinate is 3 (the body's second conditional). -/
abbrev emits (i : grid0.Coords) : Prop := k0_cond2 i = 1#1
theorem emits_iff : ∀ t : Fin cfg0.N, emits (grid0.coords t) ↔ t.val % 4 = 3 :=
  (by decide +kernel : ∀ t : Fin grid0.N, emits (grid0.coords t) ↔ t.val % 4 = 3)

/-! ## Where the windows are idle -/

/-- The matrix window is never idle. -/
theorem matrix_live : ∀ t : Fin cfg0.N, cfg0.idle 0 (grid0.coords t) = false := by decide +kernel
/-- Where nothing is emitted the output window is idle and its block is not written back. -/
theorem out_idle : ∀ t : Fin cfg0.N, ¬emits (grid0.coords t) → cfg0.idle 1 (grid0.coords t) = true := by decide +kernel
theorem out_kept : ∀ t : Fin cfg0.N, ¬emits (grid0.coords t) → (cfg0.win 1).flush t = false := by decide +kernel
/-- Where the output is emitted the window is live. -/
theorem out_live : ∀ t : Fin cfg0.N, emits (grid0.coords t) → cfg0.idle 1 (grid0.coords t) = false := by decide +kernel

/-! ## The memrefs the body is called with -/

/-- The matrix window's current staging memref at point t, as the pipeline passes it, and its wholeness. -/
abbrev matM (t : Fin cfg0.N) : Memref sig .tc .vmem S1024x2048 .f32 := win0_0.stage (cfg0.slots t 0)
abbrev matM_whole (t : Fin cfg0.N) : (matM t).IsWhole := hstage0_0 ((cfg0.slots t 0).cast nbuf0_0)
/-- The output window's. -/
abbrev outM (t : Fin cfg0.N) : Memref sig .tc .vmem S1024x1 .f32 := win0_1.stage (cfg0.slots t 1)
abbrev outM_whole (t : Fin cfg0.N) : (outM t).IsWhole := hstage0_1 ((cfg0.slots t 1).cast nbuf0_1)
/-- The accumulator: a whole scoped buffer of the kernel's own. -/
abbrev accM : Memref sig .tc .vmem S1024x1 .f32 := Memref.whole cc0_scratch0
/-- The views through which the accumulator's and the output block's contents are stated. -/
abbrev accV : View sig .tc .vmem S1024x1 .f32 := accM.view
abbrev outV : View sig .tc .vmem S1024x1 .f32 := (Memref.whole cc0_stg1_0 : Memref sig .tc .vmem S1024x1 .f32).view

/-! ## The region invariant -/

/-- The eleven scoped buffers of the core that this region never touches (the other region's staging buffers
    and accumulator), each whole at some contents. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f))

/-- What the launch hands the region: the accumulator at some contents, the other scoped buffers, and the
    generator register at some state. -/
theorem entry_eq (c : Dev nD) :
    (Pipeline.ΦA spec0 c : sProp 𝕄)
      = iprop(iprop((∃ d, owns (c : Thread nD τ) accM fullShare d) ∗ others (F := F) c) ∗ (∃ r, prngReg c r)) := by
  unfold Pipeline.ΦA others; rw [scopedRest0_eq]; simp only [accM, owns_whole]; try rfl

end Cert.KernelIdeal.Deg

end
-- ==== Proof.DegRunA.lean ====
/-
  The degree kernel's body where the column coordinate is 0 (the accumulator is cleared, then the block's row
  sums are added; nothing is emitted).

  The body is run once, symbolically, on any whole memrefs: the matrix block's buffer at contents x, the output
  block's buffer at contents y that are handed back untouched, the accumulator at anything.  It ends with the
  accumulator overwritten by a list of covering stores (the zero column, then zero column + row sums of x): that
  list is not written down here, it is what the symbolic run finds, and the statement is the pair of the list
  and the run's correctness for it.
-/
import proofs.«146386_j59150289601064_2_alg».proof.Proof.DegRuns

set_option maxRecDepth 16384

noncomputable section

namespace Cert.KernelIdeal.Deg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores the body leaves in the accumulator when it clears it first (last store first), with the proof that
    from the three buffers the body runs to any continuation that accepts the matrix block and the output block as
    they were and the accumulator with those stores written over what it held. -/
noncomputable def runClear (c : Dev nD) (i : grid0.Coords) (a2 : Memref sig .tc .vmem S1024x2048 .f32) (h2 : a2.IsWhole) (a3 : Memref sig .tc .vmem S1024x1 .f32) (h3 : a3.IsWhole) (a4 : Memref sig .tc .vmem S1024x1 .f32) (h4 : a4.IsWhole) (hc : clears i) (he : ¬emits i)
    (x : Vec F S1024x2048 .f32) :
    { LA : List (View.Piece (Elt F) S1024x1 .f32) //
      ∀ (y : Vec F S1024x1 .f32) (E : Set ℕ) (K : PUnit → sProp 𝕄),
        iprop(owns (c : Thread nD τ) a2 fullShare x ∗ owns (c : Thread nD τ) a3 fullShare y ∗ (∃ d, owns (c : Thread nD τ) a4 fullShare d)
            ∗ (iprop(owns (c : Thread nD τ) a2 fullShare x ∗ owns (c : Thread nD τ) a3 fullShare y ∗ (∃ f, a4.view.loc (c : Thread nD τ) ↦[a4.view.set]{fullShare} a4.view.writes (Elt F) f LA)) -∗ K ⟨⟩))
          ⊢ wp frame (wpE (defs₀ (F := F)) Variants.none c none) E (cc0__deg_kernel i a2 h2 a3 h3 a4 h4) K } := by
  refine ⟨?_, fun y E K => ?run⟩
  case run =>
    simp only [cc0__deg_kernel_eq_skeleton]; unfold cc0__deg_kernel_skel
    unfold owns
    iintro ⟨⟨%f2, %hf2, H2⟩, ⟨%f3, %hf3, H3⟩, ⟨%d4, %f4, -, H4⟩, Hk⟩
    obtain rfl := h2.eq_unread hf2; obtain rfl := h3.eq_unread hf3
    sl_exec (disch := first | exact hc | exact he)
    sl_step
    iapply Hk
    isplitl [H2]
    · iexists _; isplitr; · ipureintro; exact h2.read_unread _
      iexact H2
    isplitl [H3]
    · iexists _; isplitr; · ipureintro; exact h3.read_unread _
      iexact H3
    iexists _; iexact H4

end Cert.KernelIdeal.Deg

end
-- ==== Proof.DegRunB.lean ====
/-
  The degree kernel's body where the column coordinate is 1 or 2 (the block's row sums are added to the
  accumulator; nothing is cleared, nothing emitted).

  As in the clearing case the body is run once on any whole memrefs, but now the accumulator is handed in at
  known contents s (what the point before left), and it ends overwritten by one covering store, s + row sums of x,
  found by the run.
-/
import proofs.«146386_j59150289601064_2_alg».proof.Proof.DegRunA

set_option maxRecDepth 16384

noncomputable section

namespace Cert.KernelIdeal.Deg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores the body leaves in the accumulator when it only adds, with the proof that from the three buffers
    the body runs to any continuation that accepts the matrix block and the output block as they were and the
    accumulator with those stores written. -/
noncomputable def runAdd (c : Dev nD) (i : grid0.Coords) (a2 : Memref sig .tc .vmem S1024x2048 .f32) (h2 : a2.IsWhole) (a3 : Memref sig .tc .vmem S1024x1 .f32) (h3 : a3.IsWhole) (a4 : Memref sig .tc .vmem S1024x1 .f32) (h4 : a4.IsWhole) (hc : ¬clears i) (he : ¬emits i)
    (x : Vec F S1024x2048 .f32) (s : Vec F S1024x1 .f32) :
    { LA : List (View.Piece (Elt F) S1024x1 .f32) //
      ∀ (y : Vec F S1024x1 .f32) (E : Set ℕ) (K : PUnit → sProp 𝕄),
        iprop(owns (c : Thread nD τ) a2 fullShare x ∗ owns (c : Thread nD τ) a3 fullShare y ∗ owns (c : Thread nD τ) a4 fullShare s
            ∗ (iprop(owns (c : Thread nD τ) a2 fullShare x ∗ owns (c : Thread nD τ) a3 fullShare y ∗ (∃ f, a4.view.loc (c : Thread nD τ) ↦[a4.view.set]{fullShare} a4.view.writes (Elt F) f LA)) -∗ K ⟨⟩))
          ⊢ wp frame (wpE (defs₀ (F := F)) Variants.none c none) E (cc0__deg_kernel i a2 h2 a3 h3 a4 h4) K } := by
  refine ⟨?_, fun y E K => ?run⟩
  case run =>
    simp only [cc0__deg_kernel_eq_skeleton]; unfold cc0__deg_kernel_skel
    unfold owns
    iintro ⟨⟨%f2, %hf2, H2⟩, ⟨%f3, %hf3, H3⟩, ⟨%f4, %hf4, H4⟩, Hk⟩
    obtain rfl := h2.eq_unread hf2; obtain rfl := h3.eq_unread hf3; obtain rfl := h4.eq_unread hf4
    sl_exec (disch := first | exact hc | exact he)
    sl_step
    iapply Hk
    isplitl [H2]
    · iexists _; isplitr; · ipureintro; exact h2.read_unread _
      iexact H2
    isplitl [H3]
    · iexists _; isplitr; · ipureintro; exact h3.read_unread _
      iexact H3
    iexists _; iexact H4

end Cert.KernelIdeal.Deg

end
-- ==== Proof.DegRunC.lean ====
/-
  The degree kernel's body where the column coordinate is 3 (the block's row sums are added to the accumulator,
  then the inverse square root of accumulator + 1 is stored into the output block).

  The accumulator is handed in at known contents s, the output block's buffer at anything; the body ends with the
  accumulator overwritten by one covering store (s + row sums of x) and the output block by one covering store
  (the inverse square root of that + 1), both found by the run.
-/
import proofs.«146386_j59150289601064_2_alg».proof.Proof.DegRunB

set_option maxRecDepth 16384

noncomputable section

namespace Cert.KernelIdeal.Deg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores the body leaves in the output block and in the accumulator when it emits, with the proof that from
    the three buffers the body runs to any continuation that accepts the matrix block as it was and the other two
    with those stores written. -/
noncomputable def runEmit (c : Dev nD) (i : grid0.Coords) (a2 : Memref sig .tc .vmem S1024x2048 .f32) (h2 : a2.IsWhole) (a3 : Memref sig .tc .vmem S1024x1 .f32) (h3 : a3.IsWhole) (a4 : Memref sig .tc .vmem S1024x1 .f32) (h4 : a4.IsWhole) (hc : ¬clears i) (he : emits i)
    (x : Vec F S1024x2048 .f32) (s : Vec F S1024x1 .f32) :
    Σ' (LO : List (View.Piece (Elt F) S1024x1 .f32)), { LA : List (View.Piece (Elt F) S1024x1 .f32) //
      ∀ (E : Set ℕ) (K : PUnit → sProp 𝕄),
        iprop(owns (c : Thread nD τ) a2 fullShare x ∗ (∃ d, owns (c : Thread nD τ) a3 fullShare d) ∗ owns (c : Thread nD τ) a4 fullShare s
            ∗ (iprop(owns (c : Thread nD τ) a2 fullShare x ∗ (∃ f, a3.view.loc (c : Thread nD τ) ↦[a3.view.set]{fullShare} a3.view.writes (Elt F) f LO) ∗ (∃ f, a4.view.loc (c : Thread nD τ) ↦[a4.view.set]{fullShare} a4.view.writes (Elt F) f LA)) -∗ K ⟨⟩))
          ⊢ wp frame (wpE (defs₀ (F := F)) Variants.none c none) E (cc0__deg_kernel i a2 h2 a3 h3 a4 h4) K } := by
  refine ⟨?_, ?_, fun E K => ?run⟩
  case run =>
    simp only [cc0__deg_kernel_eq_skeleton]; unfold cc0__deg_kernel_skel
    unfold owns
    iintro ⟨⟨%f2, %hf2, H2⟩, ⟨%d3, %f3, -, H3⟩, ⟨%f4, %hf4, H4⟩, Hk⟩
    obtain rfl := h2.eq_unread hf2; obtain rfl := h4.eq_unread hf4
    sl_exec (disch := first | exact hc | exact he)
    sl_step
    iapply Hk
    isplitl [H2]
    · iexists _; isplitr; · ipureintro; exact h2.read_unread _
      iexact H2
    isplitl [H3]; · iexists _; iexact H3
    iexists _; iexact H4

end Cert.KernelIdeal.Deg

end
-- ==== Proof.DegFrame.lean ====
/-
  The degree kernel's region: what the accumulator and the output block hold after every grid point, the
  proof data built from that, and the region's obligations.

  Each of the three cases leaves the accumulator covered by the stores its symbolic run found (and, when the
  column coordinate is 3, the output block too), so what a buffer holds afterwards is those stores read back,
  whatever it held before.  The state after point n is defined by recursion on n: at a point with column
  coordinate 0 the accumulator restarts from the clearing case; elsewhere it is the adding or the emitting case
  applied to what point n - 1 left.  The region invariant before point 0 is what the launch provides (every
  scoped buffer at some contents); before any later point it names the accumulator's contents.  The output
  window is idle, and its block is not written back, wherever nothing is emitted: there the body hands the
  buffer back as it found it.
-/
import proofs.«146386_j59150289601064_2_alg».proof.Proof.DegRunC

set_option maxRecDepth 16384

noncomputable section

namespace Cert.KernelIdeal.Deg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The contents of every TensorCore buffer when the region is entered, per core.
variable (V : (c : Dev nD) → (b : Ref sig .tc) → Buf (Elt F) ((c : Thread nD τ).loc b))

/-! ## The conditions from the point's position -/

theorem clears_of (t : Fin cfg0.N) (h : t.val % 4 = 0) : clears (grid0.coords t) := (clears_iff t).mpr h
theorem not_clears_of (t : Fin cfg0.N) (h : ¬t.val % 4 = 0) : ¬clears (grid0.coords t) := fun hc => h ((clears_iff t).mp hc)
theorem emits_of (t : Fin cfg0.N) (h : t.val % 4 = 3) : emits (grid0.coords t) := (emits_iff t).mpr h
theorem not_emits_of (t : Fin cfg0.N) (h : ¬t.val % 4 = 3) : ¬emits (grid0.coords t) := fun he => h ((emits_iff t).mp he)
theorem not_emits_of_first (t : Fin cfg0.N) (h : t.val % 4 = 0) : ¬emits (grid0.coords t) :=
  not_emits_of t (by omega)

/-! ## What each case leaves -/

/-- The clearing case's stores cover the accumulator. -/
theorem clear_covers (c : Dev nD) (i : grid0.Coords) (a2 : Memref sig .tc .vmem S1024x2048 .f32) (h2 : a2.IsWhole) (a3 : Memref sig .tc .vmem S1024x1 .f32) (h3 : a3.IsWhole) (a4 : Memref sig .tc .vmem S1024x1 .f32) (h4 : a4.IsWhole) (hc : clears i) (he : ¬emits i)
    (x : Vec F S1024x2048 .f32) (y : S1024x1.Idx) : ∃ pc ∈ (runClear c i a2 h2 a3 h3 a4 h4 hc he x).1, y ∈ pc.1.set :=
  View.cover_of_tiledL (runClear c i a2 h2 a3 h3 a4 h4 hc he x).1 S1024x1.size (by sl_kernel_rfl) y

/-- What the clearing case leaves in the accumulator: its stores read back. -/
def accClear (c : Dev nD) (i : grid0.Coords) (a2 : Memref sig .tc .vmem S1024x2048 .f32) (h2 : a2.IsWhole) (a3 : Memref sig .tc .vmem S1024x1 .f32) (h3 : a3.IsWhole) (a4 : Memref sig .tc .vmem S1024x1 .f32) (h4 : a4.IsWhole) (hc : clears i) (he : ¬emits i)
    (x : Vec F S1024x2048 .f32) : Vec F S1024x1 .f32 :=
  accV.read (Elt F) (accV.writes (Elt F) accV.junk (runClear c i a2 h2 a3 h3 a4 h4 hc he x).1)

/-- The adding case's stores cover the accumulator. -/
theorem add_covers (c : Dev nD) (i : grid0.Coords) (a2 : Memref sig .tc .vmem S1024x2048 .f32) (h2 : a2.IsWhole) (a3 : Memref sig .tc .vmem S1024x1 .f32) (h3 : a3.IsWhole) (a4 : Memref sig .tc .vmem S1024x1 .f32) (h4 : a4.IsWhole) (hc : ¬clears i) (he : ¬emits i)
    (x : Vec F S1024x2048 .f32) (s : Vec F S1024x1 .f32) (y : S1024x1.Idx) : ∃ pc ∈ (runAdd c i a2 h2 a3 h3 a4 h4 hc he x s).1, y ∈ pc.1.set :=
  View.cover_of_tiledL (runAdd c i a2 h2 a3 h3 a4 h4 hc he x s).1 S1024x1.size (by sl_kernel_rfl) y

/-- What the adding case leaves in the accumulator. -/
def accAdd (c : Dev nD) (i : grid0.Coords) (a2 : Memref sig .tc .vmem S1024x2048 .f32) (h2 : a2.IsWhole) (a3 : Memref sig .tc .vmem S1024x1 .f32) (h3 : a3.IsWhole) (a4 : Memref sig .tc .vmem S1024x1 .f32) (h4 : a4.IsWhole) (hc : ¬clears i) (he : ¬emits i)
    (x : Vec F S1024x2048 .f32) (s : Vec F S1024x1 .f32) : Vec F S1024x1 .f32 :=
  accV.read (Elt F) (accV.writes (Elt F) accV.junk (runAdd c i a2 h2 a3 h3 a4 h4 hc he x s).1)

/-- The emitting case's stores cover the output block, -/
theorem emit_covers_out (c : Dev nD) (i : grid0.Coords) (a2 : Memref sig .tc .vmem S1024x2048 .f32) (h2 : a2.IsWhole) (a3 : Memref sig .tc .vmem S1024x1 .f32) (h3 : a3.IsWhole) (a4 : Memref sig .tc .vmem S1024x1 .f32) (h4 : a4.IsWhole) (hc : ¬clears i) (he : emits i)
    (x : Vec F S1024x2048 .f32) (s : Vec F S1024x1 .f32) (y : S1024x1.Idx) : ∃ pc ∈ (runEmit c i a2 h2 a3 h3 a4 h4 hc he x s).1, y ∈ pc.1.set :=
  View.cover_of_tiledL (runEmit c i a2 h2 a3 h3 a4 h4 hc he x s).1 S1024x1.size (by sl_kernel_rfl) y

/-- and the accumulator. -/
theorem emit_covers_acc (c : Dev nD) (i : grid0.Coords) (a2 : Memref sig .tc .vmem S1024x2048 .f32) (h2 : a2.IsWhole) (a3 : Memref sig .tc .vmem S1024x1 .f32) (h3 : a3.IsWhole) (a4 : Memref sig .tc .vmem S1024x1 .f32) (h4 : a4.IsWhole) (hc : ¬clears i) (he : emits i)
    (x : Vec F S1024x2048 .f32) (s : Vec F S1024x1 .f32) (y : S1024x1.Idx) : ∃ pc ∈ (runEmit c i a2 h2 a3 h3 a4 h4 hc he x s).2.1, y ∈ pc.1.set :=
  View.cover_of_tiledL (runEmit c i a2 h2 a3 h3 a4 h4 hc he x s).2.1 S1024x1.size (by sl_kernel_rfl) y

/-- What the emitting case leaves in the output block, -/
def outEmit (c : Dev nD) (i : grid0.Coords) (a2 : Memref sig .tc .vmem S1024x2048 .f32) (h2 : a2.IsWhole) (a3 : Memref sig .tc .vmem S1024x1 .f32) (h3 : a3.IsWhole) (a4 : Memref sig .tc .vmem S1024x1 .f32) (h4 : a4.IsWhole) (hc : ¬clears i) (he : emits i)
    (x : Vec F S1024x2048 .f32) (s : Vec F S1024x1 .f32) : Vec F S1024x1 .f32 :=
  outV.read (Elt F) (outV.writes (Elt F) outV.junk (runEmit c i a2 h2 a3 h3 a4 h4 hc he x s).1)

/-- and in the accumulator. -/
def accEmit (c : Dev nD) (i : grid0.Coords) (a2 : Memref sig .tc .vmem S1024x2048 .f32) (h2 : a2.IsWhole) (a3 : Memref sig .tc .vmem S1024x1 .f32) (h3 : a3.IsWhole) (a4 : Memref sig .tc .vmem S1024x1 .f32) (h4 : a4.IsWhole) (hc : ¬clears i) (he : emits i)
    (x : Vec F S1024x2048 .f32) (s : Vec F S1024x1 .f32) : Vec F S1024x1 .f32 :=
  accV.read (Elt F) (accV.writes (Elt F) accV.junk (runEmit c i a2 h2 a3 h3 a4 h4 hc he x s).2.1)

/-- The output block's nominal contents after a point that stores nothing into it: nothing reads them (the block is
    neither written back there nor relied on later). -/
def unset : Vec F S1024x1 .f32 := outV.read (Elt F) outV.junk

/-! ## The three cases at a grid point -/

/-- The accumulator after a point with column coordinate 0, on the memrefs and the matrix block of that point. -/
def accClearAt (c : Dev nD) (t : Fin cfg0.N) (h : t.val % 4 = 0) : Vec F S1024x1 .f32 :=
  accClear c (grid0.coords t) (matM t) (matM_whole t) (outM t) (outM_whole t) accM (Memref.isWhole_whole _) (clears_of t h) (not_emits_of_first t h) (blockAt V c 0 t)

/-- The accumulator after a point with column coordinate 1 or 2, from what the point before left (s). -/
def accAddAt (c : Dev nD) (t : Fin cfg0.N) (h0 : ¬t.val % 4 = 0) (h3 : ¬t.val % 4 = 3) (s : Vec F S1024x1 .f32) : Vec F S1024x1 .f32 :=
  accAdd c (grid0.coords t) (matM t) (matM_whole t) (outM t) (outM_whole t) accM (Memref.isWhole_whole _) (not_clears_of t h0) (not_emits_of t h3) (blockAt V c 0 t) s

/-- The output block and the accumulator after a point with column coordinate 3, from what the point before left. -/
def outEmitAt (c : Dev nD) (t : Fin cfg0.N) (h0 : ¬t.val % 4 = 0) (h3 : t.val % 4 = 3) (s : Vec F S1024x1 .f32) : Vec F S1024x1 .f32 :=
  outEmit c (grid0.coords t) (matM t) (matM_whole t) (outM t) (outM_whole t) accM (Memref.isWhole_whole _) (not_clears_of t h0) (emits_of t h3) (blockAt V c 0 t) s
def accEmitAt (c : Dev nD) (t : Fin cfg0.N) (h0 : ¬t.val % 4 = 0) (h3 : t.val % 4 = 3) (s : Vec F S1024x1 .f32) : Vec F S1024x1 .f32 :=
  accEmit c (grid0.coords t) (matM t) (matM_whole t) (outM t) (outM_whole t) accM (Memref.isWhole_whole _) (not_clears_of t h0) (emits_of t h3) (blockAt V c 0 t) s

/-! ## The state after each point -/

/-- The output block's staging buffer and the accumulator after the body at position n: the case the position is
    in, applied to what position n - 1 left in the accumulator. -/
def stateAt (c : Dev nD) : (n : ℕ) → n < cfg0.N → Vec F S1024x1 .f32 × Vec F S1024x1 .f32
  | 0, hn => (unset, accClearAt V c ⟨0, hn⟩ (Nat.zero_mod 4))
  | n + 1, hn =>
    if h0 : (n + 1) % 4 = 0 then (unset, accClearAt V c ⟨n + 1, hn⟩ h0)
    else if h3 : (n + 1) % 4 = 3 then
      (outEmitAt V c ⟨n + 1, hn⟩ h0 h3 (stateAt c n (Nat.lt_of_succ_lt hn)).2, accEmitAt V c ⟨n + 1, hn⟩ h0 h3 (stateAt c n (Nat.lt_of_succ_lt hn)).2)
    else (unset, accAddAt V c ⟨n + 1, hn⟩ h0 h3 (stateAt c n (Nat.lt_of_succ_lt hn)).2)

/-- The position before point t (for a point that is not the first). -/
theorem pred_lt (t : Fin cfg0.N) : t.val - 1 < cfg0.N := Nat.lt_of_le_of_lt (Nat.sub_le _ _) t.isLt

theorem stateAt_clear (c : Dev nD) (t : Fin cfg0.N) (h0 : t.val % 4 = 0) :
    stateAt V c t.val t.isLt = (unset, accClearAt V c t h0) := by
  obtain ⟨n, hn⟩ := t
  cases n with
  | zero => exact rfl
  | succ n => exact (dif_pos h0).trans rfl

theorem stateAt_add (c : Dev nD) (t : Fin cfg0.N) (h0 : ¬t.val % 4 = 0) (h3 : ¬t.val % 4 = 3) :
    stateAt V c t.val t.isLt = (unset, accAddAt V c t h0 h3 (stateAt V c (t.val - 1) (pred_lt t)).2) := by
  obtain ⟨n, hn⟩ := t
  cases n with
  | zero => exact absurd (Nat.zero_mod 4) h0
  | succ n => exact (dif_neg h0).trans ((dif_neg h3).trans rfl)

theorem stateAt_emit (c : Dev nD) (t : Fin cfg0.N) (h0 : ¬t.val % 4 = 0) (h3 : t.val % 4 = 3) :
    stateAt V c t.val t.isLt = (outEmitAt V c t h0 h3 (stateAt V c (t.val - 1) (pred_lt t)).2, accEmitAt V c t h0 h3 (stateAt V c (t.val - 1) (pred_lt t)).2) := by
  obtain ⟨n, hn⟩ := t
  cases n with
  | zero => exact absurd (Nat.zero_mod 4) h0
  | succ n => exact (dif_neg h0).trans ((dif_pos h3).trans rfl)

/-! ## The region invariant -/

/-- Before position 0: what the launch provides.  Before position n + 1: the accumulator at what position n left,
    the other scoped buffers at some contents, the generator register at some state. -/
def invAt (c : Dev nD) : (n : ℕ) → n ≤ cfg0.N → sProp 𝕄
  | 0, _ => Pipeline.ΦA spec0 c
  | n + 1, hn => iprop(iprop(owns (c : Thread nD τ) accM fullShare ((stateAt V c n hn).2) ∗ others (F := F) c) ∗ (∃ r, prngReg c r))

theorem invAt_first (c : Dev nD) (n : ℕ) (h : n ≤ cfg0.N) (hz : n = 0) : invAt V c n h = Pipeline.ΦA spec0 c := by
  subst hz; rfl

theorem invAt_next (c : Dev nD) (n : ℕ) (hn : n < cfg0.N) :
    invAt V c (n + 1) hn = iprop(iprop(owns (c : Thread nD τ) accM fullShare ((stateAt V c n hn).2) ∗ others (F := F) c) ∗ (∃ r, prngReg c r)) := rfl

theorem invAt_later (c : Dev nD) (n : ℕ) (h : n ≤ cfg0.N) (hz : n ≠ 0) :
    invAt V c n h = iprop(iprop(owns (c : Thread nD τ) accM fullShare ((stateAt V c (n - 1) (by omega)).2) ∗ others (F := F) c) ∗ (∃ r, prngReg c r)) := by
  cases n with
  | zero => exact absurd rfl hz
  | succ n => rfl

/-! ## The proof data -/

/-- The region's proof data on core c: the arrays as the region finds them; after the body at point t the matrix
    window's buffer at its block and the output window's at the state's first component; the invariant above;
    full shares; nothing owed. -/
def dat0 (c : Dev nD) : Dat τ (Elt F) Unit ℕ (UR sig nD τ) ℕ cfg0 c where
  A w := V c (Pipeline.arrRef spec0 w)
  after w t := match w with
    | ⟨0, _⟩ => blockAt V c 0 t
    | ⟨1, _⟩ => (stateAt V c t.val t.isLt).1
  Φ t := invAt V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem inv_castSucc (c : Dev nD) (t : Fin cfg0.N) :
    (dat0 V c).Φ t.castSucc = invAt V c t.val (Nat.le_of_lt t.isLt) := by
  dsimp only [dat0]; simp only [Fin.coe_castSucc]

theorem after_matrix (c : Dev nD) (t : Fin cfg0.N) : (dat0 V c).after 0 t = blockAt V c 0 t := by dsimp only [dat0]
theorem after_out (c : Dev nD) (t : Fin cfg0.N) : (dat0 V c).after 1 t = (stateAt V c t.val t.isLt).1 := by dsimp only [dat0]

/-- The matrix window's staging buffer holds its block when the body runs. -/
theorem before_matrix (c : Dev nD) (t : Fin cfg0.N) (d) : (dat0 V c).before 0 t d = blockAt V c 0 t :=
  found_block V (dat0 V c) (A_eq0 V c 0) (after_matrix V c) t d

/-! ## The body obligation -/

/-- What the body is called with at point t, -/
def bodyPre (c : Dev nD) (t : Fin cfg0.N) : sProp 𝕄 :=
  iprop((dat0 V c).Φ t.castSucc ∗ (dat0 V c).owesAt () t.castSucc
    ∗ (∃ d, owns (c : Thread nD τ) (matM t) fullShare ((dat0 V c).before 0 t d))
    ∗ (∃ d, owns (c : Thread nD τ) (outM t) fullShare ((dat0 V c).before 1 t d)))

/-- and what it returns. -/
def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point.  The matrix window's buffer holds its block; the position says which case the point is
    in, and that case's run applies: the invariant hands it the accumulator (at anything before the first point, at
    what the point before left afterwards) and takes it back at this point's contents, which the case's stores
    cover; where nothing is emitted the output block's buffer goes back as it came. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_matrix]
  rw [show (dat0 V c).owesAt () t.succ = (dat0 V c).owesAt () t.castSucc from rfl]
  rw [show (dat0 V c).Φ t.succ = invAt V c (t.val + 1) t.isLt from rfl, invAt_next]
  have hN : t.val < 32 := lt_of_lt_of_eq t.isLt (show cfg0.N = 32 from N_0)
  rw [show (dat0 V c).leavesExact 0 t = owns (c : Thread nD τ) (matM t) fullShare ((dat0 V c).after 0 t) from by
    unfold Dat.leavesExact; rw [matrix_live t], after_matrix]
  by_cases h0 : t.val % 4 = 0
  · have h3 : ¬t.val % 4 = 3 := by omega
    rw [Dat.leavesExact_idle (dat0 V c) 1 t (out_idle t (not_emits_of t h3)) (out_kept t (not_emits_of t h3))]
    rw [stateAt_clear V c t h0]
    unfold accClearAt accClear; (try dsimp only)
    by_cases hz : t.val = 0
    · rw [inv_castSucc V c t, invAt_first V c _ _ hz, entry_eq]
      iintro ⟨⟨⟨HA, HR⟩, Hg⟩, Ho, ⟨%d0, H0⟩, ⟨%d1, H1⟩⟩
      iapply ((runClear c (grid0.coords t) _ _ _ _ _ _ (clears_of t h0) (not_emits_of_first t h0) (blockAt V c 0 t)).2 _ Set.univ _)
      isplitl [H0]; · iexact H0
      isplitl [H1]; · iexact H1
      isplitl [HA]; · iexact HA
      iintro ⟨H0, H1, ⟨%ea, HA⟩⟩
      isplitl [HA HR Hg]
      · isplitl [HA HR]
        · isplitl [HA]
          · unfold owns; iexists _; isplitr
            swap; · iexact HA
            ipureintro; exact View.read_writes_of_cover _ _ _ _ _ (clear_covers c _ _ _ _ _ _ _ _ _ _)
          iexact HR
        iexact Hg
      isplitl [Ho]; · iexact Ho
      isplitl [H0]; · iexact H0
      iexists _; iexact H1
    · rw [inv_castSucc V c t, invAt_later V c _ _ hz]
      iintro ⟨⟨⟨HA, HR⟩, Hg⟩, Ho, ⟨%d0, H0⟩, ⟨%d1, H1⟩⟩
      iapply ((runClear c (grid0.coords t) _ _ _ _ _ _ (clears_of t h0) (not_emits_of_first t h0) (blockAt V c 0 t)).2 _ Set.univ _)
      isplitl [H0]; · iexact H0
      isplitl [H1]; · iexact H1
      isplitl [HA]; · iexists _; iexact HA
      iintro ⟨H0, H1, ⟨%ea, HA⟩⟩
      isplitl [HA HR Hg]
      · isplitl [HA HR]
        · isplitl [HA]
          · unfold owns; iexists _; isplitr
            swap; · iexact HA
            ipureintro; exact View.read_writes_of_cover _ _ _ _ _ (clear_covers c _ _ _ _ _ _ _ _ _ _)
          iexact HR
        iexact Hg
      isplitl [Ho]; · iexact Ho
      isplitl [H0]; · iexact H0
      iexists _; iexact H1
  · have hz : t.val ≠ 0 := fun h => h0 (by rw [h])
    by_cases h3 : t.val % 4 = 3
    · rw [show (dat0 V c).leavesExact 1 t = owns (c : Thread nD τ) (outM t) fullShare ((dat0 V c).after 1 t) from by
        unfold Dat.leavesExact; rw [out_live t (emits_of t h3)], after_out]
      rw [stateAt_emit V c t h0 h3]
      unfold outEmitAt accEmitAt outEmit accEmit; (try dsimp only)
      rw [inv_castSucc V c t, invAt_later V c _ _ hz]
      iintro ⟨⟨⟨HA, HR⟩, Hg⟩, Ho, ⟨%d0, H0⟩, ⟨%d1, H1⟩⟩
      iapply ((runEmit c (grid0.coords t) _ _ _ _ _ _ (not_clears_of t h0) (emits_of t h3) (blockAt V c 0 t) _).2.2 Set.univ _)
      isplitl [H0]; · iexact H0
      isplitl [H1]; · iexists _; iexact H1
      isplitl [HA]; · iexact HA
      iintro ⟨H0, ⟨%eo, H1⟩, ⟨%ea, HA⟩⟩
      isplitl [HA HR Hg]
      · isplitl [HA HR]
        · isplitl [HA]
          · unfold owns; iexists _; isplitr
            swap; · iexact HA
            ipureintro; exact View.read_writes_of_cover _ _ _ _ _ (emit_covers_acc c _ _ _ _ _ _ _ _ _ _ _)
          iexact HR
        iexact Hg
      isplitl [Ho]; · iexact Ho
      isplitl [H0]; · iexact H0
      unfold owns; iexists _; isplitr
      swap; · iexact H1
      ipureintro; exact View.read_writes_of_cover _ _ _ _ _ (emit_covers_out c _ _ _ _ _ _ _ _ _ _ _)
    · rw [Dat.leavesExact_idle (dat0 V c) 1 t (out_idle t (not_emits_of t h3)) (out_kept t (not_emits_of t h3))]
      rw [stateAt_add V c t h0 h3]
      unfold accAddAt accAdd; (try dsimp only)
      rw [inv_castSucc V c t, invAt_later V c _ _ hz]
      iintro ⟨⟨⟨HA, HR⟩, Hg⟩, Ho, ⟨%d0, H0⟩, ⟨%d1, H1⟩⟩
      iapply ((runAdd c (grid0.coords t) _ _ _ _ _ _ (not_clears_of t h0) (not_emits_of t h3) (blockAt V c 0 t) _).2 _ Set.univ _)
      isplitl [H0]; · iexact H0
      isplitl [H1]; · iexact H1
      isplitl [HA]; · iexact HA
      iintro ⟨H0, H1, ⟨%ea, HA⟩⟩
      isplitl [HA HR Hg]
      · isplitl [HA HR]
        · isplitl [HA]
          · unfold owns; iexists _; isplitr
            swap; · iexact HA
            ipureintro; exact View.read_writes_of_cover _ _ _ _ _ (add_covers c _ _ _ _ _ _ _ _ _ _ _)
          iexact HR
        iexact Hg
      isplitl [Ho]; · iexact Ho
      isplitl [H0]; · iexact H0
      iexists _; iexact H1

/-- The library's body obligation, at every point. -/
theorem body_obligation0 (c : Dev nD) : BodyObligation (dat0 (F := F) V c) (defs₀ (F := F)) Variants.none () Set.univ := fun t => by
  rw [bigSep_W0, bigSep_W0]
  exact sound_body V c t

/-- What the launch hands the region is the invariant before the first point. -/
theorem hin0 (c : Dev nD) : Pipeline.ΦA spec0 c ⊢ (dat0 V c).Φ 0 := by
  rw [show (dat0 V c).Φ 0 = invAt V c 0 (Nat.zero_le _) from rfl, invAt_first V c 0 _ rfl]
  try exact Idealize.SL.BI.Entails.refl _

/-- After any point the invariant gives back what the launch provided: the accumulator's contents are forgotten. -/
theorem inv_forget (c : Dev nD) (t : Fin (cfg0.N + 1)) (ht : t.val ≠ 0) : (dat0 V c).Φ t ⊢ Pipeline.ΦA spec0 c := by
  rw [show (dat0 V c).Φ t = invAt V c t.val (Nat.le_of_lt_succ t.isLt) from rfl, invAt_later V c _ _ ht, entry_eq]
  iintro ⟨⟨HA, HR⟩, Hg⟩
  isplitl [HA HR]
  · isplitl [HA]
    · iexists _; iexact HA
    iexact HR
  iexact Hg

/-- In particular after the last point. -/
theorem hout0 (c : Dev nD) : (dat0 V c).Φ (Fin.last cfg0.N) ⊢ Pipeline.ΦA spec0 c :=
  inv_forget V c _ (by rw [Fin.val_last]; have : cfg0.N = 32 := N_0; omega)

end Cert.KernelIdeal.Deg

end
-- ==== Proof.GcnRuns.lean ====
/-
  Region 1 (the aggregation kernel) on the grid of 8 by 8 tiles: what its body's branches test, where its
  output tile is written, and the memory the body is handed at a point.

  At the point (i, k) the body clears the accumulator when k = 0, adds the product of the (i, k) tile of the
  adjacency matrix with the k-th band of the scaled features, adds that band itself when i = k (the self
  loop), and when k = 7 scales the accumulator by the row factors, multiplies by the weights and stores the
  activated result into the output tile of row band i.
-/
import proofs.«146386_j59150289601064_2_alg».proof.Proof.Gen.KernelIdeal.Launch
import proofs.«146386_j59150289601064_2_alg».proof.Proof.Gen.KernelIdeal.Skeleton
import proofs.«146386_j59150289601064_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Gcn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three tests of the body, from the grid coordinates -/

/-- The reduction coordinate is the first one: the accumulator is cleared. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- The tile lies on the diagonal: the self loop's term is added. -/
abbrev cond1_1 (i : grid1.Coords) : Prop := (Scalar.cmpi .ne (Scalar.extui (Scalar.cmpi .eq (BitVec.ofNat 32 (i 0).val) (BitVec.ofNat 32 (i 1).val))) 0#32) = 1#1
theorem hcond1_1 : ∀ t : Fin cfg1.N, cond1_1 (grid1.coords t) ↔ t.val / 8 = t.val % 8 :=
  (by decide +kernel : ∀ t : Fin grid1.N, cond1_1 (grid1.coords t) ↔ t.val / 8 = t.val % 8)

/-- The reduction coordinate is the last one: the output tile is computed and stored. -/
abbrev cond1_2 (i : grid1.Coords) : Prop := k1_cond3 i = 1#1
theorem hcond1_2 : ∀ t : Fin cfg1.N, cond1_2 (grid1.coords t) ↔ t.val % 8 = 7 :=
  (by decide +kernel : ∀ t : Fin grid1.N, cond1_2 (grid1.coords t) ↔ t.val % 8 = 7)

/-! ## Where the windows are live -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Away from the last reduction step nothing is stored into the output tile and it is not written back. -/
theorem idleAt1_5 : ∀ t : Fin cfg1.N, ¬cond1_2 (grid1.coords t) → cfg1.idle 5 (grid1.coords t) = true := by decide +kernel
theorem noFlush1_5 : ∀ t : Fin cfg1.N, ¬cond1_2 (grid1.coords t) → (cfg1.win 5).flush t = false := by decide +kernel
theorem liveAt1_5 : ∀ t : Fin cfg1.N, cond1_2 (grid1.coords t) → cfg1.idle 5 (grid1.coords t) = false := by decide +kernel

/-! ## The memory the body is handed at a point -/

abbrev VO1_5 : View sig .tc .vmem S1024x256 .f32 := (Memref.whole cc1_stg5_0 : Memref sig .tc .vmem S1024x256 .f32).view
abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x256 .f32 := win1_5.stage (cfg1.slots t 5)
abbrev hs1_5 (t : Fin cfg1.N) : (ms1_5 t).IsWhole := hstage1_5 ((cfg1.slots t 5).cast nbuf1_5)
/-- The accumulator: a whole scoped buffer of the kernel's own, carried from point to point. -/
abbrev scM1_0 : Memref sig .tc .vmem S1024x256 .f32 := Memref.whole cc1_scratch0
abbrev VS1_0 : View sig .tc .vmem S1024x256 .f32 := scM1_0.view

/-- The scoped buffers that are no staging buffer of this region, the accumulator last: what the region's
    invariant starts from, each at some contents, beside the generator register. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_scratch0), ((c : Thread nD τ).loc cc0_scratch0) ↦{fullShare} f) ∗ (∃ d, owns (c : Thread nD τ) scM1_0 fullShare d)) ∗ (∃ r, prngReg c r)) := by
  unfold Pipeline.ΦA; rw [scopedRest1_eq]; simp only [scM1_0, owns_whole]; try rfl

end Cert.KernelIdeal.Gcn

end
-- ==== Proof.GcnRunA.lean ====
/-
  The aggregation kernel's body run once, in the case of a first reduction step on the diagonal: the accumulator is cleared, the product and the self loop's band are added.
  The run is symbolic: the branches are decided by the case's hypotheses, and what the stores leave in the
  accumulator (and in the output tile, when it is stored) is found by the run as a list of written pieces.
-/
import proofs.«146386_j59150289601064_2_alg».proof.Proof.GcnRuns

set_option maxRecDepth 16384

noncomputable section

namespace Cert.KernelIdeal.Gcn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole staging buffers holding the five input tiles, the output tile's buffer handed back untouched,
    the accumulator at anything: it runs to the end, the inputs as they were, the accumulator with its pieces written. -/
noncomputable def runA (c : Dev nD) (i : grid1.Coords) (arg2 : Memref sig .tc .vmem S1024x1024 .f32) (harg2 : arg2.IsWhole) (arg3 : Memref sig .tc .vmem S8192x256 .f32) (harg3 : arg3.IsWhole) (arg4 : Memref sig .tc .vmem S256x256 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x256 .f32) (harg7 : arg7.IsWhole) (arg8 : Memref sig .tc .vmem S1024x256 .f32) (harg8 : arg8.IsWhole) (hc0 : cond1_0 i) (hc1 : cond1_1 i) (hc2 : ¬cond1_2 i)
    (x0 : Vec F S1024x1024 .f32) (x1 : Vec F S8192x256 .f32) (x2 : Vec F S256x256 .f32) (x3 : Vec F S1024x1 .f32) (x4 : Vec F S1024x1 .f32) :
    Σ' (L5 : List (View.Piece (Elt F) S1024x256 .f32)), { LS0 : List (View.Piece (Elt F) S1024x256 .f32) //
      ∀ (xi5 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1__gcn_kernel i arg2 harg2 arg3 harg3 arg4 harg4 arg5 harg5 arg6 harg6 arg7 harg7 arg8 harg8) K } := by
  refine ⟨[], ?_, fun xi5 E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.KernelIdeal.Gcn

end
-- ==== Proof.GcnRunB.lean ====
/-
  The aggregation kernel's body run once, in the case of a first reduction step off the diagonal: the accumulator is cleared and the product added.
  The run is symbolic: the branches are decided by the case's hypotheses, and what the stores leave in the
  accumulator (and in the output tile, when it is stored) is found by the run as a list of written pieces.
-/
import proofs.«146386_j59150289601064_2_alg».proof.Proof.GcnRunA

set_option maxRecDepth 16384

noncomputable section

namespace Cert.KernelIdeal.Gcn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole staging buffers holding the five input tiles, the output tile's buffer handed back untouched,
    the accumulator at anything: it runs to the end, the inputs as they were, the accumulator with its pieces written. -/
noncomputable def runB (c : Dev nD) (i : grid1.Coords) (arg2 : Memref sig .tc .vmem S1024x1024 .f32) (harg2 : arg2.IsWhole) (arg3 : Memref sig .tc .vmem S8192x256 .f32) (harg3 : arg3.IsWhole) (arg4 : Memref sig .tc .vmem S256x256 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x256 .f32) (harg7 : arg7.IsWhole) (arg8 : Memref sig .tc .vmem S1024x256 .f32) (harg8 : arg8.IsWhole) (hc0 : cond1_0 i) (hc1 : ¬cond1_1 i) (hc2 : ¬cond1_2 i)
    (x0 : Vec F S1024x1024 .f32) (x1 : Vec F S8192x256 .f32) (x2 : Vec F S256x256 .f32) (x3 : Vec F S1024x1 .f32) (x4 : Vec F S1024x1 .f32) :
    Σ' (L5 : List (View.Piece (Elt F) S1024x256 .f32)), { LS0 : List (View.Piece (Elt F) S1024x256 .f32) //
      ∀ (xi5 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1__gcn_kernel i arg2 harg2 arg3 harg3 arg4 harg4 arg5 harg5 arg6 harg6 arg7 harg7 arg8 harg8) K } := by
  refine ⟨[], ?_, fun xi5 E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.KernelIdeal.Gcn

end
-- ==== Proof.GcnRunC.lean ====
/-
  The aggregation kernel's body run once, in the case of a a middle reduction step on the diagonal: the product and the self loop's band are added.
  The run is symbolic: the branches are decided by the case's hypotheses, and what the stores leave in the
  accumulator (and in the output tile, when it is stored) is found by the run as a list of written pieces.
-/
import proofs.«146386_j59150289601064_2_alg».proof.Proof.GcnRunB

set_option maxRecDepth 16384

noncomputable section

namespace Cert.KernelIdeal.Gcn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole staging buffers holding the five input tiles, the output tile's buffer handed back untouched,
    the accumulator at what the point before left: it runs to the end, the inputs as they were, the accumulator with its pieces written. -/
noncomputable def runC (c : Dev nD) (i : grid1.Coords) (arg2 : Memref sig .tc .vmem S1024x1024 .f32) (harg2 : arg2.IsWhole) (arg3 : Memref sig .tc .vmem S8192x256 .f32) (harg3 : arg3.IsWhole) (arg4 : Memref sig .tc .vmem S256x256 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x256 .f32) (harg7 : arg7.IsWhole) (arg8 : Memref sig .tc .vmem S1024x256 .f32) (harg8 : arg8.IsWhole) (hc0 : ¬cond1_0 i) (hc1 : cond1_1 i) (hc2 : ¬cond1_2 i)
    (x0 : Vec F S1024x1024 .f32) (x1 : Vec F S8192x256 .f32) (x2 : Vec F S256x256 .f32) (x3 : Vec F S1024x1 .f32) (x4 : Vec F S1024x1 .f32) (xs0 : Vec F S1024x256 .f32) :
    Σ' (L5 : List (View.Piece (Elt F) S1024x256 .f32)), { LS0 : List (View.Piece (Elt F) S1024x256 .f32) //
      ∀ (xi5 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1__gcn_kernel i arg2 harg2 arg3 harg3 arg4 harg4 arg5 harg5 arg6 harg6 arg7 harg7 arg8 harg8) K } := by
  refine ⟨[], ?_, fun xi5 E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.KernelIdeal.Gcn

end
-- ==== Proof.GcnRunD.lean ====
/-
  The aggregation kernel's body run once, in the case of a a middle reduction step off the diagonal: the product is added.
  The run is symbolic: the branches are decided by the case's hypotheses, and what the stores leave in the
  accumulator (and in the output tile, when it is stored) is found by the run as a list of written pieces.
-/
import proofs.«146386_j59150289601064_2_alg».proof.Proof.GcnRunC

set_option maxRecDepth 16384

noncomputable section

namespace Cert.KernelIdeal.Gcn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole staging buffers holding the five input tiles, the output tile's buffer handed back untouched,
    the accumulator at what the point before left: it runs to the end, the inputs as they were, the accumulator with its pieces written. -/
noncomputable def runD (c : Dev nD) (i : grid1.Coords) (arg2 : Memref sig .tc .vmem S1024x1024 .f32) (harg2 : arg2.IsWhole) (arg3 : Memref sig .tc .vmem S8192x256 .f32) (harg3 : arg3.IsWhole) (arg4 : Memref sig .tc .vmem S256x256 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x256 .f32) (harg7 : arg7.IsWhole) (arg8 : Memref sig .tc .vmem S1024x256 .f32) (harg8 : arg8.IsWhole) (hc0 : ¬cond1_0 i) (hc1 : ¬cond1_1 i) (hc2 : ¬cond1_2 i)
    (x0 : Vec F S1024x1024 .f32) (x1 : Vec F S8192x256 .f32) (x2 : Vec F S256x256 .f32) (x3 : Vec F S1024x1 .f32) (x4 : Vec F S1024x1 .f32) (xs0 : Vec F S1024x256 .f32) :
    Σ' (L5 : List (View.Piece (Elt F) S1024x256 .f32)), { LS0 : List (View.Piece (Elt F) S1024x256 .f32) //
      ∀ (xi5 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1__gcn_kernel i arg2 harg2 arg3 harg3 arg4 harg4 arg5 harg5 arg6 harg6 arg7 harg7 arg8 harg8) K } := by
  refine ⟨[], ?_, fun xi5 E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.KernelIdeal.Gcn

end
-- ==== Proof.GcnRunE.lean ====
/-
  The aggregation kernel's body run once, in the case of a last reduction step on the diagonal: product and band added, then the output tile computed and stored.
  The run is symbolic: the branches are decided by the case's hypotheses, and what the stores leave in the
  accumulator (and in the output tile, when it is stored) is found by the run as a list of written pieces.
-/
import proofs.«146386_j59150289601064_2_alg».proof.Proof.GcnRunD

set_option maxRecDepth 16384

noncomputable section

namespace Cert.KernelIdeal.Gcn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole staging buffers holding the five input tiles, the output tile's buffer at anything,
    the accumulator at what the point before left: it runs to the end, the inputs as they were, the accumulator with its pieces written, the output tile with its pieces written. -/
noncomputable def runE (c : Dev nD) (i : grid1.Coords) (arg2 : Memref sig .tc .vmem S1024x1024 .f32) (harg2 : arg2.IsWhole) (arg3 : Memref sig .tc .vmem S8192x256 .f32) (harg3 : arg3.IsWhole) (arg4 : Memref sig .tc .vmem S256x256 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x256 .f32) (harg7 : arg7.IsWhole) (arg8 : Memref sig .tc .vmem S1024x256 .f32) (harg8 : arg8.IsWhole) (hc0 : ¬cond1_0 i) (hc1 : cond1_1 i) (hc2 : cond1_2 i)
    (x0 : Vec F S1024x1024 .f32) (x1 : Vec F S8192x256 .f32) (x2 : Vec F S256x256 .f32) (x3 : Vec F S1024x1 .f32) (x4 : Vec F S1024x1 .f32) (xs0 : Vec F S1024x256 .f32) :
    Σ' (L5 : List (View.Piece (Elt F) S1024x256 .f32)), { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc1__gcn_kernel i arg2 harg2 arg3 harg3 arg4 harg4 arg5 harg5 arg6 harg6 arg7 harg7 arg8 harg8) K } := by
  refine ⟨?_, ?_, fun E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.KernelIdeal.Gcn

end
-- ==== Proof.GcnRunF.lean ====
/-
  The aggregation kernel's body run once, in the case of a last reduction step off the diagonal: product added, then the output tile computed and stored.
  The run is symbolic: the branches are decided by the case's hypotheses, and what the stores leave in the
  accumulator (and in the output tile, when it is stored) is found by the run as a list of written pieces.
-/
import proofs.«146386_j59150289601064_2_alg».proof.Proof.GcnRunE

set_option maxRecDepth 16384

noncomputable section

namespace Cert.KernelIdeal.Gcn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole staging buffers holding the five input tiles, the output tile's buffer at anything,
    the accumulator at what the point before left: it runs to the end, the inputs as they were, the accumulator with its pieces written, the output tile with its pieces written. -/
noncomputable def runF (c : Dev nD) (i : grid1.Coords) (arg2 : Memref sig .tc .vmem S1024x1024 .f32) (harg2 : arg2.IsWhole) (arg3 : Memref sig .tc .vmem S8192x256 .f32) (harg3 : arg3.IsWhole) (arg4 : Memref sig .tc .vmem S256x256 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x256 .f32) (harg7 : arg7.IsWhole) (arg8 : Memref sig .tc .vmem S1024x256 .f32) (harg8 : arg8.IsWhole) (hc0 : ¬cond1_0 i) (hc1 : ¬cond1_1 i) (hc2 : cond1_2 i)
    (x0 : Vec F S1024x1024 .f32) (x1 : Vec F S8192x256 .f32) (x2 : Vec F S256x256 .f32) (x3 : Vec F S1024x1 .f32) (x4 : Vec F S1024x1 .f32) (xs0 : Vec F S1024x256 .f32) :
    Σ' (L5 : List (View.Piece (Elt F) S1024x256 .f32)), { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc1__gcn_kernel i arg2 harg2 arg3 harg3 arg4 harg4 arg5 harg5 arg6 harg6 arg7 harg7 arg8 harg8) K } := by
  refine ⟨?_, ?_, fun E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.KernelIdeal.Gcn

end
-- ==== Proof.GcnData.lean ====
/-
  Region 1, point by point: what the accumulator and the output tile hold after the body at each point of the
  grid, and the region's invariant — the accumulator at those contents between points.
-/
import proofs.«146386_j59150289601064_2_alg».proof.Proof.GcnRunF

set_option maxRecDepth 16384

noncomputable section

namespace Cert.KernelIdeal.Gcn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The pieces the run of case A leaves in the accumulator tile it: they cover it. -/
theorem scoverA (c : Dev nD) (i : grid1.Coords) (arg2 : Memref sig .tc .vmem S1024x1024 .f32) (harg2 : arg2.IsWhole) (arg3 : Memref sig .tc .vmem S8192x256 .f32) (harg3 : arg3.IsWhole) (arg4 : Memref sig .tc .vmem S256x256 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x256 .f32) (harg7 : arg7.IsWhole) (arg8 : Memref sig .tc .vmem S1024x256 .f32) (harg8 : arg8.IsWhole) (hc0 : cond1_0 i) (hc1 : cond1_1 i) (hc2 : ¬cond1_2 i)
    (x0 : Vec F S1024x1024 .f32) (x1 : Vec F S8192x256 .f32) (x2 : Vec F S256x256 .f32) (x3 : Vec F S1024x1 .f32) (x4 : Vec F S1024x1 .f32) (y : S1024x256.Idx) :
    ∃ pc ∈ (runA c i arg2 harg2 arg3 harg3 arg4 harg4 arg5 harg5 arg6 harg6 arg7 harg7 arg8 harg8 hc0 hc1 hc2 x0 x1 x2 x3 x4).2.1, y ∈ pc.1.set :=
  View.cover_of_tiledL (runA c i arg2 harg2 arg3 harg3 arg4 harg4 arg5 harg5 arg6 harg6 arg7 harg7 arg8 harg8 hc0 hc1 hc2 x0 x1 x2 x3 x4).2.1 S1024x256.size (by sl_kernel_rfl) y

/-- What case A leaves in the accumulator: its pieces read back. -/
def soutA (c : Dev nD) (i : grid1.Coords) (arg2 : Memref sig .tc .vmem S1024x1024 .f32) (harg2 : arg2.IsWhole) (arg3 : Memref sig .tc .vmem S8192x256 .f32) (harg3 : arg3.IsWhole) (arg4 : Memref sig .tc .vmem S256x256 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x256 .f32) (harg7 : arg7.IsWhole) (arg8 : Memref sig .tc .vmem S1024x256 .f32) (harg8 : arg8.IsWhole) (hc0 : cond1_0 i) (hc1 : cond1_1 i) (hc2 : ¬cond1_2 i)
    (x0 : Vec F S1024x1024 .f32) (x1 : Vec F S8192x256 .f32) (x2 : Vec F S256x256 .f32) (x3 : Vec F S1024x1 .f32) (x4 : Vec F S1024x1 .f32) : Vec F S1024x256 .f32 :=
  VS1_0.read (Elt F) (VS1_0.writes (Elt F) VS1_0.junk (runA c i arg2 harg2 arg3 harg3 arg4 harg4 arg5 harg5 arg6 harg6 arg7 harg7 arg8 harg8 hc0 hc1 hc2 x0 x1 x2 x3 x4).2.1)

/-- The pieces the run of case B leaves in the accumulator tile it: they cover it. -/
theorem scoverB (c : Dev nD) (i : grid1.Coords) (arg2 : Memref sig .tc .vmem S1024x1024 .f32) (harg2 : arg2.IsWhole) (arg3 : Memref sig .tc .vmem S8192x256 .f32) (harg3 : arg3.IsWhole) (arg4 : Memref sig .tc .vmem S256x256 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x256 .f32) (harg7 : arg7.IsWhole) (arg8 : Memref sig .tc .vmem S1024x256 .f32) (harg8 : arg8.IsWhole) (hc0 : cond1_0 i) (hc1 : ¬cond1_1 i) (hc2 : ¬cond1_2 i)
    (x0 : Vec F S1024x1024 .f32) (x1 : Vec F S8192x256 .f32) (x2 : Vec F S256x256 .f32) (x3 : Vec F S1024x1 .f32) (x4 : Vec F S1024x1 .f32) (y : S1024x256.Idx) :
    ∃ pc ∈ (runB c i arg2 harg2 arg3 harg3 arg4 harg4 arg5 harg5 arg6 harg6 arg7 harg7 arg8 harg8 hc0 hc1 hc2 x0 x1 x2 x3 x4).2.1, y ∈ pc.1.set :=
  View.cover_of_tiledL (runB c i arg2 harg2 arg3 harg3 arg4 harg4 arg5 harg5 arg6 harg6 arg7 harg7 arg8 harg8 hc0 hc1 hc2 x0 x1 x2 x3 x4).2.1 S1024x256.size (by sl_kernel_rfl) y

/-- What case B leaves in the accumulator: its pieces read back. -/
def soutB (c : Dev nD) (i : grid1.Coords) (arg2 : Memref sig .tc .vmem S1024x1024 .f32) (harg2 : arg2.IsWhole) (arg3 : Memref sig .tc .vmem S8192x256 .f32) (harg3 : arg3.IsWhole) (arg4 : Memref sig .tc .vmem S256x256 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x256 .f32) (harg7 : arg7.IsWhole) (arg8 : Memref sig .tc .vmem S1024x256 .f32) (harg8 : arg8.IsWhole) (hc0 : cond1_0 i) (hc1 : ¬cond1_1 i) (hc2 : ¬cond1_2 i)
    (x0 : Vec F S1024x1024 .f32) (x1 : Vec F S8192x256 .f32) (x2 : Vec F S256x256 .f32) (x3 : Vec F S1024x1 .f32) (x4 : Vec F S1024x1 .f32) : Vec F S1024x256 .f32 :=
  VS1_0.read (Elt F) (VS1_0.writes (Elt F) VS1_0.junk (runB c i arg2 harg2 arg3 harg3 arg4 harg4 arg5 harg5 arg6 harg6 arg7 harg7 arg8 harg8 hc0 hc1 hc2 x0 x1 x2 x3 x4).2.1)

/-- The pieces the run of case C leaves in the accumulator tile it: they cover it. -/
theorem scoverC (c : Dev nD) (i : grid1.Coords) (arg2 : Memref sig .tc .vmem S1024x1024 .f32) (harg2 : arg2.IsWhole) (arg3 : Memref sig .tc .vmem S8192x256 .f32) (harg3 : arg3.IsWhole) (arg4 : Memref sig .tc .vmem S256x256 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x256 .f32) (harg7 : arg7.IsWhole) (arg8 : Memref sig .tc .vmem S1024x256 .f32) (harg8 : arg8.IsWhole) (hc0 : ¬cond1_0 i) (hc1 : cond1_1 i) (hc2 : ¬cond1_2 i)
    (x0 : Vec F S1024x1024 .f32) (x1 : Vec F S8192x256 .f32) (x2 : Vec F S256x256 .f32) (x3 : Vec F S1024x1 .f32) (x4 : Vec F S1024x1 .f32) (xs0 : Vec F S1024x256 .f32) (y : S1024x256.Idx) :
    ∃ pc ∈ (runC c i arg2 harg2 arg3 harg3 arg4 harg4 arg5 harg5 arg6 harg6 arg7 harg7 arg8 harg8 hc0 hc1 hc2 x0 x1 x2 x3 x4 xs0).2.1, y ∈ pc.1.set :=
  View.cover_of_tiledL (runC c i arg2 harg2 arg3 harg3 arg4 harg4 arg5 harg5 arg6 harg6 arg7 harg7 arg8 harg8 hc0 hc1 hc2 x0 x1 x2 x3 x4 xs0).2.1 S1024x256.size (by sl_kernel_rfl) y

/-- What case C leaves in the accumulator: its pieces read back. -/
def soutC (c : Dev nD) (i : grid1.Coords) (arg2 : Memref sig .tc .vmem S1024x1024 .f32) (harg2 : arg2.IsWhole) (arg3 : Memref sig .tc .vmem S8192x256 .f32) (harg3 : arg3.IsWhole) (arg4 : Memref sig .tc .vmem S256x256 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x256 .f32) (harg7 : arg7.IsWhole) (arg8 : Memref sig .tc .vmem S1024x256 .f32) (harg8 : arg8.IsWhole) (hc0 : ¬cond1_0 i) (hc1 : cond1_1 i) (hc2 : ¬cond1_2 i)
    (x0 : Vec F S1024x1024 .f32) (x1 : Vec F S8192x256 .f32) (x2 : Vec F S256x256 .f32) (x3 : Vec F S1024x1 .f32) (x4 : Vec F S1024x1 .f32) (xs0 : Vec F S1024x256 .f32) : Vec F S1024x256 .f32 :=
  VS1_0.read (Elt F) (VS1_0.writes (Elt F) VS1_0.junk (runC c i arg2 harg2 arg3 harg3 arg4 harg4 arg5 harg5 arg6 harg6 arg7 harg7 arg8 harg8 hc0 hc1 hc2 x0 x1 x2 x3 x4 xs0).2.1)

/-- The pieces the run of case D leaves in the accumulator tile it: they cover it. -/
theorem scoverD (c : Dev nD) (i : grid1.Coords) (arg2 : Memref sig .tc .vmem S1024x1024 .f32) (harg2 : arg2.IsWhole) (arg3 : Memref sig .tc .vmem S8192x256 .f32) (harg3 : arg3.IsWhole) (arg4 : Memref sig .tc .vmem S256x256 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x256 .f32) (harg7 : arg7.IsWhole) (arg8 : Memref sig .tc .vmem S1024x256 .f32) (harg8 : arg8.IsWhole) (hc0 : ¬cond1_0 i) (hc1 : ¬cond1_1 i) (hc2 : ¬cond1_2 i)
    (x0 : Vec F S1024x1024 .f32) (x1 : Vec F S8192x256 .f32) (x2 : Vec F S256x256 .f32) (x3 : Vec F S1024x1 .f32) (x4 : Vec F S1024x1 .f32) (xs0 : Vec F S1024x256 .f32) (y : S1024x256.Idx) :
    ∃ pc ∈ (runD c i arg2 harg2 arg3 harg3 arg4 harg4 arg5 harg5 arg6 harg6 arg7 harg7 arg8 harg8 hc0 hc1 hc2 x0 x1 x2 x3 x4 xs0).2.1, y ∈ pc.1.set :=
  View.cover_of_tiledL (runD c i arg2 harg2 arg3 harg3 arg4 harg4 arg5 harg5 arg6 harg6 arg7 harg7 arg8 harg8 hc0 hc1 hc2 x0 x1 x2 x3 x4 xs0).2.1 S1024x256.size (by sl_kernel_rfl) y

/-- What case D leaves in the accumulator: its pieces read back. -/
def soutD (c : Dev nD) (i : grid1.Coords) (arg2 : Memref sig .tc .vmem S1024x1024 .f32) (harg2 : arg2.IsWhole) (arg3 : Memref sig .tc .vmem S8192x256 .f32) (harg3 : arg3.IsWhole) (arg4 : Memref sig .tc .vmem S256x256 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x256 .f32) (harg7 : arg7.IsWhole) (arg8 : Memref sig .tc .vmem S1024x256 .f32) (harg8 : arg8.IsWhole) (hc0 : ¬cond1_0 i) (hc1 : ¬cond1_1 i) (hc2 : ¬cond1_2 i)
    (x0 : Vec F S1024x1024 .f32) (x1 : Vec F S8192x256 .f32) (x2 : Vec F S256x256 .f32) (x3 : Vec F S1024x1 .f32) (x4 : Vec F S1024x1 .f32) (xs0 : Vec F S1024x256 .f32) : Vec F S1024x256 .f32 :=
  VS1_0.read (Elt F) (VS1_0.writes (Elt F) VS1_0.junk (runD c i arg2 harg2 arg3 harg3 arg4 harg4 arg5 harg5 arg6 harg6 arg7 harg7 arg8 harg8 hc0 hc1 hc2 x0 x1 x2 x3 x4 xs0).2.1)

/-- The pieces the run of case E leaves in the accumulator tile it: they cover it. -/
theorem scoverE (c : Dev nD) (i : grid1.Coords) (arg2 : Memref sig .tc .vmem S1024x1024 .f32) (harg2 : arg2.IsWhole) (arg3 : Memref sig .tc .vmem S8192x256 .f32) (harg3 : arg3.IsWhole) (arg4 : Memref sig .tc .vmem S256x256 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x256 .f32) (harg7 : arg7.IsWhole) (arg8 : Memref sig .tc .vmem S1024x256 .f32) (harg8 : arg8.IsWhole) (hc0 : ¬cond1_0 i) (hc1 : cond1_1 i) (hc2 : cond1_2 i)
    (x0 : Vec F S1024x1024 .f32) (x1 : Vec F S8192x256 .f32) (x2 : Vec F S256x256 .f32) (x3 : Vec F S1024x1 .f32) (x4 : Vec F S1024x1 .f32) (xs0 : Vec F S1024x256 .f32) (y : S1024x256.Idx) :
    ∃ pc ∈ (runE c i arg2 harg2 arg3 harg3 arg4 harg4 arg5 harg5 arg6 harg6 arg7 harg7 arg8 harg8 hc0 hc1 hc2 x0 x1 x2 x3 x4 xs0).2.1, y ∈ pc.1.set :=
  View.cover_of_tiledL (runE c i arg2 harg2 arg3 harg3 arg4 harg4 arg5 harg5 arg6 harg6 arg7 harg7 arg8 harg8 hc0 hc1 hc2 x0 x1 x2 x3 x4 xs0).2.1 S1024x256.size (by sl_kernel_rfl) y

/-- What case E leaves in the accumulator: its pieces read back. -/
def soutE (c : Dev nD) (i : grid1.Coords) (arg2 : Memref sig .tc .vmem S1024x1024 .f32) (harg2 : arg2.IsWhole) (arg3 : Memref sig .tc .vmem S8192x256 .f32) (harg3 : arg3.IsWhole) (arg4 : Memref sig .tc .vmem S256x256 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x256 .f32) (harg7 : arg7.IsWhole) (arg8 : Memref sig .tc .vmem S1024x256 .f32) (harg8 : arg8.IsWhole) (hc0 : ¬cond1_0 i) (hc1 : cond1_1 i) (hc2 : cond1_2 i)
    (x0 : Vec F S1024x1024 .f32) (x1 : Vec F S8192x256 .f32) (x2 : Vec F S256x256 .f32) (x3 : Vec F S1024x1 .f32) (x4 : Vec F S1024x1 .f32) (xs0 : Vec F S1024x256 .f32) : Vec F S1024x256 .f32 :=
  VS1_0.read (Elt F) (VS1_0.writes (Elt F) VS1_0.junk (runE c i arg2 harg2 arg3 harg3 arg4 harg4 arg5 harg5 arg6 harg6 arg7 harg7 arg8 harg8 hc0 hc1 hc2 x0 x1 x2 x3 x4 xs0).2.1)

/-- The pieces the run of case E leaves in the output tile cover it. -/
theorem coverE (c : Dev nD) (i : grid1.Coords) (arg2 : Memref sig .tc .vmem S1024x1024 .f32) (harg2 : arg2.IsWhole) (arg3 : Memref sig .tc .vmem S8192x256 .f32) (harg3 : arg3.IsWhole) (arg4 : Memref sig .tc .vmem S256x256 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x256 .f32) (harg7 : arg7.IsWhole) (arg8 : Memref sig .tc .vmem S1024x256 .f32) (harg8 : arg8.IsWhole) (hc0 : ¬cond1_0 i) (hc1 : cond1_1 i) (hc2 : cond1_2 i)
    (x0 : Vec F S1024x1024 .f32) (x1 : Vec F S8192x256 .f32) (x2 : Vec F S256x256 .f32) (x3 : Vec F S1024x1 .f32) (x4 : Vec F S1024x1 .f32) (xs0 : Vec F S1024x256 .f32) (y : S1024x256.Idx) :
    ∃ pc ∈ (runE c i arg2 harg2 arg3 harg3 arg4 harg4 arg5 harg5 arg6 harg6 arg7 harg7 arg8 harg8 hc0 hc1 hc2 x0 x1 x2 x3 x4 xs0).1, y ∈ pc.1.set :=
  View.cover_of_tiledL (runE c i arg2 harg2 arg3 harg3 arg4 harg4 arg5 harg5 arg6 harg6 arg7 harg7 arg8 harg8 hc0 hc1 hc2 x0 x1 x2 x3 x4 xs0).1 S1024x256.size (by sl_kernel_rfl) y

/-- What case E leaves in the output tile: its pieces read back. -/
def outE (c : Dev nD) (i : grid1.Coords) (arg2 : Memref sig .tc .vmem S1024x1024 .f32) (harg2 : arg2.IsWhole) (arg3 : Memref sig .tc .vmem S8192x256 .f32) (harg3 : arg3.IsWhole) (arg4 : Memref sig .tc .vmem S256x256 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x256 .f32) (harg7 : arg7.IsWhole) (arg8 : Memref sig .tc .vmem S1024x256 .f32) (harg8 : arg8.IsWhole) (hc0 : ¬cond1_0 i) (hc1 : cond1_1 i) (hc2 : cond1_2 i)
    (x0 : Vec F S1024x1024 .f32) (x1 : Vec F S8192x256 .f32) (x2 : Vec F S256x256 .f32) (x3 : Vec F S1024x1 .f32) (x4 : Vec F S1024x1 .f32) (xs0 : Vec F S1024x256 .f32) : Vec F S1024x256 .f32 :=
  VO1_5.read (Elt F) (VO1_5.writes (Elt F) VO1_5.junk (runE c i arg2 harg2 arg3 harg3 arg4 harg4 arg5 harg5 arg6 harg6 arg7 harg7 arg8 harg8 hc0 hc1 hc2 x0 x1 x2 x3 x4 xs0).1)

/-- The pieces the run of case F leaves in the accumulator tile it: they cover it. -/
theorem scoverF (c : Dev nD) (i : grid1.Coords) (arg2 : Memref sig .tc .vmem S1024x1024 .f32) (harg2 : arg2.IsWhole) (arg3 : Memref sig .tc .vmem S8192x256 .f32) (harg3 : arg3.IsWhole) (arg4 : Memref sig .tc .vmem S256x256 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x256 .f32) (harg7 : arg7.IsWhole) (arg8 : Memref sig .tc .vmem S1024x256 .f32) (harg8 : arg8.IsWhole) (hc0 : ¬cond1_0 i) (hc1 : ¬cond1_1 i) (hc2 : cond1_2 i)
    (x0 : Vec F S1024x1024 .f32) (x1 : Vec F S8192x256 .f32) (x2 : Vec F S256x256 .f32) (x3 : Vec F S1024x1 .f32) (x4 : Vec F S1024x1 .f32) (xs0 : Vec F S1024x256 .f32) (y : S1024x256.Idx) :
    ∃ pc ∈ (runF c i arg2 harg2 arg3 harg3 arg4 harg4 arg5 harg5 arg6 harg6 arg7 harg7 arg8 harg8 hc0 hc1 hc2 x0 x1 x2 x3 x4 xs0).2.1, y ∈ pc.1.set :=
  View.cover_of_tiledL (runF c i arg2 harg2 arg3 harg3 arg4 harg4 arg5 harg5 arg6 harg6 arg7 harg7 arg8 harg8 hc0 hc1 hc2 x0 x1 x2 x3 x4 xs0).2.1 S1024x256.size (by sl_kernel_rfl) y

/-- What case F leaves in the accumulator: its pieces read back. -/
def soutF (c : Dev nD) (i : grid1.Coords) (arg2 : Memref sig .tc .vmem S1024x1024 .f32) (harg2 : arg2.IsWhole) (arg3 : Memref sig .tc .vmem S8192x256 .f32) (harg3 : arg3.IsWhole) (arg4 : Memref sig .tc .vmem S256x256 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x256 .f32) (harg7 : arg7.IsWhole) (arg8 : Memref sig .tc .vmem S1024x256 .f32) (harg8 : arg8.IsWhole) (hc0 : ¬cond1_0 i) (hc1 : ¬cond1_1 i) (hc2 : cond1_2 i)
    (x0 : Vec F S1024x1024 .f32) (x1 : Vec F S8192x256 .f32) (x2 : Vec F S256x256 .f32) (x3 : Vec F S1024x1 .f32) (x4 : Vec F S1024x1 .f32) (xs0 : Vec F S1024x256 .f32) : Vec F S1024x256 .f32 :=
  VS1_0.read (Elt F) (VS1_0.writes (Elt F) VS1_0.junk (runF c i arg2 harg2 arg3 harg3 arg4 harg4 arg5 harg5 arg6 harg6 arg7 harg7 arg8 harg8 hc0 hc1 hc2 x0 x1 x2 x3 x4 xs0).2.1)

/-- The pieces the run of case F leaves in the output tile cover it. -/
theorem coverF (c : Dev nD) (i : grid1.Coords) (arg2 : Memref sig .tc .vmem S1024x1024 .f32) (harg2 : arg2.IsWhole) (arg3 : Memref sig .tc .vmem S8192x256 .f32) (harg3 : arg3.IsWhole) (arg4 : Memref sig .tc .vmem S256x256 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x256 .f32) (harg7 : arg7.IsWhole) (arg8 : Memref sig .tc .vmem S1024x256 .f32) (harg8 : arg8.IsWhole) (hc0 : ¬cond1_0 i) (hc1 : ¬cond1_1 i) (hc2 : cond1_2 i)
    (x0 : Vec F S1024x1024 .f32) (x1 : Vec F S8192x256 .f32) (x2 : Vec F S256x256 .f32) (x3 : Vec F S1024x1 .f32) (x4 : Vec F S1024x1 .f32) (xs0 : Vec F S1024x256 .f32) (y : S1024x256.Idx) :
    ∃ pc ∈ (runF c i arg2 harg2 arg3 harg3 arg4 harg4 arg5 harg5 arg6 harg6 arg7 harg7 arg8 harg8 hc0 hc1 hc2 x0 x1 x2 x3 x4 xs0).1, y ∈ pc.1.set :=
  View.cover_of_tiledL (runF c i arg2 harg2 arg3 harg3 arg4 harg4 arg5 harg5 arg6 harg6 arg7 harg7 arg8 harg8 hc0 hc1 hc2 x0 x1 x2 x3 x4 xs0).1 S1024x256.size (by sl_kernel_rfl) y

/-- What case F leaves in the output tile: its pieces read back. -/
def outF (c : Dev nD) (i : grid1.Coords) (arg2 : Memref sig .tc .vmem S1024x1024 .f32) (harg2 : arg2.IsWhole) (arg3 : Memref sig .tc .vmem S8192x256 .f32) (harg3 : arg3.IsWhole) (arg4 : Memref sig .tc .vmem S256x256 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x256 .f32) (harg7 : arg7.IsWhole) (arg8 : Memref sig .tc .vmem S1024x256 .f32) (harg8 : arg8.IsWhole) (hc0 : ¬cond1_0 i) (hc1 : ¬cond1_1 i) (hc2 : cond1_2 i)
    (x0 : Vec F S1024x1024 .f32) (x1 : Vec F S8192x256 .f32) (x2 : Vec F S256x256 .f32) (x3 : Vec F S1024x1 .f32) (x4 : Vec F S1024x1 .f32) (xs0 : Vec F S1024x256 .f32) : Vec F S1024x256 .f32 :=
  VO1_5.read (Elt F) (VO1_5.writes (Elt F) VO1_5.junk (runF c i arg2 harg2 arg3 harg3 arg4 harg4 arg5 harg5 arg6 harg6 arg7 harg7 arg8 harg8 hc0 hc1 hc2 x0 x1 x2 x3 x4 xs0).1)

/-! ## The input tiles at a point -/

-- the region-entry contents of the buffers (what the region's windows read)
variable (V : (c : Dev nD) → (b : Ref sig .tc) → Buf (Elt F) ((c : Thread nD τ).loc b))

/-- Window `w`'s tile at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The contents of the output tile's buffer at a point that stores nothing into it: never read. -/
def outIdle : Vec F S1024x256 .f32 := VO1_5.read (Elt F) VO1_5.junk

/-- Case A's accumulator contents at point `t`, on the point's buffers and input tiles. -/
abbrev soutAtA (c : Dev nD) (t : Fin cfg1.N) (hc0 : cond1_0 (grid1.coords t)) (hc1 : cond1_1 (grid1.coords t)) (hc2 : ¬cond1_2 (grid1.coords t)) : Vec F S1024x256 .f32 :=
  soutA c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) hc0 hc1 hc2 (iblk1 V c 0 t) (iblk1 V c 1 t) (iblk1 V c 2 t) (iblk1 V c 3 t) (iblk1 V c 4 t)

/-- Case B's accumulator contents at point `t`, on the point's buffers and input tiles. -/
abbrev soutAtB (c : Dev nD) (t : Fin cfg1.N) (hc0 : cond1_0 (grid1.coords t)) (hc1 : ¬cond1_1 (grid1.coords t)) (hc2 : ¬cond1_2 (grid1.coords t)) : Vec F S1024x256 .f32 :=
  soutB c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) hc0 hc1 hc2 (iblk1 V c 0 t) (iblk1 V c 1 t) (iblk1 V c 2 t) (iblk1 V c 3 t) (iblk1 V c 4 t)

/-- Case C's accumulator contents at point `t`, on the point's buffers and input tiles. -/
abbrev soutAtC (c : Dev nD) (t : Fin cfg1.N) (hc0 : ¬cond1_0 (grid1.coords t)) (hc1 : cond1_1 (grid1.coords t)) (hc2 : ¬cond1_2 (grid1.coords t)) (xs0 : Vec F S1024x256 .f32) : Vec F S1024x256 .f32 :=
  soutC c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) hc0 hc1 hc2 (iblk1 V c 0 t) (iblk1 V c 1 t) (iblk1 V c 2 t) (iblk1 V c 3 t) (iblk1 V c 4 t) xs0

/-- Case D's accumulator contents at point `t`, on the point's buffers and input tiles. -/
abbrev soutAtD (c : Dev nD) (t : Fin cfg1.N) (hc0 : ¬cond1_0 (grid1.coords t)) (hc1 : ¬cond1_1 (grid1.coords t)) (hc2 : ¬cond1_2 (grid1.coords t)) (xs0 : Vec F S1024x256 .f32) : Vec F S1024x256 .f32 :=
  soutD c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) hc0 hc1 hc2 (iblk1 V c 0 t) (iblk1 V c 1 t) (iblk1 V c 2 t) (iblk1 V c 3 t) (iblk1 V c 4 t) xs0

/-- Case E's accumulator contents at point `t`, on the point's buffers and input tiles. -/
abbrev soutAtE (c : Dev nD) (t : Fin cfg1.N) (hc0 : ¬cond1_0 (grid1.coords t)) (hc1 : cond1_1 (grid1.coords t)) (hc2 : cond1_2 (grid1.coords t)) (xs0 : Vec F S1024x256 .f32) : Vec F S1024x256 .f32 :=
  soutE c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) hc0 hc1 hc2 (iblk1 V c 0 t) (iblk1 V c 1 t) (iblk1 V c 2 t) (iblk1 V c 3 t) (iblk1 V c 4 t) xs0
/-- Case E's output tile at point `t`. -/
abbrev outAtE (c : Dev nD) (t : Fin cfg1.N) (hc0 : ¬cond1_0 (grid1.coords t)) (hc1 : cond1_1 (grid1.coords t)) (hc2 : cond1_2 (grid1.coords t)) (xs0 : Vec F S1024x256 .f32) : Vec F S1024x256 .f32 :=
  outE c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) hc0 hc1 hc2 (iblk1 V c 0 t) (iblk1 V c 1 t) (iblk1 V c 2 t) (iblk1 V c 3 t) (iblk1 V c 4 t) xs0

/-- Case F's accumulator contents at point `t`, on the point's buffers and input tiles. -/
abbrev soutAtF (c : Dev nD) (t : Fin cfg1.N) (hc0 : ¬cond1_0 (grid1.coords t)) (hc1 : ¬cond1_1 (grid1.coords t)) (hc2 : cond1_2 (grid1.coords t)) (xs0 : Vec F S1024x256 .f32) : Vec F S1024x256 .f32 :=
  soutF c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) hc0 hc1 hc2 (iblk1 V c 0 t) (iblk1 V c 1 t) (iblk1 V c 2 t) (iblk1 V c 3 t) (iblk1 V c 4 t) xs0
/-- Case F's output tile at point `t`. -/
abbrev outAtF (c : Dev nD) (t : Fin cfg1.N) (hc0 : ¬cond1_0 (grid1.coords t)) (hc1 : ¬cond1_1 (grid1.coords t)) (hc2 : cond1_2 (grid1.coords t)) (xs0 : Vec F S1024x256 .f32) : Vec F S1024x256 .f32 :=
  outF c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) hc0 hc1 hc2 (iblk1 V c 0 t) (iblk1 V c 1 t) (iblk1 V c 2 t) (iblk1 V c 3 t) (iblk1 V c 4 t) xs0

/-! ## What the accumulator and the output tile hold after each point -/

/-- After the body at position `n`: (the output tile's buffer, the accumulator). The case is decided by the
    position: the reduction coordinate is `n % 8`, the row band `n / 8`; an accumulator that is not cleared
    takes what the position before left. -/
def outsAt1 (c : Dev nD) : (n : ℕ) → n < cfg1.N → Vec F S1024x256 .f32 × Vec F S1024x256 .f32
  | 0, hn => (outIdle, soutAtA V c ⟨0, hn⟩ ((hcond1_0 ⟨0, hn⟩).mpr (Nat.zero_mod _)) ((hcond1_1 ⟨0, hn⟩).mpr (by simp)) (fun h => (fun h => by (try dsimp only at h); omega) ((hcond1_2 ⟨0, hn⟩).mp h)))
  | n + 1, hn =>
    if h0 : (n + 1) % 8 = 0 then
      (outIdle, soutAtB V c ⟨n + 1, hn⟩ ((hcond1_0 ⟨n + 1, hn⟩).mpr h0) (fun h => (fun h => by (try dsimp only at h); omega) ((hcond1_1 ⟨n + 1, hn⟩).mp h)) (fun h => (fun h => by (try dsimp only at h); omega) ((hcond1_2 ⟨n + 1, hn⟩).mp h)))
    else if h2 : (n + 1) % 8 = 7 then
      if h1 : (n + 1) / 8 = (n + 1) % 8 then
        (outAtE V c ⟨n + 1, hn⟩ (fun h => h0 ((hcond1_0 ⟨n + 1, hn⟩).mp h)) ((hcond1_1 ⟨n + 1, hn⟩).mpr h1) ((hcond1_2 ⟨n + 1, hn⟩).mpr h2) (outsAt1 c n (Nat.lt_of_succ_lt hn)).2,
         soutAtE V c ⟨n + 1, hn⟩ (fun h => h0 ((hcond1_0 ⟨n + 1, hn⟩).mp h)) ((hcond1_1 ⟨n + 1, hn⟩).mpr h1) ((hcond1_2 ⟨n + 1, hn⟩).mpr h2) (outsAt1 c n (Nat.lt_of_succ_lt hn)).2)
      else
        (outAtF V c ⟨n + 1, hn⟩ (fun h => h0 ((hcond1_0 ⟨n + 1, hn⟩).mp h)) (fun h => h1 ((hcond1_1 ⟨n + 1, hn⟩).mp h)) ((hcond1_2 ⟨n + 1, hn⟩).mpr h2) (outsAt1 c n (Nat.lt_of_succ_lt hn)).2,
         soutAtF V c ⟨n + 1, hn⟩ (fun h => h0 ((hcond1_0 ⟨n + 1, hn⟩).mp h)) (fun h => h1 ((hcond1_1 ⟨n + 1, hn⟩).mp h)) ((hcond1_2 ⟨n + 1, hn⟩).mpr h2) (outsAt1 c n (Nat.lt_of_succ_lt hn)).2)
    else
      if h1 : (n + 1) / 8 = (n + 1) % 8 then
        (outIdle, soutAtC V c ⟨n + 1, hn⟩ (fun h => h0 ((hcond1_0 ⟨n + 1, hn⟩).mp h)) ((hcond1_1 ⟨n + 1, hn⟩).mpr h1) (fun h => h2 ((hcond1_2 ⟨n + 1, hn⟩).mp h)) (outsAt1 c n (Nat.lt_of_succ_lt hn)).2)
      else
        (outIdle, soutAtD V c ⟨n + 1, hn⟩ (fun h => h0 ((hcond1_0 ⟨n + 1, hn⟩).mp h)) (fun h => h1 ((hcond1_1 ⟨n + 1, hn⟩).mp h)) (fun h => h2 ((hcond1_2 ⟨n + 1, hn⟩).mp h)) (outsAt1 c n (Nat.lt_of_succ_lt hn)).2)

/-- The accumulator the position before `t` left. -/
abbrev prevAcc (c : Dev nD) (t : Fin cfg1.N) : Vec F S1024x256 .f32 :=
  (outsAt1 V c (t.val - 1) (Nat.lt_of_le_of_lt (Nat.sub_le _ _) t.isLt)).2

theorem outsAt1_A (c : Dev nD) (t : Fin cfg1.N) (h0 : t.val % 8 = 0) (h1 : t.val / 8 = t.val % 8) (h2 : ¬t.val % 8 = 7) :
    outsAt1 V c t.val t.isLt = (outIdle, soutAtA V c t ((hcond1_0 t).mpr h0) ((hcond1_1 t).mpr h1) (fun h => h2 ((hcond1_2 t).mp h))) := by
  obtain ⟨n, hn⟩ := t
  cases n with
  | zero => exact rfl
  | succ n => exfalso; (try dsimp only at h0 h1); have hN : n + 1 < 64 := lt_of_lt_of_eq hn N_1; omega

theorem outsAt1_B (c : Dev nD) (t : Fin cfg1.N) (h0 : t.val % 8 = 0) (h1 : ¬t.val / 8 = t.val % 8) (h2 : ¬t.val % 8 = 7) :
    outsAt1 V c t.val t.isLt = (outIdle, soutAtB V c t ((hcond1_0 t).mpr h0) (fun h => h1 ((hcond1_1 t).mp h)) (fun h => h2 ((hcond1_2 t).mp h))) := by
  obtain ⟨n, hn⟩ := t
  cases n with
  | zero => exfalso; exact h1 (by simp)
  | succ n => exact (dif_pos h0).trans rfl

theorem outsAt1_C (c : Dev nD) (t : Fin cfg1.N) (h0 : ¬t.val % 8 = 0) (h1 : t.val / 8 = t.val % 8) (h2 : ¬t.val % 8 = 7) :
    outsAt1 V c t.val t.isLt = (outIdle, soutAtC V c t (fun h => h0 ((hcond1_0 t).mp h)) ((hcond1_1 t).mpr h1) (fun h => h2 ((hcond1_2 t).mp h)) (prevAcc V c t)) := by
  obtain ⟨n, hn⟩ := t
  cases n with
  | zero => exact absurd (Nat.zero_mod _) h0
  | succ n => exact (dif_neg h0).trans ((dif_neg h2).trans ((dif_pos h1).trans rfl))

theorem outsAt1_D (c : Dev nD) (t : Fin cfg1.N) (h0 : ¬t.val % 8 = 0) (h1 : ¬t.val / 8 = t.val % 8) (h2 : ¬t.val % 8 = 7) :
    outsAt1 V c t.val t.isLt = (outIdle, soutAtD V c t (fun h => h0 ((hcond1_0 t).mp h)) (fun h => h1 ((hcond1_1 t).mp h)) (fun h => h2 ((hcond1_2 t).mp h)) (prevAcc V c t)) := by
  obtain ⟨n, hn⟩ := t
  cases n with
  | zero => exact absurd (Nat.zero_mod _) h0
  | succ n => exact (dif_neg h0).trans ((dif_neg h2).trans ((dif_neg h1).trans rfl))

theorem outsAt1_E (c : Dev nD) (t : Fin cfg1.N) (h0 : ¬t.val % 8 = 0) (h1 : t.val / 8 = t.val % 8) (h2 : t.val % 8 = 7) :
    outsAt1 V c t.val t.isLt = (outAtE V c t (fun h => h0 ((hcond1_0 t).mp h)) ((hcond1_1 t).mpr h1) ((hcond1_2 t).mpr h2) (prevAcc V c t),
      soutAtE V c t (fun h => h0 ((hcond1_0 t).mp h)) ((hcond1_1 t).mpr h1) ((hcond1_2 t).mpr h2) (prevAcc V c t)) := by
  obtain ⟨n, hn⟩ := t
  cases n with
  | zero => exact absurd (Nat.zero_mod _) h0
  | succ n => exact (dif_neg h0).trans ((dif_pos h2).trans ((dif_pos h1).trans rfl))

theorem outsAt1_F (c : Dev nD) (t : Fin cfg1.N) (h0 : ¬t.val % 8 = 0) (h1 : ¬t.val / 8 = t.val % 8) (h2 : t.val % 8 = 7) :
    outsAt1 V c t.val t.isLt = (outAtF V c t (fun h => h0 ((hcond1_0 t).mp h)) (fun h => h1 ((hcond1_1 t).mp h)) ((hcond1_2 t).mpr h2) (prevAcc V c t),
      soutAtF V c t (fun h => h0 ((hcond1_0 t).mp h)) (fun h => h1 ((hcond1_1 t).mp h)) ((hcond1_2 t).mpr h2) (prevAcc V c t)) := by
  obtain ⟨n, hn⟩ := t
  cases n with
  | zero => exact absurd (Nat.zero_mod _) h0
  | succ n => exact (dif_neg h0).trans ((dif_pos h2).trans ((dif_neg h1).trans rfl))

/-! ## The region's invariant -/

/-- The scoped buffers that are no staging buffer of this region, the accumulator among them in the state `S`,
    beside the generator register at some state. -/
def Rest (c : Dev nD) (S : sProp 𝕄) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_scratch0), ((c : Thread nD τ).loc cc0_scratch0) ↦{fullShare} f) ∗ S) ∗ (∃ r, prngReg c r))

theorem PhiA1_rest (c : Dev nD) : (Pipeline.ΦA spec1 c : sProp 𝕄) = Rest c (iprop(∃ d, owns (c : Thread nD τ) scM1_0 fullShare d)) := by
  rw [PhiA1_eq]; rfl

/-- Before position `n`: at the start every scoped buffer at anything; afterwards the accumulator at what the
    position before left. -/
def PhiS (c : Dev nD) : (n : ℕ) → n ≤ cfg1.N → sProp 𝕄
  | 0, _ => Pipeline.ΦA spec1 c
  | n + 1, hn => Rest c (owns (c : Thread nD τ) scM1_0 fullShare ((outsAt1 V c n hn).2))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = Rest c (owns (c : Thread nD τ) scM1_0 fullShare ((outsAt1 V c n hn).2)) := rfl

theorem PhiS_pos (c : Dev nD) (n : ℕ) (h : n ≤ cfg1.N) (hz : n ≠ 0) :
    PhiS V c n h = Rest c (owns (c : Thread nD τ) scM1_0 fullShare ((outsAt1 V c (n - 1) (by omega)).2)) := by
  cases n with
  | zero => exact absurd rfl hz
  | succ n => rfl

/-! ## The proof data -/

/-- The arrays as the region finds them; after the body each input's buffer at its tile, the output's at
    `outsAt1`; the invariant `PhiS`; nothing owed. The degree column is read through two windows (the row
    factors and the column factors): each holds one half of it. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS V c t.val (Nat.le_of_lt_succ t.isLt)
  q w := match w with
    | ⟨0, _⟩ => fullShare
    | ⟨1, _⟩ => fullShare
    | ⟨2, _⟩ => fullShare
    | ⟨3, _⟩ => fullShare.left
    | ⟨4, _⟩ => fullShare.right
    | ⟨5, _⟩ => fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

theorem before1_0 (c : Dev nD) (t : Fin cfg1.N) (d) : (dat1 V c).before 0 t d = iblk1 V c 0 t := before1_0_of V (dat1 V c) (A_eq1 V c 0) (after1_0 V c) t d
theorem before1_1 (c : Dev nD) (t : Fin cfg1.N) (d) : (dat1 V c).before 1 t d = iblk1 V c 1 t := before1_1_of V (dat1 V c) (A_eq1 V c 1) (after1_1 V c) t d
theorem before1_2 (c : Dev nD) (t : Fin cfg1.N) (d) : (dat1 V c).before 2 t d = iblk1 V c 2 t := before1_2_of V (dat1 V c) (A_eq1 V c 2) (after1_2 V c) t d
theorem before1_3 (c : Dev nD) (t : Fin cfg1.N) (d) : (dat1 V c).before 3 t d = iblk1 V c 3 t := before1_3_of V (dat1 V c) (A_eq1 V c 3) (after1_3 V c) t d
theorem before1_4 (c : Dev nD) (t : Fin cfg1.N) (d) : (dat1 V c).before 4 t d = iblk1 V c 4 t := before1_4_of V (dat1 V c) (A_eq1 V c 4) (after1_4 V c) t d

end Cert.KernelIdeal.Gcn

end
-- ==== Proof.GcnBody.lean ====
/-
  Region 1: the body obligation. At every point the body, handed the five input tiles, the output tile's
  buffer and the region's invariant, leaves the accumulator and the output tile at the contents the proof
  data names. The point's position decides which of the six control cases runs.
-/
import proofs.«146386_j59150289601064_2_alg».proof.Proof.GcnData

set_option maxRecDepth 16384

noncomputable section

namespace Cert.KernelIdeal.Gcn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, -/
def bodyPre (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 8000000 in
/-- The body at any point: by cases on the position. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1, before1_2, before1_3, before1_4]
  rw [show (dat1 V c).owesAt () t.succ = (dat1 V c).owesAt () t.castSucc from rfl]
  rw [show (dat1 V c).Φ t.succ = PhiS V c (t.val + 1) t.isLt from rfl, PhiS_succ]
  by_cases h0 : t.val % 8 = 0
  · have h2 : ¬t.val % 8 = 7 := by omega
    by_cases h1 : t.val / 8 = t.val % 8
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5 t (fun h => h2 ((hcond1_2 t).mp h))) (noFlush1_5 t (fun h => h2 ((hcond1_2 t).mp h)))]
      rw [outsAt1_A V c t h0 h1 h2]
      unfold soutAtA soutA; (try dsimp only)
      have hz : t.val = 0 := by have hN : t.val < 64 := lt_of_lt_of_eq t.isLt N_1; omega
      rw [PhiS_castSucc V c t, PhiS_zero V c _ _ hz, PhiA1_rest]
      unfold Rest
      iintro ⟨⟨⟨Hb1, Hb2, Hb3, Hb4, Hb5, HS0⟩, Hg⟩, Ho, ⟨%d0, H0⟩, ⟨%d1, H1⟩, ⟨%d2, H2⟩, ⟨%d3, H3⟩, ⟨%d4, H4⟩, ⟨%d5, H5⟩⟩
      iapply ((runA c (grid1.coords t) _ _ _ _ _ _ _ _ _ _ _ _ _ _ ((hcond1_0 t).mpr h0) ((hcond1_1 t).mpr h1) (fun h => h2 ((hcond1_2 t).mp h)) (iblk1 V c 0 t) (iblk1 V c 1 t) (iblk1 V c 2 t) (iblk1 V c 3 t) (iblk1 V c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [Hb1 Hb2 Hb3 Hb4 Hb5 HS0 Hg]
      · isplitl [Hb1 Hb2 Hb3 Hb4 Hb5 HS0]
        · isplitl [Hb1]; · iexact Hb1
          isplitl [Hb2]; · iexact Hb2
          isplitl [Hb3]; · iexact Hb3
          isplitl [Hb4]; · iexact Hb4
          isplitl [Hb5]; · iexact Hb5
          unfold owns; iexists _; isplitr
          swap; · iexact HS0
          ipureintro; exact View.read_writes_of_cover _ _ _ _ _ (scoverA c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5 t (fun h => h2 ((hcond1_2 t).mp h))) (noFlush1_5 t (fun h => h2 ((hcond1_2 t).mp h)))]
      rw [outsAt1_B V c t h0 h1 h2]
      unfold soutAtB soutB; (try dsimp only)
      have hz : t.val ≠ 0 := fun hz => h1 (by rw [hz])
      rw [PhiS_castSucc V c t, PhiS_pos V c _ _ hz]
      unfold Rest
      iintro ⟨⟨⟨Hb1, Hb2, Hb3, Hb4, Hb5, HS0⟩, Hg⟩, Ho, ⟨%d0, H0⟩, ⟨%d1, H1⟩, ⟨%d2, H2⟩, ⟨%d3, H3⟩, ⟨%d4, H4⟩, ⟨%d5, H5⟩⟩
      iapply ((runB c (grid1.coords t) _ _ _ _ _ _ _ _ _ _ _ _ _ _ ((hcond1_0 t).mpr h0) (fun h => h1 ((hcond1_1 t).mp h)) (fun h => h2 ((hcond1_2 t).mp h)) (iblk1 V c 0 t) (iblk1 V c 1 t) (iblk1 V c 2 t) (iblk1 V c 3 t) (iblk1 V c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      iintro ⟨H0, H1, H2, H3, H4, H5, ⟨%es0, HS0⟩⟩
      isplitl [Hb1 Hb2 Hb3 Hb4 Hb5 HS0 Hg]
      · isplitl [Hb1 Hb2 Hb3 Hb4 Hb5 HS0]
        · isplitl [Hb1]; · iexact Hb1
          isplitl [Hb2]; · iexact Hb2
          isplitl [Hb3]; · iexact Hb3
          isplitl [Hb4]; · iexact Hb4
          isplitl [Hb5]; · iexact Hb5
          unfold owns; iexists _; isplitr
          swap; · iexact HS0
          ipureintro; exact View.read_writes_of_cover _ _ _ _ _ (scoverB c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · by_cases h2 : t.val % 8 = 7
    · by_cases h1 : t.val / 8 = t.val % 8
      ·
        rw [show (dat1 V c).leavesExact 0 t = owns (c : Thread nD τ) (ms1_0 t) fullShare ((dat1 V c).after 0 t) from by
          unfold Dat.leavesExact; rw [liveAt1_0 t], after1_0]
        rw [show (dat1 V c).leavesExact 1 t = owns (c : Thread nD τ) (ms1_1 t) fullShare ((dat1 V c).after 1 t) from by
          unfold Dat.leavesExact; rw [liveAt1_1 t], after1_1]
        rw [show (dat1 V c).leavesExact 2 t = owns (c : Thread nD τ) (ms1_2 t) fullShare ((dat1 V c).after 2 t) from by
          unfold Dat.leavesExact; rw [liveAt1_2 t], after1_2]
        rw [show (dat1 V c).leavesExact 3 t = owns (c : Thread nD τ) (ms1_3 t) fullShare ((dat1 V c).after 3 t) from by
          unfold Dat.leavesExact; rw [liveAt1_3 t], after1_3]
        rw [show (dat1 V c).leavesExact 4 t = owns (c : Thread nD τ) (ms1_4 t) fullShare ((dat1 V c).after 4 t) from by
          unfold Dat.leavesExact; rw [liveAt1_4 t], after1_4]
        rw [show (dat1 V c).leavesExact 5 t = owns (c : Thread nD τ) (ms1_5 t) fullShare ((dat1 V c).after 5 t) from by
          unfold Dat.leavesExact; rw [liveAt1_5 t ((hcond1_2 t).mpr h2)], after1_5]
        rw [outsAt1_E V c t h0 h1 h2]
        unfold outAtE soutAtE outE soutE; (try dsimp only)
        have hz : t.val ≠ 0 := fun hz => h0 (by rw [hz])
        rw [PhiS_castSucc V c t, PhiS_pos V c _ _ hz]
        unfold Rest
        iintro ⟨⟨⟨Hb1, Hb2, Hb3, Hb4, Hb5, HS0⟩, Hg⟩, Ho, ⟨%d0, H0⟩, ⟨%d1, H1⟩, ⟨%d2, H2⟩, ⟨%d3, H3⟩, ⟨%d4, H4⟩, ⟨%d5, H5⟩⟩
        iapply ((runE c (grid1.coords t) _ _ _ _ _ _ _ _ _ _ _ _ _ _ (fun h => h0 ((hcond1_0 t).mp h)) ((hcond1_1 t).mpr h1) ((hcond1_2 t).mpr h2) (iblk1 V c 0 t) (iblk1 V c 1 t) (iblk1 V c 2 t) (iblk1 V c 3 t) (iblk1 V c 4 t) _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, ⟨%e5, H5⟩, ⟨%es0, HS0⟩⟩
        isplitl [Hb1 Hb2 Hb3 Hb4 Hb5 HS0 Hg]
        · isplitl [Hb1 Hb2 Hb3 Hb4 Hb5 HS0]
          · isplitl [Hb1]; · iexact Hb1
            isplitl [Hb2]; · iexact Hb2
            isplitl [Hb3]; · iexact Hb3
            isplitl [Hb4]; · iexact Hb4
            isplitl [Hb5]; · iexact Hb5
            unfold owns; iexists _; isplitr
            swap; · iexact HS0
            ipureintro; exact View.read_writes_of_cover _ _ _ _ _ (scoverE c _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (coverE c _ _ _ _ _ _ _ _ _ _ _ _ _ _ _ _ _ _ _ _ _ _ _ _)
      ·
        rw [show (dat1 V c).leavesExact 0 t = owns (c : Thread nD τ) (ms1_0 t) fullShare ((dat1 V c).after 0 t) from by
          unfold Dat.leavesExact; rw [liveAt1_0 t], after1_0]
        rw [show (dat1 V c).leavesExact 1 t = owns (c : Thread nD τ) (ms1_1 t) fullShare ((dat1 V c).after 1 t) from by
          unfold Dat.leavesExact; rw [liveAt1_1 t], after1_1]
        rw [show (dat1 V c).leavesExact 2 t = owns (c : Thread nD τ) (ms1_2 t) fullShare ((dat1 V c).after 2 t) from by
          unfold Dat.leavesExact; rw [liveAt1_2 t], after1_2]
        rw [show (dat1 V c).leavesExact 3 t = owns (c : Thread nD τ) (ms1_3 t) fullShare ((dat1 V c).after 3 t) from by
          unfold Dat.leavesExact; rw [liveAt1_3 t], after1_3]
        rw [show (dat1 V c).leavesExact 4 t = owns (c : Thread nD τ) (ms1_4 t) fullShare ((dat1 V c).after 4 t) from by
          unfold Dat.leavesExact; rw [liveAt1_4 t], after1_4]
        rw [show (dat1 V c).leavesExact 5 t = owns (c : Thread nD τ) (ms1_5 t) fullShare ((dat1 V c).after 5 t) from by
          unfold Dat.leavesExact; rw [liveAt1_5 t ((hcond1_2 t).mpr h2)], after1_5]
        rw [outsAt1_F V c t h0 h1 h2]
        unfold outAtF soutAtF outF soutF; (try dsimp only)
        have hz : t.val ≠ 0 := fun hz => h0 (by rw [hz])
        rw [PhiS_castSucc V c t, PhiS_pos V c _ _ hz]
        unfold Rest
        iintro ⟨⟨⟨Hb1, Hb2, Hb3, Hb4, Hb5, HS0⟩, Hg⟩, Ho, ⟨%d0, H0⟩, ⟨%d1, H1⟩, ⟨%d2, H2⟩, ⟨%d3, H3⟩, ⟨%d4, H4⟩, ⟨%d5, H5⟩⟩
        iapply ((runF c (grid1.coords t) _ _ _ _ _ _ _ _ _ _ _ _ _ _ (fun h => h0 ((hcond1_0 t).mp h)) (fun h => h1 ((hcond1_1 t).mp h)) ((hcond1_2 t).mpr h2) (iblk1 V c 0 t) (iblk1 V c 1 t) (iblk1 V c 2 t) (iblk1 V c 3 t) (iblk1 V c 4 t) _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, ⟨%e5, H5⟩, ⟨%es0, HS0⟩⟩
        isplitl [Hb1 Hb2 Hb3 Hb4 Hb5 HS0 Hg]
        · isplitl [Hb1 Hb2 Hb3 Hb4 Hb5 HS0]
          · isplitl [Hb1]; · iexact Hb1
            isplitl [Hb2]; · iexact Hb2
            isplitl [Hb3]; · iexact Hb3
            isplitl [Hb4]; · iexact Hb4
            isplitl [Hb5]; · iexact Hb5
            unfold owns; iexists _; isplitr
            swap; · iexact HS0
            ipureintro; exact View.read_writes_of_cover _ _ _ _ _ (scoverF c _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (coverF c _ _ _ _ _ _ _ _ _ _ _ _ _ _ _ _ _ _ _ _ _ _ _ _)
    · by_cases h1 : t.val / 8 = t.val % 8
      ·
        rw [show (dat1 V c).leavesExact 0 t = owns (c : Thread nD τ) (ms1_0 t) fullShare ((dat1 V c).after 0 t) from by
          unfold Dat.leavesExact; rw [liveAt1_0 t], after1_0]
        rw [show (dat1 V c).leavesExact 1 t = owns (c : Thread nD τ) (ms1_1 t) fullShare ((dat1 V c).after 1 t) from by
          unfold Dat.leavesExact; rw [liveAt1_1 t], after1_1]
        rw [show (dat1 V c).leavesExact 2 t = owns (c : Thread nD τ) (ms1_2 t) fullShare ((dat1 V c).after 2 t) from by
          unfold Dat.leavesExact; rw [liveAt1_2 t], after1_2]
        rw [show (dat1 V c).leavesExact 3 t = owns (c : Thread nD τ) (ms1_3 t) fullShare ((dat1 V c).after 3 t) from by
          unfold Dat.leavesExact; rw [liveAt1_3 t], after1_3]
        rw [show (dat1 V c).leavesExact 4 t = owns (c : Thread nD τ) (ms1_4 t) fullShare ((dat1 V c).after 4 t) from by
          unfold Dat.leavesExact; rw [liveAt1_4 t], after1_4]
        rw [Dat.leavesExact_idle (dat1 V c) 5 t (idleAt1_5 t (fun h => h2 ((hcond1_2 t).mp h))) (noFlush1_5 t (fun h => h2 ((hcond1_2 t).mp h)))]
        rw [outsAt1_C V c t h0 h1 h2]
        unfold soutAtC soutC; (try dsimp only)
        have hz : t.val ≠ 0 := fun hz => h0 (by rw [hz])
        rw [PhiS_castSucc V c t, PhiS_pos V c _ _ hz]
        unfold Rest
        iintro ⟨⟨⟨Hb1, Hb2, Hb3, Hb4, Hb5, HS0⟩, Hg⟩, Ho, ⟨%d0, H0⟩, ⟨%d1, H1⟩, ⟨%d2, H2⟩, ⟨%d3, H3⟩, ⟨%d4, H4⟩, ⟨%d5, H5⟩⟩
        iapply ((runC c (grid1.coords t) _ _ _ _ _ _ _ _ _ _ _ _ _ _ (fun h => h0 ((hcond1_0 t).mp h)) ((hcond1_1 t).mpr h1) (fun h => h2 ((hcond1_2 t).mp h)) (iblk1 V c 0 t) (iblk1 V c 1 t) (iblk1 V c 2 t) (iblk1 V c 3 t) (iblk1 V c 4 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [Hb1 Hb2 Hb3 Hb4 Hb5 HS0 Hg]
        · isplitl [Hb1 Hb2 Hb3 Hb4 Hb5 HS0]
          · isplitl [Hb1]; · iexact Hb1
            isplitl [Hb2]; · iexact Hb2
            isplitl [Hb3]; · iexact Hb3
            isplitl [Hb4]; · iexact Hb4
            isplitl [Hb5]; · iexact Hb5
            unfold owns; iexists _; isplitr
            swap; · iexact HS0
            ipureintro; exact View.read_writes_of_cover _ _ _ _ _ (scoverC c _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      ·
        rw [show (dat1 V c).leavesExact 0 t = owns (c : Thread nD τ) (ms1_0 t) fullShare ((dat1 V c).after 0 t) from by
          unfold Dat.leavesExact; rw [liveAt1_0 t], after1_0]
        rw [show (dat1 V c).leavesExact 1 t = owns (c : Thread nD τ) (ms1_1 t) fullShare ((dat1 V c).after 1 t) from by
          unfold Dat.leavesExact; rw [liveAt1_1 t], after1_1]
        rw [show (dat1 V c).leavesExact 2 t = owns (c : Thread nD τ) (ms1_2 t) fullShare ((dat1 V c).after 2 t) from by
          unfold Dat.leavesExact; rw [liveAt1_2 t], after1_2]
        rw [show (dat1 V c).leavesExact 3 t = owns (c : Thread nD τ) (ms1_3 t) fullShare ((dat1 V c).after 3 t) from by
          unfold Dat.leavesExact; rw [liveAt1_3 t], after1_3]
        rw [show (dat1 V c).leavesExact 4 t = owns (c : Thread nD τ) (ms1_4 t) fullShare ((dat1 V c).after 4 t) from by
          unfold Dat.leavesExact; rw [liveAt1_4 t], after1_4]
        rw [Dat.leavesExact_idle (dat1 V c) 5 t (idleAt1_5 t (fun h => h2 ((hcond1_2 t).mp h))) (noFlush1_5 t (fun h => h2 ((hcond1_2 t).mp h)))]
        rw [outsAt1_D V c t h0 h1 h2]
        unfold soutAtD soutD; (try dsimp only)
        have hz : t.val ≠ 0 := fun hz => h0 (by rw [hz])
        rw [PhiS_castSucc V c t, PhiS_pos V c _ _ hz]
        unfold Rest
        iintro ⟨⟨⟨Hb1, Hb2, Hb3, Hb4, Hb5, HS0⟩, Hg⟩, Ho, ⟨%d0, H0⟩, ⟨%d1, H1⟩, ⟨%d2, H2⟩, ⟨%d3, H3⟩, ⟨%d4, H4⟩, ⟨%d5, H5⟩⟩
        iapply ((runD c (grid1.coords t) _ _ _ _ _ _ _ _ _ _ _ _ _ _ (fun h => h0 ((hcond1_0 t).mp h)) (fun h => h1 ((hcond1_1 t).mp h)) (fun h => h2 ((hcond1_2 t).mp h)) (iblk1 V c 0 t) (iblk1 V c 1 t) (iblk1 V c 2 t) (iblk1 V c 3 t) (iblk1 V c 4 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [Hb1 Hb2 Hb3 Hb4 Hb5 HS0 Hg]
        · isplitl [Hb1 Hb2 Hb3 Hb4 Hb5 HS0]
          · isplitl [Hb1]; · iexact Hb1
            isplitl [Hb2]; · iexact Hb2
            isplitl [Hb3]; · iexact Hb3
            isplitl [Hb4]; · iexact Hb4
            isplitl [Hb5]; · iexact Hb5
            unfold owns; iexists _; isplitr
            swap; · iexact HS0
            ipureintro; exact View.read_writes_of_cover _ _ _ _ _ (scoverD c _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the scoped buffers back, the accumulator's contents forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 64 := N_1; omega), PhiA1_rest]
  unfold Rest
  iintro ⟨⟨Hb1, Hb2, Hb3, Hb4, Hb5, HS0⟩, Hg⟩
  isplitl [Hb1 Hb2 Hb3 Hb4 Hb5 HS0]
  · isplitl [Hb1]; · iexact Hb1
    isplitl [Hb2]; · iexact Hb2
    isplitl [Hb3]; · iexact Hb3
    isplitl [Hb4]; · iexact Hb4
    isplitl [Hb5]; · iexact Hb5
    iexists _; iexact HS0
  iexact Hg

end Cert.KernelIdeal.Gcn

end
-- ==== Proof.KernelRun.lean ====
/-
  The whole program run: the degree kernel, then the aggregation kernel, from the launch to the return.

  Each kernel region is entered from the core's unscoped buffers at known contents and left with its output array
  replaced by what its write-backs compose, every other buffer as found. The aggregation kernel reads the degree
  column through two windows (row factors and column factors), so on entry that array's ownership is split into
  two halves, one per window, and on exit the halves are joined again. At the end every unscoped buffer is read
  off the last valuation: the arguments are as launched and the result array is the aggregation kernel's output.
-/
import proofs.«146386_j59150289601064_2_alg».proof.Proof.DegFrame
import proofs.«146386_j59150289601064_2_alg».proof.Proof.GcnBody
import Idealize.ShloMosaic.Lib.Pipeline.Frame
import Idealize.ShloMosaic.Lib.Pipeline.FrameSuffix
import Idealize.ShloMosaic.Lib.Pipeline.Regions
import Idealize.ShloMosaic.Lib.Pipeline.RegionsLoop

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg RegionSeg)

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- After the degree kernel: its arrays at what the pipeline leaves, every other buffer as launched. -/
def W1 (c : Dev nD) : Valuation τ sig (Elt F) :=
  Pipeline.withArrays spec0 c (W0 m ρ c) fun w => (Deg.dat0 (V0 m ρ) c).arrAt w cfg0.N
theorem W1_arr (c : Dev nD) (w : Fin cfg0.W) :
    W1 m ρ c (Proc.devRef .tc (Pipeline.arrRef spec0 w)) = (Deg.dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (Deg.dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the aggregation kernel: the result array at what its write-backs compose, every other buffer as before. -/
def W2 (c : Dev nD) : Valuation τ sig (Elt F) :=
  Function.update (W1 m ρ c) (Proc.devRef .tc main_v1) ((Gcn.dat1 (V1 m ρ) c).arrAt 5 cfg1.N)
abbrev V2 : (c : Dev nD) → (b : Ref sig .tc) → Buf (Elt F) ((c : Thread nD τ).loc b) := fun c b => W2 m ρ c b
theorem W2_out (c : Dev nD) : W2 m ρ c (Proc.devRef .tc main_v1) = (Gcn.dat1 (V1 m ρ) c).arrAt 5 cfg1.N := by
  unfold W2; exact Function.update_self _ _ _
theorem W2_of_ne (c : Dev nD) (b : Ref sig .tc) (hb : b ≠ main_v1) :
    W2 m ρ c (Proc.devRef .tc b) = W1 m ρ c (Proc.devRef .tc b) := by
  unfold W2; exact Function.update_of_ne (StableHlo.devRef_ne_of_ne hb) _ _

theorem W2_main_arg0 (c : Dev nD) : W2 m ρ c (Proc.devRef .tc main_arg0) = m ((c : Thread nD τ).loc main_arg0) :=
  (W2_of_ne m ρ c main_arg0 (by decide)).trans ((W1_of_ne m ρ c main_arg0 (by decide)).trans rfl)
theorem W2_main_arg2 (c : Dev nD) : W2 m ρ c (Proc.devRef .tc main_arg2) = m ((c : Thread nD τ).loc main_arg2) :=
  (W2_of_ne m ρ c main_arg2 (by decide)).trans ((W1_of_ne m ρ c main_arg2 (by decide)).trans rfl)
theorem W1_main_arg1 (c : Dev nD) : W1 m ρ c (Proc.devRef .tc main_arg1) = m ((c : Thread nD τ).loc main_arg1) :=
  (W1_arr m ρ c 0).trans (((Deg.dat0 (V0 m ρ) c).arrAt_in 0 rfl _).trans ((Deg.A_eq0 (V0 m ρ) c 0).trans rfl))
theorem W2_main_arg1 (c : Dev nD) : W2 m ρ c (Proc.devRef .tc main_arg1) = m ((c : Thread nD τ).loc main_arg1) :=
  (W2_of_ne m ρ c main_arg1 (by decide)).trans (W1_main_arg1 m ρ c)

/-! ## The proof data family and what rides along -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => Deg.dat0 (V0 m ρ) c
  | ⟨1, _⟩ => fun c => Gcn.dat1 (V1 m ρ) c
abbrev 𝒱₀ : Variants := Variants.none
abbrev L : GSem nD τ sig → Finset Unit := fun _ => ∅
abbrev lv : GSem nD τ sig → Unit → ℕ := fun _ _ => 0
/-- Beside the buffers: the generator register at some state and the core owing nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m ρ c) ∗ ∃ r, prngReg c r)

/-! ## The aggregation kernel's arrays and the core's unscoped buffers -/

/-- The core's unscoped buffers, one by one. -/
theorem unscoped_list (c : Dev nD) (V : (b : Ref sig .tc) → Buf (Elt F) ((c : Thread nD τ).loc b)) :
    (unscopedBufs c V : sProp 𝕄)
      = iprop((((c : Thread nD τ).loc main_arg0) ↦{fullShare} V main_arg0) ∗ (((c : Thread nD τ).loc main_arg1) ↦{fullShare} V main_arg1) ∗ (((c : Thread nD τ).loc main_arg2) ↦{fullShare} V main_arg2) ∗ (((c : Thread nD τ).loc main_v0) ↦{fullShare} V main_v0) ∗ (((c : Thread nD τ).loc main_v1) ↦{fullShare} V main_v1)) := by
  unfold unscopedBufs
  exact bigSep_eq_bigSepL_of_eq [main_arg0, main_arg1, main_arg2, main_v0, main_v1] (by decide) (by decide) _

/-- The aggregation kernel's six windowed arrays, one by one, each at the share its window holds. -/
theorem arrays_list (c : Dev nD) (V : (c : Dev nD) → (b : Ref sig .tc) → Buf (Elt F) ((c : Thread nD τ).loc b))
    (Fn : (w : Fin cfg1.W) → Buf (Elt F) ((cfg1.win w).arr.view.loc (c : Thread nD τ))) :
    ((Gcn.dat1 V c).arrays Fn : sProp 𝕄)
      = iprop((((c : Thread nD τ).loc main_arg1) ↦{fullShare} Fn 0) ∗ (((c : Thread nD τ).loc main_arg0) ↦{fullShare} Fn 1) ∗ (((c : Thread nD τ).loc main_arg2) ↦{fullShare} Fn 2) ∗ (((c : Thread nD τ).loc main_v0) ↦{fullShare.left} Fn 3) ∗ (((c : Thread nD τ).loc main_v0) ↦{fullShare.right} Fn 4) ∗ (((c : Thread nD τ).loc main_v1) ↦{fullShare} Fn 5)) := by
  unfold Dat.arrays
  rw [bigSep_W1, (arr_whole1 0).set_eq_univ, (arr_whole1 1).set_eq_univ, (arr_whole1 2).set_eq_univ, (arr_whole1 3).set_eq_univ, (arr_whole1 5).set_eq_univ]
  rfl

/-- On entry: the core's unscoped buffers at `V` are the aggregation kernel's arrays at `V` — the degree column in two halves. -/
theorem arrays_in (c : Dev nD) (V : (c : Dev nD) → (b : Ref sig .tc) → Buf (Elt F) ((c : Thread nD τ).loc b)) :
    (unscopedBufs c (V c) : sProp 𝕄) ⊢ (Gcn.dat1 V c).arrays (Gcn.dat1 V c).A := by
  rw [unscoped_list, arrays_list]
  have hs : ((((c : Thread nD τ).loc main_v0) ↦{fullShare} V c main_v0) : sProp 𝕄)
      ⊢ iprop((((c : Thread nD τ).loc main_v0) ↦{fullShare.left} V c main_v0) ∗ (((c : Thread nD τ).loc main_v0) ↦{fullShare.right} V c main_v0)) :=
    (pointsTo_share (PosShare.mem_left_op_right fullShare)).1
  iintro ⟨Ha0, Ha1, Ha2, Hv0, Hv1⟩
  ihave Hh := hs $$ Hv0
  icases Hh with ⟨HvL, HvR⟩
  isplitl [Ha1]; · iexact Ha1
  isplitl [Ha0]; · iexact Ha0
  isplitl [Ha2]; · iexact Ha2
  isplitl [HvL]; · iexact HvL
  isplitl [HvR]; · iexact HvR
  iexact Hv1

/-- On exit: the arrays at their final contents are the core's unscoped buffers at any valuation that has the result
    array at its final contents and agrees with the entry contents elsewhere. -/
theorem arrays_out (c : Dev nD) (V : (c : Dev nD) → (b : Ref sig .tc) → Buf (Elt F) ((c : Thread nD τ).loc b))
    (V' : (b : Ref sig .tc) → Buf (Elt F) ((c : Thread nD τ).loc b))
    (h0 : V' main_arg0 = V c main_arg0) (h1 : V' main_arg1 = V c main_arg1) (h2 : V' main_arg2 = V c main_arg2) (h3 : V' main_v0 = V c main_v0)
    (h5 : V' main_v1 = (Gcn.dat1 V c).arrAt 5 cfg1.N) :
    ((Gcn.dat1 V c).arrays ((Gcn.dat1 V c).arrAt · cfg1.N) : sProp 𝕄) ⊢ unscopedBufs c V' := by
  rw [unscoped_list, arrays_list, (Gcn.dat1 V c).arrAt_in 0 rfl _, (Gcn.dat1 V c).arrAt_in 1 rfl _, (Gcn.dat1 V c).arrAt_in 2 rfl _,
    (Gcn.dat1 V c).arrAt_in 3 rfl _, (Gcn.dat1 V c).arrAt_in 4 rfl _, h0, h1, h2, h3, h5]
  have hj : iprop((((c : Thread nD τ).loc main_v0) ↦{fullShare.left} V c main_v0) ∗ (((c : Thread nD τ).loc main_v0) ↦{fullShare.right} V c main_v0))
      ⊢ ((((c : Thread nD τ).loc main_v0) ↦{fullShare} V c main_v0) : sProp 𝕄) :=
    (pointsTo_share (PosShare.mem_left_op_right fullShare)).2
  iintro ⟨Ha1, Ha0, Ha2, HvL, HvR, Hv1⟩
  ihave Hv0 := hj $$ [HvL HvR]
  · isplitl [HvL]; · iexact HvL
    iexact HvR
  isplitl [Ha0]; · iexact Ha0
  isplitl [Ha1]; · iexact Ha1
  isplitl [Ha2]; · iexact Ha2
  isplitl [Hv0]; · iexact Hv0
  iexact Hv1

/-! ## The regions as segments -/

set_option backward.isDefEq.respectTransparency.types false in
/-- The degree kernel over the thread state: entered from every unscoped buffer at `W0`, left at `W1`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Deg.body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Deg.hin0 (V0 m ρ) c)
    unfold Pipeline.ΦA
    iintro ⟨Hp, -, Hr⟩
    isplitl [Hr]; · iexact Hr
    iexact Hp
  hout c := by
    rw [Pipeline.ownSems0_none]
    refine (Deg.hout0 (V0 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The aggregation kernel over the thread state: entered from every unscoped buffer at `W1`, left at `W2`. Every
    unscoped buffer is one of its arrays; the degree column enters in two halves and leaves joined. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (Gcn.body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := iprop(emp)
  hentry c := by
    rw [Pipeline.ownSems0_none]
    have hsplit := arrays_in c (V1 m ρ)
    rw [Pipeline.unscopedBufs_held] at hsplit
    iintro ⟨⟨Hub, Hp, HO⟩, -, -⟩
    ihave Ha := hsplit $$ Hub
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iempintro
  hin c := by
    refine BIBase.Entails.trans ?_ (Gcn.hin1 (V1 m ρ) c)
    unfold Pipeline.ΦA
    iintro ⟨Hp, -, Hr⟩
    isplitl [Hr]; · iexact Hr
    iexact Hp
  hout c := by
    rw [Pipeline.ownSems0_none]
    refine (Gcn.hout1 (V1 m ρ) c).trans ?_
    unfold Pipeline.ΦA
    iintro ⟨Hr, Hp⟩
    isplitl [Hp]; · iexact Hp
    isplitr; · iempintro
    iexact Hr
  hexit c := by
    have hjoin := arrays_out c (V1 m ρ) (V2 m ρ c)
      (W2_of_ne m ρ c main_arg0 (by decide)) (W2_of_ne m ρ c main_arg1 (by decide)) (W2_of_ne m ρ c main_arg2 (by decide))
      (W2_of_ne m ρ c main_v0 (by decide)) (W2_out m ρ c)
    rw [Pipeline.unscopedBufs_held] at hjoin
    iintro ⟨Ha, HO, HY, -⟩
    imodintro
    isplitl [Ha HY]
    · isplitl [Ha]
      · iapply hjoin; iexact Ha
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .region (reg1 m ρ) ]
theorem main_run (c : Dev nD) : main (F := F) c = Pipeline.Seg.run (segs m ρ) := (main_chain c).trans (by chain_rfl)

set_option backward.isDefEq.respectTransparency.types false in
/-- From any memory with zero counters every weakly fair execution of @main terminates, nothing faulting; the result
    array ends at what the aggregation kernel's write-backs compose (from the degree kernel's column), and the three
    argument arrays end as launched. -/
theorem run_main : θ_run defs (onTc (τ := τ) (main (F := F))) ⟨m, fun _ => 0, ρ⟩ (fun r => ∀ c : Dev nD,
      r.2.mem ((c.tc : Thread nD τ).loc main_v1) = (Gcn.dat1 (V1 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      have h1 : (ownU (initOf (Pipeline.cells cfgs cellOf_inj) (Pipeline.launchToks cfgs cellOf_inj)) : sProp 𝕄)
          ⊢ BI.own (emb₁ (initOf (Pipeline.cells (Pipeline.pin (pcfgs (F := F)) adm) cellOf_inj) (Pipeline.launchToks (Pipeline.pin (pcfgs (F := F)) adm) cellOf_inj))) := .rfl
      iintro Hu
      ihave Hu' := h1 $$ Hu
      imodintro
      isplitl [Hu']; · iexact Hu'
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨(h c _ (mem_uc main_v1 (by decide))).trans (W2_out m ρ c),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c)⟩)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_main m ρ)

end Cert.KernelIdeal.Run

end
-- ==== Proof.LibDenseRows.lean ====
/-
  General lemmas for kernels that push rows through dense layers, read at the exact (extended-real) instance.

  * `matmulT_zero_apply`: a matrix product of an [M, K] left operand with an [N, K] right operand, both contracted on
    their LAST axis, into a zero accumulator, is at (p, j) the plain sum over k of left (p, k) times right (j, k).
  * `rowSum_apply`: a sum of an [A, B] array along its last axis is at p the plain sum over k of the array at (p, k).
  * `shapeCast_a_a1_apply`: an [a] vector recast as an [a, 1] column reads, at (i, u), the vector at i.
  * `denseT_relu_apply`: a hidden layer as a kernel body spells it (product over last axes into a zero accumulator, bias
    row repeated down the rows, maximum with zero) is at (p, j) max (∑ₖ h (p, k) · w (j, k) + b j) 0.
  * `rowDot_bias_apply`: an output layer of width one spelt as multiply by the one weight row, sum along the row, add the
    one bias, is at (p, u) ∑ₖ h (p, k) · w (0, k) + b 0.
-/
import Idealize.ShloMosaic.Lib.ValueIdx
import Idealize.ShloMosaic.Lib.ValueLayout
import Idealize.ShloMosaic.PureOps.Ideal.Laws

noncomputable section

open scoped BigOperators

namespace Cert.DenseRows

open Idealize.ShloMosaic Idealize.ShloMosaic.ValueIdx

variable {M K N : ℕ}

/-! ## The operand indices of a product contracted on both last axes -/

/-- The left operand's row is the result's row. -/
theorem lhsT_0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's column is the contraction position. -/
theorem lhsT_1 (i : (⟨2, ![M, N]⟩ : Shape).Idx) (q : (DotDims.transposedRhs M K N).contr.Idx) :
    ((DotDims.transposedRhs M K N).lhsIdx i q 1).val = (q ⟨0, Nat.one_pos⟩).val :=
  (DotDims.transposedRhs M K N).lhsIdx_val_of_single rfl i q

/-- The right operand's row is the result's column. -/
theorem rhsT_0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's column is the contraction position. -/
theorem rhsT_1 (i : (⟨2, ![M, N]⟩ : Shape).Idx) (q : (DotDims.transposedRhs M K N).contr.Idx) :
    ((DotDims.transposedRhs M K N).rhsIdx i q 1).val = (q ⟨0, Nat.one_pos⟩).val :=
  (DotDims.transposedRhs M K N).rhsIdx_val_of_single rfl i q

/-- A product of an [M, K] array with an [N, K] array over their last axes, into a zero accumulator, at (p, j):
    the sum over k of left (p, k) times right (j, k). No order of summation is left in it: the sum is the
    extended reals' commutative one. -/
theorem matmulT_zero_apply {φ₁ φ₂ : FTy} (prec : Option ContractPrecision) (h : FVec Ideal ⟨2, ![M, K]⟩ φ₁) (w : FVec Ideal ⟨2, ![N, K]⟩ φ₂)
    (p : Fin M) (j : Fin N) :
    FloatOps.matmul (DotDims.transposedRhs M K N) prec h w (constant ⟨2, ![M, N]⟩ .f32 0x00000000#32) (ix2 p j)
      = ∑ k : Fin K, h (ix2 p k) * w (ix2 j k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p j) ((contrEquiv1 (DotDims.transposedRhs M K N) K rfl rfl).symm k) = ix2 p k :=
    funext fun a => Fin.ext (by
      match a with
      | ⟨0, _⟩ => exact lhsT_0 _ _
      | ⟨1, _⟩ => exact (lhsT_1 _ _).trans hk)
  have er : (DotDims.transposedRhs M K N).rhsIdx (ix2 p j) ((contrEquiv1 (DotDims.transposedRhs M K N) K rfl rfl).symm k) = ix2 j k :=
    funext fun a => Fin.ext (by
      match a with
      | ⟨0, _⟩ => exact rhsT_0 _ _
      | ⟨1, _⟩ => exact (rhsT_1 _ _).trans hk)
  rw [el, er]

/-! ## A sum along the last axis -/

/-- The sum of an [A, B] array along its last axis, at p, is the sum over k of the array at (p, k). -/
theorem rowSum_apply {A B : ℕ} {φ : FTy} (src : FVec Ideal ⟨2, ![A, B]⟩ φ) (acc : BitVec φ.bits)
    (h : (⟨2, ![A, B]⟩ : Shape).Reduces [1] ⟨1, ![A]⟩) (hφ : FKind.Formats φ) (hacc : acc = FKind.add.neutral φ hφ) (p : Fin A) :
    multiReduction .add [1] ⟨1, ![A]⟩ src acc h hφ hacc (ix1 p) = ∑ k : Fin B, src (ix2 p k) := by
  refine (Ideal.multiReduction_add_single src acc h hφ hacc (ix1 p)).trans ?_
  refine Finset.sum_congr rfl fun k _ => congrArg src (funext fun c => Fin.ext ?_)
  rw [h.lift_val]
  match c with
  | ⟨0, _⟩ => rfl
  | ⟨1, _⟩ => rfl

/-! ## A vector recast as a column -/

/-- An [a] vector recast as an [a, 1] column reads, at (i, u), the vector at i, whatever the unit coordinate u. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## Whole layers at one entry -/

/-- A hidden layer as a kernel body spells it — the product of [M, K] activations with [J, K] weights over their last
    axes into a zero accumulator, plus the [J] bias recast as one row and repeated down the rows, then the maximum with
    the zero splat — is, at (p, j), max (∑ₖ h (p, k) · w (j, k) + b j) 0. -/
theorem denseT_relu_apply {J : ℕ} {φ₁ φ₂ : FTy} (prec : Option ContractPrecision) (h : FVec Ideal ⟨2, ![M, K]⟩ φ₁)
    (w : FVec Ideal ⟨2, ![J, K]⟩ φ₂) (b : FVec Ideal ⟨1, ![J]⟩ .f32) (hc : (⟨1, ![J]⟩ : Shape).ShapeCasts ⟨2, ![1, J]⟩)
    (hb : (⟨2, ![1, J]⟩ : Shape).Broadcasts ⟨2, ![M, J]⟩) (p : Fin M) (j : Fin J) :
    maximumf (addf (matmul (DotDims.transposedRhs M K J) prec h w (constant ⟨2, ![M, J]⟩ .f32 0x00000000#32))
        (broadcastTo ⟨2, ![M, J]⟩ (shapeCast ⟨2, ![1, J]⟩ b hc) hb))
      (broadcast ⟨2, ![M, J]⟩ (Scalar.ofBits (F := Ideal) .f32 0x00000000#32)) (ix2 p j)
      = max ((∑ k : Fin K, h (ix2 p k) * w (ix2 j k)) + b (ix1 j)) 0 :=
  congrArg₂ max (congrArg₂ (· + ·) (matmulT_zero_apply prec h w p j)
    ((broadcastTo_1b_ab_apply _ hb p j).trans (shapeCast_a_1a_apply b hc 0 j))) Ideal.ofBits_zero_f32

/-- An output layer of width one spelt on the vector unit — the [M, K] activations times the one [1, K] weight row repeated
    down the rows, summed along each row, recast as a column, plus the one bias repeated down the column — is, at
    (p, u), ∑ₖ h (p, k) · w (0, k) + b 0. -/
theorem rowDot_bias_apply (h : FVec Ideal ⟨2, ![M, K]⟩ .f32) (w : FVec Ideal ⟨2, ![1, K]⟩ .f32) (b : FVec Ideal ⟨1, ![1]⟩ .f32)
    (hw : (⟨2, ![1, K]⟩ : Shape).Broadcasts ⟨2, ![M, K]⟩) (hr : (⟨2, ![M, K]⟩ : Shape).Reduces [1] ⟨1, ![M]⟩)
    (hφ : FKind.Formats .f32) (hacc : (0x00000000#32 : BitVec FTy.f32.bits) = FKind.add.neutral .f32 hφ)
    (hs : (⟨1, ![M]⟩ : Shape).ShapeCasts ⟨2, ![M, 1]⟩) (hc : (⟨1, ![1]⟩ : Shape).ShapeCasts ⟨2, ![1, 1]⟩)
    (hb : (⟨2, ![1, 1]⟩ : Shape).Broadcasts ⟨2, ![M, 1]⟩) (p : Fin M) (u : Fin 1) :
    addf (shapeCast ⟨2, ![M, 1]⟩ (multiReduction .add [1] ⟨1, ![M]⟩ (mulf h (broadcastTo ⟨2, ![M, K]⟩ w hw)) 0x00000000#32 hr hφ hacc) hs)
        (broadcastTo ⟨2, ![M, 1]⟩ (shapeCast ⟨2, ![1, 1]⟩ b hc) hb) (ix2 p u)
      = (∑ k : Fin K, h (ix2 p k) * w (ix2 (0 : Fin 1) k)) + b (ix1 (0 : Fin 1)) :=
  congrArg₂ (· + ·)
    (((shapeCast_a_a1_apply _ hs p u).trans (rowSum_apply _ _ hr hφ hacc p)).trans
      (Finset.sum_congr rfl fun k _ => congrArg (h (ix2 p k) * ·) (broadcastTo_1b_ab_apply w hw p k)))
    (((broadcastTo_1b_ab_apply _ hb p u).trans (shapeCast_a_1a_apply b hc 0 u)).trans
      (congrArg (fun t : Fin 1 => b (ix1 t)) (Subsingleton.elim u 0)))

end Cert.DenseRows

end
-- ==== Proof.LibColumns.lean ====
/-
  General lemmas for kernels that keep a per-row number as an [a, 1] column.

  * `broadcastTo_a1_ab_apply`: an [a, 1] column repeated along the rows of an [a, b] array reads, at (p, c), the column at p.
  * `keepdimsSum_apply`: a sum of an [a, b] array along its last axis kept as an [a, 1] column reads, at (p, u), the plain
    sum over k of the array at (p, k).
-/
import Idealize.ShloMosaic.Lib.ValueIdx
import Idealize.ShloMosaic.Lib.ValueLayout
import Idealize.ShloMosaic.Lib.Pipeline.Value
import Idealize.ShloMosaic.PureOps.Ideal.Laws
import proofs.«146386_j59150289601064_2_alg».proof.Proof.LibDenseRows

noncomputable section

open scoped BigOperators

namespace Cert.Columns

open Idealize.ShloMosaic Idealize.ShloMosaic.ValueIdx

/-- An [a, 1] column broadcast to [a, b] reads, at (p, c), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an [a, b] array along its last axis, kept as an [a, 1] column: at (p, u) the sum over k of the array at (p, k). -/
theorem keepdimsSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hs : (⟨1, ![a]⟩ : Shape).ShapeCasts ⟨2, ![a, 1]⟩) (p : Fin a) (u : Fin 1) :
    shapeCast ⟨2, ![a, 1]⟩ (multiReduction .add [1] ⟨1, ![a]⟩ src acc h hφ hacc) hs (ix2 p u) = ∑ k : Fin b, src (ix2 p k) :=
  (Cert.DenseRows.shapeCast_a_a1_apply _ hs p u).trans (Cert.DenseRows.rowSum_apply src acc h hφ hacc p)

end Cert.Columns

end
-- ==== Proof.LibChunkSum.lean ====
/-
  A sum over `a * n` consecutive indices, cut into `a` chunks of `n`.

  In a commutative additive monoid the sum over `Fin (a * n)` is the sum over the chunks `c < a` of the sums over the
  positions `j < n` inside a chunk, position `j` of chunk `c` being index `n * c + j`. Only commutativity and
  associativity of addition are used, so the statement holds on the extended reals at the infinities too. The
  four-chunk corollary is the form a running total takes: start at zero, add the first chunk's sum, then the
  second's, the third's and the fourth's.
-/
import Mathlib.Algebra.BigOperators.Fin
import Mathlib.Logic.Equiv.Fin.Basic

namespace Cert.LibChunkSum

variable {M : Type*} [AddCommMonoid M]

/-- The sum over `Fin (a * n)` chunk by chunk: `col c j` is any spelling of index `n * c + j`. -/
theorem sum_chunks (a n : ℕ) (T : Fin (a * n) → M) (col : Fin a → Fin n → Fin (a * n))
    (hcol : ∀ c j, (col c j).val = n * c.val + j.val) :
    ∑ i, T i = ∑ c : Fin a, ∑ j : Fin n, T (col c j) := by
  rw [← Equiv.sum_comp finProdFinEquiv T, Fintype.sum_prod_type]
  refine Finset.sum_congr rfl fun c _ => Finset.sum_congr rfl fun j _ => congrArg T (Fin.ext ?_)
  rw [hcol]
  show j.val + n * c.val = n * c.val + j.val
  exact Nat.add_comm _ _

/-- A running total over four chunks, started at zero, is the whole sum. -/
theorem running_four (n : ℕ) (T : Fin (4 * n) → M) (col : Fin 4 → Fin n → Fin (4 * n))
    (hcol : ∀ c j, (col c j).val = n * c.val + j.val) :
    (((0 + ∑ j : Fin n, T (col 0 j)) + ∑ j : Fin n, T (col 1 j)) + ∑ j : Fin n, T (col 2 j)) + ∑ j : Fin n, T (col 3 j)
      = ∑ i, T i := by
  rw [sum_chunks 4 n T col hcol, Fin.sum_univ_four, zero_add]

end Cert.LibChunkSum
-- ==== Proof.LibLogistic.lean ====
/-
  General lemmas about the logistic function on the extended reals, for programs that spell it out.

  * `one_word`: the single-precision word 0x3F800000 (the literal 1.0) denotes the real 1.
  * `logistic_spelt`: the quotient 1 / (1 + e^(−r)), with both ones given by that word, the quotient the extended reals'
    total one and the exponential the exact one, is the logistic function of r — for every extended real r, the two
    infinities included, since the logistic function is defined there as exactly this quotient.
-/
import Idealize.ShloMosaic.PureOps.Ideal

noncomputable section

namespace Cert.Logistic

open Idealize.ShloMosaic

/-- The single-precision word of 1.0 denotes the real 1. -/
theorem one_word : Ideal.ofBits .f32 0x3F800000#32 = 1 := by
  simp [Ideal.ofBits, Ideal.ieee, -EReal.coe_mul]; norm_num

/-- 1 / (1 + e^(−r)) with both ones given by their word is the logistic function of r. -/
theorem logistic_spelt (r : EReal) :
    Ideal.div (Ideal.ofBits .f32 0x3F800000#32) (Ideal.ofBits .f32 0x3F800000#32 + Ideal.exp (-r)) = Ideal.logistic r := by
  rw [one_word]; rfl

end Cert.Logistic

end
-- ==== Proof.Spec.lean ====
/-
  The specification both programs are measured against, on the extended reals.

  For a feature matrix x (8192 by 256), an adjacency matrix a (8192 by 8192) and a weight matrix w (256 by 256):
  the degree of row i is the sum of that row of a plus one (the self loop), d i is its inverse square root,
  the normalised aggregate is  h(i,c) = sum over j of (a(i,j) + [i = j]) * d i * d j * x(j,c),
  the logits are  z(i,o) = sum over c of h(i,c) * w(c,o),  and the result is the exponential linear unit of z.

  Two arrangements of this computation are written out: the one that adds the self loop to the matrix first
  (`RefG`), and the one that scales the rows of x by d first, multiplies by a, adds the scaled row of x itself
  and scales by d i at the end (`KerG`).  They agree whenever every entry is a real number and every degree is
  positive (so that every d i is a real number): that is `KerG_eq_RefG`, proved in the module of the algebra.
-/
import Idealize.ShloMosaic.PureOps.Ideal
import Idealize.ShloMosaic.Lib.ValueIdx

noncomputable section

namespace Cert.Spec

open Idealize.ShloMosaic Idealize.ShloMosaic.ValueIdx

abbrev SX : Shape := ⟨2, ![8192, 256]⟩
abbrev SA : Shape := ⟨2, ![8192, 8192]⟩
abbrev SW : Shape := ⟨2, ![256, 256]⟩

section Core

variable (x : Fin 8192 → Fin 256 → EReal) (a : Fin 8192 → Fin 8192 → EReal) (w : Fin 256 → Fin 256 → EReal)

/-- The indicator of the diagonal. -/
def eye (i j : Fin 8192) : EReal := if i = j then 1 else 0

/-- The inverse square root of a row's degree, the self loop added after the row sum. -/
def dK (i : Fin 8192) : EReal := Ideal.rsqrt ((∑ j, a i j) + 1)
/-- The aggregate with x scaled first, the self loop as a separate term, the row scale last. -/
def hK (i : Fin 8192) (c : Fin 256) : EReal := ((∑ j, a i j * (x j c * dK a j)) + x i c * dK a i) * dK a i
def zK (i : Fin 8192) (o : Fin 256) : EReal := ∑ c, hK x a i c * w c o
/-- The exponential linear unit with the exponent's argument cut at zero by a minimum. -/
def eluK (z : EReal) : EReal := Scalar.select (Ideal.cmp .ogt z 0) z (Ideal.exp (min z 0) - 1)
def KerG (i : Fin 8192) (o : Fin 256) : EReal := eluK (zK x a w i o)

/-- The inverse square root of a row's degree, the self loop added entry by entry before the row sum. -/
def dR (i : Fin 8192) : EReal := Ideal.rsqrt (∑ j, (a i j + eye i j))
/-- The aggregate over the normalised matrix. -/
def hR (i : Fin 8192) (c : Fin 256) : EReal := ∑ j, ((a i j + eye i j) * dR a i * dR a j) * x j c
def zR (i : Fin 8192) (o : Fin 256) : EReal := ∑ c, hR x a i c * w c o
/-- The exponential linear unit with the exponent's argument cut at zero by a selection, times one. -/
def eluR (z : EReal) : EReal :=
  Scalar.select (Ideal.cmp .ogt z 0) z (1 * (Ideal.exp (Scalar.select (Ideal.cmp .ogt z 0) 0 z) - 1))
def RefG (i : Fin 8192) (o : Fin 256) : EReal := eluR (zR x a w i o)

end Core

/-- The two arrangements as functions of the three arrays, index by index. -/
def kerArr (X : SX.Idx → EReal) (A : SA.Idx → EReal) (W : SW.Idx → EReal) : SX.Idx → EReal :=
  fun idx => KerG (fun i c => X (ix2 i c)) (fun i j => A (ix2 i j)) (fun c o => W (ix2 c o)) (idx 0) (idx 1)

def refArr (X : SX.Idx → EReal) (A : SA.Idx → EReal) (W : SW.Idx → EReal) : SX.Idx → EReal :=
  fun idx => RefG (fun i c => X (ix2 i c)) (fun i j => A (ix2 i j)) (fun c o => W (ix2 c o)) (idx 0) (idx 1)

/-- What the precondition says of the arrays: every entry a real number, every degree positive. -/
structure Good (X : SX.Idx → EReal) (A : SA.Idx → EReal) (W : SW.Idx → EReal) : Prop where
  x_real : ∀ i c, ∃ r : ℝ, X (ix2 i c) = (r : EReal)
  a_real : ∀ i j, ∃ r : ℝ, A (ix2 i j) = (r : EReal)
  w_real : ∀ c o, ∃ r : ℝ, W (ix2 c o) = (r : EReal)
  deg_pos : ∀ i : Fin 8192, (0 : EReal) < ∑ j : Fin 8192, (A (ix2 i j) + eye i j)

end Cert.Spec

end
-- ==== Proof.DegValue.lean ====
/-
  What the degree kernel's region leaves in its output array, on the extended reals.

  The region's proof data names what the accumulator and the output block hold after every grid point as the
  stores each case's run found, read back.  Here those are read as values.  A clearing point leaves in the
  accumulator, at row r, 0 plus the sum of row r of the current 1024 by 2048 block of the matrix; any other point adds
  the sum of row r of its block to what the point before left; an emitting point leaves in the output block the
  inverse square root of (accumulator + 1).  Point t works on row block t / 4 and column block t % 4, whose
  entry (r, j) is the matrix at (1024 (t / 4) + r, 2048 (t % 4) + j).  So after point 4 i + k the accumulator
  holds, at row r, the running total of the first k + 1 column chunks of row 1024 i + r, and at k = 3 that is the
  whole row sum (addition on the extended reals is commutative and associative).  The output array's rows
  1024 i .. 1024 i + 1023 are written back at point 4 i + 3 and nowhere else, and those eight blocks cover it:
  it ends holding, at row R, the inverse square root of (the sum of row R of the matrix) + 1.
-/
import proofs.«146386_j59150289601064_2_alg».proof.Proof.DegFrame
import proofs.«146386_j59150289601064_2_alg».proof.Proof.LibColumns
import proofs.«146386_j59150289601064_2_alg».proof.Proof.LibChunkSum
import proofs.«146386_j59150289601064_2_alg».proof.Proof.LibLogistic
import proofs.«146386_j59150289601064_2_alg».proof.Proof.Spec
import Idealize.ShloMosaic.Lib.Pipeline.Value
import Idealize.ShloMosaic.Lib.Tactic

set_option maxRecDepth 16384

noncomputable section

namespace Cert.KernelIdeal.Deg

open Cert.KernelIdeal Cert.KernelIdeal.Gen
open Idealize.ShloMosaic Idealize.ShloMosaic.TcCoe Idealize.ShloMosaic.Tactic Idealize.SL.Sem
open Idealize.ShloMosaic.Pipeline (Dat)
open Idealize.ShloMosaic.ValueIdx

/-! ## The cases' stores as payloads (at any float instance) -/

section Pieces

variable {F : FTy → Type} [FloatOps F]

/-- The zero offsets of a whole-block access, however spelt. -/
theorem zero_offsets : (![0, 0] : Fin 2 → Nat) = fun _ => 0 := funext fun a => by fin_cases a <;> rfl

/-- The adding case leaves accumulator + row sums: its one store's payload, whose loads read the whole buffers. -/
theorem accAdd_eq (c : Dev nD) (i : grid0.Coords) (a2 : Memref sig .tc .vmem S1024x2048 .f32) (h2 : a2.IsWhole) (a3 : Memref sig .tc .vmem S1024x1 .f32) (h3 : a3.IsWhole) (a4 : Memref sig .tc .vmem S1024x1 .f32) (h4 : a4.IsWhole) (hc : ¬clears i) (he : ¬emits i)
    (x : Vec F S1024x2048 .f32) (s : Vec F S1024x1 .f32) :
    accAdd c i a2 h2 a3 h3 a4 h4 hc he x s = k0_pay2 s x := by
  unfold accAdd
  rw [View.read_writes_eq_canon _ _ _ (add_covers c i a2 h2 a3 h3 a4 h4 hc he x s)]
  unfold runAdd
  dsimp only
  rw [View.canon_unit_zero zero_offsets]
  simp only [View.readAt_eq_ld, h4.read_unread, h2.read_unread, View.ld_unit_zero (S := S1024x1) zero_offsets, View.ld_unit_zero (S := S1024x2048) zero_offsets]

/-- The clearing case stores the zero column, reads it back and leaves zero column + row sums. -/
theorem accClear_eq (c : Dev nD) (i : grid0.Coords) (a2 : Memref sig .tc .vmem S1024x2048 .f32) (h2 : a2.IsWhole) (a3 : Memref sig .tc .vmem S1024x1 .f32) (h3 : a3.IsWhole) (a4 : Memref sig .tc .vmem S1024x1 .f32) (h4 : a4.IsWhole) (hc : clears i) (he : ¬emits i)
    (x : Vec F S1024x2048 .f32) :
    accClear c i a2 h2 a3 h3 a4 h4 hc he x = k0_pay2 (k0_pay1 (F := F)) x := by
  unfold accClear
  rw [View.read_writes_eq_canon _ _ _ (clear_covers c i a2 h2 a3 h3 a4 h4 hc he x)]
  unfold runClear
  dsimp only
  sl_unfold_words
  rw [View.canon_cons_unit_zero (S := S1024x1) zero_offsets, View.readCov_unit_zero (S := S1024x1) _ zero_offsets]
  simp only [View.readAt_eq_ld, h2.read_unread, View.ld_unit_zero (S := S1024x2048) zero_offsets]

/-- The emitting case leaves accumulator + row sums in the accumulator, -/
theorem accEmit_eq (c : Dev nD) (i : grid0.Coords) (a2 : Memref sig .tc .vmem S1024x2048 .f32) (h2 : a2.IsWhole) (a3 : Memref sig .tc .vmem S1024x1 .f32) (h3 : a3.IsWhole) (a4 : Memref sig .tc .vmem S1024x1 .f32) (h4 : a4.IsWhole) (hc : ¬clears i) (he : emits i)
    (x : Vec F S1024x2048 .f32) (s : Vec F S1024x1 .f32) :
    accEmit c i a2 h2 a3 h3 a4 h4 hc he x s = k0_pay2 s x := by
  unfold accEmit
  rw [View.read_writes_eq_canon _ _ _ (emit_covers_acc c i a2 h2 a3 h3 a4 h4 hc he x s)]
  unfold runEmit
  dsimp only
  sl_unfold_words
  rw [View.canon_unit_zero zero_offsets]
  simp only [View.readAt_eq_ld, h4.read_unread, h2.read_unread, View.ld_unit_zero (S := S1024x1) zero_offsets, View.ld_unit_zero (S := S1024x2048) zero_offsets]

/-- and in the output block the inverse square root of (that + 1): the accumulator is read back after its store. -/
theorem outEmit_eq (c : Dev nD) (i : grid0.Coords) (a2 : Memref sig .tc .vmem S1024x2048 .f32) (h2 : a2.IsWhole) (a3 : Memref sig .tc .vmem S1024x1 .f32) (h3 : a3.IsWhole) (a4 : Memref sig .tc .vmem S1024x1 .f32) (h4 : a4.IsWhole) (hc : ¬clears i) (he : emits i)
    (x : Vec F S1024x2048 .f32) (s : Vec F S1024x1 .f32) :
    outEmit c i a2 h2 a3 h3 a4 h4 hc he x s = k0_pay3 (k0_pay2 s x) := by
  unfold outEmit
  rw [View.read_writes_eq_canon _ _ _ (emit_covers_out c i a2 h2 a3 h3 a4 h4 hc he x s)]
  unfold runEmit
  dsimp only
  sl_unfold_words
  rw [View.canon_unit_zero zero_offsets, View.readCov_unit_zero (S := S1024x1) _ zero_offsets]
  simp only [View.readAt_eq_ld, h4.read_unread, h2.read_unread, View.ld_unit_zero (S := S1024x1) zero_offsets, View.ld_unit_zero (S := S1024x2048) zero_offsets]

end Pieces

/-! ## The payloads at an entry, on the extended reals -/

/-- The zero column is 0 everywhere. -/
theorem pay1_apply (r : Fin 1024) (u : Fin 1) : k0_pay1 (F := Ideal) (ix2 r u) = 0 := by
  show shapeCast S1024x1 (broadcast S1024x1 (Scalar.ofBits (F := Ideal) .f32 0x00000000#32)) shapeCasts_S1024x1_S1024x1 (ix2 r u) = 0
  exact (congrFun (shapeCast_self _ _) _).trans Ideal.ofBits_zero_f32

/-- Accumulator + row sums, at row r: the accumulator's entry plus the sum of row r of the block. -/
theorem pay2_apply (s : Vec Ideal S1024x1 .f32) (x : Vec Ideal S1024x2048 .f32) (r : Fin 1024) (u : Fin 1) :
    k0_pay2 s x (ix2 r u) = s (ix2 r u) + ∑ k : Fin 2048, x (ix2 r k) := by
  show shapeCast S1024x1 (addf (F := Ideal) s (shapeCast S1024x1 (multiReduction (F := Ideal) .add [1] S1024 x 0x00000000#32 reduces_S1024x2048_S1024 (.inl rfl) rfl) shapeCasts_S1024_S1024x1)) shapeCasts_S1024x1_S1024x1 (ix2 r u) = _
  refine (congrFun (shapeCast_self _ _) _).trans ?_
  exact congrArg (s (ix2 r u) + ·) (Cert.Columns.keepdimsSum_apply x 0x00000000#32 reduces_S1024x2048_S1024 (.inl rfl) rfl shapeCasts_S1024_S1024x1 r u)

/-- The emitted column, at row r: the inverse square root of (the entry + 1). -/
theorem pay3_apply (v : Vec Ideal S1024x1 .f32) (r : Fin 1024) (u : Fin 1) :
    k0_pay3 v (ix2 r u) = Ideal.rsqrt (v (ix2 r u) + 1) := by
  show Ideal.rsqrt (v (ix2 r u) + Ideal.ofBits .f32 0x3F800000#32) = _
  exact congrArg (fun z => Ideal.rsqrt (v (ix2 r u) + z)) Cert.Logistic.one_word

/-! ## The geometry of the grid -/

theorem N32 : cfg0.N = 32 := N_0

/-- The block indices at point t: the matrix window's block is (t / 4, t % 4), the output window's (t / 4, 0). -/
theorem matrix_index : ∀ t : Fin cfg0.N, (cfg0.win 0).index t 0 = t.val / 4 ∧ (cfg0.win 0).index t 1 = t.val % 4 :=
  (by decide +kernel : ∀ t : Fin grid0.N, win0_0.index t 0 = t.val / 4 ∧ win0_0.index t 1 = t.val % 4)
theorem out_index : ∀ t : Fin cfg0.N, (cfg0.win 1).index t 0 = t.val / 4 ∧ (cfg0.win 1).index t 1 = 0 :=
  (by decide +kernel : ∀ t : Fin grid0.N, win0_1.index t 0 = t.val / 4 ∧ win0_1.index t 1 = 0)

/-- Row r of point t's row block, as a row of the matrix. -/
def rowOf (t : Fin cfg0.N) (r : Fin 1024) : Fin 8192 :=
  ⟨1024 * (t.val / 4) + r.val, by have := lt_of_lt_of_eq t.isLt N32; have := r.isLt; omega⟩

/-- Column j of column chunk k, as a column of the matrix. -/
def col (k : Fin 4) (j : Fin 2048) : Fin 8192 := ⟨2048 * k.val + j.val, by have := k.isLt; have := j.isLt; omega⟩

/-- The column chunk point t works on. -/
def chunkOf (t : Fin cfg0.N) : Fin 4 := ⟨t.val % 4, Nat.mod_lt _ (by decide)⟩

section Values

-- The contents of every TensorCore buffer when the region is entered, per core, on the extended reals.
variable (V : (c : Dev nD) → (b : Ref sig .tc) → Buf (Elt Ideal) ((c : Thread nD τ).loc b))

/-- The matrix as the region finds it. -/
def mat (c : Dev nD) (i j : Fin 8192) : EReal := V c main_arg1 (ix2 i j)

/-- The matrix window's block at point t, entry (r, j): the matrix at (row r of the row block, column j of the chunk). -/
theorem block_apply (c : Dev nD) (t : Fin cfg0.N) (r : Fin 1024) (j : Fin 2048) :
    blockAt V c 0 t (ix2 r j) = mat V c (rowOf t r) (col (chunkOf t) j) := by
  have hi := matrix_index t
  unfold blockAt mat
  rw [View.read_apply]
  show V c main_arg1 _ = V c main_arg1 _
  congr 1
  funext a
  apply Fin.ext
  match a with
  | ⟨0, _⟩ => show (cfg0.win 0).index t 0 * 1024 + 1 * r.val = 1024 * (t.val / 4) + r.val; rw [hi.1]; omega
  | ⟨1, _⟩ => show (cfg0.win 0).index t 1 * 2048 + 1 * j.val = 2048 * (t.val % 4) + j.val; rw [hi.2]; omega

/-! ## The running total -/

/-- The sum of one column chunk of a row. -/
def chunkSum (a : Fin 8192 → Fin 8192 → EReal) (R : Fin 8192) (k : Fin 4) : EReal := ∑ j : Fin 2048, a R (col k j)

/-- The running total of a row after column chunks 0 .. k, started at zero. -/
def runSum (a : Fin 8192 → Fin 8192 → EReal) (R : Fin 8192) : (k : ℕ) → k < 4 → EReal
  | 0, h => 0 + chunkSum a R ⟨0, h⟩
  | k + 1, h => runSum a R k (Nat.lt_of_succ_lt h) + chunkSum a R ⟨k + 1, h⟩

/-- After the fourth chunk the running total is the whole row sum. -/
theorem runSum_last (a : Fin 8192 → Fin 8192 → EReal) (R : Fin 8192) (h : 3 < 4) : runSum a R 3 h = ∑ j : Fin 8192, a R j :=
  Cert.LibChunkSum.running_four 2048 (a R) col (fun _ _ => rfl)

/-- The accumulator after a clearing point: zero plus the row sums of its block. -/
theorem acc_clear (c : Dev nD) (t : Fin cfg0.N) (h0 : t.val % 4 = 0) (r : Fin 1024) (u : Fin 1) :
    (stateAt V c t.val t.isLt).2 (ix2 r u) = 0 + chunkSum (mat V c) (rowOf t r) (chunkOf t) := by
  rw [stateAt_clear V c t h0]
  dsimp only
  unfold accClearAt
  rw [accClear_eq, pay2_apply, pay1_apply]
  exact congrArg (0 + ·) (Finset.sum_congr rfl fun j _ => block_apply V c t r j)

/-- The accumulator after any other point: what the point before left plus the row sums of its block. -/
theorem acc_step (c : Dev nD) (t : Fin cfg0.N) (h0 : ¬t.val % 4 = 0) (r : Fin 1024) (u : Fin 1) :
    (stateAt V c t.val t.isLt).2 (ix2 r u)
      = (stateAt V c (t.val - 1) (pred_lt t)).2 (ix2 r u) + chunkSum (mat V c) (rowOf t r) (chunkOf t) := by
  by_cases h3 : t.val % 4 = 3
  · rw [stateAt_emit V c t h0 h3]
    dsimp only
    unfold accEmitAt
    rw [accEmit_eq, pay2_apply]
    exact congrArg (_ + ·) (Finset.sum_congr rfl fun j _ => block_apply V c t r j)
  · rw [stateAt_add V c t h0 h3]
    dsimp only
    unfold accAddAt
    rw [accAdd_eq, pay2_apply]
    exact congrArg (_ + ·) (Finset.sum_congr rfl fun j _ => block_apply V c t r j)

/-- THE INVARIANT: after point n the accumulator holds, at row r, the running total of the row's first n % 4 + 1 chunks. -/
theorem acc_eq (c : Dev nD) : ∀ (n : ℕ) (hn : n < cfg0.N) (r : Fin 1024) (u : Fin 1) (k : ℕ) (hk : k < 4), n % 4 = k →
    (stateAt V c n hn).2 (ix2 r u) = runSum (mat V c) (rowOf ⟨n, hn⟩ r) k hk
  | 0, hn, r, u, k, hk, e => by
    obtain rfl : k = 0 := by omega
    exact acc_clear V c ⟨0, hn⟩ rfl r u
  | n + 1, hn, r, u, k, hk, e => by
    by_cases h0 : (n + 1) % 4 = 0
    · obtain rfl : k = 0 := by omega
      exact (acc_clear V c ⟨n + 1, hn⟩ h0 r u).trans (congrArg (fun q : Fin 4 => 0 + chunkSum (mat V c) (rowOf ⟨n + 1, hn⟩ r) q) (Fin.ext h0))
    · obtain ⟨k', rfl⟩ : ∃ k', k = k' + 1 := ⟨k - 1, by omega⟩
      refine (acc_step V c ⟨n + 1, hn⟩ h0 r u).trans ?_
      have hrow : rowOf ⟨n, Nat.lt_of_succ_lt hn⟩ r = rowOf ⟨n + 1, hn⟩ r := Fin.ext (by show 1024 * (n / 4) + r.val = 1024 * ((n + 1) / 4) + r.val; omega)
      have ih := acc_eq c n (Nat.lt_of_succ_lt hn) r u k' (Nat.lt_of_succ_lt hk) (by omega)
      rw [hrow] at ih
      show (stateAt V c n _).2 (ix2 r u) + _ = runSum (mat V c) (rowOf ⟨n + 1, hn⟩ r) k' _ + chunkSum (mat V c) (rowOf ⟨n + 1, hn⟩ r) ⟨k' + 1, hk⟩
      rw [ih]
      exact congrArg (fun q : Fin 4 => _ + chunkSum (mat V c) (rowOf ⟨n + 1, hn⟩ r) q) (Fin.ext e)

/-! ## The output block and the output array -/

/-- At an emitting point the output block is the inverse square root of (accumulator + 1), entry by entry. -/
theorem out_from_acc (c : Dev nD) (t : Fin cfg0.N) (h0 : ¬t.val % 4 = 0) (h3 : t.val % 4 = 3) :
    (stateAt V c t.val t.isLt).1 = k0_pay3 (stateAt V c t.val t.isLt).2 := by
  rw [stateAt_emit V c t h0 h3]
  dsimp only
  unfold outEmitAt accEmitAt
  rw [outEmit_eq, accEmit_eq]

/-- So it holds, at row r, the inverse square root of (the whole sum of that row of the matrix + 1). -/
theorem out_emit (c : Dev nD) (t : Fin cfg0.N) (h3 : t.val % 4 = 3) (r : Fin 1024) (u : Fin 1) :
    (stateAt V c t.val t.isLt).1 (ix2 r u) = Cert.Spec.dK (mat V c) (rowOf t r) := by
  have h0 : ¬t.val % 4 = 0 := by omega
  rw [out_from_acc V c t h0 h3, pay3_apply, acc_eq V c t.val t.isLt r u 3 (by decide) h3, runSum_last]
  rfl

/-- What the output array is to end holding: at row R the inverse square root of (row sum + 1). -/
def result (c : Dev nD) : Buf (Elt Ideal) ((c : Thread nD τ).loc main_v0) := fun idx => Cert.Spec.dK (mat V c) (idx 0)

/-- Every write-back writes the matching rows of it: the block written back at point t is rows 1024 (t / 4) .. of the array. -/
theorem flushed_eq (c : Dev nD) (t : Fin cfg0.N) (hf : (cfg0.win 1).flush t = true) :
    (dat0 V c).flushed 1 t = ((cfg0.win 1).blk t).view.read (Elt Ideal) (result V c) := by
  have h3 : t.val % 4 = 3 := (flush0_1 t).mp hf
  have hi := out_index t
  funext y
  obtain ⟨r, u, rfl⟩ : ∃ (r : Fin 1024) (u : Fin 1), y = ix2 r u := ⟨y 0, y 1, eq_ix2 y⟩
  show (dat0 V c).after 1 t (ix2 r u) = _
  rw [after_out, out_emit V c t h3 r u, View.read_apply]
  show Cert.Spec.dK (mat V c) (rowOf t r) = Cert.Spec.dK (mat V c) _
  congr 1
  apply Fin.ext
  show 1024 * (t.val / 4) + r.val = (cfg0.win 1).index t 0 * 1024 + 1 * r.val
  rw [hi.1]; omega

/-- Every row of the array lies in the block of a point that writes back: row R in that of point 4 (R / 1024) + 3. -/
theorem covered (c : Dev nD) (i : ((cfg0.win 1).arr.view.loc (c.tc : Thread nD τ)).2.ty.Idx) :
    ∃ t : Fin cfg0.N, (cfg0.win 1).flush t = true ∧ i ∈ ((cfg0.win 1).blk t).view.set := by
  have hR : (i 0 : Nat) < 8192 := (i 0).isLt
  have hU : (i 1 : Nat) < 1 := (i 1).isLt
  have hlt : 4 * ((i 0 : Nat) / 1024) + 3 < cfg0.N := by rw [N32]; omega
  have hm : (4 * ((i 0 : Nat) / 1024) + 3) % 4 = 3 := by omega
  have hd : (4 * ((i 0 : Nat) / 1024) + 3) / 4 = (i 0 : Nat) / 1024 := by omega
  refine ⟨⟨4 * ((i 0 : Nat) / 1024) + 3, hlt⟩, (flush0_1 _).mpr hm, ?_⟩
  have hi := out_index ⟨4 * ((i 0 : Nat) / 1024) + 3, hlt⟩
  show i ∈ ((View.whole main_v0).slice (win0_1.rect ⟨4 * ((i 0 : Nat) / 1024) + 3, hlt⟩)).set
  rw [View.set_slice_whole, Rect.mem_set_unit]
  intro a
  match a with
  | ⟨0, _⟩ =>
    show (cfg0.win 1).index ⟨4 * ((i 0 : Nat) / 1024) + 3, hlt⟩ 0 * 1024 ≤ (i 0 : Nat) ∧ (i 0 : Nat) < (cfg0.win 1).index ⟨4 * ((i 0 : Nat) / 1024) + 3, hlt⟩ 0 * 1024 + 1024
    rw [hi.1]; dsimp only; rw [hd]; omega
  | ⟨1, _⟩ =>
    show (cfg0.win 1).index ⟨4 * ((i 0 : Nat) / 1024) + 3, hlt⟩ 1 * 1 ≤ (i 1 : Nat) ∧ (i 1 : Nat) < (cfg0.win 1).index ⟨4 * ((i 0 : Nat) / 1024) + 3, hlt⟩ 1 * 1 + 1
    rw [hi.2]; omega

/-- THE VALUE: after the region the output array holds, at row R, the inverse square root of (the sum of row R of the
    matrix as the region found it, plus one). -/
theorem deg_out (c : Dev nD) :
    (dat0 (F := Ideal) V c).arrAt 1 cfg0.N = fun idx => Cert.Spec.dK (fun i j => V c main_arg1 (ix2 i j)) (idx 0) :=
  (dat0 V c).arrAt_eq_of_cover 1 (result V c) (flushed_eq V c) (covered c)

end Values

end Cert.KernelIdeal.Deg

end
-- ==== Proof.AccMath.lean ====
/-
  The arithmetic of an accumulator that gathers a sum over 8192 terms in eight steps of 1024 terms each,
  and that receives one extra term (the self loop's) right after the step whose number is the row band.

  In any additive commutative monoid: after all eight steps the accumulator holds the sum of all 8192 terms
  plus the extra term, whatever the step at which the extra term came in, provided the row band is one of
  the eight steps.  The sum over Fin 8192 is split into its eight chunks by the bijection
  Fin 8 × Fin 1024 ≃ Fin (8 * 1024), (c, j) ↦ 1024 * c + j; no sum is ever enumerated.
-/
import proofs.«146386_j59150289601064_2_alg».proof.Proof.Spec

noncomputable section

namespace Cert.Spec

namespace AccMath

/-- The index n * c + j of the j-th element of the c-th chunk lies below a * n. -/
theorem chunk_index_lt {a n c j : ℕ} (hc : c < a) (hj : j < n) : n * c + j < a * n :=
  calc n * c + j < n * c + n := Nat.add_lt_add_left hj _
    _ = n * (c + 1) := (Nat.mul_succ n c).symm
    _ ≤ n * a := Nat.mul_le_mul_left n hc
    _ = a * n := Nat.mul_comm n a

/-- A sum over Fin N with N = a * n is the sum, chunk by chunk, of the sums over the a chunks of n
consecutive indices. -/
theorem sum_fin_chunks {M : Type*} [AddCommMonoid M] {N : ℕ} (a n : ℕ) (h : a * n = N) (f : Fin N → M) :
    ∑ i, f i = ∑ c : Fin a, ∑ j : Fin n, f ⟨n * c.val + j.val, h ▸ chunk_index_lt c.isLt j.isLt⟩ := by
  subst h
  rw [← finProdFinEquiv.sum_comp f, Fintype.sum_prod_type]
  refine Finset.sum_congr rfl (fun c _ => Finset.sum_congr rfl (fun j _ => ?_))
  congr 1
  apply Fin.ext
  rw [finProdFinEquiv_apply_val]
  exact Nat.add_comm _ _

end AccMath

section Acc

variable {M : Type*} [AddCommMonoid M]

/-- The k-th chunk of 1024 consecutive terms. -/
def chunk (g : Fin 8192 → M) (k : ℕ) (hk : k < 8) : M :=
  ∑ jj : Fin 1024, g ⟨1024 * k + jj.val, by omega⟩

/-- The accumulator after n steps, in the order of the additions: step k adds the k-th chunk, and the
extra term is added right after step k exactly when the row band is k. -/
def accAfter (g : Fin 8192 → M) (self : M) (ib : ℕ) : (n : ℕ) → n ≤ 8 → M
  | 0, _ => 0
  | k + 1, h =>
    if ib = k then (accAfter g self ib k (by omega) + chunk g k (by omega)) + self
    else accAfter g self ib k (by omega) + chunk g k (by omega)

variable (g : Fin 8192 → M) (self : M) (ib : ℕ)

theorem accAfter_zero (h : 0 ≤ 8) : accAfter g self ib 0 h = 0 := rfl

theorem accAfter_succ_diag (k : ℕ) (hk : k < 8) (h : ib = k) :
    accAfter g self ib (k + 1) hk
      = (accAfter g self ib k (Nat.le_of_lt hk) + chunk g k hk) + self := by
  rw [accAfter, if_pos h]

theorem accAfter_succ_off (k : ℕ) (hk : k < 8) (h : ib ≠ k) :
    accAfter g self ib (k + 1) hk = accAfter g self ib k (Nat.le_of_lt hk) + chunk g k hk := by
  rw [accAfter, if_neg h]

/-- The k-th chunk for every natural k: zero beyond the eighth. -/
def chunkT (g : Fin 8192 → M) (k : ℕ) : M := if hk : k < 8 then chunk g k hk else 0

theorem chunkT_of_lt (k : ℕ) (hk : k < 8) : chunkT g k = chunk g k hk := dif_pos hk

/-- After n steps: the first n chunks, and the extra term once the row band's step is done. -/
theorem accAfter_eq (n : ℕ) (hn : n ≤ 8) :
    accAfter g self ib n hn
      = (∑ k ∈ Finset.range n, chunkT g k) + (if ib < n then self else 0) := by
  induction n with
  | zero => rw [accAfter_zero, Finset.sum_range_zero, if_neg (Nat.not_lt_zero ib), add_zero]
  | succ k ih =>
    have hk : k < 8 := hn
    by_cases h : ib = k
    · rw [accAfter_succ_diag g self ib k hk h, ih (Nat.le_of_lt hk), Finset.sum_range_succ,
        chunkT_of_lt g k hk, if_neg (by omega), if_pos (by omega), add_zero]
    · rw [accAfter_succ_off g self ib k hk h, ih (Nat.le_of_lt hk), Finset.sum_range_succ,
        chunkT_of_lt g k hk, add_right_comm]
      by_cases h' : ib < k
      · rw [if_pos h', if_pos (by omega)]
      · rw [if_neg h', if_neg (by omega)]

/-- The eight chunks make up the whole sum. -/
theorem sum_chunkT : ∑ k ∈ Finset.range 8, chunkT g k = ∑ j : Fin 8192, g j := by
  rw [AccMath.sum_fin_chunks 8 1024 (by norm_num) g, ← Fin.sum_univ_eq_sum_range (fun k => chunkT g k) 8]
  refine Finset.sum_congr rfl (fun c _ => ?_)
  rw [chunkT_of_lt g c.val c.isLt]
  rfl

theorem accAfter_last (hib : ib < 8) :
    accAfter g self ib 8 le_rfl = (∑ j : Fin 8192, g j) + self := by
  rw [accAfter_eq g self ib 8 le_rfl, sum_chunkT, if_pos hib]

end Acc

end Cert.Spec

end
-- ==== Proof.LibPlainLayers.lean ====
/-
  General lemmas for kernels built of plain matrix products, bias rows and row normalisation, read at the exact
  (extended-real) instance, one entry at a time.

  * `plainMM_zero_apply`: an [M, K] by [K, N] product into a zero accumulator is at (p, j) the plain sum over k of
    left (p, k) times right (k, j); `plainMM_of_eq` is the same for any record of dimension numbers equal to the plain one.
  * `dense_relu_apply`: product, plus a [1, N] bias row repeated down the rows, then the maximum with zero.
  * `dense_bias_apply`: product plus the repeated bias row.
  * `l2norm_apply`: each row times the reciprocal square root of the larger of its sum of squares and a floor.
-/
import Idealize.ShloMosaic.Lib.ValueIdx
import Idealize.ShloMosaic.Lib.ValueLayout
import Idealize.ShloMosaic.Lib.Pipeline.Value
import Idealize.ShloMosaic.PureOps.Ideal.Laws
import proofs.«146386_j59150289601064_2_alg».proof.Proof.LibDenseRows
import proofs.«146386_j59150289601064_2_alg».proof.Proof.LibColumns

noncomputable section

open scoped BigOperators

namespace Cert.PlainLayers

open Idealize.ShloMosaic Idealize.ShloMosaic.ValueIdx

variable {M K N : ℕ}

/-! ## The operand indices of a plain product -/

theorem plainL_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plainL_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plainR_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plainR_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- A plain product into a zero accumulator at (p, j): the sum over k of left (p, k) times right (k, j). -/
theorem plainMM_zero_apply {φ₁ φ₂ : FTy} (prec : Option ContractPrecision) (h : FVec Ideal ⟨2, ![M, K]⟩ φ₁) (w : FVec Ideal ⟨2, ![K, N]⟩ φ₂)
    (p : Fin M) (j : Fin N) :
    FloatOps.matmul (DotDims.plain M K N) prec h w (constant ⟨2, ![M, N]⟩ .f32 0x00000000#32) (ix2 p j)
      = ∑ k : Fin K, h (ix2 p k) * w (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p j) ((contrEquiv1 (DotDims.plain M K N) K rfl rfl).symm k) = ix2 p k :=
    funext fun a => Fin.ext (by
      match a with
      | ⟨0, _⟩ => exact plainL_0 _ _
      | ⟨1, _⟩ => exact (plainL_1 _ _).trans hk)
  have er : (DotDims.plain M K N).rhsIdx (ix2 p j) ((contrEquiv1 (DotDims.plain M K N) K rfl rfl).symm k) = ix2 k j :=
    funext fun a => Fin.ext (by
      match a with
      | ⟨0, _⟩ => exact (plainR_0 _ _).trans hk
      | ⟨1, _⟩ => exact plainR_1 _ _)
  rw [el, er]

/-- The same for any record of dimension numbers that is the plain one. -/
theorem plainMM_of_eq {φ₁ φ₂ : FTy} (D : DotDims ⟨2, ![M, K]⟩ ⟨2, ![K, N]⟩ ⟨2, ![M, N]⟩) (hD : D = DotDims.plain M K N)
    (prec : Option ContractPrecision) (h : FVec Ideal ⟨2, ![M, K]⟩ φ₁) (w : FVec Ideal ⟨2, ![K, N]⟩ φ₂) (p : Fin M) (j : Fin N) :
    FloatOps.matmul D prec h w (constant ⟨2, ![M, N]⟩ .f32 0x00000000#32) (ix2 p j) = ∑ k : Fin K, h (ix2 p k) * w (ix2 k j) := by
  subst hD; exact plainMM_zero_apply prec h w p j

/-- A plain product into any accumulator at (p, j): the accumulator there plus the sum. -/
theorem plainMM_acc_of_eq {φ₁ φ₂ : FTy} (D : DotDims ⟨2, ![M, K]⟩ ⟨2, ![K, N]⟩ ⟨2, ![M, N]⟩) (hD : D = DotDims.plain M K N)
    (prec : Option ContractPrecision) (h : FVec Ideal ⟨2, ![M, K]⟩ φ₁) (w : FVec Ideal ⟨2, ![K, N]⟩ φ₂) (acc : FVec Ideal ⟨2, ![M, N]⟩ .f32)
    (p : Fin M) (j : Fin N) :
    FloatOps.matmul D prec h w acc (ix2 p j) = acc (ix2 p j) + ∑ k : Fin K, h (ix2 p k) * w (ix2 k j) := by
  subst hD
  rw [Ideal.matmul_apply, ← plainMM_zero_apply prec h w p j, Ideal.matmul_constant_zero_apply]

/-- Product plus a [1, N] bias row repeated down the rows, at (p, j). -/
theorem dense_bias_apply (D : DotDims ⟨2, ![M, K]⟩ ⟨2, ![K, N]⟩ ⟨2, ![M, N]⟩) (hD : D = DotDims.plain M K N)
    (prec : Option ContractPrecision) (h : FVec Ideal ⟨2, ![M, K]⟩ .f32) (w : FVec Ideal ⟨2, ![K, N]⟩ .f32) (b : FVec Ideal ⟨2, ![1, N]⟩ .f32)
    (hc : (⟨2, ![1, N]⟩ : Shape).ShapeCasts ⟨2, ![1, N]⟩) (hb : (⟨2, ![1, N]⟩ : Shape).Broadcasts ⟨2, ![M, N]⟩) (p : Fin M) (j : Fin N) :
    addf (matmul D prec h w (constant ⟨2, ![M, N]⟩ .f32 0x00000000#32)) (broadcastTo ⟨2, ![M, N]⟩ (shapeCast ⟨2, ![1, N]⟩ b hc) hb) (ix2 p j)
      = (∑ k : Fin K, h (ix2 p k) * w (ix2 k j)) + b (ix2 (0 : Fin 1) j) :=
  congrArg₂ (· + ·) (plainMM_of_eq D hD prec h w p j)
    ((broadcastTo_1b_ab_apply _ hb p j).trans (congrFun (shapeCast_self b hc) _))

/-- Product, bias row, maximum with zero, at (p, j). -/
theorem dense_relu_apply (D : DotDims ⟨2, ![M, K]⟩ ⟨2, ![K, N]⟩ ⟨2, ![M, N]⟩) (hD : D = DotDims.plain M K N)
    (prec : Option ContractPrecision) (h : FVec Ideal ⟨2, ![M, K]⟩ .f32) (w : FVec Ideal ⟨2, ![K, N]⟩ .f32) (b : FVec Ideal ⟨2, ![1, N]⟩ .f32)
    (hc : (⟨2, ![1, N]⟩ : Shape).ShapeCasts ⟨2, ![1, N]⟩) (hb : (⟨2, ![1, N]⟩ : Shape).Broadcasts ⟨2, ![M, N]⟩) (p : Fin M) (j : Fin N) :
    maximumf (addf (matmul D prec h w (constant ⟨2, ![M, N]⟩ .f32 0x00000000#32)) (broadcastTo ⟨2, ![M, N]⟩ (shapeCast ⟨2, ![1, N]⟩ b hc) hb))
        (broadcast ⟨2, ![M, N]⟩ (Scalar.ofBits (F := Ideal) .f32 0x00000000#32)) (ix2 p j)
      = max ((∑ k : Fin K, h (ix2 p k) * w (ix2 k j)) + b (ix2 (0 : Fin 1) j)) 0 :=
  congrArg₂ max (dense_bias_apply D hD prec h w b hc hb p j) Ideal.ofBits_zero_f32

/-- Each row of an [A, B] array times the reciprocal square root of the larger of the row's sum of squares and a floor,
    at (p, q). -/
theorem l2norm_apply {A B : ℕ} (P : FVec Ideal ⟨2, ![A, B]⟩ .f32) (acc : BitVec FTy.f32.bits)
    (hr : (⟨2, ![A, B]⟩ : Shape).Reduces [1] ⟨1, ![A]⟩) (hφ : FKind.Formats .f32) (hacc : acc = FKind.add.neutral .f32 hφ)
    (hs : (⟨1, ![A]⟩ : Shape).ShapeCasts ⟨2, ![A, 1]⟩) (fl : BitVec FTy.f32.bits) (hbc : (⟨2, ![A, 1]⟩ : Shape).Broadcasts ⟨2, ![A, B]⟩)
    (p : Fin A) (q : Fin B) :
    mulf P (broadcastTo ⟨2, ![A, B]⟩ (rsqrt (maximumf (shapeCast ⟨2, ![A, 1]⟩ (multiReduction .add [1] ⟨1, ![A]⟩ (mulf P P) acc hr hφ hacc) hs)
        (broadcast ⟨2, ![A, 1]⟩ (Scalar.ofBits (F := Ideal) .f32 fl)))) hbc) (ix2 p q)
      = P (ix2 p q) * FloatOps.rsqrt (F := Ideal) (φ := .f32) (max (∑ k : Fin B, P (ix2 p k) * P (ix2 p k)) (Ideal.ofBits .f32 fl)) := by
  refine congrArg (P (ix2 p q) * ·) ?_
  refine (Cert.Columns.broadcastTo_a1_ab_apply _ hbc p q).trans ?_
  exact congrArg (fun t => FloatOps.rsqrt (F := Ideal) (φ := .f32) (max t (Ideal.ofBits .f32 fl)))
    (Cert.Columns.keepdimsSum_apply (mulf P P) acc hr hφ hacc hs p 0)

/-- The same, the array's entries of row p given by a formula `R`. -/
theorem l2norm_apply_of {A B : ℕ} (P : FVec Ideal ⟨2, ![A, B]⟩ .f32) (R : Fin B → EReal) (p : Fin A) (hP : ∀ e, P (ix2 p e) = R e)
    (acc : BitVec FTy.f32.bits)
    (hr : (⟨2, ![A, B]⟩ : Shape).Reduces [1] ⟨1, ![A]⟩) (hφ : FKind.Formats .f32) (hacc : acc = FKind.add.neutral .f32 hφ)
    (hs : (⟨1, ![A]⟩ : Shape).ShapeCasts ⟨2, ![A, 1]⟩) (fl : BitVec FTy.f32.bits) (hbc : (⟨2, ![A, 1]⟩ : Shape).Broadcasts ⟨2, ![A, B]⟩)
    (q : Fin B) :
    mulf P (broadcastTo ⟨2, ![A, B]⟩ (rsqrt (maximumf (shapeCast ⟨2, ![A, 1]⟩ (multiReduction .add [1] ⟨1, ![A]⟩ (mulf P P) acc hr hφ hacc) hs)
        (broadcast ⟨2, ![A, 1]⟩ (Scalar.ofBits (F := Ideal) .f32 fl)))) hbc) (ix2 p q)
      = R q * FloatOps.rsqrt (F := Ideal) (φ := .f32) (max (∑ k : Fin B, R k * R k) (Ideal.ofBits .f32 fl)) := by
  rw [l2norm_apply P acc hr hφ hacc hs fl hbc p q]
  simp only [hP]

/-- A sum of an [A, 1, B] array along its leading axis, at (u, e): the sum over s of the array at (s, u, e). -/
theorem leadSum_apply {A B : ℕ} {φ : FTy} (src : FVec Ideal ⟨3, ![A, 1, B]⟩ φ) (acc : BitVec φ.bits)
    (h : (⟨3, ![A, 1, B]⟩ : Shape).Reduces [0] ⟨2, ![1, B]⟩) (hφ : FKind.Formats φ) (hacc : acc = FKind.add.neutral φ hφ)
    (u : Fin 1) (e : Fin B) :
    multiReduction .add [0] ⟨2, ![1, B]⟩ src acc h hφ hacc (ix2 u e) = ∑ s : Fin A, src (ix3 s u e) := by
  refine (Ideal.multiReduction_add_single src acc h hφ hacc (ix2 u e)).trans ?_
  refine Finset.sum_congr rfl fun k _ => congrArg src (funext fun c => Fin.ext ?_)
  rw [h.lift_val]
  match c with
  | ⟨0, _⟩ => rfl
  | ⟨1, _⟩ => rfl
  | ⟨2, _⟩ => rfl

end Cert.PlainLayers

end
-- ==== Proof.GcnPay.lean ====
/-
  The aggregation kernel's stored values, read one entry at a time on the extended reals.

  The kernel keeps a running [1024, 256] block h. Per step it reads a [1024, 1024] block a of the matrix, a
  [1024, 256] block x of the features and a [1024, 1] column d of inverse square roots of degrees, and works with the
  features scaled row by row, s(j, q) = x(j, q) · d(j):
  * the start value of h is zero                                                       (`pay1_apply`),
  * the scaled features                                                                (`pay2_apply`),
  * h(r, q) + ∑ⱼ a(r, j) · s(j, q): the product of the block with the scaled features   (`pay3_apply`),
  * h(r, q) + s(r, q): the self loop                                                   (`pay4_apply`),
  * and at the end the exponential linear unit of z(r, o) = ∑_c (h(r, c) · d(r)) · w(c, o) (`pay5_apply`).
  The narrowing of a product's operands to sixteen bits is the identity on the extended reals, a product into the
  zero splat is the plain sum over the contracted position, and a recast of an array to its own shape changes nothing.
-/
import proofs.«146386_j59150289601064_2_alg».proof.Proof.Gen.KernelIdeal.Skeleton
import proofs.«146386_j59150289601064_2_alg».proof.Proof.Spec
import proofs.«146386_j59150289601064_2_alg».proof.Proof.LibPlainLayers
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.GcnPay

open Idealize.ShloMosaic Idealize.ShloMosaic.ValueIdx Cert.KernelIdeal Cert.KernelIdeal.Gen

/-- The float word 0x3F800000 is the number one. -/
theorem one_word : Ideal.ofBits .f32 0x3F800000#32 = 1 := IdealRules.sign_bit.ideal_onePat .f32

/-- The exponential linear unit as the kernel spells it on one number — choose z where z is above the zero word,
    else the exponential of the smaller of z and the zero word, minus the word of one — is the specification's. -/
theorem elu_spelt (z : EReal) :
    Scalar.select (FloatOps.cmpf (F := Ideal) (φ := .f32) .ogt z (Ideal.ofBits .f32 0x00000000#32)) z
        (FloatOps.subf (F := Ideal) (φ := .f32)
          (FloatOps.exp (F := Ideal) (φ := .f32) (FloatOps.minimumf (F := Ideal) (φ := .f32) z (Ideal.ofBits .f32 0x00000000#32)))
          (Ideal.ofBits .f32 0x3F800000#32))
      = Cert.Spec.eluK z := by
  rw [Ideal.ofBits_zero_f32, one_word]
  rfl

/-- The start value of the running block is zero everywhere. -/
theorem pay1_apply (r : Fin 1024) (q : Fin 256) : k1_pay1 (F := Ideal) (ix2 r q) = 0 := by
  unfold k1_pay1
  exact (congrFun (shapeCast_self _ _) _).trans Ideal.ofBits_zero_f32

/-- The scaled features: each row of the block times that row's entry of the column. -/
theorem pay2_apply (v8 : Vec Ideal S1024x256 .f32) (v9 : Vec Ideal S1024x1 .f32) (r : Fin 1024) (q : Fin 256) :
    k1_pay2 v8 v9 (ix2 r q) = v8 (ix2 r q) * v9 (ix2 r 0) := by
  unfold k1_pay2
  exact congrArg (v8 (ix2 r q) * ·)
    ((Cert.Columns.broadcastTo_a1_ab_apply _ _ r q).trans (congrFun (shapeCast_self v9 _) _))

/-- The running block plus the product of the matrix block with the scaled features. -/
theorem pay3_apply (v3 : Vec Ideal S1024x1024 .f32) (v8 : Vec Ideal S1024x256 .f32) (v9 : Vec Ideal S1024x1 .f32)
    (v14 : Vec Ideal S1024x256 .f32) (r : Fin 1024) (q : Fin 256) :
    k1_pay3 v3 v8 v9 v14 (ix2 r q)
      = v14 (ix2 r q) + ∑ j : Fin 1024, v3 (ix2 r j) * (v8 (ix2 j q) * v9 (ix2 j 0)) := by
  unfold k1_pay3
  refine (congrFun (shapeCast_self _ _) _).trans ?_
  refine congrArg (v14 (ix2 r q) + ·) ?_
  refine (Cert.PlainLayers.plainMM_of_eq _ rfl none _ _ r q).trans ?_
  exact Finset.sum_congr rfl fun j _ => congrArg (v3 (ix2 r j) * ·) (pay2_apply v8 v9 j q)

/-- The running block plus the scaled features themselves: the self loop. -/
theorem pay4_apply (v8 : Vec Ideal S1024x256 .f32) (v9 : Vec Ideal S1024x1 .f32) (v26 : Vec Ideal S1024x256 .f32)
    (r : Fin 1024) (q : Fin 256) :
    k1_pay4 v8 v9 v26 (ix2 r q) = v26 (ix2 r q) + v8 (ix2 r q) * v9 (ix2 r 0) := by
  unfold k1_pay4
  refine (congrFun (shapeCast_self _ _) _).trans ?_
  exact congrArg (v26 (ix2 r q) + ·) (pay2_apply v8 v9 r q)

/-- The result: the exponential linear unit of the running block, scaled row by row, times the weights. -/
theorem pay5_apply (v26 : Vec Ideal S1024x256 .f32) (v27 : Vec Ideal S1024x1 .f32) (v32 : Vec Ideal S256x256 .f32)
    (r : Fin 1024) (o : Fin 256) :
    k1_pay5 v26 v27 v32 (ix2 r o)
      = Cert.Spec.eluK (∑ cc : Fin 256, (v26 (ix2 r cc) * v27 (ix2 r 0)) * v32 (ix2 cc o)) := by
  unfold k1_pay5
  refine (elu_spelt _).trans (congrArg Cert.Spec.eluK ?_)
  refine (Cert.PlainLayers.plainMM_of_eq _ rfl none _ _ r o).trans ?_
  exact Finset.sum_congr rfl fun cc _ => congrArg (· * v32 (ix2 cc o))
    (congrArg (v26 (ix2 r cc) * ·)
      ((Cert.Columns.broadcastTo_a1_ab_apply _ _ r cc).trans (congrFun (shapeCast_self v27 _) _)))

end Cert.KernelIdeal.GcnPay

end
-- ==== Proof.GcnBlocks.lean ====
/-
  Region 1's tiles as entries of the arrays, and the output array from its written tiles.

  The region's grid is 8 by 8; point t is the pair (I, k) with I = t / 8 the band of 1024 rows and k = t % 8 the step of
  the reduction over bands of 1024 columns. At point t the matrix tile is rows 1024·I … and columns 1024·k … of the matrix,
  the feature and weight tiles are the whole arrays, the two tiles of the degree column are its rows 1024·I … (the row
  factors) and 1024·k … (the column factors), and the output tile, written back at the last step k = 7 of each band,
  is rows 1024·I … of the output: an element of a tile sits in its array, on each axis, at the tile's index times the
  tile's size plus its own coordinate. Every row p of the output lies in the tile written at the point 8·(p / 1024) + 7,
  so the output array ends holding any function G whose rows 1024·I … are what the point (I, 7) wrote.
-/
import proofs.«146386_j59150289601064_2_alg».proof.Proof.GcnData
import Idealize.ShloMosaic.Lib.ValueIdx
import Idealize.ShloMosaic.Lib.Pipeline.Value

noncomputable section

namespace Cert.KernelIdeal.Gcn

open Cert.KernelIdeal Cert.KernelIdeal.Gen
open Idealize.ShloMosaic Idealize.ShloMosaic.TcCoe Idealize.ShloMosaic.ValueIdx Idealize.SL.Sem
open Idealize.ShloMosaic.Pipeline (Dat)

variable {F : FTy → Type} [FloatOps F]
variable (V : (c : Dev nD) → (b : Ref sig .tc) → Buf (Elt F) ((c : Thread nD τ).loc b))

/-- The tiles' indices at every point of the grid, decided over its 64 points: the matrix tile moves with both
    coordinates, the whole arrays stay, the degree column's two tiles and the output tile move with one each. -/
theorem idx_facts1 : ∀ t : Fin cfg1.N,
    win1_0.index t (0 : Fin 2) = t.val / 8 ∧ win1_0.index t (1 : Fin 2) = t.val % 8
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val / 8 ∧ win1_3.index t (1 : Fin 2) = 0
    ∧ win1_4.index t (0 : Fin 2) = t.val % 8 ∧ win1_4.index t (1 : Fin 2) = 0
    ∧ win1_5.index t (0 : Fin 2) = t.val / 8 ∧ win1_5.index t (1 : Fin 2) = 0 :=
  (by decide +kernel : ∀ t : Fin grid1.N, _)

/-- A row of a band is a row of the array. -/
theorem band_lt (t : Fin cfg1.N) (r : Fin 1024) : 1024 * (t.val / 8) + r.val < 8192 := by
  have hN : t.val < 64 := lt_of_lt_of_eq t.isLt N_1
  have hr := r.isLt
  omega

/-- A column of a step's band is a column of the array. -/
theorem step_lt (t : Fin cfg1.N) (j : Fin 1024) : 1024 * (t.val % 8) + j.val < 8192 := by
  have hj := j.isLt
  omega

/-- The matrix tile at point t: rows 1024·(t / 8) … and columns 1024·(t % 8) … of the matrix. -/
theorem iblk1_0_apply (c : Dev nD) (t : Fin cfg1.N) (r j : Fin 1024) :
    (iblk1 V c 0 t : Vec F S1024x1024 .f32) (ix2 r j)
      = (V c main_arg1 : S8192x8192.Idx → Elt F .f32) (ix2 ⟨1024 * (t.val / 8) + r.val, band_lt t r⟩ ⟨1024 * (t.val % 8) + j.val, step_lt t j⟩) := by
  obtain ⟨e0, e1, -⟩ := idx_facts1 t
  unfold iblk1
  rw [View.read_apply]
  show V c main_arg1 _ = V c main_arg1 _
  congr 1
  funext a
  apply Fin.ext
  match a with
  | ⟨0, _⟩ => show win1_0.index t 0 * 1024 + 1 * r.val = 1024 * (t.val / 8) + r.val; rw [e0]; omega
  | ⟨1, _⟩ => show win1_0.index t 1 * 1024 + 1 * j.val = 1024 * (t.val % 8) + j.val; rw [e1]; omega

/-- The feature tile is the whole feature array at every point. -/
theorem iblk1_1_eq (c : Dev nD) (t : Fin cfg1.N) :
    (iblk1 V c 1 t : Vec F S8192x256 .f32) = (V c main_arg0 : S8192x256.Idx → Elt F .f32) := by
  obtain ⟨-, -, e0, e1, -⟩ := idx_facts1 t
  funext y
  unfold iblk1
  rw [View.read_apply]
  show V c main_arg0 _ = V c main_arg0 _
  congr 1
  funext a
  apply Fin.ext
  match a with
  | ⟨0, _⟩ => show win1_1.index t 0 * 8192 + 1 * (y 0).val = (y 0).val; rw [e0]; omega
  | ⟨1, _⟩ => show win1_1.index t 1 * 256 + 1 * (y 1).val = (y 1).val; rw [e1]; omega

/-- The weight tile is the whole weight array at every point. -/
theorem iblk1_2_eq (c : Dev nD) (t : Fin cfg1.N) :
    (iblk1 V c 2 t : Vec F S256x256 .f32) = (V c main_arg2 : S256x256.Idx → Elt F .f32) := by
  obtain ⟨-, -, -, -, e0, e1, -⟩ := idx_facts1 t
  funext y
  unfold iblk1
  rw [View.read_apply]
  show V c main_arg2 _ = V c main_arg2 _
  congr 1
  funext a
  apply Fin.ext
  match a with
  | ⟨0, _⟩ => show win1_2.index t 0 * 256 + 1 * (y 0).val = (y 0).val; rw [e0]; omega
  | ⟨1, _⟩ => show win1_2.index t 1 * 256 + 1 * (y 1).val = (y 1).val; rw [e1]; omega

/-- The row factors' tile at point t: rows 1024·(t / 8) … of the degree column. -/
theorem iblk1_3_apply (c : Dev nD) (t : Fin cfg1.N) (r : Fin 1024) :
    (iblk1 V c 3 t : Vec F S1024x1 .f32) (ix2 r (0 : Fin 1))
      = (V c main_v0 : S8192x1.Idx → Elt F .f32) (ix2 ⟨1024 * (t.val / 8) + r.val, band_lt t r⟩ (0 : Fin 1)) := by
  obtain ⟨-, -, -, -, -, -, e0, e1, -⟩ := idx_facts1 t
  unfold iblk1
  rw [View.read_apply]
  show V c main_v0 _ = V c main_v0 _
  congr 1
  funext a
  apply Fin.ext
  match a with
  | ⟨0, _⟩ => show win1_3.index t 0 * 1024 + 1 * r.val = 1024 * (t.val / 8) + r.val; rw [e0]; omega
  | ⟨1, _⟩ => show win1_3.index t 1 * 1 + 1 * 0 = 0; rw [e1]

/-- The column factors' tile at point t: rows 1024·(t % 8) … of the degree column. -/
theorem iblk1_4_apply (c : Dev nD) (t : Fin cfg1.N) (j : Fin 1024) :
    (iblk1 V c 4 t : Vec F S1024x1 .f32) (ix2 j (0 : Fin 1))
      = (V c main_v0 : S8192x1.Idx → Elt F .f32) (ix2 ⟨1024 * (t.val % 8) + j.val, step_lt t j⟩ (0 : Fin 1)) := by
  obtain ⟨-, -, -, -, -, -, -, -, e0, e1, -⟩ := idx_facts1 t
  unfold iblk1
  rw [View.read_apply]
  show V c main_v0 _ = V c main_v0 _
  congr 1
  funext a
  apply Fin.ext
  match a with
  | ⟨0, _⟩ => show win1_4.index t 0 * 1024 + 1 * j.val = 1024 * (t.val % 8) + j.val; rw [e0]; omega
  | ⟨1, _⟩ => show win1_4.index t 1 * 1 + 1 * 0 = 0; rw [e1]

/-! ## The output array from its written tiles -/

/-- What a point of the last step writes back is its band of rows of G, when the tile it leaves is that band. -/
theorem flushed1_5_eq (c : Dev nD) (G : S8192x256.Idx → Elt F .f32)
    (hG : ∀ t : Fin cfg1.N, t.val % 8 = 7 → ∀ (r : Fin 1024) (q : Fin 256),
      (outsAt1 V c t.val t.isLt).1 (ix2 r q) = G (ix2 ⟨1024 * (t.val / 8) + r.val, band_lt t r⟩ q))
    (t : Fin cfg1.N) (hf : (cfg1.win 5).flush t = true) :
    (dat1 V c).flushed 5 t = ((cfg1.win 5).blk t).view.read (Elt F) G := by
  have h7 : t.val % 8 = 7 := (flush1_5 t).mp hf
  obtain ⟨-, -, -, -, -, -, -, -, -, -, e0, e1⟩ := idx_facts1 t
  show (cfg1.win 5).cut (grid1.coords t) ((dat1 V c).after 5 t) = _
  rw [after1_5]
  funext (y : S1024x256.Idx)
  obtain ⟨r, q, rfl⟩ : ∃ (r : Fin 1024) (q : Fin 256), y = ix2 r q := ⟨y 0, y 1, eq_ix2 y⟩
  rw [View.read_apply]
  show (outsAt1 V c t.val t.isLt).1 ((cfg1.win 5).xinj (grid1.coords t) (ix2 r q)) = G (((cfg1.win 5).blk t).view.emb (ix2 r q))
  have hx : (cfg1.win 5).xinj (grid1.coords t) (ix2 r q) = ix2 r q := by
    funext a
    apply Fin.ext
    match a with
    | ⟨0, _⟩ => rfl
    | ⟨1, _⟩ => rfl
  have he : ((cfg1.win 5).blk t).view.emb (ix2 r q) = ix2 ⟨1024 * (t.val / 8) + r.val, band_lt t r⟩ q := by
    funext a
    apply Fin.ext
    match a with
    | ⟨0, _⟩ => show win1_5.index t 0 * 1024 + 1 * r.val = 1024 * (t.val / 8) + r.val; rw [e0]; omega
    | ⟨1, _⟩ => show win1_5.index t 1 * 256 + 1 * q.val = q.val; rw [e1]; omega
  rw [hx, he]
  exact hG t h7 r q

/-- An index of the output array is in point t's tile iff each coordinate is in the tile's range on its axis. -/
theorem mem_blk1_5 (t : Fin cfg1.N) (i : S8192x256.Idx) :
    i ∈ ((cfg1.win 5).blk t).view.set ↔ ∀ a : Fin 2, win1_5.index t a * S1024x256.size a ≤ (i a).val ∧ (i a).val < win1_5.index t a * S1024x256.size a + S1024x256.size a := by
  show i ∈ ((View.whole main_v1).slice (win1_5.rect t)).set ↔ _
  rw [View.set_slice_whole, Rect.mem_set_unit]
  exact Iff.rfl

/-- Every index of the output array is in the tile written at the last step of its band of rows. -/
theorem cover1_5 (i : S8192x256.Idx) :
    ∃ t : Fin cfg1.N, (cfg1.win 5).flush t = true ∧ i ∈ ((cfg1.win 5).blk t).view.set := by
  have hi0 : (i 0).val < 8192 := (i 0).isLt
  have hi1 : (i 1).val < 256 := (i 1).isLt
  have hN : cfg1.N = 64 := N_1
  have hlt : 8 * ((i 0).val / 1024) + 7 < cfg1.N := by rw [hN]; omega
  refine ⟨⟨8 * ((i 0).val / 1024) + 7, hlt⟩, (flush1_5 _).mpr (by show (8 * ((i 0).val / 1024) + 7) % 8 = 7; omega), ?_⟩
  obtain ⟨-, -, -, -, -, -, -, -, -, -, e0, e1⟩ := idx_facts1 ⟨8 * ((i 0).val / 1024) + 7, hlt⟩
  have e0' : win1_5.index ⟨8 * ((i 0).val / 1024) + 7, hlt⟩ 0 = (i 0).val / 1024 := by
    rw [e0]; show (8 * ((i 0).val / 1024) + 7) / 8 = (i 0).val / 1024; omega
  rw [mem_blk1_5]
  intro a
  match a with
  | ⟨0, _⟩ =>
    show win1_5.index ⟨8 * ((i 0).val / 1024) + 7, hlt⟩ 0 * 1024 ≤ (i 0).val ∧ (i 0).val < win1_5.index ⟨8 * ((i 0).val / 1024) + 7, hlt⟩ 0 * 1024 + 1024
    rw [e0']; omega
  | ⟨1, _⟩ =>
    show win1_5.index ⟨8 * ((i 0).val / 1024) + 7, hlt⟩ 1 * 256 ≤ (i 1).val ∧ (i 1).val < win1_5.index ⟨8 * ((i 0).val / 1024) + 7, hlt⟩ 1 * 256 + 256
    rw [e1]; omega

/-- The output array after the region: any G whose bands of rows are what the points of the last step leave. -/
theorem out_of_tiles (c : Dev nD) (G : S8192x256.Idx → Elt F .f32)
    (hG : ∀ t : Fin cfg1.N, t.val % 8 = 7 → ∀ (r : Fin 1024) (q : Fin 256),
      (outsAt1 V c t.val t.isLt).1 (ix2 r q) = G (ix2 ⟨1024 * (t.val / 8) + r.val, band_lt t r⟩ q)) :
    (dat1 V c).arrAt 5 cfg1.N = G :=
  (dat1 V c).arrAt_eq_of_cover 5 G (flushed1_5_eq V c G hG) cover1_5

end Cert.KernelIdeal.Gcn

end
-- ==== Proof.LibBlockLoad.lean ====
/-
  A load of a rectangle of consecutive rows and columns out of a two-dimensional block, read at an entry:
  the entry (p, q) of the loaded piece is the block's entry at (row offset + p, column offset + q).
-/
import Idealize.ShloMosaic.Lib.ValueIdx
import Idealize.ShloMosaic.Lib.Pipeline.Value

noncomputable section

namespace Cert.BlockLoad

open Idealize.ShloMosaic Idealize.ShloMosaic.ValueIdx

/-- The piece of sizes [a, b] at offsets (o0, o1) of an [A, B] block, at (p, q). -/
theorem ld_unit_ix2 {Val : EltTy → Type} {e : EltTy} {A B a b : ℕ} (X : (⟨2, ![A, B]⟩ : Shape).Idx → Val e) (o0 o1 : ℕ)
    (inb : ∀ ax, (![o0, o1] : Fin 2 → ℕ) ax + (⟨2, ![a, b]⟩ : Shape).size ax ≤ (⟨2, ![A, B]⟩ : Shape).size ax)
    (p : Fin a) (q : Fin b) (r : Fin A) (c : Fin B) (hr : r.val = o0 + p.val) (hc : c.val = o1 + q.val) :
    View.ld (Val := Val) X (Rect.unit (s := ⟨2, ![A, B]⟩) ![o0, o1] (⟨2, ![a, b]⟩ : Shape).size inb) (ix2 p q) = X (ix2 r c) := by
  show X _ = X _
  refine congrArg X (funext fun ax => Fin.ext ?_)
  match ax with
  | ⟨0, _⟩ => show o0 + 1 * p.val = r.val; omega
  | ⟨1, _⟩ => show o1 + 1 * q.val = c.val; omega

end Cert.BlockLoad

end
-- ==== Proof.GcnPieces.lean ====
/-
  What each case of the aggregation kernel's body leaves in the accumulator and in the output tile, as the body's own
  stored values of the point's input tiles.

  At a point (i, k) the body reads the (i, k) tile a of the adjacency matrix, the band b of 1024 rows of the whole
  scaled-feature buffer that starts at row 1024 · k, the column factors e, and (at the last step) the row factors d and
  the weights w. Every store writes the whole accumulator (or the whole output tile), and the accumulator is loaded
  again after each store, so a later stored value takes the earlier one:
  * on a first step the accumulator is cleared to the zero block z, otherwise it holds what the step before left, s;
  * then it becomes  P a b e (z or s) : the accumulator plus the product of the tile with the scaled band;
  * on the diagonal it then becomes  Q b e (that) : plus the scaled band itself (the self loop);
  * at the last step the output tile is  R (the accumulator) d w : scaled by rows, times the weights, activated.
  Here z, P, Q, R are the body's stored values `k1_pay1`, `k1_pay3`, `k1_pay4`, `k1_pay5`. Each case's pieces are
  read back by: the last store of a list of whole-block stores decides the contents; a load of the whole block after
  such a list reads the last store's value; a load of a whole staging buffer reads its contents.

  The band read at (r, q) is the buffer's entry at (1024 · k + r, q) (`band_apply`, `band_apply_of`).
-/
import proofs.«146386_j59150289601064_2_alg».proof.Proof.GcnData
import proofs.«146386_j59150289601064_2_alg».proof.Proof.LibBlockLoad
import Idealize.ShloMosaic.Lib.Pipeline.Value
import Idealize.ShloMosaic.Lib.ValueIdx

set_option maxRecDepth 16384

noncomputable section

namespace Cert.KernelIdeal.Gcn

open Cert.KernelIdeal Cert.KernelIdeal.Gen
open Idealize.ShloMosaic Idealize.ShloMosaic.TcCoe Idealize.ShloMosaic.Tactic Idealize.ShloMosaic.ValueIdx
open Idealize.SL.Sem

variable {F : FTy → Type} [FloatOps F]

/-- The zero offsets, however spelt, are zero. -/
theorem hz2 : (![0, 0] : Fin 2 → Nat) = fun _ => 0 := funext fun a => by fin_cases a <;> rfl

/-- A load of the whole block after a list of stores whose LAST one wrote the whole block reads that store's value,
    whatever the earlier stores were. -/
theorem readCov_cons_unit_zero {Val : EltTy → Type} [∀ e, Nonempty (Val e)] {sig : RefSig} {κ : Kind} {sp : Space} {S : Shape} {e : EltTy}
    (v : View sig κ sp S e) {off : Fin S.rank → Nat} (h : off = fun _ => 0) (inb : ∀ a, off a + S.size a ≤ S.size a)
    (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

/-- The band of 1024 rows of the whole feature buffer that the body loads at the point: the rows from the point's offset on. -/
def band (i : grid1.Coords) (x1 : Vec F S8192x256 .f32) : Vec F S1024x256 .f32 :=
  View.ld (Val := Elt F) x1 (Rect.unit (s := S8192x256) (k1_off1 i) S1024x256.size (k1_off1_inb i))

/-- First reduction step, off the diagonal: the accumulator is cleared, then the product is added. -/
theorem soutB_eq (c : Dev nD) (i : grid1.Coords) (arg2 : Memref sig .tc .vmem S1024x1024 .f32) (harg2 : arg2.IsWhole) (arg3 : Memref sig .tc .vmem S8192x256 .f32) (harg3 : arg3.IsWhole) (arg4 : Memref sig .tc .vmem S256x256 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x256 .f32) (harg7 : arg7.IsWhole) (arg8 : Memref sig .tc .vmem S1024x256 .f32) (harg8 : arg8.IsWhole) (hc0 : cond1_0 i) (hc1 : ¬cond1_1 i) (hc2 : ¬cond1_2 i) (x0 : Vec F S1024x1024 .f32) (x1 : Vec F S8192x256 .f32) (x2 : Vec F S256x256 .f32) (x3 : Vec F S1024x1 .f32) (x4 : Vec F S1024x1 .f32) :
    soutB c i arg2 harg2 arg3 harg3 arg4 harg4 arg5 harg5 arg6 harg6 arg7 harg7 arg8 harg8 hc0 hc1 hc2 x0 x1 x2 x3 x4 = k1_pay3 x0 (band i x1) x4 k1_pay1 := by
  unfold soutB
  rw [View.read_writes_eq_canon _ _ _ (scoverB c i arg2 harg2 arg3 harg3 arg4 harg4 arg5 harg5 arg6 harg6 arg7 harg7 arg8 harg8 hc0 hc1 hc2 x0 x1 x2 x3 x4)]
  unfold runB
  dsimp only
  sl_unfold_words
  rw [View.canon_cons_unit_zero (S := S1024x256) hz2]
  simp only [readCov_cons_unit_zero (S := S1024x256) _ hz2]
  simp only [View.readAt_eq_ld, harg2.read_unread, harg3.read_unread, harg4.read_unread, harg5.read_unread, harg6.read_unread, harg8.read_unread,
    View.ld_unit_zero (S := S1024x1024) hz2, View.ld_unit_zero (S := S1024x256) hz2, View.ld_unit_zero (S := S1024x1) hz2, View.ld_unit_zero (S := S256x256) hz2]
  rfl

/-- First reduction step, on the diagonal: cleared, the product added, then the band itself. -/
theorem soutA_eq (c : Dev nD) (i : grid1.Coords) (arg2 : Memref sig .tc .vmem S1024x1024 .f32) (harg2 : arg2.IsWhole) (arg3 : Memref sig .tc .vmem S8192x256 .f32) (harg3 : arg3.IsWhole) (arg4 : Memref sig .tc .vmem S256x256 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x256 .f32) (harg7 : arg7.IsWhole) (arg8 : Memref sig .tc .vmem S1024x256 .f32) (harg8 : arg8.IsWhole) (hc0 : cond1_0 i) (hc1 : cond1_1 i) (hc2 : ¬cond1_2 i) (x0 : Vec F S1024x1024 .f32) (x1 : Vec F S8192x256 .f32) (x2 : Vec F S256x256 .f32) (x3 : Vec F S1024x1 .f32) (x4 : Vec F S1024x1 .f32) :
    soutA c i arg2 harg2 arg3 harg3 arg4 harg4 arg5 harg5 arg6 harg6 arg7 harg7 arg8 harg8 hc0 hc1 hc2 x0 x1 x2 x3 x4 = k1_pay4 (band i x1) x4 (k1_pay3 x0 (band i x1) x4 k1_pay1) := by
  unfold soutA
  rw [View.read_writes_eq_canon _ _ _ (scoverA c i arg2 harg2 arg3 harg3 arg4 harg4 arg5 harg5 arg6 harg6 arg7 harg7 arg8 harg8 hc0 hc1 hc2 x0 x1 x2 x3 x4)]
  unfold runA
  dsimp only
  sl_unfold_words
  rw [View.canon_cons_unit_zero (S := S1024x256) hz2]
  simp only [readCov_cons_unit_zero (S := S1024x256) _ hz2]
  simp only [View.readAt_eq_ld, harg2.read_unread, harg3.read_unread, harg4.read_unread, harg5.read_unread, harg6.read_unread, harg8.read_unread,
    View.ld_unit_zero (S := S1024x1024) hz2, View.ld_unit_zero (S := S1024x256) hz2, View.ld_unit_zero (S := S1024x1) hz2, View.ld_unit_zero (S := S256x256) hz2]
  rfl

/-- A later reduction step, off the diagonal: the product is added to what the accumulator held. -/
theorem soutD_eq (c : Dev nD) (i : grid1.Coords) (arg2 : Memref sig .tc .vmem S1024x1024 .f32) (harg2 : arg2.IsWhole) (arg3 : Memref sig .tc .vmem S8192x256 .f32) (harg3 : arg3.IsWhole) (arg4 : Memref sig .tc .vmem S256x256 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x256 .f32) (harg7 : arg7.IsWhole) (arg8 : Memref sig .tc .vmem S1024x256 .f32) (harg8 : arg8.IsWhole) (hc0 : ¬cond1_0 i) (hc1 : ¬cond1_1 i) (hc2 : ¬cond1_2 i) (x0 : Vec F S1024x1024 .f32) (x1 : Vec F S8192x256 .f32) (x2 : Vec F S256x256 .f32) (x3 : Vec F S1024x1 .f32) (x4 : Vec F S1024x1 .f32) (xs0 : Vec F S1024x256 .f32) :
    soutD c i arg2 harg2 arg3 harg3 arg4 harg4 arg5 harg5 arg6 harg6 arg7 harg7 arg8 harg8 hc0 hc1 hc2 x0 x1 x2 x3 x4 xs0 = k1_pay3 x0 (band i x1) x4 xs0 := by
  unfold soutD
  rw [View.read_writes_eq_canon _ _ _ (scoverD c i arg2 harg2 arg3 harg3 arg4 harg4 arg5 harg5 arg6 harg6 arg7 harg7 arg8 harg8 hc0 hc1 hc2 x0 x1 x2 x3 x4 xs0)]
  unfold runD
  dsimp only
  sl_unfold_words
  rw [View.canon_cons_unit_zero (S := S1024x256) hz2]
  simp only [View.readAt_eq_ld, harg2.read_unread, harg3.read_unread, harg4.read_unread, harg5.read_unread, harg6.read_unread, harg8.read_unread,
    View.ld_unit_zero (S := S1024x1024) hz2, View.ld_unit_zero (S := S1024x256) hz2, View.ld_unit_zero (S := S1024x1) hz2, View.ld_unit_zero (S := S256x256) hz2]
  rfl

/-- A later reduction step, on the diagonal: the product, then the band itself. -/
theorem soutC_eq (c : Dev nD) (i : grid1.Coords) (arg2 : Memref sig .tc .vmem S1024x1024 .f32) (harg2 : arg2.IsWhole) (arg3 : Memref sig .tc .vmem S8192x256 .f32) (harg3 : arg3.IsWhole) (arg4 : Memref sig .tc .vmem S256x256 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x256 .f32) (harg7 : arg7.IsWhole) (arg8 : Memref sig .tc .vmem S1024x256 .f32) (harg8 : arg8.IsWhole) (hc0 : ¬cond1_0 i) (hc1 : cond1_1 i) (hc2 : ¬cond1_2 i) (x0 : Vec F S1024x1024 .f32) (x1 : Vec F S8192x256 .f32) (x2 : Vec F S256x256 .f32) (x3 : Vec F S1024x1 .f32) (x4 : Vec F S1024x1 .f32) (xs0 : Vec F S1024x256 .f32) :
    soutC c i arg2 harg2 arg3 harg3 arg4 harg4 arg5 harg5 arg6 harg6 arg7 harg7 arg8 harg8 hc0 hc1 hc2 x0 x1 x2 x3 x4 xs0 = k1_pay4 (band i x1) x4 (k1_pay3 x0 (band i x1) x4 xs0) := by
  unfold soutC
  rw [View.read_writes_eq_canon _ _ _ (scoverC c i arg2 harg2 arg3 harg3 arg4 harg4 arg5 harg5 arg6 harg6 arg7 harg7 arg8 harg8 hc0 hc1 hc2 x0 x1 x2 x3 x4 xs0)]
  unfold runC
  dsimp only
  sl_unfold_words
  rw [View.canon_cons_unit_zero (S := S1024x256) hz2]
  simp only [readCov_cons_unit_zero (S := S1024x256) _ hz2]
  simp only [View.readAt_eq_ld, harg2.read_unread, harg3.read_unread, harg4.read_unread, harg5.read_unread, harg6.read_unread, harg8.read_unread,
    View.ld_unit_zero (S := S1024x1024) hz2, View.ld_unit_zero (S := S1024x256) hz2, View.ld_unit_zero (S := S1024x1) hz2, View.ld_unit_zero (S := S256x256) hz2]
  rfl

/-- The last reduction step, off the diagonal: the accumulator. -/
theorem soutF_eq (c : Dev nD) (i : grid1.Coords) (arg2 : Memref sig .tc .vmem S1024x1024 .f32) (harg2 : arg2.IsWhole) (arg3 : Memref sig .tc .vmem S8192x256 .f32) (harg3 : arg3.IsWhole) (arg4 : Memref sig .tc .vmem S256x256 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x256 .f32) (harg7 : arg7.IsWhole) (arg8 : Memref sig .tc .vmem S1024x256 .f32) (harg8 : arg8.IsWhole) (hc0 : ¬cond1_0 i) (hc1 : ¬cond1_1 i) (hc2 : cond1_2 i) (x0 : Vec F S1024x1024 .f32) (x1 : Vec F S8192x256 .f32) (x2 : Vec F S256x256 .f32) (x3 : Vec F S1024x1 .f32) (x4 : Vec F S1024x1 .f32) (xs0 : Vec F S1024x256 .f32) :
    soutF c i arg2 harg2 arg3 harg3 arg4 harg4 arg5 harg5 arg6 harg6 arg7 harg7 arg8 harg8 hc0 hc1 hc2 x0 x1 x2 x3 x4 xs0 = k1_pay3 x0 (band i x1) x4 xs0 := by
  unfold soutF
  rw [View.read_writes_eq_canon _ _ _ (scoverF c i arg2 harg2 arg3 harg3 arg4 harg4 arg5 harg5 arg6 harg6 arg7 harg7 arg8 harg8 hc0 hc1 hc2 x0 x1 x2 x3 x4 xs0)]
  unfold runF
  dsimp only
  sl_unfold_words
  rw [View.canon_cons_unit_zero (S := S1024x256) hz2]
  simp only [View.readAt_eq_ld, harg2.read_unread, harg3.read_unread, harg4.read_unread, harg5.read_unread, harg6.read_unread, harg8.read_unread,
    View.ld_unit_zero (S := S1024x1024) hz2, View.ld_unit_zero (S := S1024x256) hz2, View.ld_unit_zero (S := S1024x1) hz2, View.ld_unit_zero (S := S256x256) hz2]
  rfl

/-- The last reduction step, off the diagonal: the output tile. -/
theorem outF_eq (c : Dev nD) (i : grid1.Coords) (arg2 : Memref sig .tc .vmem S1024x1024 .f32) (harg2 : arg2.IsWhole) (arg3 : Memref sig .tc .vmem S8192x256 .f32) (harg3 : arg3.IsWhole) (arg4 : Memref sig .tc .vmem S256x256 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x256 .f32) (harg7 : arg7.IsWhole) (arg8 : Memref sig .tc .vmem S1024x256 .f32) (harg8 : arg8.IsWhole) (hc0 : ¬cond1_0 i) (hc1 : ¬cond1_1 i) (hc2 : cond1_2 i) (x0 : Vec F S1024x1024 .f32) (x1 : Vec F S8192x256 .f32) (x2 : Vec F S256x256 .f32) (x3 : Vec F S1024x1 .f32) (x4 : Vec F S1024x1 .f32) (xs0 : Vec F S1024x256 .f32) :
    outF c i arg2 harg2 arg3 harg3 arg4 harg4 arg5 harg5 arg6 harg6 arg7 harg7 arg8 harg8 hc0 hc1 hc2 x0 x1 x2 x3 x4 xs0 = k1_pay5 (k1_pay3 x0 (band i x1) x4 xs0) x3 x2 := by
  unfold outF
  rw [View.read_writes_eq_canon _ _ _ (coverF c i arg2 harg2 arg3 harg3 arg4 harg4 arg5 harg5 arg6 harg6 arg7 harg7 arg8 harg8 hc0 hc1 hc2 x0 x1 x2 x3 x4 xs0)]
  unfold runF
  dsimp only
  sl_unfold_words
  rw [View.canon_cons_unit_zero (S := S1024x256) hz2]
  simp only [readCov_cons_unit_zero (S := S1024x256) _ hz2]
  simp only [View.readAt_eq_ld, harg2.read_unread, harg3.read_unread, harg4.read_unread, harg5.read_unread, harg6.read_unread, harg8.read_unread,
    View.ld_unit_zero (S := S1024x1024) hz2, View.ld_unit_zero (S := S1024x256) hz2, View.ld_unit_zero (S := S1024x1) hz2, View.ld_unit_zero (S := S256x256) hz2]
  rfl

/-- The last reduction step, on the diagonal: the accumulator. -/
theorem soutE_eq (c : Dev nD) (i : grid1.Coords) (arg2 : Memref sig .tc .vmem S1024x1024 .f32) (harg2 : arg2.IsWhole) (arg3 : Memref sig .tc .vmem S8192x256 .f32) (harg3 : arg3.IsWhole) (arg4 : Memref sig .tc .vmem S256x256 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x256 .f32) (harg7 : arg7.IsWhole) (arg8 : Memref sig .tc .vmem S1024x256 .f32) (harg8 : arg8.IsWhole) (hc0 : ¬cond1_0 i) (hc1 : cond1_1 i) (hc2 : cond1_2 i) (x0 : Vec F S1024x1024 .f32) (x1 : Vec F S8192x256 .f32) (x2 : Vec F S256x256 .f32) (x3 : Vec F S1024x1 .f32) (x4 : Vec F S1024x1 .f32) (xs0 : Vec F S1024x256 .f32) :
    soutE c i arg2 harg2 arg3 harg3 arg4 harg4 arg5 harg5 arg6 harg6 arg7 harg7 arg8 harg8 hc0 hc1 hc2 x0 x1 x2 x3 x4 xs0 = k1_pay4 (band i x1) x4 (k1_pay3 x0 (band i x1) x4 xs0) := by
  unfold soutE
  rw [View.read_writes_eq_canon _ _ _ (scoverE c i arg2 harg2 arg3 harg3 arg4 harg4 arg5 harg5 arg6 harg6 arg7 harg7 arg8 harg8 hc0 hc1 hc2 x0 x1 x2 x3 x4 xs0)]
  unfold runE
  dsimp only
  sl_unfold_words
  rw [View.canon_cons_unit_zero (S := S1024x256) hz2]
  simp only [readCov_cons_unit_zero (S := S1024x256) _ hz2]
  simp only [View.readAt_eq_ld, harg2.read_unread, harg3.read_unread, harg4.read_unread, harg5.read_unread, harg6.read_unread, harg8.read_unread,
    View.ld_unit_zero (S := S1024x1024) hz2, View.ld_unit_zero (S := S1024x256) hz2, View.ld_unit_zero (S := S1024x1) hz2, View.ld_unit_zero (S := S256x256) hz2]
  rfl

/-- The last reduction step, on the diagonal: the output tile. -/
theorem outE_eq (c : Dev nD) (i : grid1.Coords) (arg2 : Memref sig .tc .vmem S1024x1024 .f32) (harg2 : arg2.IsWhole) (arg3 : Memref sig .tc .vmem S8192x256 .f32) (harg3 : arg3.IsWhole) (arg4 : Memref sig .tc .vmem S256x256 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x256 .f32) (harg7 : arg7.IsWhole) (arg8 : Memref sig .tc .vmem S1024x256 .f32) (harg8 : arg8.IsWhole) (hc0 : ¬cond1_0 i) (hc1 : cond1_1 i) (hc2 : cond1_2 i) (x0 : Vec F S1024x1024 .f32) (x1 : Vec F S8192x256 .f32) (x2 : Vec F S256x256 .f32) (x3 : Vec F S1024x1 .f32) (x4 : Vec F S1024x1 .f32) (xs0 : Vec F S1024x256 .f32) :
    outE c i arg2 harg2 arg3 harg3 arg4 harg4 arg5 harg5 arg6 harg6 arg7 harg7 arg8 harg8 hc0 hc1 hc2 x0 x1 x2 x3 x4 xs0 = k1_pay5 (k1_pay4 (band i x1) x4 (k1_pay3 x0 (band i x1) x4 xs0)) x3 x2 := by
  unfold outE
  rw [View.read_writes_eq_canon _ _ _ (coverE c i arg2 harg2 arg3 harg3 arg4 harg4 arg5 harg5 arg6 harg6 arg7 harg7 arg8 harg8 hc0 hc1 hc2 x0 x1 x2 x3 x4 xs0)]
  unfold runE
  dsimp only
  sl_unfold_words
  rw [View.canon_cons_unit_zero (S := S1024x256) hz2]
  simp only [readCov_cons_unit_zero (S := S1024x256) _ hz2]
  simp only [View.readAt_eq_ld, harg2.read_unread, harg3.read_unread, harg4.read_unread, harg5.read_unread, harg6.read_unread, harg8.read_unread,
    View.ld_unit_zero (S := S1024x1024) hz2, View.ld_unit_zero (S := S1024x256) hz2, View.ld_unit_zero (S := S1024x1) hz2, View.ld_unit_zero (S := S256x256) hz2]
  rfl

/-! ## The band, entry by entry -/

/-- The band's row offset at a point is 1024 times the reduction coordinate. -/
theorem off_row_word : ∀ k : Fin 8, (Scalar.indexCast (Scalar.muli (BitVec.ofNat 32 k.val) 1024#32)).toNat = k.val * 1024 := by
  decide

theorem k1_off1_row (i : grid1.Coords) : k1_off1 i 0 = (i 1).val * 1024 := off_row_word (i 1)

/-- The band lies inside the buffer. -/
theorem band_row_lt (i : grid1.Coords) (r : Fin 1024) : k1_off1 i 0 + r.val < 8192 := by
  have h : k1_off1 i 0 + 1024 ≤ 8192 := k1_off1_inb i 0
  have := r.isLt
  omega

/-- The band at (r, q) is the buffer at (offset + r, q). -/
theorem band_apply (i : grid1.Coords) (x1 : Vec F S8192x256 .f32) (r : Fin 1024) (q : Fin 256) :
    band i x1 (ix2 r q) = x1 (ix2 (⟨k1_off1 i 0 + r.val, band_row_lt i r⟩ : Fin 8192) q) := by
  unfold band
  exact Cert.BlockLoad.ld_unit_ix2 (Val := Elt F) x1 (k1_off1 i 0) 0 (k1_off1_inb i) r q ⟨k1_off1 i 0 + r.val, band_row_lt i r⟩ q rfl
    (Nat.zero_add _).symm

/-- The same with the row named: any row number R that is 1024 times the reduction coordinate plus r. -/
theorem band_apply_of (i : grid1.Coords) (x1 : Vec F S8192x256 .f32) (r : Fin 1024) (q : Fin 256) (R : Fin 8192)
    (hR : R.val = (i 1).val * 1024 + r.val) : band i x1 (ix2 r q) = x1 (ix2 R q) := by
  rw [band_apply]
  exact congrArg (fun t => x1 (ix2 t q)) (Fin.ext (by show k1_off1 i 0 + r.val = R.val; rw [k1_off1_row, hR]))

end Cert.KernelIdeal.Gcn

end
-- ==== Proof.GcnValue.lean ====
/-
  The aggregation kernel's output array as a function of its input arrays, on the extended reals.

  The grid is 8 by 8: position n is the pair (I, k) = (n / 8, n % 8), I the band of 1024 rows, k the step of the
  reduction over bands of 1024 columns.  For a row p = 1024 * I + r of the band and a column q, write
  g j = a(p, j) * (x(j, q) * d j) for the terms of the aggregate and s = x(p, q) * d p for the self loop's term.
  After position n the accumulator holds, at (r, q), the running sum of the chunks 0 … k of g, with s added right
  after the chunk k = I: that is the invariant, by induction along the positions of one band.  At the last step
  of a band the accumulator holds the whole sum of g plus s, and the output tile is the exponential linear unit
  of the accumulator scaled by d p and multiplied by the weights.
-/
import proofs.«146386_j59150289601064_2_alg».proof.Proof.AccMath
import proofs.«146386_j59150289601064_2_alg».proof.Proof.GcnPay
import proofs.«146386_j59150289601064_2_alg».proof.Proof.GcnBlocks
import proofs.«146386_j59150289601064_2_alg».proof.Proof.GcnPieces

noncomputable section

namespace Cert.KernelIdeal.Gcn

open Cert.KernelIdeal Cert.KernelIdeal.Gen
open Idealize.ShloMosaic Idealize.ShloMosaic.TcCoe Idealize.ShloMosaic.ValueIdx Idealize.SL.Sem
open Idealize.ShloMosaic.Pipeline (Dat)
open Cert.Spec (chunk accAfter)

/-! ### The accumulator's arithmetic along the positions -/

section Arith

variable (A : Fin 8192 → Fin 8192 → EReal) (X : Fin 8192 → Fin 256 → EReal) (D : Fin 8192 → EReal)

/-- The terms of the aggregate at row p and column q. -/
def gT (p : Fin 8192) (q : Fin 256) : Fin 8192 → EReal := fun j => A p j * (X j q * D j)

/-- The self loop's term at row p and column q. -/
def sT (p : Fin 8192) (q : Fin 256) : EReal := X p q * D p

/-- Row r of the band of position n. -/
def rowOf (n : ℕ) (hn : n < 64) (r : Fin 1024) : Fin 8192 := ⟨1024 * (n / 8) + r.val, by have := r.isLt; omega⟩

theorem accAfter_step {M : Type*} [AddCommMonoid M] (g : Fin 8192 → M) (s : M) (I k : ℕ) (hk : k < 8) :
    accAfter g s I (k + 1) hk
      = if I = k then (accAfter g s I k (Nat.le_of_lt hk) + chunk g k hk) + s
        else accAfter g s I k (Nat.le_of_lt hk) + chunk g k hk := by
  rw [accAfter]

theorem accAfter_of_eq_zero {M : Type*} [AddCommMonoid M] (g : Fin 8192 → M) (s : M) (I k : ℕ) (hk : k ≤ 8)
    (h : k = 0) : accAfter g s I k hk = 0 := by
  subst h; rfl

theorem accAfter_congr {M : Type*} [AddCommMonoid M] {g g' : Fin 8192 → M} {s s' : M} {I I' k k' : ℕ}
    (hg : g = g') (hs : s = s') (hI : I = I') (hkk : k = k') (hk : k ≤ 8) (hk' : k' ≤ 8) :
    accAfter g s I k hk = accAfter g' s' I' k' hk' := by
  subst hg; subst hs; subst hI; subst hkk; rfl

/-- The invariant, for any family of accumulator contents that starts each band from zero and otherwise goes on
from the position before, adding the step's chunk and, on the diagonal, the self loop's term after it. -/
theorem acc_invariant
    (acc : (n : ℕ) → n < 64 → Fin 1024 → Fin 256 → EReal)
    (hfirst : ∀ (n : ℕ) (hn : n < 64), n % 8 = 0 → ∀ r q, acc n hn r q =
      if n / 8 = n % 8 then
        ((0 : EReal) + chunk (gT A X D (rowOf n hn r) q) (n % 8) (Nat.mod_lt _ (by norm_num))) + sT X D (rowOf n hn r) q
      else (0 : EReal) + chunk (gT A X D (rowOf n hn r) q) (n % 8) (Nat.mod_lt _ (by norm_num)))
    (hnext : ∀ (n : ℕ) (hn : n + 1 < 64), (n + 1) % 8 ≠ 0 → ∀ r q, acc (n + 1) hn r q =
      if (n + 1) / 8 = (n + 1) % 8 then
        (acc n (Nat.lt_of_succ_lt hn) r q
          + chunk (gT A X D (rowOf (n + 1) hn r) q) ((n + 1) % 8) (Nat.mod_lt _ (by norm_num)))
          + sT X D (rowOf (n + 1) hn r) q
      else acc n (Nat.lt_of_succ_lt hn) r q
          + chunk (gT A X D (rowOf (n + 1) hn r) q) ((n + 1) % 8) (Nat.mod_lt _ (by norm_num))) :
    ∀ (n : ℕ) (hn : n < 64) (r : Fin 1024) (q : Fin 256),
      acc n hn r q = accAfter (gT A X D (rowOf n hn r) q) (sT X D (rowOf n hn r) q) (n / 8) (n % 8 + 1)
        (Nat.succ_le_of_lt (Nat.mod_lt _ (by norm_num))) := by
  intro n
  induction n with
  | zero =>
    intro hn r q
    rw [hfirst 0 hn (Nat.zero_mod _) r q, accAfter_step,
      accAfter_of_eq_zero _ _ _ _ _ (Nat.zero_mod _)]
  | succ m ih =>
    intro hn r q
    by_cases h0 : (m + 1) % 8 = 0
    · rw [hfirst (m + 1) hn h0 r q, accAfter_step, accAfter_of_eq_zero _ _ _ _ _ h0]
    · have hrow : rowOf m (Nat.lt_of_succ_lt hn) r = rowOf (m + 1) hn r := by
        unfold rowOf; apply Fin.ext; show 1024 * (m / 8) + r.val = 1024 * ((m + 1) / 8) + r.val; omega
      have hI : m / 8 = (m + 1) / 8 := by omega
      have hk : m % 8 + 1 = (m + 1) % 8 := by omega
      have hacc := accAfter_congr (congrArg (fun p => gT A X D p q) hrow) (congrArg (fun p => sT X D p q) hrow) hI hk
        (Nat.succ_le_of_lt (Nat.mod_lt m (by norm_num : 0 < 8))) (Nat.le_of_lt (Nat.mod_lt (m + 1) (by norm_num : 0 < 8)))
      rw [hnext m hn h0 r q, ih (Nat.lt_of_succ_lt hn) r q,
        accAfter_step (gT A X D (rowOf (m + 1) hn r) q) (sT X D (rowOf (m + 1) hn r) q) ((m + 1) / 8) ((m + 1) % 8)
          (Nat.mod_lt _ (by norm_num)), hacc]

end Arith

/-! ### The kernel's accumulator and output tile at a point, as entries of the arrays -/

section Kernel

variable (V : (c : Dev nD) → (b : Ref sig .tc) → Buf (Elt Ideal) ((c : Thread nD τ).loc b))

/-- The matrix, the features, the weights and the column of inverse square roots as the region finds them. -/
def Af (c : Dev nD) : Fin 8192 → Fin 8192 → EReal :=
  fun i j => (V c main_arg1 : S8192x8192.Idx → Elt Ideal .f32) (ix2 i j)
def Xf (c : Dev nD) : Fin 8192 → Fin 256 → EReal :=
  fun j q => (V c main_arg0 : S8192x256.Idx → Elt Ideal .f32) (ix2 j q)
def Wf (c : Dev nD) : Fin 256 → Fin 256 → EReal :=
  fun q o => (V c main_arg2 : S256x256.Idx → Elt Ideal .f32) (ix2 q o)
def Df (c : Dev nD) : Fin 8192 → EReal :=
  fun j => (V c main_v0 : S8192x1.Idx → Elt Ideal .f32) (ix2 j (0 : Fin 1))

/-- The reduction coordinate of a point of the grid. -/
theorem coord1 : ∀ t : Fin cfg1.N, (grid1.coords t 1).val = t.val % 8 :=
  (by decide +kernel : ∀ t : Fin grid1.N, (grid1.coords t 1).val = t.val % 8)

/-- Row r of the band of point t, and row j of the band of its step. -/
abbrev rowT (t : Fin cfg1.N) (r : Fin 1024) : Fin 8192 := rowOf t.val (lt_of_lt_of_eq t.isLt N_1) r
abbrev colT (t : Fin cfg1.N) (j : Fin 1024) : Fin 8192 := ⟨1024 * (t.val % 8) + j.val, step_lt t j⟩

/-- The band of the features the body loads at point t: the rows of the step. -/
theorem band_at (c : Dev nD) (t : Fin cfg1.N) (j : Fin 1024) (q : Fin 256) :
    band (grid1.coords t) (iblk1 V c 1 t : Vec Ideal S8192x256 .f32) (ix2 j q) = Xf V c (colT t j) q :=
  (band_apply_of (grid1.coords t) _ j q (colT t j)
    (by show 1024 * (t.val % 8) + j.val = (grid1.coords t 1).val * 1024 + j.val; rw [coord1 t]; omega)).trans
    (congrFun (iblk1_1_eq V c t) (ix2 (colT t j) q))

/-- The product's step at point t: the chunk of the step added. -/
theorem pay3_at (c : Dev nD) (t : Fin cfg1.N) (xs0 : Vec Ideal S1024x256 .f32) (r : Fin 1024) (q : Fin 256) :
    k1_pay3 (iblk1 V c 0 t) (band (grid1.coords t) (iblk1 V c 1 t)) (iblk1 V c 4 t) xs0 (ix2 r q)
      = xs0 (ix2 r q)
        + chunk (gT (Af V c) (Xf V c) (Df V c) (rowT t r) q) (t.val % 8) (Nat.mod_lt _ (by norm_num)) := by
  rw [GcnPay.pay3_apply]
  congr 1
  unfold chunk
  refine Finset.sum_congr rfl fun j _ => ?_
  rw [iblk1_0_apply V c t r j, band_at V c t j q, iblk1_4_apply V c t j]
  rfl

/-- The self loop's step at point t: the band's own row, scaled, added. -/
theorem pay4_at (c : Dev nD) (t : Fin cfg1.N) (y : Vec Ideal S1024x256 .f32) (r : Fin 1024) (q : Fin 256) :
    k1_pay4 (band (grid1.coords t) (iblk1 V c 1 t)) (iblk1 V c 4 t) y (ix2 r q)
      = y (ix2 r q) + sT (Xf V c) (Df V c) (colT t r) q := by
  rw [GcnPay.pay4_apply, band_at V c t r q, iblk1_4_apply V c t r]
  rfl

/-- On the diagonal the step's band is the row band. -/
theorem colT_eq_rowT (t : Fin cfg1.N) (h1 : t.val / 8 = t.val % 8) (r : Fin 1024) : colT t r = rowT t r :=
  Fin.ext (by show 1024 * (t.val % 8) + r.val = 1024 * (t.val / 8) + r.val; rw [h1])

/-! The six cases' accumulators and output tiles at a point, as stored values of the point's tiles. -/

theorem soutAtA_eq (c : Dev nD) (t : Fin cfg1.N) (hc0 : cond1_0 (grid1.coords t)) (hc1 : cond1_1 (grid1.coords t)) (hc2 : ¬cond1_2 (grid1.coords t)) :
    soutAtA V c t hc0 hc1 hc2
      = k1_pay4 (band (grid1.coords t) (iblk1 V c 1 t)) (iblk1 V c 4 t)
          (k1_pay3 (iblk1 V c 0 t) (band (grid1.coords t) (iblk1 V c 1 t)) (iblk1 V c 4 t) (k1_pay1 (F := Ideal))) :=
  soutA_eq c (grid1.coords t) _ _ _ _ _ _ _ _ _ _ _ _ _ _ hc0 hc1 hc2 _ _ _ _ _

theorem soutAtB_eq (c : Dev nD) (t : Fin cfg1.N) (hc0 : cond1_0 (grid1.coords t)) (hc1 : ¬cond1_1 (grid1.coords t)) (hc2 : ¬cond1_2 (grid1.coords t)) :
    soutAtB V c t hc0 hc1 hc2
      = k1_pay3 (iblk1 V c 0 t) (band (grid1.coords t) (iblk1 V c 1 t)) (iblk1 V c 4 t) (k1_pay1 (F := Ideal)) :=
  soutB_eq c (grid1.coords t) _ _ _ _ _ _ _ _ _ _ _ _ _ _ hc0 hc1 hc2 _ _ _ _ _

theorem soutAtC_eq (c : Dev nD) (t : Fin cfg1.N) (hc0 : ¬cond1_0 (grid1.coords t)) (hc1 : cond1_1 (grid1.coords t)) (hc2 : ¬cond1_2 (grid1.coords t)) (xs0 : Vec Ideal S1024x256 .f32) :
    soutAtC V c t hc0 hc1 hc2 xs0
      = k1_pay4 (band (grid1.coords t) (iblk1 V c 1 t)) (iblk1 V c 4 t)
          (k1_pay3 (iblk1 V c 0 t) (band (grid1.coords t) (iblk1 V c 1 t)) (iblk1 V c 4 t) xs0) :=
  soutC_eq c (grid1.coords t) _ _ _ _ _ _ _ _ _ _ _ _ _ _ hc0 hc1 hc2 _ _ _ _ _ xs0

theorem soutAtD_eq (c : Dev nD) (t : Fin cfg1.N) (hc0 : ¬cond1_0 (grid1.coords t)) (hc1 : ¬cond1_1 (grid1.coords t)) (hc2 : ¬cond1_2 (grid1.coords t)) (xs0 : Vec Ideal S1024x256 .f32) :
    soutAtD V c t hc0 hc1 hc2 xs0
      = k1_pay3 (iblk1 V c 0 t) (band (grid1.coords t) (iblk1 V c 1 t)) (iblk1 V c 4 t) xs0 :=
  soutD_eq c (grid1.coords t) _ _ _ _ _ _ _ _ _ _ _ _ _ _ hc0 hc1 hc2 _ _ _ _ _ xs0

theorem soutAtE_eq (c : Dev nD) (t : Fin cfg1.N) (hc0 : ¬cond1_0 (grid1.coords t)) (hc1 : cond1_1 (grid1.coords t)) (hc2 : cond1_2 (grid1.coords t)) (xs0 : Vec Ideal S1024x256 .f32) :
    soutAtE V c t hc0 hc1 hc2 xs0
      = k1_pay4 (band (grid1.coords t) (iblk1 V c 1 t)) (iblk1 V c 4 t)
          (k1_pay3 (iblk1 V c 0 t) (band (grid1.coords t) (iblk1 V c 1 t)) (iblk1 V c 4 t) xs0) :=
  soutE_eq c (grid1.coords t) _ _ _ _ _ _ _ _ _ _ _ _ _ _ hc0 hc1 hc2 _ _ _ _ _ xs0

theorem soutAtF_eq (c : Dev nD) (t : Fin cfg1.N) (hc0 : ¬cond1_0 (grid1.coords t)) (hc1 : ¬cond1_1 (grid1.coords t)) (hc2 : cond1_2 (grid1.coords t)) (xs0 : Vec Ideal S1024x256 .f32) :
    soutAtF V c t hc0 hc1 hc2 xs0
      = k1_pay3 (iblk1 V c 0 t) (band (grid1.coords t) (iblk1 V c 1 t)) (iblk1 V c 4 t) xs0 :=
  soutF_eq c (grid1.coords t) _ _ _ _ _ _ _ _ _ _ _ _ _ _ hc0 hc1 hc2 _ _ _ _ _ xs0

theorem outAtE_eq (c : Dev nD) (t : Fin cfg1.N) (hc0 : ¬cond1_0 (grid1.coords t)) (hc1 : cond1_1 (grid1.coords t)) (hc2 : cond1_2 (grid1.coords t)) (xs0 : Vec Ideal S1024x256 .f32) :
    outAtE V c t hc0 hc1 hc2 xs0
      = k1_pay5 (soutAtE V c t hc0 hc1 hc2 xs0) (iblk1 V c 3 t) (iblk1 V c 2 t) :=
  (outE_eq c (grid1.coords t) _ _ _ _ _ _ _ _ _ _ _ _ _ _ hc0 hc1 hc2 _ _ _ _ _ xs0).trans
    (congrArg (fun s => k1_pay5 s (iblk1 V c 3 t) (iblk1 V c 2 t)) (soutAtE_eq V c t hc0 hc1 hc2 xs0).symm)

theorem outAtF_eq (c : Dev nD) (t : Fin cfg1.N) (hc0 : ¬cond1_0 (grid1.coords t)) (hc1 : ¬cond1_1 (grid1.coords t)) (hc2 : cond1_2 (grid1.coords t)) (xs0 : Vec Ideal S1024x256 .f32) :
    outAtF V c t hc0 hc1 hc2 xs0
      = k1_pay5 (soutAtF V c t hc0 hc1 hc2 xs0) (iblk1 V c 3 t) (iblk1 V c 2 t) :=
  (outF_eq c (grid1.coords t) _ _ _ _ _ _ _ _ _ _ _ _ _ _ hc0 hc1 hc2 _ _ _ _ _ xs0).trans
    (congrArg (fun s => k1_pay5 s (iblk1 V c 3 t) (iblk1 V c 2 t)) (soutAtF_eq V c t hc0 hc1 hc2 xs0).symm)

/-! The accumulator after a point, from the accumulator before it. -/

/-- A first step: from zero. -/
theorem acc_first (c : Dev nD) (t : Fin cfg1.N) (h0 : t.val % 8 = 0) (r : Fin 1024) (q : Fin 256) :
    (outsAt1 V c t.val t.isLt).2 (ix2 r q) =
      if t.val / 8 = t.val % 8 then
        ((0 : EReal) + chunk (gT (Af V c) (Xf V c) (Df V c) (rowT t r) q) (t.val % 8) (Nat.mod_lt _ (by norm_num)))
          + sT (Xf V c) (Df V c) (rowT t r) q
      else (0 : EReal) + chunk (gT (Af V c) (Xf V c) (Df V c) (rowT t r) q) (t.val % 8) (Nat.mod_lt _ (by norm_num)) := by
  have h2 : ¬t.val % 8 = 7 := by omega
  by_cases h1 : t.val / 8 = t.val % 8
  · rw [if_pos h1, outsAt1_A V c t h0 h1 h2]
    dsimp only
    rw [soutAtA_eq, pay4_at, pay3_at, GcnPay.pay1_apply, colT_eq_rowT t h1]
  · rw [if_neg h1, outsAt1_B V c t h0 h1 h2]
    dsimp only
    rw [soutAtB_eq, pay3_at, GcnPay.pay1_apply]

/-- A later step: from what the position before left. -/
theorem acc_next (c : Dev nD) (t : Fin cfg1.N) (h0 : ¬t.val % 8 = 0) (r : Fin 1024) (q : Fin 256) :
    (outsAt1 V c t.val t.isLt).2 (ix2 r q) =
      if t.val / 8 = t.val % 8 then
        (prevAcc V c t (ix2 r q)
          + chunk (gT (Af V c) (Xf V c) (Df V c) (rowT t r) q) (t.val % 8) (Nat.mod_lt _ (by norm_num)))
          + sT (Xf V c) (Df V c) (rowT t r) q
      else prevAcc V c t (ix2 r q)
          + chunk (gT (Af V c) (Xf V c) (Df V c) (rowT t r) q) (t.val % 8) (Nat.mod_lt _ (by norm_num)) := by
  by_cases h1 : t.val / 8 = t.val % 8
  · rw [if_pos h1]
    by_cases h2 : t.val % 8 = 7
    · rw [outsAt1_E V c t h0 h1 h2]
      dsimp only
      rw [soutAtE_eq, pay4_at, pay3_at, colT_eq_rowT t h1]
    · rw [outsAt1_C V c t h0 h1 h2]
      dsimp only
      rw [soutAtC_eq, pay4_at, pay3_at, colT_eq_rowT t h1]
  · rw [if_neg h1]
    by_cases h2 : t.val % 8 = 7
    · rw [outsAt1_F V c t h0 h1 h2]
      dsimp only
      rw [soutAtF_eq, pay3_at]
    · rw [outsAt1_D V c t h0 h1 h2]
      dsimp only
      rw [soutAtD_eq, pay3_at]

/-- The accumulator after position n, entry by entry. -/
def accAt (c : Dev nD) (n : ℕ) (hn : n < 64) (r : Fin 1024) (q : Fin 256) : EReal :=
  (outsAt1 V c n (lt_of_lt_of_eq hn N_1.symm)).2 (ix2 r q)

/-- The invariant: after position n the accumulator holds the running sum of the chunks 0 … n % 8 of the row's
terms, the self loop's term added after the chunk of the diagonal. -/
theorem acc_inv (c : Dev nD) (n : ℕ) (hn : n < 64) (r : Fin 1024) (q : Fin 256) :
    accAt V c n hn r q
      = accAfter (gT (Af V c) (Xf V c) (Df V c) (rowOf n hn r) q) (sT (Xf V c) (Df V c) (rowOf n hn r) q)
          (n / 8) (n % 8 + 1) (Nat.succ_le_of_lt (Nat.mod_lt _ (by norm_num))) :=
  acc_invariant (Af V c) (Xf V c) (Df V c) (accAt V c)
    (fun n hn h0 r q => acc_first V c ⟨n, lt_of_lt_of_eq hn N_1.symm⟩ h0 r q)
    (fun n hn h0 r q => acc_next V c ⟨n + 1, lt_of_lt_of_eq hn N_1.symm⟩ h0 r q) n hn r q

/-- At the last step of a band the accumulator holds the whole aggregate of the row before its last scaling. -/
theorem acc_last (c : Dev nD) (t : Fin cfg1.N) (h2 : t.val % 8 = 7) (r : Fin 1024) (q : Fin 256) :
    (outsAt1 V c t.val t.isLt).2 (ix2 r q)
      = (∑ j : Fin 8192, Af V c (rowT t r) j * (Xf V c j q * Df V c j)) + Xf V c (rowT t r) q * Df V c (rowT t r) := by
  have hN : t.val < 64 := lt_of_lt_of_eq t.isLt N_1
  have hI : t.val / 8 < 8 := by omega
  have h := acc_inv V c t.val hN r q
  rw [accAfter_congr rfl rfl rfl (show t.val % 8 + 1 = 8 by omega) _ le_rfl,
    Cert.Spec.accAfter_last _ _ _ hI] at h
  exact h

/-! ### The output array -/

/-- The output entry at row p and column o. -/
def outVal (c : Dev nD) (p : Fin 8192) (o : Fin 256) : EReal :=
  Cert.Spec.eluK (∑ q : Fin 256,
    (((∑ j : Fin 8192, Af V c p j * (Xf V c j q * Df V c j)) + Xf V c p q * Df V c p) * Df V c p) * Wf V c q o)

/-- The output tile a last step leaves is the activated product of the accumulator it leaves. -/
theorem out_last (c : Dev nD) (t : Fin cfg1.N) (h2 : t.val % 8 = 7) :
    (outsAt1 V c t.val t.isLt).1
      = k1_pay5 (outsAt1 V c t.val t.isLt).2 (iblk1 V c 3 t) (iblk1 V c 2 t) := by
  have h0 : ¬t.val % 8 = 0 := by omega
  by_cases h1 : t.val / 8 = t.val % 8
  · rw [outsAt1_E V c t h0 h1 h2]
    dsimp only
    exact outAtE_eq V c t _ _ _ (prevAcc V c t)
  · rw [outsAt1_F V c t h0 h1 h2]
    dsimp only
    exact outAtF_eq V c t _ _ _ (prevAcc V c t)

theorem out_tile (c : Dev nD) (t : Fin cfg1.N) (h2 : t.val % 8 = 7) (r : Fin 1024) (o : Fin 256) :
    (outsAt1 V c t.val t.isLt).1 (ix2 r o) = outVal V c (rowT t r) o := by
  rw [out_last V c t h2, GcnPay.pay5_apply]
  unfold outVal
  refine congrArg Cert.Spec.eluK (Finset.sum_congr rfl fun q _ => ?_)
  rw [acc_last V c t h2 r q, iblk1_3_apply V c t r, congrFun (iblk1_2_eq V c t) (ix2 q o)]
  rfl

/-- The aggregation kernel's output array, entry by entry, as a function of the arrays the region finds. -/
theorem gcn_out (c : Dev nD) :
    (dat1 (F := Ideal) V c).arrAt 5 cfg1.N = fun idx => outVal V c (idx 0) (idx 1) :=
  out_of_tiles V c (fun idx => outVal V c (idx 0) (idx 1)) (fun t h2 r o => out_tile V c t h2 r o)

/-- The same with the entry written out. -/
theorem gcn_out_expanded (c : Dev nD) :
    (dat1 (F := Ideal) V c).arrAt 5 cfg1.N = fun idx =>
      Cert.Spec.eluK (∑ q : Fin 256,
        (((∑ j : Fin 8192, Af V c (idx 0) j * (Xf V c j q * Df V c j)) + Xf V c (idx 0) q * Df V c (idx 0))
          * Df V c (idx 0)) * Wf V c q (idx 1)) :=
  gcn_out V c

end Kernel

end Cert.KernelIdeal.Gcn

end
-- ==== Proof.KernelValue.lean ====
/-
  The idealized kernel's result as a function of its three input arrays.

  The degree kernel leaves in its column the inverse square roots of the row degrees; the aggregation kernel,
  reading that column as row and column factors, leaves the activated logits. Put together, the result array is
  the specification's scaled-features arrangement of the graph convolution.
-/
import proofs.«146386_j59150289601064_2_alg».proof.Proof.KernelRun
import proofs.«146386_j59150289601064_2_alg».proof.Proof.DegValue
import proofs.«146386_j59150289601064_2_alg».proof.Proof.GcnValue
import proofs.«146386_j59150289601064_2_alg».proof.Proof.Spec

set_option maxRecDepth 16384

noncomputable section

namespace Cert.KernelIdeal.Run

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-- After the degree kernel the three arguments are as launched, -/
theorem V1_arg0 (c : Dev nD) : V1 m ρ c main_arg0 = m ((c : Thread nD τ).loc main_arg0) :=
  (W1_of_ne m ρ c main_arg0 (by decide)).trans rfl
theorem V1_arg1 (c : Dev nD) : V1 m ρ c main_arg1 = m ((c : Thread nD τ).loc main_arg1) := W1_main_arg1 m ρ c
theorem V1_arg2 (c : Dev nD) : V1 m ρ c main_arg2 = m ((c : Thread nD τ).loc main_arg2) :=
  (W1_of_ne m ρ c main_arg2 (by decide)).trans rfl

/-- and the degree column holds the inverse square roots of the row degrees of the launched adjacency matrix. -/
theorem V1_deg (c : Dev nD) :
    Gcn.Df (V1 m ρ) c = Cert.Spec.dK (fun i j => (m ((c : Thread nD τ).loc main_arg1) : S8192x8192.Idx → Elt Ideal .f32) (ix2 i j)) := by
  funext j
  exact congrFun ((W1_arr m ρ c 1).trans (Deg.deg_out (V0 m ρ) c)) (ix2 j (0 : Fin 1))

theorem V1_A (c : Dev nD) :
    Gcn.Af (V1 m ρ) c = fun i j => (m ((c : Thread nD τ).loc main_arg1) : S8192x8192.Idx → Elt Ideal .f32) (ix2 i j) := by
  unfold Gcn.Af; rw [V1_arg1]
theorem V1_X (c : Dev nD) :
    Gcn.Xf (V1 m ρ) c = fun j q => (m ((c : Thread nD τ).loc main_arg0) : S8192x256.Idx → Elt Ideal .f32) (ix2 j q) := by
  unfold Gcn.Xf; rw [V1_arg0]
theorem V1_W (c : Dev nD) :
    Gcn.Wf (V1 m ρ) c = fun q o => (m ((c : Thread nD τ).loc main_arg2) : S256x256.Idx → Elt Ideal .f32) (ix2 q o) := by
  unfold Gcn.Wf; rw [V1_arg2]

/-- The result array after the whole run is the specification's kernel-side arrangement. -/
theorem kernel_value (c : Dev nD) :
    (Gcn.dat1 (F := Ideal) (V1 m ρ) c).arrAt 5 cfg1.N
      = Cert.Spec.kerArr (m ((c : Thread nD τ).loc main_arg0)) (m ((c : Thread nD τ).loc main_arg1)) (m ((c : Thread nD τ).loc main_arg2)) := by
  rw [Gcn.gcn_out_expanded, V1_deg, V1_A, V1_X, V1_W]
  rfl

end Cert.KernelIdeal.Run

end
-- ==== Proof.RefReadTerm.lean ====
/-
  The reference program's result as ONE pure term of its three arguments: the operations of its straight line (the
  three module-local functions unfolded at their calls) composed in order, stage by stage.

  For an adjacency array A, features X and weights W:
    eyeT          the indicator of the diagonal, as the program builds it: the row coordinate (plus a zero word) compared
                  with the column coordinate, the one-bit answer converted to a float;
    aT A          A plus that indicator (the self loops);
    degT A        the row sums of aT A, from an initial value zero;
    dT A          their inverse square roots;
    ahatT A       aT A scaled by dT A along its rows (a column laid along the rows) and along its columns (a row laid
                  down the rows);
    hT X A        the product of ahatT A with X;  zT X A W  the product of that with W;
    eluT z        the exponential linear unit as the program spells it: where z is positive z, elsewhere one times
                  (e to the (z where z is not positive, zero elsewhere)) minus one;
    refTerm X A W  eluT (zT X A W).
-/
import proofs.«146386_j59150289601064_2_alg».proof.Proof.Gen.ReferenceIdeal

noncomputable section

namespace Cert.ReferenceIdeal.RefValue

open Cert.ReferenceIdeal Cert.ReferenceIdeal.Gen Idealize.ShloMosaic

variable {F : FTy → Type} [FloatOps F]

/-- The indicator of the diagonal as the program builds it. -/
def eyeT : FVec F S8192x8192 .f32 :=
  uitofp .f32
    (cmpi .eq
      (addi (iotaInDim S8192x8192 32 0) (broadcastInDim S8192x8192 ![] bcast_S_S8192x8192 (constantI S_ 32 0#32)))
      (iotaInDim S8192x8192 32 1))

/-- The adjacency array with the self loops added. -/
def aT (A : FVec F S8192x8192 .f32) : FVec F S8192x8192 .f32 := addf A eyeT

/-- The degrees: the row sums, from an initial value zero. -/
def degT (A : FVec F S8192x8192 .f32) : FVec F S8192 .f32 :=
  Host.reduceAdd (aT A) (constant S_ .f32 0x00000000#32) reducesTo_S8192x8192_S8192_d1 h_S_

/-- Their inverse square roots. -/
def dT (A : FVec F S8192x8192 .f32) : FVec F S8192 .f32 := Host.rsqrt (degT A)

/-- The normalised array: scaled along the rows, then along the columns. -/
def ahatT (A : FVec F S8192x8192 .f32) : FVec F S8192x8192 .f32 :=
  mulf
    (mulf (aT A)
      (broadcastInDim S8192x8192 ![0, 1] bcast_S8192x1_S8192x8192_0_1 (broadcastInDim S8192x1 ![0] bcast_S8192_S8192x1_0 (dT A))))
    (broadcastInDim S8192x8192 ![0, 1] bcast_S1x8192_S8192x8192_0_1 (broadcastInDim S1x8192 ![1] bcast_S8192_S1x8192_1 (dT A)))

/-- The aggregate. -/
def hT (X : FVec F S8192x256 .f32) (A : FVec F S8192x8192 .f32) : FVec F S8192x256 .f32 :=
  Host.dotGeneral dot_S8192x8192_S8192x256_S8192x256_1_0_0_1_n_n none (ahatT A) X

/-- The logits. -/
def zT (X : FVec F S8192x256 .f32) (A : FVec F S8192x8192 .f32) (W : FVec F S256x256 .f32) : FVec F S8192x256 .f32 :=
  Host.dotGeneral dot_S8192x256_S256x256_S8192x256_1_0_0_1_n_n none (hT X A) W

/-- The exponential linear unit as the program spells it. -/
def eluT (z : FVec F S8192x256 .f32) : FVec F S8192x256 .f32 :=
  select (cmpf .ogt z (broadcastInDim S8192x256 ![] bcast_S_S8192x256 (constant S_ .f32 0x00000000#32)))
    z
    (mulf (broadcastInDim S8192x256 ![] bcast_S_S8192x256 (constant S_ .f32 0x3F800000#32))
      (Host.expm1
        (select (cmpf .ogt z (broadcastInDim S8192x256 ![] bcast_S_S8192x256 (constant S_ .f32 0x00000000#32)))
          (broadcastInDim S8192x256 ![] bcast_S_S8192x256 (id (constant S_ .f32 0x00000000#32)))
          z)))

/-- The program's result as one term of its arguments. -/
def refTerm (X : FVec F S8192x256 .f32) (A : FVec F S8192x8192 .f32) (W : FVec F S256x256 .f32) : FVec F S8192x256 .f32 :=
  eluT (zT X A W)

end Cert.ReferenceIdeal.RefValue

end
-- ==== Proof.RefReadOps.lean ====
/-
  The reference program as a list of its thirty-four host operations, and its run read back.

  The program's main function is a straight line of nineteen operations followed by one call of the exponential linear
  unit's function, which itself calls the two selection functions; a call means the callee's body run on the operands,
  each value of the body in a buffer of its own. Listed in order, the calls unfolded: the nineteen operations, then the
  unit's seven (the zero, its broadcast, the comparison, and the same three again, then a third zero), the first
  selection's three (the zero converted to its own type, broadcast, the selection), the unit's four more (the exponential
  minus one, the one, its broadcast, the product), and the second selection's one.

  * `main_eq`: the main function is the sequence of that list.
  * `run_main`: every weakly fair execution terminates, each buffer at the list's fold over the launch contents.
  * `out_eq`: the fold at the result buffer is `refTerm` of the three arguments' contents; `arg0_eq` … `arg2_eq`: the
    arguments' buffers are as they were.
-/
import proofs.«146386_j59150289601064_2_alg».proof.Proof.RefReadTerm
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The program's thirty-four operations, in order, the calls unfolded. -/
abbrev ops : List (HloOp τ sig (Elt F)) :=
  [ nullary main_v0 (iotaInDim S8192x8192 32 0),
    nullary main_v1 (iotaInDim S8192x8192 32 1),
    nullary main_c (constantI S_ 32 0#32),
    unary main_c main_v2 (broadcastInDim S8192x8192 ![] bcast_S_S8192x8192 : (⟨S_, .i32⟩ : BufTy).Contents (Elt F) → (⟨S8192x8192, .i32⟩ : BufTy).Contents (Elt F)),
    binary main_v0 main_v2 main_v3 (addi : (⟨S8192x8192, .i32⟩ : BufTy).Contents (Elt F) → (⟨S8192x8192, .i32⟩ : BufTy).Contents (Elt F) → (⟨S8192x8192, .i32⟩ : BufTy).Contents (Elt F)),
    binary main_v3 main_v1 main_v4 (cmpi .eq : (⟨S8192x8192, .i32⟩ : BufTy).Contents (Elt F) → (⟨S8192x8192, .i32⟩ : BufTy).Contents (Elt F) → (⟨S8192x8192, .i1⟩ : BufTy).Contents (Elt F)),
    unary main_v4 main_v5 (uitofp .f32 : (⟨S8192x8192, .i1⟩ : BufTy).Contents (Elt F) → (⟨S8192x8192, .f32⟩ : BufTy).Contents (Elt F)),
    binary main_arg1 main_v5 main_v6 (addf : (⟨S8192x8192, .f32⟩ : BufTy).Contents (Elt F) → (⟨S8192x8192, .f32⟩ : BufTy).Contents (Elt F) → (⟨S8192x8192, .f32⟩ : BufTy).Contents (Elt F)),
    nullary main_cst (constant S_ .f32 0x00000000#32),
    binary main_v6 main_cst main_v7 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    unary main_v7 main_v8 (Host.rsqrt : (⟨S8192, .f32⟩ : BufTy).Contents (Elt F) → (⟨S8192, .f32⟩ : BufTy).Contents (Elt F)),
    unary main_v8 main_v9 (broadcastInDim S8192x1 ![0] bcast_S8192_S8192x1_0 : (⟨S8192, .f32⟩ : BufTy).Contents (Elt F) → (⟨S8192x1, .f32⟩ : BufTy).Contents (Elt F)),
    unary main_v9 main_v10 (broadcastInDim S8192x8192 ![0, 1] bcast_S8192x1_S8192x8192_0_1 : (⟨S8192x1, .f32⟩ : BufTy).Contents (Elt F) → (⟨S8192x8192, .f32⟩ : BufTy).Contents (Elt F)),
    binary main_v6 main_v10 main_v11 (mulf : (⟨S8192x8192, .f32⟩ : BufTy).Contents (Elt F) → (⟨S8192x8192, .f32⟩ : BufTy).Contents (Elt F) → (⟨S8192x8192, .f32⟩ : BufTy).Contents (Elt F)),
    unary main_v8 main_v12 (broadcastInDim S1x8192 ![1] bcast_S8192_S1x8192_1 : (⟨S8192, .f32⟩ : BufTy).Contents (Elt F) → (⟨S1x8192, .f32⟩ : BufTy).Contents (Elt F)),
    unary main_v12 main_v13 (broadcastInDim S8192x8192 ![0, 1] bcast_S1x8192_S8192x8192_0_1 : (⟨S1x8192, .f32⟩ : BufTy).Contents (Elt F) → (⟨S8192x8192, .f32⟩ : BufTy).Contents (Elt F)),
    binary main_v11 main_v13 main_v14 (mulf : (⟨S8192x8192, .f32⟩ : BufTy).Contents (Elt F) → (⟨S8192x8192, .f32⟩ : BufTy).Contents (Elt F) → (⟨S8192x8192, .f32⟩ : BufTy).Contents (Elt F)),
    binary main_v14 main_arg0 main_v15 ((fun l r => Host.dotGeneral dot_S8192x8192_S8192x256_S8192x256_1_0_0_1_n_n none l r) : (⟨S8192x8192, .f32⟩ : BufTy).Contents (Elt F) → (⟨S8192x256, .f32⟩ : BufTy).Contents (Elt F) → (⟨S8192x256, .f32⟩ : BufTy).Contents (Elt F)),
    binary main_v15 main_arg2 main_v16 ((fun l r => Host.dotGeneral dot_S8192x256_S256x256_S8192x256_1_0_0_1_n_n none l r) : (⟨S8192x256, .f32⟩ : BufTy).Contents (Elt F) → (⟨S256x256, .f32⟩ : BufTy).Contents (Elt F) → (⟨S8192x256, .f32⟩ : BufTy).Contents (Elt F)),
    TRef.nullary main_call0.cst (constant S_ .f32 0x00000000#32),
    TRef.unary main_call0.cst main_call0.v0 (broadcastInDim S8192x256 ![] bcast_S_S8192x256),
    TRef.binary (.of main_v16) main_call0.v0 main_call0.v1 (cmpf .ogt),
    TRef.nullary main_call0.cst_0 (constant S_ .f32 0x00000000#32),
    TRef.unary main_call0.cst_0 main_call0.v2 (broadcastInDim S8192x256 ![] bcast_S_S8192x256),
    TRef.binary (.of main_v16) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S8192x256 ![] bcast_S_S8192x256),
    TRef.ternary main_call0.v3 main_call0.call0.v1 (.of main_v16) main_call0.call0.v2 select,
    TRef.unary main_call0.call0.v2 main_call0.v5 Host.expm1,
    TRef.nullary main_call0.cst_2 (constant S_ .f32 0x3F800000#32),
    TRef.unary main_call0.cst_2 main_call0.v6 (broadcastInDim S8192x256 ![] bcast_S_S8192x256),
    TRef.binary main_call0.v6 main_call0.v5 main_call0.v7 mulf,
    TRef.ternary main_call0.v1 (.of main_v16) main_call0.v7 main_call0.call1.v0 select ]

-- thirty-four binds re-associated
set_option maxRecDepth 1024 in
/-- The main function is that straight line: the three functions' definitions unfolded at their calls, both sides are one
    chain of operations once sequencing is reassociated. -/
theorem main_eq (c : Dev nD) : main (F := F) c = seq ops := by
  simp only [main, fn_elu.body, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., nullary_bufs_sub .., unary_bufs_sub .., binary_bufs_sub .., binary_bufs_sub ..,
    unary_bufs_sub .., binary_bufs_sub .., nullary_bufs_sub .., binary_bufs_sub .., unary_bufs_sub .., unary_bufs_sub ..,
    unary_bufs_sub .., binary_bufs_sub .., unary_bufs_sub .., unary_bufs_sub .., binary_bufs_sub .., binary_bufs_sub ..,
    binary_bufs_sub ..,
    nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub ..,
    unary_bufs_sub .., binary_bufs_sub .., ternary_bufs_sub ..⟩

/-- From any memory with zero counters, every weakly fair execution of the main function terminates, and every final
    state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

attribute [local irreducible] Host.reduceAdd Host.rsqrt Host.expm1 broadcastInDim iotaInDim in
set_option maxRecDepth 8192 in
/-- The fold at the result buffer is `refTerm` of the arguments' contents, by computation: the fold unrolled, each
    operation's result decides whether the buffer read is the one it writes, and the typed references' transports are
    the identity at these literal references. The sums, products, broadcasts and elementwise functions are kept folded
    meanwhile: the equation never looks inside them. -/
theorem out_eq (V : Valuation τ sig (Elt F)) :
    after ops V (main_v17 : DevRef τ sig)
      = refTerm (V (main_arg0 : DevRef τ sig)) (V (main_arg1 : DevRef τ sig)) (V (main_arg2 : DevRef τ sig)) := by
  simp only [after_cons, after_nil]
  rfl

theorem arg0_eq (V : Valuation τ sig (Elt F)) :
    after ops V (main_arg0 : DevRef τ sig) = V (main_arg0 : DevRef τ sig) := by
  simp only [after_cons, after_nil]
  rfl

theorem arg1_eq (V : Valuation τ sig (Elt F)) :
    after ops V (main_arg1 : DevRef τ sig) = V (main_arg1 : DevRef τ sig) := by
  simp only [after_cons, after_nil]
  rfl

theorem arg2_eq (V : Valuation τ sig (Elt F)) :
    after ops V (main_arg2 : DevRef τ sig) = V (main_arg2 : DevRef τ sig) := by
  simp only [after_cons, after_nil]
  rfl

end Cert.ReferenceIdeal.RefValue

end
-- ==== Proof.LibGraphConv.lean ====
/-
  General lemmas for graph-convolution layers, read at the exact (extended-real) instance, one entry at a time.
  A layer's value at node p, feature j is  max (agg (p, j) + d p · h (p, j) + b j) 0 : the neighbours' weighted sum,
  plus the node's own row weighted by its self-loop coefficient, plus the bias, cut at zero.

  * `hostMM_apply`: the host's product of an [M, K] by a [K, N] array, at (p, j), is the plain sum over k.
  * `hostCol_apply`: an [a, 1] column laid along the rows by the host reads, at (p, j), the column at p.
  * `hostDense_apply`: the host's product plus a [1, N] bias row laid down the rows.
  * `hostConv_apply`: the layer as a host program spells it (host broadcasts, maximum with the zero scalar broadcast).
  * `bodyConv_apply`: the layer as a kernel body spells it (identity recasts, vector broadcasts, maximum with a zero splat).
  Both spellings read the same number, so a kernel tile and the host's whole array agree entry by entry.
-/
import Idealize.ShloMosaic.Lib.ValueIdx
import Idealize.ShloMosaic.Lib.ValueLayout
import Idealize.ShloMosaic.Lib.Pipeline.Value
import Idealize.ShloMosaic.Lib.KernelVsHost
import Idealize.ShloMosaic.PureOps.Ideal.Laws
import proofs.«146386_j59150289601064_2_alg».proof.Proof.LibPlainLayers

noncomputable section

open scoped BigOperators

namespace Cert.GraphConv

open Idealize.ShloMosaic Idealize.ShloMosaic.ValueIdx

variable {M K N : ℕ}

/-- The host's product of an [M, K] array with a [K, N] array at (p, j): the sum over k of left (p, k) times right (k, j). -/
theorem hostMM_apply {φ₁ φ₂ : FTy} (D : DotDims ⟨2, ![M, K]⟩ ⟨2, ![K, N]⟩ ⟨2, ![M, N]⟩) (hD : D = DotDims.plain M K N)
    (prec : Option ContractPrecision) (x : FVec Ideal ⟨2, ![M, K]⟩ φ₁) (w : FVec Ideal ⟨2, ![K, N]⟩ φ₂) (p : Fin M) (j : Fin N) :
    Host.dotGeneral D prec x w (ix2 p j) = ∑ k : Fin K, x (ix2 p k) * w (ix2 k j) := by
  rw [← matmul_zero_eq_dotGeneral]
  exact Cert.PlainLayers.plainMM_of_eq D hD prec x w p j

/-- An [a, 1] column laid along the rows of an [a, b] array by the host reads, at (p, j), the column's entry of row p. -/
theorem hostCol_apply {α : Type} {a b : ℕ} (h : (⟨2, ![a, 1]⟩ : Shape).BroadcastsInDim ⟨2, ![a, b]⟩ ![0, 1])
    (v : (⟨2, ![a, 1]⟩ : Shape).Idx → α) (p : Fin a) (j : Fin b) :
    broadcastInDim ⟨2, ![a, b]⟩ ![0, 1] h v (ix2 p j) = v (ix2 p (0 : Fin 1)) := by
  refine broadcastInDim_apply ![0, 1] h v (ix2 p j) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else j.val
    rw [if_pos rfl]

/-- The host's product plus a [1, N] bias row laid down the rows, at (p, j). -/
theorem hostDense_apply (D : DotDims ⟨2, ![M, K]⟩ ⟨2, ![K, N]⟩ ⟨2, ![M, N]⟩) (hD : D = DotDims.plain M K N)
    (prec : Option ContractPrecision) (x : FVec Ideal ⟨2, ![M, K]⟩ .f32) (w : FVec Ideal ⟨2, ![K, N]⟩ .f32)
    (b : FVec Ideal ⟨2, ![1, N]⟩ .f32) (hb : (⟨2, ![1, N]⟩ : Shape).BroadcastsInDim ⟨2, ![M, N]⟩ ![0, 1]) (p : Fin M) (j : Fin N) :
    addf (Host.dotGeneral D prec x w) (broadcastInDim ⟨2, ![M, N]⟩ ![0, 1] hb b) (ix2 p j)
      = (∑ k : Fin K, x (ix2 p k) * w (ix2 k j)) + b (ix2 (0 : Fin 1) j) :=
  congrArg₂ (· + ·) (hostMM_apply D hD prec x w p j) (broadcastInDim_oneRow_apply hb b p j)

/-- The layer as a host program spells it, at (p, j). -/
theorem hostConv_apply {a b : ℕ} {s0 : Shape} (hd : (⟨2, ![a, 1]⟩ : Shape).BroadcastsInDim ⟨2, ![a, b]⟩ ![0, 1])
    (hb : (⟨2, ![1, b]⟩ : Shape).BroadcastsInDim ⟨2, ![a, b]⟩ ![0, 1])
    (dz : Fin s0.rank → Fin (⟨2, ![a, b]⟩ : Shape).rank) (hz : s0.BroadcastsInDim ⟨2, ![a, b]⟩ dz)
    (h agg : FVec Ideal ⟨2, ![a, b]⟩ .f32) (d : FVec Ideal ⟨2, ![a, 1]⟩ .f32) (bias : FVec Ideal ⟨2, ![1, b]⟩ .f32)
    (p : Fin a) (j : Fin b) :
    maximumf (addf (addf agg (mulf (broadcastInDim ⟨2, ![a, b]⟩ ![0, 1] hd d) h)) (broadcastInDim ⟨2, ![a, b]⟩ ![0, 1] hb bias))
        (broadcastInDim ⟨2, ![a, b]⟩ dz hz (constant s0 .f32 0x00000000#32)) (ix2 p j)
      = max ((agg (ix2 p j) + d (ix2 p (0 : Fin 1)) * h (ix2 p j)) + bias (ix2 (0 : Fin 1) j)) 0 :=
  congrArg₂ max
    (congrArg₂ (· + ·) (congrArg (agg (ix2 p j) + ·) (congrArg (· * h (ix2 p j)) (hostCol_apply hd d p j)))
      (broadcastInDim_oneRow_apply hb bias p j))
    Ideal.ofBits_zero_f32

/-- The layer as a kernel body spells it on one tile, at (p, j): the recasts are of a shape to itself. -/
theorem bodyConv_apply {a b : ℕ} (ca : (⟨2, ![a, b]⟩ : Shape).ShapeCasts ⟨2, ![a, b]⟩)
    (cd : (⟨2, ![a, 1]⟩ : Shape).ShapeCasts ⟨2, ![a, 1]⟩) (cb : (⟨2, ![1, b]⟩ : Shape).ShapeCasts ⟨2, ![1, b]⟩)
    (hd : (⟨2, ![a, 1]⟩ : Shape).Broadcasts ⟨2, ![a, b]⟩) (hb : (⟨2, ![1, b]⟩ : Shape).Broadcasts ⟨2, ![a, b]⟩)
    (h agg : FVec Ideal ⟨2, ![a, b]⟩ .f32) (d : FVec Ideal ⟨2, ![a, 1]⟩ .f32) (bias : FVec Ideal ⟨2, ![1, b]⟩ .f32)
    (p : Fin a) (j : Fin b) :
    maximumf (addf (addf (shapeCast ⟨2, ![a, b]⟩ agg ca)
          (mulf (broadcastTo ⟨2, ![a, b]⟩ (shapeCast ⟨2, ![a, 1]⟩ d cd) hd) (shapeCast ⟨2, ![a, b]⟩ h ca)))
        (broadcastTo ⟨2, ![a, b]⟩ (shapeCast ⟨2, ![1, b]⟩ bias cb) hb))
        (broadcast ⟨2, ![a, b]⟩ (Scalar.ofBits (F := Ideal) .f32 0x00000000#32)) (ix2 p j)
      = max ((agg (ix2 p j) + d (ix2 p (0 : Fin 1)) * h (ix2 p j)) + bias (ix2 (0 : Fin 1) j)) 0 :=
  congrArg₂ max
    (congrArg₂ (· + ·)
      (congrArg₂ (· + ·) (congrFun (shapeCast_self agg ca) _)
        (congrArg₂ (· * ·) ((Cert.Columns.broadcastTo_a1_ab_apply _ hd p j).trans (congrFun (shapeCast_self d cd) _))
          (congrFun (shapeCast_self h ca) _)))
      ((broadcastTo_1b_ab_apply _ hb p j).trans (congrFun (shapeCast_self bias cb) _)))
    Ideal.ofBits_zero_f32

end Cert.GraphConv

end
-- ==== Proof.RefRead.lean ====
/-
  The reference program's result term, read entry by entry: it is the specification's arrangement that adds the self
  loops to the matrix first.

  Stage by stage, at explicit row and column numbers:
  * `eyeT_apply`: the program's indicator of the diagonal — the row number (plus a zero word) compared as a 32-bit word
    with the column number, the one-bit answer converted to a float — is 1 on the diagonal and 0 off it: both numbers are
    below 8192, so their words are equal exactly when the numbers are, and a one-bit word converts to its number.
  * `degT_apply`: a row's degree is the sum over the row of the entry plus the indicator (the initial value is zero).
  * `dT_apply`: its inverse square root is the specification's.
  * `colB_apply` / `rowB_apply`: a vector laid along the rows through a column, or down the rows through a row, reads
    the vector at the row number, or at the column number.
  * `ahatT_apply`: the normalised matrix at (i, j) is (a (i, j) + [i = j]) · d i · d j.
  * `hT_apply`, `zT_apply`: the two products are the plain sums over the contracted index.
  * `eluT_apply`: the exponential linear unit as spelt, at one entry (the two float words are 0 and 1).
  * `refTerm_eq`: the whole term is the specification's array.
-/
import proofs.«146386_j59150289601064_2_alg».proof.Proof.RefReadTerm
import proofs.«146386_j59150289601064_2_alg».proof.Proof.Spec
import proofs.«146386_j59150289601064_2_alg».proof.Proof.LibGraphConv
import Idealize.ShloMosaic.Lib.IdealHost
import Idealize.ShloMosaic.Lib.KernelVsHost

noncomputable section

open scoped BigOperators

namespace Cert.ReferenceIdeal.RefValue

open Cert.ReferenceIdeal Cert.ReferenceIdeal.Gen Idealize.ShloMosaic Idealize.ShloMosaic.ValueIdx

/-! ## The indicator of the diagonal -/

/-- Two numbers below 8192, the first with a zero word added, are equal as 32-bit words exactly when they are equal. -/
theorem word_beq (i j : Fin 8192) :
    (IntOp.addi (BitVec.ofNat 32 i.val) 0#32 == BitVec.ofNat 32 j.val) = decide (i = j) := by
  have hi : i.val < 2 ^ 32 := lt_trans i.isLt (by norm_num)
  have hj : j.val < 2 ^ 32 := lt_trans j.isLt (by norm_num)
  unfold IntOp.addi
  rw [BitVec.add_zero]
  by_cases h : i = j
  · subst h
    rw [decide_eq_true rfl]
    exact beq_self_eq_true _
  · rw [decide_eq_false h]
    refine beq_eq_false_iff_ne.mpr fun e => h (Fin.ext ?_)
    have e' := congrArg BitVec.toNat e
    rwa [BitVec.toNat_ofNat, BitVec.toNat_ofNat, Nat.mod_eq_of_lt hi, Nat.mod_eq_of_lt hj] at e'

/-- The program's indicator at (i, j) is the specification's. -/
theorem eyeT_apply (i j : Fin 8192) : eyeT (F := Ideal) (ix2 i j) = Cert.Spec.eye i j := by
  show FloatOps.uitofp (F := Ideal) .f32
      (BitVec.ofBool (IntOp.addi (BitVec.ofNat 32 i.val) 0#32 == BitVec.ofNat 32 j.val)) = _
  rw [word_beq]
  unfold Cert.Spec.eye
  by_cases h : i = j
  · rw [decide_eq_true h, if_pos h]
    show ((((1#1 : BitVec 1).toNat : ℕ) : ℝ) : EReal) = 1
    norm_num
  · rw [decide_eq_false h, if_neg h]
    show ((((0#1 : BitVec 1).toNat : ℕ) : ℝ) : EReal) = 0
    norm_num

/-- The matrix with the self loops at (i, j). -/
theorem aT_apply (A : FVec Ideal S8192x8192 .f32) (i j : Fin 8192) :
    aT A (ix2 i j) = A (ix2 i j) + Cert.Spec.eye i j :=
  congrArg (A (ix2 i j) + ·) (eyeT_apply i j)

/-! ## The degrees and their inverse square roots -/

/-- A row's degree: the sum over the row of the entry plus the indicator. -/
theorem degT_apply (A : FVec Ideal S8192x8192 .f32) (i : Fin 8192) :
    degT A (ix1 i) = ∑ j : Fin 8192, (A (ix2 i j) + Cert.Spec.eye i j) := by
  have h : S8192x8192.Reduces [1] S8192 := by decide
  refine (Ideal.hostReduceAdd_single reducesTo_S8192x8192_S8192_d1 h (aT A) (Ideal.ofBits .f32 0x00000000#32) (ix1 i)).trans ?_
  rw [Ideal.ofBits_zero_f32, zero_add]
  refine Finset.sum_congr rfl fun k _ => ?_
  have e : h.lift (ix1 i) k = ix2 i k := funext fun c => Fin.ext (by
    rw [h.lift_val]
    match c with
    | ⟨0, _⟩ => rfl
    | ⟨1, _⟩ => rfl)
  rw [e]
  exact aT_apply A i k

/-- Its inverse square root is the specification's. -/
theorem dT_apply (A : FVec Ideal S8192x8192 .f32) (i : Fin 8192) :
    dT A (ix1 i) = Cert.Spec.dR (fun i j => A (ix2 i j)) i :=
  congrArg Ideal.rsqrt (degT_apply A i)

/-! ## A vector laid along the rows, or down them -/

/-- A vector as a column, laid along the rows: at (i, j) the vector at i. -/
theorem colB_apply (d : FVec Ideal S8192 .f32) (i j : Fin 8192) :
    broadcastInDim S8192x8192 ![0, 1] bcast_S8192x1_S8192x8192_0_1 (broadcastInDim S8192x1 ![0] bcast_S8192_S8192x1_0 d) (ix2 i j)
      = d (ix1 i) := by
  refine (Cert.GraphConv.hostCol_apply bcast_S8192x1_S8192x8192_0_1 _ i j).trans ?_
  refine broadcastInDim_apply ![0] bcast_S8192_S8192x1_0 d (ix2 i (0 : Fin 1)) (ix1 i) fun a => ?_
  match a with
  | ⟨0, _⟩ =>
    show i.val = if (8192 : ℕ) = 1 then 0 else i.val
    rw [if_neg (by norm_num)]

/-- A vector as a row, laid down the rows: at (i, j) the vector at j. -/
theorem rowB_apply (d : FVec Ideal S8192 .f32) (i j : Fin 8192) :
    broadcastInDim S8192x8192 ![0, 1] bcast_S1x8192_S8192x8192_0_1 (broadcastInDim S1x8192 ![1] bcast_S8192_S1x8192_1 d) (ix2 i j)
      = d (ix1 j) := by
  refine (broadcastInDim_oneRow_apply bcast_S1x8192_S8192x8192_0_1 _ i j).trans ?_
  refine broadcastInDim_apply ![1] bcast_S8192_S1x8192_1 d (ix2 (0 : Fin 1) j) (ix1 j) fun a => ?_
  match a with
  | ⟨0, _⟩ =>
    show j.val = if (8192 : ℕ) = 1 then 0 else j.val
    rw [if_neg (by norm_num)]

/-! ## The normalised matrix and the two products -/

/-- The normalised matrix at (i, j). -/
theorem ahatT_apply (A : FVec Ideal S8192x8192 .f32) (i j : Fin 8192) :
    ahatT A (ix2 i j)
      = (A (ix2 i j) + Cert.Spec.eye i j) * Cert.Spec.dR (fun i j => A (ix2 i j)) i * Cert.Spec.dR (fun i j => A (ix2 i j)) j :=
  congrArg₂ (· * ·)
    (congrArg₂ (· * ·) (aT_apply A i j) ((colB_apply (dT A) i j).trans (dT_apply A i)))
    ((rowB_apply (dT A) i j).trans (dT_apply A j))

/-- The aggregate at (i, c) is the specification's. -/
theorem hT_apply (X : FVec Ideal S8192x256 .f32) (A : FVec Ideal S8192x8192 .f32) (i : Fin 8192) (c : Fin 256) :
    hT X A (ix2 i c) = Cert.Spec.hR (fun i c => X (ix2 i c)) (fun i j => A (ix2 i j)) i c := by
  refine (Cert.GraphConv.hostMM_apply dot_S8192x8192_S8192x256_S8192x256_1_0_0_1_n_n rfl none (ahatT A) X i c).trans ?_
  exact Finset.sum_congr rfl fun j _ => congrArg (· * X (ix2 j c)) (ahatT_apply A i j)

/-- The logits at (i, o) are the specification's. -/
theorem zT_apply (X : FVec Ideal S8192x256 .f32) (A : FVec Ideal S8192x8192 .f32) (W : FVec Ideal S256x256 .f32)
    (i : Fin 8192) (o : Fin 256) :
    zT X A W (ix2 i o)
      = Cert.Spec.zR (fun i c => X (ix2 i c)) (fun i j => A (ix2 i j)) (fun c o => W (ix2 c o)) i o := by
  refine (Cert.GraphConv.hostMM_apply dot_S8192x256_S256x256_S8192x256_1_0_0_1_n_n rfl none (hT X A) W i o).trans ?_
  exact Finset.sum_congr rfl fun c _ => congrArg (· * W (ix2 c o)) (hT_apply X A i c)

/-! ## The exponential linear unit -/

/-- The unit as the program spells it, at one entry: the two float words are 0 and 1. -/
theorem eluT_apply (z : FVec Ideal S8192x256 .f32) (i : Fin 8192) (o : Fin 256) :
    eluT z (ix2 i o) = Cert.Spec.eluR (z (ix2 i o)) := by
  show Scalar.select (Ideal.cmp .ogt (z (ix2 i o)) (Ideal.ofBits .f32 0x00000000#32)) (z (ix2 i o))
      (Ideal.ofBits .f32 0x3F800000#32
        * (Ideal.exp (Scalar.select (Ideal.cmp .ogt (z (ix2 i o)) (Ideal.ofBits .f32 0x00000000#32))
            (Ideal.ofBits .f32 0x00000000#32) (z (ix2 i o))) - 1)) = _
  rw [Ideal.ofBits_zero_f32, Ideal.ofBits_one_f32]
  rfl

/-! ## The whole term -/

/-- The program's result term is the specification's array. -/
theorem refTerm_eq (X : FVec Ideal S8192x256 .f32) (A : FVec Ideal S8192x8192 .f32) (W : FVec Ideal S256x256 .f32) :
    refTerm X A W = Cert.Spec.refArr X A W := by
  funext idx
  obtain ⟨i, o, rfl⟩ : ∃ (i : Fin 8192) (o : Fin 256), idx = ix2 i o := ⟨idx 0, idx 1, eq_ix2 idx⟩
  show eluT (zT X A W) (ix2 i o)
    = Cert.Spec.eluR (Cert.Spec.zR (fun i c => X (ix2 i c)) (fun i j => A (ix2 i j)) (fun c o => W (ix2 c o)) i o)
  rw [eluT_apply]
  exact congrArg Cert.Spec.eluR (zT_apply X A W i o)

end Cert.ReferenceIdeal.RefValue

end
-- ==== Proof.RefRun.lean ====
/-
  The reference program's run: from any memory (every counter zero) every weakly fair execution of its main function
  terminates, nothing faulting, with the result buffer at the specification's array of the three argument arrays — the
  arrangement that adds the self loops to the adjacency matrix first — and the three argument buffers as they were.

  Two steps. The run of the operation list leaves every buffer at the list's fold over the launch contents (`run_main`);
  at the result buffer that fold is the program's result term of the arguments (`out_eq`), and that term is, entry by
  entry, the specification's array (`refTerm_eq`). The frame statement is the run with the result dropped.
-/
import proofs.«146386_j59150289601064_2_alg».proof.Defs
import proofs.«146386_j59150289601064_2_alg».proof.Proof.Gen.Pre_finite_inputs
import proofs.«146386_j59150289601064_2_alg».proof.Proof.RefReadOps
import proofs.«146386_j59150289601064_2_alg».proof.Proof.RefRead

noncomputable section

namespace Cert.ReferenceIdeal.RefValue

open Cert.ReferenceIdeal Cert.ReferenceIdeal.Gen Idealize.ShloMosaic Idealize.ShloMosaic.TcCoe Idealize.SL.Sem Idealize.ShloMosaic.StableHlo

/-- On every device, from any memory with zero counters: every weakly fair execution of the main function terminates
    with the result buffer at the specification's array of the arguments' launch contents, the arguments unchanged. -/
theorem run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v17)
            = Cert.Spec.refArr (m ((c.tc : Thread Cert.ReferenceIdeal.nD Cert.ReferenceIdeal.τ).loc Cert.ReferenceIdeal.main_arg0))
                (m ((c.tc : Thread Cert.ReferenceIdeal.nD Cert.ReferenceIdeal.τ).loc Cert.ReferenceIdeal.main_arg1))
                (m ((c.tc : Thread Cert.ReferenceIdeal.nD Cert.ReferenceIdeal.τ).loc Cert.ReferenceIdeal.main_arg2))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)) :=
  (θ_run defs _ _).mono (fun _ h c =>
      ⟨((h c main_v17).trans (out_eq (launchContents m c))).trans (refTerm_eq _ _ _),
        (h c main_arg0).trans (arg0_eq (launchContents m c)),
        (h c main_arg1).trans (arg1_eq (launchContents m c)),
        (h c main_arg2).trans (arg2_eq (launchContents m c))⟩)
    (run_main (F := Ideal) m ρ)

/-- The program runs and its argument arrays end unchanged: the run with the result dropped. -/
theorem frame_ri : Cert.frame_ReferenceIdeal := fun m ρ _ =>
  (θ_run Cert.ReferenceIdeal.defs _ _).mono (fun _ h c => (h c).2) (run m ρ)

end Cert.ReferenceIdeal.RefValue

end
-- ==== Proof.Algebra.lean ====
/-
  The algebra: the two arrangements of the graph-convolution layer agree.

  With every entry of x and a a real number and every degree  (sum over j of a(i,j)) + 1  positive, the
  two inverse square roots of the degree are one and the same real number d i, and the two aggregates are
  the two sides of the real identity

    (sum_j a(i,j) * (x(j,c) * d j) + x(i,c) * d i) * d i  =  sum_j ((a(i,j) + [i = j]) * d i * d j) * x(j,c),

  which holds because the sum over j of the [i = j] terms keeps the single term j = i.  The logits and the
  result are the same functions of the aggregate on both sides; the two spellings of the exponential linear
  unit agree at every extended real (for z not above zero, min z 0 is z, and 1 * y is y).
-/
import proofs.«146386_j59150289601064_2_alg».proof.Proof.Spec

noncomputable section

namespace Cert.Spec

open Idealize.ShloMosaic Idealize.ShloMosaic.ValueIdx

/-! ### The two spellings of the exponential linear unit -/

theorem eluK_eq_eluR (z : EReal) : eluK z = eluR z := by
  unfold eluK eluR Scalar.select Ideal.cmp
  by_cases h : (0 : EReal) < z
  · simp [h]
  · have hz : min z 0 = z := min_eq_left (not_lt.1 h)
    simp [h, hz]

/-! ### Real sums and their coercion -/

/-- The coercion of the reals into the extended reals commutes with finite sums. -/
theorem coe_finset_sum {α : Type*} (s : Finset α) (f : α → ℝ) :
    ((∑ j ∈ s, f j : ℝ) : EReal) = ∑ j ∈ s, (f j : EReal) := by
  induction s using Finset.cons_induction with
  | empty => simp
  | cons a s ha ih => rw [Finset.sum_cons, Finset.sum_cons, EReal.coe_add, ih]

section Real

variable {ι : Type*} [Fintype ι] [DecidableEq ι]

/-- The degree: adding the diagonal indicator entry by entry adds one to the row sum. -/
theorem real_deg (a : ι → ι → ℝ) (i : ι) :
    ∑ j, (a i j + if i = j then (1 : ℝ) else 0) = (∑ j, a i j) + 1 := by
  rw [Finset.sum_add_distrib, Finset.sum_ite_eq, if_pos (Finset.mem_univ i)]

/-- The aggregate: the self loop as a separate term against the self loop inside the matrix. -/
theorem real_agg (a : ι → ι → ℝ) (x d : ι → ℝ) (i : ι) :
    ((∑ j, a i j * (x j * d j)) + x i * d i) * d i
      = ∑ j, ((a i j + if i = j then (1 : ℝ) else 0) * d i * d j) * x j := by
  have h : ∀ j, ((a i j + if i = j then (1 : ℝ) else 0) * d i * d j) * x j
      = (a i j * (x j * d j)) * d i + (if i = j then x j * d j * d i else 0) := by
    intro j
    split_ifs <;> ring
  rw [Finset.sum_congr rfl (fun j _ => h j), Finset.sum_add_distrib, Finset.sum_ite_eq,
    if_pos (Finset.mem_univ i), ← Finset.sum_mul]
  ring

end Real

/-! ### The two arrangements on real arrays -/

section Arrays

variable (xr : Fin 8192 → Fin 256 → ℝ) (ar : Fin 8192 → Fin 8192 → ℝ)

/-- The common real value of the two inverse square roots. -/
def dReal (i : Fin 8192) : ℝ := (Real.sqrt ((∑ j, ar i j) + 1))⁻¹

theorem eye_coe (i j : Fin 8192) : eye i j = ((if i = j then (1 : ℝ) else 0 : ℝ) : EReal) := by
  unfold eye
  split_ifs
  · exact EReal.coe_one.symm
  · exact EReal.coe_zero.symm

theorem degK_coe (i : Fin 8192) :
    (∑ j, (ar i j : EReal)) + 1 = (((∑ j, ar i j) + 1 : ℝ) : EReal) := by
  rw [EReal.coe_add, coe_finset_sum, EReal.coe_one]

theorem degR_coe (i : Fin 8192) :
    ∑ j, ((ar i j : EReal) + eye i j) = (((∑ j, ar i j) + 1 : ℝ) : EReal) := by
  rw [← real_deg ar i, coe_finset_sum]
  refine Finset.sum_congr rfl (fun j _ => ?_)
  rw [eye_coe, EReal.coe_add]

theorem rsqrt_pos_coe {r : ℝ} (hr : 0 < r) : Ideal.rsqrt (r : EReal) = (((Real.sqrt r)⁻¹ : ℝ) : EReal) := by
  rw [Ideal.rsqrt_coe, if_neg (not_lt.2 hr.le), if_neg hr.ne']

variable (hpos : ∀ i, 0 < (∑ j, ar i j) + 1)
include hpos

theorem dK_coe (i : Fin 8192) : dK (fun i j => (ar i j : EReal)) i = (dReal ar i : EReal) := by
  unfold dK dReal
  rw [degK_coe ar i, rsqrt_pos_coe (hpos i)]

theorem dR_coe (i : Fin 8192) : dR (fun i j => (ar i j : EReal)) i = (dReal ar i : EReal) := by
  unfold dR dReal
  rw [degR_coe ar i, rsqrt_pos_coe (hpos i)]

theorem hK_eq_hR (i : Fin 8192) (c : Fin 256) :
    hK (fun i c => (xr i c : EReal)) (fun i j => (ar i j : EReal)) i c
      = hR (fun i c => (xr i c : EReal)) (fun i j => (ar i j : EReal)) i c := by
  unfold hK hR
  simp only [dK_coe ar hpos, dR_coe ar hpos, eye_coe, ← EReal.coe_mul, ← EReal.coe_add,
    ← coe_finset_sum]
  rw [real_agg ar (fun j => xr j c) (dReal ar) i]

end Arrays

/-! ### The statement on the arrays -/

theorem KerG_eq_RefG (x : Fin 8192 → Fin 256 → EReal) (a : Fin 8192 → Fin 8192 → EReal)
    (w : Fin 256 → Fin 256 → EReal)
    (hx : ∀ i c, ∃ r : ℝ, x i c = (r : EReal)) (ha : ∀ i j, ∃ r : ℝ, a i j = (r : EReal))
    (hdeg : ∀ i, (0 : EReal) < ∑ j, (a i j + eye i j)) (i : Fin 8192) (o : Fin 256) :
    KerG x a w i o = RefG x a w i o := by
  choose xr hxr using hx
  choose ar har using ha
  obtain rfl : x = fun i c => (xr i c : EReal) := funext fun i => funext fun c => hxr i c
  obtain rfl : a = fun i j => (ar i j : EReal) := funext fun i => funext fun j => har i j
  have hpos : ∀ i, 0 < (∑ j, ar i j) + 1 := by
    intro i
    have h := hdeg i
    rw [degR_coe ar i] at h
    exact_mod_cast h
  have hh : hK (fun i c => (xr i c : EReal)) (fun i j => (ar i j : EReal))
      = hR (fun i c => (xr i c : EReal)) (fun i j => (ar i j : EReal)) :=
    funext fun i => funext fun c => hK_eq_hR xr ar hpos i c
  unfold KerG RefG zK zR
  rw [hh, eluK_eq_eluR]

theorem kerArr_eq_refArr {X : SX.Idx → EReal} {A : SA.Idx → EReal} {W : SW.Idx → EReal}
    (h : Good X A W) : kerArr X A W = refArr X A W := by
  funext idx
  unfold kerArr refArr
  exact KerG_eq_RefG _ _ _ h.x_real h.a_real h.deg_pos (idx 0) (idx 1)

end Cert.Spec

end
-- ==== Proof.LibRealEntries.lean ====
/-
  General lemmas for reading a "finite input" precondition on the extended reals.

  A float input's finiteness test is |x| < +∞ with |x| = max x (−x) and +∞ the float word 0x7F800000. On the extended
  reals the maximum is +∞ exactly at the two infinities, so a passing test says x is a real number.

  * `top_word`: the f32 word 0x7F800000 is the top element.
  * `real_of_abs_lt`: if the comparison max x (−x) < +∞ comes out true, x is the coercion of a real.
-/
import Idealize.ShloMosaic.PureOps.Ideal

noncomputable section

namespace Cert.RealEntries

open Idealize.ShloMosaic

/-- The float word of +∞ is the extended reals' top element. -/
theorem top_word : Ideal.ofBits .f32 0x7F800000#32 = (⊤ : EReal) := by simp [Ideal.ofBits, Ideal.ieee]

/-- An extended real whose absolute value max x (−x) is strictly below +∞ is a real number: at either infinity the
    maximum is +∞ itself. -/
theorem real_of_abs_lt (x : EReal) (h : Ideal.cmp .olt (max x (-x)) (Ideal.ofBits .f32 0x7F800000#32) = 1#1) :
    ∃ r : ℝ, x = (r : EReal) := by
  rw [top_word] at h
  have h' : max x (-x) < ⊤ := by
    by_contra hn
    simp [Ideal.cmp, hn] at h
  induction x using EReal.rec with
  | bot => simp at h'
  | coe r => exact ⟨r, rfl⟩
  | top => simp at h'

end Cert.RealEntries

end
-- ==== Proof.LibIndicator.lean ====
/-
  A one-bit word as a number, and a product by it as a choice, over the extended reals.

  Converted to a float, a one-bit word is exactly `0` or `1`: the indicator of the bit. On the extended reals `a * 1 = a` and
  `a * 0 = 0` for EVERY `a` — also `⊤` and `⊥`, where IEEE arithmetic would answer a NaN —, so multiplying by the indicator is
  choosing between `a` and zero, with no finiteness condition on `a`. This is what joins a kernel that switches entries off
  by a product with a `0`/`1` mask to a reference that switches them off by a `select` (`jnp.where(mask, a, 0)`).
  Stated for scalars (`mul_indicator`) and entry by entry for whole arrays of any shape (`mulf_uitofp_eq_select`).
-/
import Idealize.ShloMosaic.PureOps.Ideal
import Idealize.ShloMosaic.PureOps.Ideal.Laws

noncomputable section

namespace Cert.LibIndicator

open Idealize.ShloMosaic

/-- A one-bit word is `0` or `1`. -/
theorem bit_cases (b : BitVec 1) : b = 0 ∨ b = 1 := by
  revert b; decide

/-- At the ideal values the unsigned conversion of a word to a float is its number, exactly. -/
theorem uitofp_eq {w : Nat} (φ : FTy) (b : BitVec w) : FloatOps.uitofp (F := Ideal) φ b = ((b.toNat : ℝ) : EReal) := rfl

/-- Multiplying by a bit's indicator is choosing between the amount and zero (the f32 zero word): `a * 1 = a`, `a * 0 = 0` on
    all of the extended reals. -/
theorem mul_indicator (a : EReal) (b : BitVec 1) :
    a * ((b.toNat : ℝ) : EReal) = Scalar.select b a (Ideal.ofBits .f32 0x00000000#32) := by
  rcases bit_cases b with rfl | rfl
  · show a * (((0 : ℕ) : ℝ) : EReal) = if (0 : BitVec 1) = 1 then a else Ideal.ofBits .f32 0x00000000#32
    rw [if_neg (by decide), Nat.cast_zero, EReal.coe_zero, mul_zero]
    exact Ideal.ofBits_zero_f32.symm
  · show a * (((1 : ℕ) : ℝ) : EReal) = if (1 : BitVec 1) = 1 then a else Ideal.ofBits .f32 0x00000000#32
    rw [if_pos rfl, Nat.cast_one, EReal.coe_one, mul_one]

/-- For whole arrays of any shape: an f32 array times the float conversion of a one-bit mask is, entry by entry, the choice
    between the array and zero by the mask. -/
theorem mulf_uitofp_eq_select {s : Shape} (v : FVec Ideal s .f32) (c : IVec s 1) :
    mulf v (uitofp (F := Ideal) .f32 c) = select c v (fun _ => Ideal.ofBits .f32 0x00000000#32) :=
  funext fun i => mul_indicator (v i) (c i)

end Cert.LibIndicator

end
-- ==== Proof.PreGood.lean ====
/-
  The precondition read back on the extended reals.

  The precondition is a conjunction of four tests: for each of the three arrays, that every entry x satisfies
  |x| < +∞ (with |x| = max x (−x), so that the entry is a real number), and for the square matrix a, that every row
  sum of a + I is above zero, where I is the indicator of the diagonal: the comparison of the row counter with the
  column counter, a one-bit word converted to the number 0 or 1.

  * `real_of_all`: a passing test "all |x| < +∞" over an array of any shape makes every entry a real number.
  * `counter_eq`: two counters below 8192 agree as 32-bit words exactly when they agree as numbers; adding the zero
    word changes nothing.
  * `indicator_eq`: the converted comparison of the two counters is the indicator of the diagonal.
  * `row_index`: the index of a matrix over a row index, with a column coordinate put back in, is (row, column).
  * `withLoop`, `withLoop_apply`: the matrix with the indicator added, and its entry at (i, k): a(i,k) + [i = k].
  * `pos_of_cmp_ogt`: a comparison "x above zero" that comes out true says 0 < x.
  * `deg_of_all`: a passing test "every row sum of a + I is above zero" makes every such row sum positive (the host's
    row sum is the zero word plus the sum over the column coordinate).
  * `good_of_pre`: the four tests give the four facts of `Cert.Spec.Good`.
-/
import proofs.«146386_j59150289601064_2_alg».proof.Pre_finite_inputs
import proofs.«146386_j59150289601064_2_alg».proof.Proof.Spec
import proofs.«146386_j59150289601064_2_alg».proof.Proof.LibRealEntries
import proofs.«146386_j59150289601064_2_alg».proof.Proof.LibIndicator
import Idealize.ShloMosaic.Lib.ReduceAll
import Idealize.ShloMosaic.Lib.ValueIdx
import Idealize.ShloMosaic.PureOps.Ideal.Laws

noncomputable section

namespace Cert.PreGood

open Idealize.ShloMosaic Idealize.ShloMosaic.ValueIdx

/-- The shape of rank zero has one index. -/
instance scalarIdxSubsingleton : Subsingleton (⟨0, ![]⟩ : Shape).Idx := ⟨fun a b => funext fun d => d.elim0⟩

/-- A test "every |x| < +∞" that passes makes every entry a real number, whatever the array's shape. -/
theorem real_of_all {s : Shape} {axes : List (Fin s.rank)} (X : FVec Ideal s .f32)
    (hb : (⟨0, ![]⟩ : Shape).BroadcastsInDim s (![] : Fin 0 → Fin s.rank))
    (hr : s.ReducesTo axes ⟨0, ![]⟩) (hu : 0 < (⟨0, ![]⟩ : Shape).numel)
    (e : Host.reduce IntOp.andi
          (cmpf .olt (Host.absf X) (broadcastInDim s ![] hb (constant (F := Ideal) ⟨0, ![]⟩ .f32 0x7F800000#32)))
          (constantI ⟨0, ![]⟩ 1 1#1) hr hu ix0 = 1#1) (i : s.Idx) :
    ∃ r : ℝ, X i = (r : EReal) :=
  Cert.RealEntries.real_of_abs_lt (X i) (Host.reduce_andi_all _ _ hr hu ix0 e i)

/-- Two counters below 8192 agree as 32-bit words exactly when they agree as numbers. -/
theorem counter_eq (i k : Fin 8192) : BitVec.ofNat 32 i.val = BitVec.ofNat 32 k.val ↔ i = k := by
  constructor
  · intro h
    have h' := congrArg BitVec.toNat h
    simp only [BitVec.toNat_ofNat] at h'
    have hi := i.isLt
    have hk := k.isLt
    rw [Nat.mod_eq_of_lt (by omega), Nat.mod_eq_of_lt (by omega)] at h'
    exact Fin.ext h'
  · rintro rfl; rfl

/-- The comparison of the row counter (plus the zero word) with the column counter, converted to a float, is the
    indicator of the diagonal. -/
theorem indicator_eq (i k : Fin 8192) :
    FloatOps.uitofp (F := Ideal) .f32
        (IntOp.cmpi .eq (IntOp.addi (BitVec.ofNat 32 i.val) 0#32) (BitVec.ofNat 32 k.val)) = Cert.Spec.eye i k := by
  rw [Cert.LibIndicator.uitofp_eq]
  unfold Cert.Spec.eye IntOp.addi IntOp.cmpi
  rw [BitVec.add_zero]
  by_cases hik : i = k
  · subst hik; simp
  · have hne : BitVec.ofNat 32 i.val ≠ BitVec.ofNat 32 k.val := fun h => hik ((counter_eq i k).1 h)
    simp [hik, hne]

/-- Over the row index i, the matrix index with the column coordinate k put back in is (i, k). -/
theorem row_index (h : (⟨2, ![8192, 8192]⟩ : Shape).Reduces [1] ⟨1, ![8192]⟩) (i k : Fin 8192) :
    h.lift (ix1 i) k = ix2 i k := by
  funext a
  match a with
  | ⟨0, _⟩ => exact Fin.ext rfl
  | ⟨1, _⟩ => exact Fin.ext rfl

/-- The square matrix with the diagonal's indicator added, as the precondition's operations spell it: the comparison
    of the row counter plus the zero word with the column counter, converted to a float, added entry by entry. -/
def withLoop (A : FVec Ideal ⟨2, ![8192, 8192]⟩ .f32)
    (hb : (⟨0, ![]⟩ : Shape).BroadcastsInDim ⟨2, ![8192, 8192]⟩ (![] : Fin 0 → Fin 2)) :
    FVec Ideal ⟨2, ![8192, 8192]⟩ .f32 :=
  addf A (uitofp .f32 (cmpi .eq
    (addi (iotaInDim ⟨2, ![8192, 8192]⟩ 32 0) (broadcastInDim ⟨2, ![8192, 8192]⟩ ![] hb (constantI ⟨0, ![]⟩ 32 0#32)))
    (iotaInDim ⟨2, ![8192, 8192]⟩ 32 1)))

/-- At (i, k) it is the entry plus the indicator of i = k. -/
theorem withLoop_apply (A : FVec Ideal ⟨2, ![8192, 8192]⟩ .f32)
    (hb : (⟨0, ![]⟩ : Shape).BroadcastsInDim ⟨2, ![8192, 8192]⟩ (![] : Fin 0 → Fin 2)) (i k : Fin 8192) :
    withLoop A hb (ix2 i k) = A (ix2 i k) + Cert.Spec.eye i k := by
  rw [← indicator_eq i k]
  rfl

/-- A comparison "x above zero" that comes out true says 0 < x. -/
theorem pos_of_cmp_ogt (x : EReal) (h : Ideal.cmp .ogt x 0 = 1#1) : 0 < x := by
  by_contra hn
  simp [Ideal.cmp, hn] at h

/-- A test "every row sum of the matrix with the indicator added is above zero" that passes makes every such row
    sum positive. -/
theorem deg_of_all (A : FVec Ideal ⟨2, ![8192, 8192]⟩ .f32)
    (hb2 : (⟨0, ![]⟩ : Shape).BroadcastsInDim ⟨2, ![8192, 8192]⟩ (![] : Fin 0 → Fin 2))
    (hr1 : (⟨2, ![8192, 8192]⟩ : Shape).ReducesTo [1] ⟨1, ![8192]⟩)
    (hu : 0 < (⟨0, ![]⟩ : Shape).numel)
    (hb1 : (⟨0, ![]⟩ : Shape).BroadcastsInDim ⟨1, ![8192]⟩ (![] : Fin 0 → Fin 1))
    (hr0 : (⟨1, ![8192]⟩ : Shape).ReducesTo [0] ⟨0, ![]⟩)
    (e : Host.reduce IntOp.andi
          (cmpf .ogt (Host.reduceAdd (withLoop A hb2) (constant (F := Ideal) ⟨0, ![]⟩ .f32 0x00000000#32) hr1 hu)
            (broadcastInDim ⟨1, ![8192]⟩ ![] hb1 (constant (F := Ideal) ⟨0, ![]⟩ .f32 0x00000000#32)))
          (constantI ⟨0, ![]⟩ 1 1#1) hr0 hu ix0 = 1#1) (i : Fin 8192) :
    (0 : EReal) < ∑ j : Fin 8192, (A (ix2 i j) + Cert.Spec.eye i j) := by
  have hR : (⟨2, ![8192, 8192]⟩ : Shape).Reduces [1] ⟨1, ![8192]⟩ := by decide
  have h1 : Ideal.cmp .ogt
      (Ideal.hostReduceAdd hr1 (withLoop A hb2) (Ideal.ofBits .f32 0x00000000#32) (ix1 i))
      (Ideal.ofBits .f32 0x00000000#32) = 1#1 :=
    Host.reduce_andi_all _ _ hr0 hu ix0 e (ix1 i)
  rw [Ideal.hostReduceAdd_single hr1 hR, Ideal.ofBits_zero_f32, zero_add] at h1
  have h2 : (0 : EReal) < ∑ k : Fin 8192, withLoop A hb2 (hR.lift (ix1 i) k) := pos_of_cmp_ogt _ h1
  refine lt_of_lt_of_eq h2 (Finset.sum_congr rfl fun k _ => ?_)
  rw [row_index hR i k, withLoop_apply]

/-- The precondition's four tests give the four facts: every entry of the three arrays a real number, every row sum
    of the matrix with the diagonal's indicator added positive. -/
theorem good_of_pre [Cert.Pre_finite_inputs.Facts]
    (X : FVec Ideal Cert.Pre_finite_inputs.S8192x256 .f32) (A : FVec Ideal Cert.Pre_finite_inputs.S8192x8192 .f32)
    (W : FVec Ideal Cert.Pre_finite_inputs.S256x256 .f32)
    (h : Cert.Pre_finite_inputs.fn (F := Ideal) X A W = fun _ => 1#1) : Cert.Spec.Good X A W := by
  have h0 := congrFun h ix0
  dsimp only [Cert.Pre_finite_inputs.fn, Cert.Pre_finite_inputs.fn_part1] at h0
  obtain ⟨h123, h4⟩ := IntOp.andi_eq_one.1 h0
  obtain ⟨h12, h3⟩ := IntOp.andi_eq_one.1 h123
  obtain ⟨h1, h2⟩ := IntOp.andi_eq_one.1 h12
  exact ⟨fun i c => real_of_all X _ _ _ h1 (ix2 i c), fun i j => real_of_all A _ _ _ h2 (ix2 i j),
    fun c o => real_of_all W _ _ _ h3 (ix2 c o), fun i => deg_of_all A _ _ _ _ _ h4 i⟩

end Cert.PreGood

end
-- ==== Proof.lean ====
/-
  A graph-convolution layer, kernel against reference, on the extended reals.

  Both programs compute  out = elu(((A + I) scaled by d on both sides) · x · w)  with d the inverse square roots of
  the row degrees of A + I. The reference adds the identity to the matrix, normalises it entry by entry and
  multiplies. The kernel first reduces the degrees (a row sum accumulated over four column tiles, plus one, then the
  inverse square root), then accumulates over eight column tiles the products of adjacency tiles with the features
  scaled by the column factors, adds the scaled features themselves on the diagonal tile (the identity's term),
  scales by the row factor at the end, multiplies by the weights and applies the activation.

  The two agree where every input entry is a real number and every degree is positive: then every factor d is a real
  number and the identity  d_i (Σ_j a_ij (x_j d_j) + x_i d_i) = Σ_j ((a_ij + δ_ij) d_i d_j) x_j  is plain algebra. (At a
  zero degree the factor is infinite and the two arrangements differ; the precondition keeps the degrees positive, where
  the reference's inverse square root is defined.)

  The kernel's run is two pipelined regions; each is run point by point over its grid with its accumulator carried in
  the region's invariant, and the degree column — read by the second region through two windows — is owned there in two
  halves. The same run, read at the word level, gives the word-level program's frame.
-/
import proofs.«146386_j59150289601064_2_alg».proof.Defs
import proofs.«146386_j59150289601064_2_alg».proof.Proof.Gen.Kernel
import proofs.«146386_j59150289601064_2_alg».proof.Proof.Gen.KernelIdeal
import proofs.«146386_j59150289601064_2_alg».proof.Proof.Gen.ReferenceIdeal
import proofs.«146386_j59150289601064_2_alg».proof.Proof.Gen.Pre_finite_inputs
import proofs.«146386_j59150289601064_2_alg».proof.Proof.WKernelRun
import proofs.«146386_j59150289601064_2_alg».proof.Proof.KernelValue
import proofs.«146386_j59150289601064_2_alg».proof.Proof.RefRun
import proofs.«146386_j59150289601064_2_alg».proof.Proof.Algebra
import proofs.«146386_j59150289601064_2_alg».proof.Proof.PreGood
import Idealize.ShloMosaic.Adequacy
import Idealize.ShloMosaic.Init

noncomputable section

namespace Cert.Proof

open Idealize.ShloMosaic Idealize.SL.Sem

/-- The word-level program runs to the end and leaves its arguments unchanged. -/
theorem frame_p : Cert.frame_Kernel := fun m ρ _ => Cert.Kernel.Run.frame m ρ

/-- So does the idealized program. -/
theorem frame_pi : Cert.frame_KernelIdeal := fun m ρ _ => Cert.KernelIdeal.Run.frame m ρ

/-- From memories agreeing on the arguments both idealized programs end with the same result array: the kernel at
    the specification's scaled-features arrangement, the reference at the normalised-matrix arrangement, and the two
    arrangements agree under the precondition. -/
theorem algebraic : Cert.algebraic_KernelIdeal_ReferenceIdeal := by
  intro m ρ m' ρ' hpre hagree
  refine ⟨fun c => Cert.Spec.kerArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun r h c => ⟨(h c).1.trans (Cert.KernelIdeal.Run.kernel_value m ρ c), (h c).2⟩)
      (Cert.KernelIdeal.Run.run_main (F := Ideal) m ρ)
  · refine (θ_run Cert.ReferenceIdeal.defs _ _).mono (fun r h c => ⟨(h c).1.trans ?_, (h c).2⟩)
      (Cert.ReferenceIdeal.RefValue.run m' ρ')
    rw [(hagree c).1, (hagree c).2.1, (hagree c).2.2]
    exact (Cert.Spec.kerArr_eq_refArr (Cert.PreGood.good_of_pre _ _ _ (hpre c))).symm

theorem claim : Cert.Claim := ⟨Cert.Kernel.Gen.facts, Cert.KernelIdeal.Gen.facts, Cert.ReferenceIdeal.Gen.facts, Cert.Pre_finite_inputs.Gen.facts,
  frame_p, frame_pi, Cert.ReferenceIdeal.RefValue.frame_ri, trivial, algebraic⟩

end Cert.Proof

end
